-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S320000x3 : Shape := ⟨2, ![320000, 3]⟩
abbrev S6x128 : Shape := ⟨2, ![6, 128]⟩
abbrev S_ : Shape := ⟨0, ![]⟩

class Facts : Prop where
  bcast_S_S6x128 : S_.BroadcastsInDim S6x128 (![] : Fin 0 → Fin S6x128.rank)
  reducesTo_S6x128_S_d0_1 : S6x128.ReducesTo [0, 1] S_
  h_S_ : 0 < S_.numel
  bcast_S_S320000x3 : S_.BroadcastsInDim S320000x3 (![] : Fin 0 → Fin S320000x3.rank)
  reducesTo_S320000x3_S_d0_1 : S320000x3.ReducesTo [0, 1] S_

variable [Facts]

def fn_part1 {F : FTy → Type} [FloatOps F] (main_arg0 : IVec S320000x3 32) (main_v13 : IVec S_ 1) (main_v15 : IVec S320000x3 1) (main_c_5 : IVec S_ 32) : IVec S_ 1 :=
  let main_v16 : IVec S320000x3 32 := broadcastInDim S320000x3 ![] bcast_S_S320000x3 main_c_5
  let main_v17 : IVec S320000x3 1 := cmpi .sle main_arg0 main_v16
  let main_v18 : IVec S320000x3 1 := andi main_v15 main_v17
  let main_c_6 : IVec S_ 1 := constantI S_ 1 1#1
  let main_v19 : IVec S_ 1 := (fun x v => Host.reduce IntOp.andi x v reducesTo_S320000x3_S_d0_1 h_S_) main_v18 main_c_6
  let main_v20 : IVec S_ 1 := andi main_v13 main_v19
  main_v20

def fn {F : FTy → Type} [FloatOps F] (main_arg0 : IVec S320000x3 32) (main_arg1 : FVec F S6x128 .f32) (main_arg2 : FVec F S6x128 .f32) (main_arg3 : FVec F S6x128 .f32) : IVec S_ 1 :=
  let main_v0 : FVec F S6x128 .f32 := Host.absf main_arg1
  let main_cst : FVec F S_ .f32 := constant S_ .f32 0x7F800000#32
  let main_v1 : FVec F S6x128 .f32 := broadcastInDim S6x128 ![] bcast_S_S6x128 main_cst
  let main_v2 : IVec S6x128 1 := cmpf .olt main_v0 main_v1
  let main_c : IVec S_ 1 := constantI S_ 1 1#1
  let main_v3 : IVec S_ 1 := (fun x v => Host.reduce IntOp.andi x v reducesTo_S6x128_S_d0_1 h_S_) main_v2 main_c
  let main_v4 : FVec F S6x128 .f32 := Host.absf main_arg2
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S6x128 .f32 := Host.absf main_arg3
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_c_4 : IVec S_ 32 := constantI S_ 32 0#32
  let main_v14 : IVec S320000x3 32 := broadcastInDim S320000x3 ![] bcast_S_S320000x3 main_c_4
  let main_v15 : IVec S320000x3 1 := cmpi .sge main_arg0 main_v14
  let main_c_5 : IVec S_ 32 := constantI S_ 32 5#32
  fn_part1 (F := F) main_arg0 main_v13 main_v15 main_c_5
-- ==== Kernel.lean ====
abbrev S320000x3 : Shape := ⟨2, ![320000, 3]⟩
abbrev S6x128 : Shape := ⟨2, ![6, 128]⟩
abbrev S320000x1 : Shape := ⟨2, ![320000, 1]⟩
abbrev S320000 : Shape := ⟨1, ![320000]⟩
abbrev S2500x128 : Shape := ⟨2, ![2500, 128]⟩
abbrev S216x128 : Shape := ⟨2, ![216, 128]⟩
abbrev S1x128 : Shape := ⟨2, ![1, 128]⟩
abbrev S128 : Shape := ⟨1, ![128]⟩
abbrev S320000x128 : Shape := ⟨2, ![320000, 128]⟩
abbrev S9984 : Shape := ⟨1, ![9984]⟩
abbrev S128x128 : Shape := ⟨2, ![128, 128]⟩
abbrev S_ : Shape := ⟨0, ![]⟩

abbrev nBuf : Table → Nat
  | .hbm => 17
  | .local .tc .vmem => 8
  | .shared => 1
  | .local .scVector .vmem => 6
  | _ => 0

abbrev bufTy : (tb : Table) → Fin (nBuf tb) → BufTy
  | .hbm, ⟨0, _⟩ => ⟨S320000x3, .i32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S320000x1, .i32⟩
  | .hbm, ⟨5, _⟩ => ⟨S320000, .i32⟩
  | .hbm, ⟨6, _⟩ => ⟨S2500x128, .i32⟩
  | .hbm, ⟨7, _⟩ => ⟨S320000x1, .i32⟩
  | .hbm, ⟨8, _⟩ => ⟨S320000, .i32⟩
  | .hbm, ⟨9, _⟩ => ⟨S2500x128, .i32⟩
  | .hbm, ⟨10, _⟩ => ⟨S320000x1, .i32⟩
  | .hbm, ⟨11, _⟩ => ⟨S320000, .i32⟩
  | .hbm, ⟨12, _⟩ => ⟨S2500x128, .i32⟩
  | .hbm, ⟨13, _⟩ => ⟨S216x128, .f32⟩
  | .hbm, ⟨14, _⟩ => ⟨S2500x128, .i32⟩
  | .hbm, ⟨15, _⟩ => ⟨S320000, .i32⟩
  | .hbm, ⟨16, _⟩ => ⟨S320000x128, .f32⟩
  | .local .tc .vmem, ⟨0, _⟩ => ⟨S2500x128, .i32⟩
  | .local .tc .vmem, ⟨1, _⟩ => ⟨S2500x128, .i32⟩
  | .local .tc .vmem, ⟨2, _⟩ => ⟨S2500x128, .i32⟩
  | .local .tc .vmem, ⟨3, _⟩ => ⟨S6x128, .f32⟩
  | .local .tc .vmem, ⟨4, _⟩ => ⟨S6x128, .f32⟩
  | .local .tc .vmem, ⟨5, _⟩ => ⟨S6x128, .f32⟩
  | .local .tc .vmem, ⟨6, _⟩ => ⟨S216x128, .f32⟩
  | .local .tc .vmem, ⟨7, _⟩ => ⟨S2500x128, .i32⟩
  | .shared, ⟨0, _⟩ => ⟨S216x128, .f32⟩
  | .local .scVector .vmem, ⟨0, _⟩ => ⟨S9984, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S320000x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v9_0_scv : Ref sig .scVector := ⟨.hbm, 13, rfl⟩
abbrev main_v10_scv : Ref sig .scVector := ⟨.hbm, 15, rfl⟩
abbrev main_v11_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_scratch0 : Ref sig .scVector := ⟨.shared, 0, rfl⟩
abbrev cc1_scratch1 : Ref sig .scVector := ⟨.vmem, 0, rfl⟩
abbrev cc1_scratch2 : Ref sig .scVector := ⟨.vmem, 1, rfl⟩
abbrev cc1_scratch3 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S2500x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2500x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2500x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2500x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  ![v2.toNat]
@[reducible] def k1_t1_loop : Scf.Loop 32 :=
  let c0_i32_7 : BitVec 32 := 0#32
  let c19_i32 : BitVec 32 := 19#32
  let v10 : BitVec 32 := Scalar.addi c0_i32_7 c19_i32
  let c1_i32 : BitVec 32 := 1#32
  ⟨c0_i32_7, v10, c1_i32⟩
def k1_cond2 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c4_i32_30 : BitVec 32 := 4#32
  let v36 : BitVec 32 := Scalar.muli arg20 c4_i32_30
  let c0_i32_31 : BitVec 32 := 0#32
  let v37 : BitVec 32 := Scalar.addi v36 c0_i32_31
  let c2_i32_32 : BitVec 32 := 2#32
  let v38 : BitVec 1 := Scalar.cmpi .sge v37 c2_i32_32
  let v39 : BitVec 32 := Scalar.extui v38
  let c0_i32_33 : BitVec 32 := 0#32
  let v40 : BitVec 1 := Scalar.cmpi .ne v39 c0_i32_33
  v40

def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let c0_i32_7 : BitVec 32 := 0#32
  let c1_i32 : BitVec 32 := 1#32
  let arg20 : BitVec 32 := Scf.iv c0_i32_7 c1_i32 k1_t1
  let c4_i32_30 : BitVec 32 := 4#32
  let v36 : BitVec 32 := Scalar.muli arg20 c4_i32_30
  let c0_i32_31 : BitVec 32 := 0#32
  let v37 : BitVec 32 := Scalar.addi v36 c0_i32_31
  let c2_i32_85 : BitVec 32 := 2#32
  let v100 : BitVec 32 := Scalar.subi v37 c2_i32_85
  let c128_i32_86 : BitVec 32 := 128#32
  let v101 : BitVec 32 := Scalar.muli v100 c128_i32_86
  let v102 : BitVec 32 := Scalar.addi v2 v101
  let c0_i32_87 : BitVec 32 := 0#32
  ![v102.toNat, 0]
def k1_off3 (k1_t1 : Fin k1_t1_loop.trips) (c0_i32_31 : BitVec 32) : Fin 1 → Nat :=
  let c0_i32_7 : BitVec 32 := 0#32
  let c1_i32 : BitVec 32 := 1#32
  let arg20 : BitVec 32 := Scf.iv c0_i32_7 c1_i32 k1_t1
  let c4_i32_30 : BitVec 32 := 4#32
  let v36 : BitVec 32 := Scalar.muli arg20 c4_i32_30
  let v37 : BitVec 32 := Scalar.addi v36 c0_i32_31
  let c2_i32_34 : BitVec 32 := 2#32
  let v41 : BitVec 32 := Scalar.addi v37 c2_i32_34
  let c128_i32_35 : BitVec 32 := 128#32
  let v42 : BitVec 32 := Scalar.muli v41 c128_i32_35
  ![v42.toNat]
def k1_off4 (k1_t1 : Fin k1_t1_loop.trips) (c0_i32_31 : BitVec 32) : Fin 1 → Nat :=
  let c0_i32_7 : BitVec 32 := 0#32
  let c1_i32 : BitVec 32 := 1#32
  let arg20 : BitVec 32 := Scf.iv c0_i32_7 c1_i32 k1_t1
  let c4_i32_30 : BitVec 32 := 4#32
  let v36 : BitVec 32 := Scalar.muli arg20 c4_i32_30
  let v37 : BitVec 32 := Scalar.addi v36 c0_i32_31
  let c128_i32_38 : BitVec 32 := 128#32
  let v45 : BitVec 32 := Scalar.muli v37 c128_i32_38
  ![v45.toNat]
def k1_off5 (i : grid1.Coords) (k1_t1 : Fin k1_t1_loop.trips) (c0_i32_31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let c0_i32_7 : BitVec 32 := 0#32
  let c1_i32 : BitVec 32 := 1#32
  let arg20 : BitVec 32 := Scf.iv c0_i32_7 c1_i32 k1_t1
  let c4_i32_30 : BitVec 32 := 4#32
  let v36 : BitVec 32 := Scalar.muli arg20 c4_i32_30
  let v37 : BitVec 32 := Scalar.addi v36 c0_i32_31
  let c128_i32_41 : BitVec 32 := 128#32
  let v48 : BitVec 32 := Scalar.muli v37 c128_i32_41
  let v49 : BitVec 32 := Scalar.addi v2 v48
  let c0_i32_42 : BitVec 32 := 0#32
  ![v49.toNat, 0]
def k1_cond3 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c4_i32_44 : BitVec 32 := 4#32
  let v52 : BitVec 32 := Scalar.muli arg20 c4_i32_44
  let c1_i32_45 : BitVec 32 := 1#32
  let v53 : BitVec 32 := Scalar.addi v52 c1_i32_45
  let c2_i32_46 : BitVec 32 := 2#32
  let v54 : BitVec 1 := Scalar.cmpi .sge v53 c2_i32_46
  let v55 : BitVec 32 := Scalar.extui v54
  let c0_i32_47 : BitVec 32 := 0#32
  let v56 : BitVec 1 := Scalar.cmpi .ne v55 c0_i32_47
  v56

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let c0_i32_7 : BitVec 32 := 0#32
  let c1_i32 : BitVec 32 := 1#32
  let arg20 : BitVec 32 := Scf.iv c0_i32_7 c1_i32 k1_t1
  let c4_i32_44 : BitVec 32 := 4#32
  let v52 : BitVec 32 := Scalar.muli arg20 c4_i32_44
  let c1_i32_45 : BitVec 32 := 1#32
  let v53 : BitVec 32 := Scalar.addi v52 c1_i32_45
  let c2_i32_85 : BitVec 32 := 2#32
  let v100 : BitVec 32 := Scalar.subi v53 c2_i32_85
  let c128_i32_86 : BitVec 32 := 128#32
  let v101 : BitVec 32 := Scalar.muli v100 c128_i32_86
  let v102 : BitVec 32 := Scalar.addi v2 v101
  let c0_i32_87 : BitVec 32 := 0#32
  ![v102.toNat, 0]
def k1_cond4 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c4_i32_58 : BitVec 32 := 4#32
  let v68 : BitVec 32 := Scalar.muli arg20 c4_i32_58
  let c2_i32_59 : BitVec 32 := 2#32
  let v69 : BitVec 32 := Scalar.addi v68 c2_i32_59
  let c2_i32_60 : BitVec 32 := 2#32
  let v70 : BitVec 1 := Scalar.cmpi .sge v69 c2_i32_60
  let v71 : BitVec 32 := Scalar.extui v70
  let c0_i32_61 : BitVec 32 := 0#32
  let v72 : BitVec 1 := Scalar.cmpi .ne v71 c0_i32_61
  v72

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let c0_i32_7 : BitVec 32 := 0#32
  let c1_i32 : BitVec 32 := 1#32
  let arg20 : BitVec 32 := Scf.iv c0_i32_7 c1_i32 k1_t1
  let c4_i32_58 : BitVec 32 := 4#32
  let v68 : BitVec 32 := Scalar.muli arg20 c4_i32_58
  let c2_i32_59 : BitVec 32 := 2#32
  let v69 : BitVec 32 := Scalar.addi v68 c2_i32_59
  let c2_i32_85 : BitVec 32 := 2#32
  let v100 : BitVec 32 := Scalar.subi v69 c2_i32_85
  let c128_i32_86 : BitVec 32 := 128#32
  let v101 : BitVec 32 := Scalar.muli v100 c128_i32_86
  let v102 : BitVec 32 := Scalar.addi v2 v101
  let c0_i32_87 : BitVec 32 := 0#32
  ![v102.toNat, 0]
def k1_cond5 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c4_i32_72 : BitVec 32 := 4#32
  let v84 : BitVec 32 := Scalar.muli arg20 c4_i32_72
  let c3_i32 : BitVec 32 := 3#32
  let v85 : BitVec 32 := Scalar.addi v84 c3_i32
  let c2_i32_73 : BitVec 32 := 2#32
  let v86 : BitVec 1 := Scalar.cmpi .sge v85 c2_i32_73
  let v87 : BitVec 32 := Scalar.extui v86
  let c0_i32_74 : BitVec 32 := 0#32
  let v88 : BitVec 1 := Scalar.cmpi .ne v87 c0_i32_74
  v88

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let c0_i32_7 : BitVec 32 := 0#32
  let c1_i32 : BitVec 32 := 1#32
  let arg20 : BitVec 32 := Scf.iv c0_i32_7 c1_i32 k1_t1
  let c4_i32_72 : BitVec 32 := 4#32
  let v84 : BitVec 32 := Scalar.muli arg20 c4_i32_72
  let c3_i32 : BitVec 32 := 3#32
  let v85 : BitVec 32 := Scalar.addi v84 c3_i32
  let c2_i32_85 : BitVec 32 := 2#32
  let v100 : BitVec 32 := Scalar.subi v85 c2_i32_85
  let c128_i32_86 : BitVec 32 := 128#32
  let v101 : BitVec 32 := Scalar.muli v100 c128_i32_86
  let v102 : BitVec 32 := Scalar.addi v2 v101
  let c0_i32_87 : BitVec 32 := 0#32
  ![v102.toNat, 0]
def k1_off9 (i : grid1.Coords) (c9472_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9984_i32 : BitVec 32 := 9984#32
  let v2 : BitVec 32 := Scalar.muli v1 c9984_i32
  let v11 : BitVec 32 := Scalar.addi v2 c9472_i32
  let c0_i32_9 : BitVec 32 := 0#32
  ![v11.toNat, 0]
def k1_cond6 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v33 : BitVec 1 := Scalar.cmpi .slt v1 c4_i32
  let v34 : BitVec 32 := Scalar.extui v33
  let c0_i32_29 : BitVec 32 := 0#32
  let v35 : BitVec 1 := Scalar.cmpi .ne v34 c0_i32_29
  v35

def k1_off10 (i : grid1.Coords) : Fin 1 → Nat :=
  let c319488_i32 : BitVec 32 := 319488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_30 : BitVec 32 := 128#32
  let v36 : BitVec 32 := Scalar.muli v1 c128_i32_30
  let v37 : BitVec 32 := Scalar.addi c319488_i32 v36
  ![v37.toNat]
def k1_off11 (i : grid1.Coords) : Fin 2 → Nat :=
  let c319488_i32 : BitVec 32 := 319488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_30 : BitVec 32 := 128#32
  let v36 : BitVec 32 := Scalar.muli v1 c128_i32_30
  let v37 : BitVec 32 := Scalar.addi c319488_i32 v36
  let c0_i32_35_r3 : BitVec 32 := 0#32
  ![v37.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S320000x3_S320000x1_0_0 : S320000x3.Slices ![0, 0] S320000x1
  shapeCasts_S320000x1_S320000 : S320000x1.ShapeCasts S320000
  shapeCasts_S320000_S2500x128 : S320000.ShapeCasts S2500x128
  slices_S320000x3_S320000x1_0_1 : S320000x3.Slices ![0, 1] S320000x1
  slices_S320000x3_S320000x1_0_2 : S320000x3.Slices ![0, 2] S320000x1
  inb_S6x128_S6x128_0_0 : ∀ a, (![0, 0] : Fin 2 → Nat) a + S6x128.size a ≤ S6x128.size a
  h_S6x128 : 0 < S6x128.numel
  inb_S6x128_S1x128_0_0 : ∀ a, (![0, 0] : Fin 2 → Nat) a + S1x128.size a ≤ S6x128.size a
  h_S1x128 : 0 < S1x128.numel
  shapeCasts_S1x128_S128 : S1x128.ShapeCasts S128
  shapeCasts_S128_S1x128 : S128.ShapeCasts S1x128
  broadcasts_S1x128_S6x128 : S1x128.Broadcasts S6x128
  inb_S216x128_S6x128_0_0 : ∀ a, (![0, 0] : Fin 2 → Nat) a + S6x128.size a ≤ S216x128.size a
  inb_S6x128_S1x128_1_0 : ∀ a, (![1, 0] : Fin 2 → Nat) a + S1x128.size a ≤ S6x128.size a
  inb_S216x128_S6x128_6_0 : ∀ a, (![6, 0] : Fin 2 → Nat) a + S6x128.size a ≤ S216x128.size a
  inb_S6x128_S1x128_2_0 : ∀ a, (![2, 0] : Fin 2 → Nat) a + S1x128.size a ≤ S6x128.size a
  inb_S216x128_S6x128_12_0 : ∀ a, (![12, 0] : Fin 2 → Nat) a + S6x128.size a ≤ S216x128.size a
  inb_S6x128_S1x128_3_0 : ∀ a, (![3, 0] : Fin 2 → Nat) a + S1x128.size a ≤ S6x128.size a
  inb_S216x128_S6x128_18_0 : ∀ a, (![18, 0] : Fin 2 → Nat) a + S6x128.size a ≤ S216x128.size a
  inb_S6x128_S1x128_4_0 : ∀ a, (![4, 0] : Fin 2 → Nat) a + S1x128.size a ≤ S6x128.size a
  inb_S216x128_S6x128_24_0 : ∀ a, (![24, 0] : Fin 2 → Nat) a + S6x128.size a ≤ S216x128.size a
  inb_S6x128_S1x128_5_0 : ∀ a, (![5, 0] : Fin 2 → Nat) a + S1x128.size a ≤ S6x128.size a
  inb_S216x128_S6x128_30_0 : ∀ a, (![30, 0] : Fin 2 → Nat) a + S6x128.size a ≤ S216x128.size a
  inb_S216x128_S6x128_36_0 : ∀ a, (![36, 0] : Fin 2 → Nat) a + S6x128.size a ≤ S216x128.size a
  inb_S216x128_S6x128_42_0 : ∀ a, (![42, 0] : Fin 2 → Nat) a + S6x128.size a ≤ S216x128.size a
  inb_S216x128_S6x128_48_0 : ∀ a, (![48, 0] : Fin 2 → Nat) a + S6x128.size a ≤ S216x128.size a
  inb_S216x128_S6x128_54_0 : ∀ a, (![54, 0] : Fin 2 → Nat) a + S6x128.size a ≤ S216x128.size a
  inb_S216x128_S6x128_60_0 : ∀ a, (![60, 0] : Fin 2 → Nat) a + S6x128.size a ≤ S216x128.size a
  inb_S216x128_S6x128_66_0 : ∀ a, (![66, 0] : Fin 2 → Nat) a + S6x128.size a ≤ S216x128.size a
  inb_S216x128_S6x128_72_0 : ∀ a, (![72, 0] : Fin 2 → Nat) a + S6x128.size a ≤ S216x128.size a
  inb_S216x128_S6x128_78_0 : ∀ a, (![78, 0] : Fin 2 → Nat) a + S6x128.size a ≤ S216x128.size a
  inb_S216x128_S6x128_84_0 : ∀ a, (![84, 0] : Fin 2 → Nat) a + S6x128.size a ≤ S216x128.size a
  inb_S216x128_S6x128_90_0 : ∀ a, (![90, 0] : Fin 2 → Nat) a + S6x128.size a ≤ S216x128.size a
  inb_S216x128_S6x128_96_0 : ∀ a, (![96, 0] : Fin 2 → Nat) a + S6x128.size a ≤ S216x128.size a
  inb_S216x128_S6x128_102_0 : ∀ a, (![102, 0] : Fin 2 → Nat) a + S6x128.size a ≤ S216x128.size a
  inb_S216x128_S6x128_108_0 : ∀ a, (![108, 0] : Fin 2 → Nat) a + S6x128.size a ≤ S216x128.size a
  inb_S216x128_S6x128_114_0 : ∀ a, (![114, 0] : Fin 2 → Nat) a + S6x128.size a ≤ S216x128.size a
  inb_S216x128_S6x128_120_0 : ∀ a, (![120, 0] : Fin 2 → Nat) a + S6x128.size a ≤ S216x128.size a
  inb_S216x128_S6x128_126_0 : ∀ a, (![126, 0] : Fin 2 → Nat) a + S6x128.size a ≤ S216x128.size a
  inb_S216x128_S6x128_132_0 : ∀ a, (![132, 0] : Fin 2 → Nat) a + S6x128.size a ≤ S216x128.size a
  inb_S216x128_S6x128_138_0 : ∀ a, (![138, 0] : Fin 2 → Nat) a + S6x128.size a ≤ S216x128.size a
  inb_S216x128_S6x128_144_0 : ∀ a, (![144, 0] : Fin 2 → Nat) a + S6x128.size a ≤ S216x128.size a
  inb_S216x128_S6x128_150_0 : ∀ a, (![150, 0] : Fin 2 → Nat) a + S6x128.size a ≤ S216x128.size a
  inb_S216x128_S6x128_156_0 : ∀ a, (![156, 0] : Fin 2 → Nat) a + S6x128.size a ≤ S216x128.size a
  inb_S216x128_S6x128_162_0 : ∀ a, (![162, 0] : Fin 2 → Nat) a + S6x128.size a ≤ S216x128.size a
  inb_S216x128_S6x128_168_0 : ∀ a, (![168, 0] : Fin 2 → Nat) a + S6x128.size a ≤ S216x128.size a
  inb_S216x128_S6x128_174_0 : ∀ a, (![174, 0] : Fin 2 → Nat) a + S6x128.size a ≤ S216x128.size a
  inb_S216x128_S6x128_180_0 : ∀ a, (![180, 0] : Fin 2 → Nat) a + S6x128.size a ≤ S216x128.size a
  inb_S216x128_S6x128_186_0 : ∀ a, (![186, 0] : Fin 2 → Nat) a + S6x128.size a ≤ S216x128.size a
  inb_S216x128_S6x128_192_0 : ∀ a, (![192, 0] : Fin 2 → Nat) a + S6x128.size a ≤ S216x128.size a
  inb_S216x128_S6x128_198_0 : ∀ a, (![198, 0] : Fin 2 → Nat) a + S6x128.size a ≤ S216x128.size a
  inb_S216x128_S6x128_204_0 : ∀ a, (![204, 0] : Fin 2 → Nat) a + S6x128.size a ≤ S216x128.size a
  inb_S216x128_S6x128_210_0 : ∀ a, (![210, 0] : Fin 2 → Nat) a + S6x128.size a ≤ S216x128.size a
  inb_S2500x128_S2500x128_0_0 : ∀ a, (![0, 0] : Fin 2 → Nat) a + S2500x128.size a ≤ S2500x128.size a
  h_S2500x128 : 0 < S2500x128.numel
  shapeCasts_S2500x128_S2500x128 : S2500x128.ShapeCasts S2500x128
  shapeCasts_S2500x128_S320000 : S2500x128.ShapeCasts S320000
  inb_S9984_S128_0 : ∀ a, (![0] : Fin 1 → Nat) a + S128.size a ≤ S9984.size a
  inb_S216x128_S216x128_0_0 : ∀ a, (![0, 0] : Fin 2 → Nat) a + S216x128.size a ≤ S216x128.size a
  gathers_S216x128_S128x128 : S216x128.Gathers 0 S128x128
  inb_S9984_S128_128 : ∀ a, (![128] : Fin 1 → Nat) a + S128.size a ≤ S9984.size a
  inb_S9984_S128_9728 : ∀ a, (![9728] : Fin 1 → Nat) a + S128.size a ≤ S9984.size a
  inb_S9984_S128_9856 : ∀ a, (![9856] : Fin 1 → Nat) a + S128.size a ≤ S9984.size a
  hcc1_scratch7 : 8 + S_.numel ≤ 20
  hcc1_scratch8 : 9 + S_.numel ≤ 20
  hcc1_scratch9 : 10 + S_.numel ≤ 20
  hcc1_scratch10 : 11 + S_.numel ≤ 20
  hcc1_scratch11 : 12 + S_.numel ≤ 20
  hcc1_scratch12 : 13 + S_.numel ≤ 20
  hcc1_scratch13 : 14 + S_.numel ≤ 20
  hcc1_scratch14 : 15 + S_.numel ≤ 20
  hcc1_scoped0 : 16 + S_.numel ≤ 20
  hcc1_scoped1 : 17 + S_.numel ≤ 20
  hcc1_scoped2 : 18 + S_.numel ≤ 20
  hcc1_scoped3 : 19 + S_.numel ≤ 20
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hcore1 : grid1.bound 0 ≤ τ.nSC
  hsub1 : grid1.bound 1 ≤ τ.nSub
  k1_off1_inb : ∀ i : grid1.Coords, ∀ a, (k1_off1 i) a + S9984.size a ≤ S320000.size a
  k1_t1_ok : k1_t1_loop.OK
  k1_off2_inb : ∀ (i : grid1.Coords) (k1_t1 : Fin k1_t1_loop.trips), ∀ (k1_h2 : k1_cond2 k1_t1 = 1#1), ∀ a, (k1_off2 i k1_t1) a + S128x128.size a ≤ S320000x128.size a
  k1_off3_inb : ∀ k1_t1 : Fin k1_t1_loop.trips, ∀ (r : Fin 4), ∀ a, (k1_off3 k1_t1 (BitVec.ofNat 32 r.val)) a + S128.size a ≤ S9984.size a
  k1_off4_inb : ∀ k1_t1 : Fin k1_t1_loop.trips, ∀ (r : Fin 4), ∀ a, (k1_off4 k1_t1 (BitVec.ofNat 32 r.val)) a + S128.size a ≤ S9984.size a
  k1_off5_inb : ∀ (i : grid1.Coords) (k1_t1 : Fin k1_t1_loop.trips), ∀ (r : Fin 4), ∀ a, (k1_off5 i k1_t1 (BitVec.ofNat 32 r.val)) a + S128x128.size a ≤ S320000x128.size a
  k1_off6_inb : ∀ (i : grid1.Coords) (k1_t1 : Fin k1_t1_loop.trips), ∀ (k1_h3 : k1_cond3 k1_t1 = 1#1), ∀ a, (k1_off6 i k1_t1) a + S128x128.size a ≤ S320000x128.size a
  k1_off7_inb : ∀ (i : grid1.Coords) (k1_t1 : Fin k1_t1_loop.trips), ∀ (k1_h4 : k1_cond4 k1_t1 = 1#1), ∀ a, (k1_off7 i k1_t1) a + S128x128.size a ≤ S320000x128.size a
  k1_off8_inb : ∀ (i : grid1.Coords) (k1_t1 : Fin k1_t1_loop.trips), ∀ (k1_h5 : k1_cond5 k1_t1 = 1#1), ∀ a, (k1_off8 i k1_t1) a + S128x128.size a ≤ S320000x128.size a
  k1_off9_inb : ∀ i : grid1.Coords, ∀ (r : Fin 4), ∀ a, (k1_off9 i (BitVec.ofNat 32 (9472 + 128 * r.val))) a + S128x128.size a ≤ S320000x128.size a
  k1_off10_inb : ∀ i : grid1.Coords, ∀ (k1_h6 : k1_cond6 i = 1#1), ∀ a, (k1_off10 i) a + S128.size a ≤ S320000.size a
  k1_off11_inb : ∀ i : grid1.Coords, ∀ (k1_h6 : k1_cond6 i = 1#1), ∀ a, (k1_off11 i) a + S128x128.size a ≤ S320000x128.size a

variable [Facts₀]

abbrev cc1_scratch7 : DmaSems sig S_ := SemArray.consecutive 8 S_ hcc1_scratch7
abbrev cc1_scratch8 : DmaSems sig S_ := SemArray.consecutive 9 S_ hcc1_scratch8
abbrev cc1_scratch9 : DmaSems sig S_ := SemArray.consecutive 10 S_ hcc1_scratch9
abbrev cc1_scratch10 : DmaSems sig S_ := SemArray.consecutive 11 S_ hcc1_scratch10
abbrev cc1_scratch11 : DmaSems sig S_ := SemArray.consecutive 12 S_ hcc1_scratch11
abbrev cc1_scratch12 : DmaSems sig S_ := SemArray.consecutive 13 S_ hcc1_scratch12
abbrev cc1_scratch13 : DmaSems sig S_ := SemArray.consecutive 14 S_ hcc1_scratch13
abbrev cc1_scratch14 : DmaSems sig S_ := SemArray.consecutive 15 S_ hcc1_scratch14
abbrev cc1_scoped0 : DmaSems sig S_ := SemArray.consecutive 16 S_ hcc1_scoped0
abbrev cc1_scoped1 : DmaSems sig S_ := SemArray.consecutive 17 S_ hcc1_scoped1
abbrev cc1_scoped2 : DmaSems sig S_ := SemArray.consecutive 18 S_ hcc1_scoped2
abbrev cc1_scoped3 : DmaSems sig S_ := SemArray.consecutive 19 S_ hcc1_scoped3

abbrev win0_0 : Pipeline.Window sig grid0 :=
  Pipeline.Window.whole (Memref.whole main_v2) false false (stage0_0 0) (sem0_0 0) (Memref.isWhole_whole _) (hstage0_0 0)

abbrev win0_1 : Pipeline.Window sig grid0 :=
  Pipeline.Window.whole (Memref.whole main_v5) false false (stage0_1 0) (sem0_1 0) (Memref.isWhole_whole _) (hstage0_1 0)

abbrev win0_2 : Pipeline.Window sig grid0 :=
  Pipeline.Window.whole (Memref.whole main_v8) false false (stage0_2 0) (sem0_2 0) (Memref.isWhole_whole _) (hstage0_2 0)

abbrev win0_3 : Pipeline.Window sig grid0 :=
  Pipeline.Window.whole (Memref.whole main_arg1) false false (stage0_3 0) (sem0_3 0) (Memref.isWhole_whole _) (hstage0_3 0)

abbrev win0_4 : Pipeline.Window sig grid0 :=
  Pipeline.Window.whole (Memref.whole main_arg2) false false (stage0_4 0) (sem0_4 0) (Memref.isWhole_whole _) (hstage0_4 0)

abbrev win0_5 : Pipeline.Window sig grid0 :=
  Pipeline.Window.whole (Memref.whole main_arg3) false false (stage0_5 0) (sem0_5 0) (Memref.isWhole_whole _) (hstage0_5 0)

abbrev win0_6 : Pipeline.Window sig grid0 :=
  Pipeline.Window.whole (Memref.whole main_v9_0) true false (stage0_6 0) (sem0_6 0) (Memref.isWhole_whole _) (hstage0_6 0)

abbrev win0_7 : Pipeline.Window sig grid0 :=
  Pipeline.Window.whole (Memref.whole main_v9_1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S320000x3 : Shape := ⟨2, ![320000, 3]⟩
abbrev S6x128 : Shape := ⟨2, ![6, 128]⟩
abbrev S_ : Shape := ⟨0, ![]⟩
abbrev S320000x128 : Shape := ⟨2, ![320000, 128]⟩
abbrev S320000x1 : Shape := ⟨2, ![320000, 1]⟩
abbrev S320000 : Shape := ⟨1, ![320000]⟩
abbrev S1 : Shape := ⟨1, ![1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S320000x3, .i32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S320000x128, .f32⟩
  | .hbm, ⟨6, _⟩ => ⟨S320000x1, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S320000x128, .f32⟩
  | .hbm, ⟨32, _⟩ => ⟨S320000x1, .i32⟩
  | .hbm, ⟨33, _⟩ => ⟨S320000, .i32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S1, .i32⟩
  | .hbm, ⟨43, _⟩ => ⟨S_, .i32⟩
  | .hbm, ⟨44, _⟩ => ⟨S320000x1, .i32⟩
  | .hbm, ⟨45, _⟩ => ⟨S320000x1, .i1⟩
  | .hbm, ⟨46, _⟩ => ⟨S1x1, .i32⟩
  | .hbm, ⟨47, _⟩ => ⟨S320000x1, .i32⟩
  | .hbm, ⟨48, _⟩ => ⟨S320000x1, .i1⟩
  | .hbm, ⟨49, _⟩ => ⟨S320000x1, .i1⟩
  | .hbm, ⟨50, _⟩ => ⟨S_, .i1⟩
  | .hbm, ⟨51, _⟩ => ⟨S320000, .i1⟩
  | .hbm, ⟨52, _⟩ => ⟨S320000x128, .f32⟩
  | .hbm, ⟨53, _⟩ => ⟨S320000x128, .i1⟩
  | .hbm, ⟨54, _⟩ => ⟨S_, .f32⟩
  | .hbm, ⟨55, _⟩ => ⟨S320000x128, .f32⟩
  | .hbm, ⟨56, _⟩ => ⟨S320000x128, .f32⟩
  | .hbm, ⟨57, _⟩ => ⟨S320000x128, .f32⟩
  | .hbm, ⟨58, _⟩ => ⟨S320000x1, .i32⟩
  | .hbm, ⟨59, _⟩ => ⟨S320000, .i32⟩
  | .hbm, ⟨60, _⟩ => ⟨S_, .i32⟩
  | .hbm, ⟨61, _⟩ => ⟨S320000, .i32⟩
  | .hbm, ⟨62, _⟩ => ⟨S320000, .i1⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000, .i32⟩
  | .hbm, ⟨67, _⟩ => ⟨S320000x1, .i32⟩
  | .hbm, ⟨68, _⟩ => ⟨S1, .i32⟩
  | .hbm, ⟨69, _⟩ => ⟨S_, .i32⟩
  | .hbm, ⟨70, _⟩ => ⟨S320000x1, .i32⟩
  | .hbm, ⟨71, _⟩ => ⟨S320000x1, .i1⟩
  | .hbm, ⟨72, _⟩ => ⟨S1x1, .i32⟩
  | .hbm, ⟨73, _⟩ => ⟨S320000x1, .i32⟩
  | .hbm, ⟨74, _⟩ => ⟨S320000x1, .i1⟩
  | .hbm, ⟨75, _⟩ => ⟨S320000x1, .i1⟩
  | .hbm, ⟨76, _⟩ => ⟨S_, .i1⟩
  | .hbm, ⟨77, _⟩ => ⟨S320000, .i1⟩
  | .hbm, ⟨78, _⟩ => ⟨S320000x128, .f32⟩
  | .hbm, ⟨79, _⟩ => ⟨S320000x128, .i1⟩
  | .hbm, ⟨80, _⟩ => ⟨S_, .f32⟩
  | .hbm, ⟨81, _⟩ => ⟨S320000x128, .f32⟩
  | .hbm, ⟨82, _⟩ => ⟨S320000x128, .f32⟩
  | .hbm, ⟨83, _⟩ => ⟨S320000x128, .f32⟩
  | _, _ => ⟨S320000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v11 : Ref sig .tc := ⟨.hbm, 82, rfl⟩
abbrev main_v12 : Ref sig .tc := ⟨.hbm, 83, rfl⟩

abbrev nD : Nat := 1
abbrev τ : Topo := Topo.v7x

variable {F : FTy → Type} [FloatOps F]

class Facts₀ : Prop where
  bcast_S_S320000x128 : S_.BroadcastsInDim S320000x128 (![] : Fin 0 → Fin S320000x128.rank)
  slices_S320000x3_S320000x1_0_0 : S320000x3.Slices ![0, 0] S320000x1
  shapeCasts_S320000x1_S320000 : S320000x1.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  slices_S320000x3_S320000x1_0_1 : S320000x3.Slices ![0, 1] S320000x1
  slices_S320000x3_S320000x1_0_2 : S320000x3.Slices ![0, 2] S320000x1
  gather_S6x128_S320000x1_S320000x128_1_0_n_n_0_1_1128_wf : GatherDims.WF S6x128 S320000x1 S320000x128 [1] [0] [] [0] [] 1 ![1, 128]

variable [Facts₀]

def gather_S6x128_S320000x1_S320000x128_1_0_n_n_0_1_1128 : GatherDims S6x128 S320000x1 S320000x128 where
  offsetDims := [1]
  collapsedSliceDims := [0]
  operandBatchingDims := []
  startIndicesBatchingDims := []
  startIndexMap := [0]
  indexVectorDim := 1
  sliceSizes := ![1, 128]
  wf := gather_S6x128_S320000x1_S320000x128_1_0_n_n_0_1_1128_wf

class Facts : Prop extends Facts₀ where

variable [Facts]
-- ==== Proof.KSpec.lean ====
/-
  What the kernel computes, for any float instance: the combined index word of a row, (a0 * 6 + a1) * 6 + a2 in 32-bit
  arithmetic; the table of 216 rows whose row (i0 * 6 + i1) * 6 + i2 is row i2 of the third table plus row i0 of the
  first plus row i1 of the second; and the result, whose row r is the table's row named by the combined index of r.
  Rows are named through naturals reduced below the extent, so every function here is total.
-/
import Idealize.ShloMosaic.PureOps
import Idealize.ShloMosaic.Lib.ValueIdx

noncomputable section

namespace Cert.KSpec

open Idealize.ShloMosaic Idealize.ShloMosaic.ValueIdx

variable {F : FTy → Type} [FloatOps F]

/-- The combined index word of row `r`: `(a[r,0] * 6 + a[r,1]) * 6 + a[r,2]`, in 32-bit arithmetic. -/
def idx (a : IVec (⟨2, ![320000, 3]⟩ : Shape) 32) : IVec (⟨1, ![320000]⟩ : Shape) 32 :=
  fun r => IntOp.addi (IntOp.muli (IntOp.addi (IntOp.muli (a (ix2 (r 0 : Fin 320000) (0 : Fin 3))) 6#32)
    (a (ix2 (r 0 : Fin 320000) (1 : Fin 3)))) 6#32) (a (ix2 (r 0 : Fin 320000) (2 : Fin 3)))

/-- The table: row `k` is row `k % 6` of the third table plus row `k / 36` of the first plus row `k / 6 % 6` of the second. -/
def tab (e0 e1 e2 : FVec F (⟨2, ![6, 128]⟩ : Shape) .f32) : FVec F (⟨2, ![216, 128]⟩ : Shape) .f32 :=
  fun k => FloatOps.addf
    (FloatOps.addf (e2 (ix2 (⟨(k 0 : Fin 216).val % 6, Nat.mod_lt _ (by decide)⟩ : Fin 6) (k 1 : Fin 128)))
      (e0 (ix2 (⟨(k 0 : Fin 216).val / 36, Nat.div_lt_of_lt_mul (k 0 : Fin 216).isLt⟩ : Fin 6) (k 1 : Fin 128))))
    (e1 (ix2 (⟨(k 0 : Fin 216).val / 6 % 6, Nat.mod_lt _ (by decide)⟩ : Fin 6) (k 1 : Fin 128)))

/-- The result: row `r` is the table's row named by the combined index word of `r`. -/
def res (a : IVec (⟨2, ![320000, 3]⟩ : Shape) 32) (e0 e1 e2 : FVec F (⟨2, ![6, 128]⟩ : Shape) .f32) :
    FVec F (⟨2, ![320000, 128]⟩ : Shape) .f32 :=
  fun j => tab e0 e1 e2 (ix2 (⟨(idx a (ix1 (j 0 : Fin 320000))).toNat % 216, Nat.mod_lt _ (by decide)⟩ : Fin 216) (j 1 : Fin 128))

end Cert.KSpec

end
-- ==== Proof.Base.lean ====
/-
  The kernel's program as the launch theorem for SparseCore programs sees it, and the ghost state its proof runs over:
  the handshakes' rounds, the subcore barrier cells' rounds, the TensorCore region's staging cells' rounds, and the
  transfers' counters. Then the TensorCore's arrays by location. Everything here is generic in the float instance.
-/
import proofs.«203798_g65764539236737_cont_9to1_m_400_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«203798_g65764539236737_cont_9to1_m_400_20_alg».proof.Proof.Gen.KernelIdeal
import proofs.«203798_g65764539236737_cont_9to1_m_400_20_alg».proof.Proof.KSpec

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds: the left factor of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds: one factor further in. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The TensorCore's arrays -/

abbrev aLoc (d : Dev nD) : Loc nD τ sig := (SparseCore.T d).loc main_arg0
abbrev e0Loc (d : Dev nD) : Loc nD τ sig := (SparseCore.T d).loc main_arg1
abbrev e1Loc (d : Dev nD) : Loc nD τ sig := (SparseCore.T d).loc main_arg2
abbrev e2Loc (d : Dev nD) : Loc nD τ sig := (SparseCore.T d).loc main_arg3
/-- The table the TensorCore region writes and the SparseCore kernel reads. -/
abbrev tabLoc (d : Dev nD) : Loc nD τ sig := (SparseCore.T d).loc main_v9_0
/-- The combined index words, flat, as the SparseCore kernel reads them. -/
abbrev idxLoc (d : Dev nD) : Loc nD τ sig := (SparseCore.T d).loc main_v10
/-- The result. -/
abbrev outLoc (d : Dev nD) : Loc nD τ sig := (SparseCore.T d).loc main_v11

variable (m : (ℓ : Loc nD τ sig) → Buf (Elt F) ℓ)

/-- The table, the index words and the result as functions of the launch memory's arguments. -/
abbrev tabOf [FloatOps F] (d : Dev nD) : Buf (Elt F) (tabLoc d) := KSpec.tab (F := F) (m (e0Loc d)) (m (e1Loc d)) (m (e2Loc d))
abbrev idxOf (d : Dev nD) : Buf (Elt F) (idxLoc d) := KSpec.idx (m (aLoc d))
abbrev resOf [FloatOps F] (d : Dev nD) : Buf (Elt F) (outLoc d) := KSpec.res (F := F) (m (aLoc d)) (m (e0Loc d)) (m (e1Loc d)) (m (e2Loc d))

end Cert.KIProof

end
-- ==== Proof.Cells.lean ====
/-
  The subcore-barrier cells of the gather kernel, and what the barrier carries: the SparseCore's shared table. Subcore 0
  of a SparseCore fills the shared scratch with the table and, at the barrier, its unit on tile j's cell hands tile j a
  read share of the scratch holding the table; the other tiles' units hand over nothing. The sixteen read shares are a
  fixed function of the tile and compose to the full share.
-/
import proofs.«203798_g65764539236737_cont_9to1_m_400_20_alg».proof.Proof.Base

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The shared scratch and its sixteen read shares -/

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Tile `j`'s read share of the shared scratch: the full share halved `j` times (the left half each time) then its right
    half, for `j < 15`; the last tile's is what remains after fifteen halvings. -/
def shShare (j : ℕ) : PosShare TreeShare :=
  if j < 15 then Transfers.shareTokN fullShare j else Transfers.shareDrop fullShare 15

theorem shShare_lt {j : ℕ} (h : j < 15) : shShare j = Transfers.shareTokN fullShare j := if_pos h
theorem shShare_last : shShare 15 = Transfers.shareDrop fullShare 15 := if_neg (by decide)

/-- A points-to at the full share is the sixteen tiles' read shares of it. -/
theorem pointsTo_shShares {ℓ : Loc nD τ sig} (I : Finset (Idx ℓ)) (f : Buf (Elt F) ℓ) :
    (ℓ ↦[I]{fullShare} f : sProp 𝕄) ⊣⊢ bigSep Finset.univ fun j : Fin 16 => ℓ ↦[I]{shShare j.val} f := by
  have h1 : (bigSep Finset.univ fun j : Fin 16 => (ℓ ↦[I]{shShare j.val} f : sProp 𝕄))
      = bigSep (Finset.range 16) fun j => ℓ ↦[I]{shShare j} f := by
    rw [← Nat.Iio_eq_range, ← Fin.map_valEmbedding_univ, BI.bigSep_map]; rfl
  have h2 : (bigSep (Finset.range 16) fun j => (ℓ ↦[I]{shShare j} f : sProp 𝕄))
      = iprop((ℓ ↦[I]{Transfers.shareDrop fullShare 15} f) ∗ bigSep (Finset.range 15) fun j => ℓ ↦[I]{Transfers.shareTokN fullShare j} f) := by
    rw [show Finset.range 16 = insert 15 (Finset.range 15) from Finset.range_add_one, BI.bigSep_insert Finset.notMem_range_self, shShare_last]
    congr 1
    all_goals exact bigSep_congr fun j hj => by rw [shShare_lt (Finset.mem_range.mp hj)]
  rw [h1, h2]
  exact Transfers.pointsTo_toks_range fullShare 15

theorem pointsTo_shShares_split {ℓ : Loc nD τ sig} (I : Finset (Idx ℓ)) (f : Buf (Elt F) ℓ) :
    (ℓ ↦[I]{fullShare} f : sProp 𝕄) ⊢ bigSep Finset.univ fun j : Fin 16 => ℓ ↦[I]{shShare j.val} f := (pointsTo_shShares I f).1
theorem pointsTo_shShares_join {ℓ : Loc nD τ sig} (I : Finset (Idx ℓ)) (f : Buf (Elt F) ℓ) :
    (bigSep Finset.univ fun j : Fin 16 => (ℓ ↦[I]{shShare j.val} f : sProp 𝕄)) ⊢ ℓ ↦[I]{fullShare} f := (pointsTo_shShares I f).2

variable (m : (ℓ : Loc nD τ sig) → Buf (Elt F) ℓ)
variable [FloatOps F]

/-- The table as the contents of SparseCore `c`'s shared scratch (the same shape and element type as the table's array). -/
abbrev shTab (d : Dev nD) (c : Fin τ.nSC) : Buf (Elt F) (shLoc d c) := tabOf m d

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty `n` in tile `j`'s round hands over: subcore 0's, tile `j`'s read share of the shared scratch holding the
    table; the others', nothing. -/
def bPay (g : GSem nD τ sig) (n : ℕ) : sProp 𝕄 :=
  match g with
  | ((d, .scVector c j), _) => if n = 0 then iprop(shLoc d c ↦{shShare j.val} shTab m d c) else iprop(emp)
  | _ => iprop(emp)

/-- The barrier cells' schedule: one round on each, of one unit duty per tile of the SparseCore (named by its number),
    subcore 0's handing over the table. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bPay_zero (d : Dev nD) (c : Fin τ.nSC) (j : Fin τ.nSub) :
    (bRd (F := F) m).payload (bcell d c j) 0 0 = iprop(shLoc d c ↦{shShare j.val} shTab m d c) := by
  show bPay m (bcell d c j) 0 = _
  unfold bPay; dsimp only; rw [if_pos rfl]
theorem bPay_pos (d : Dev nD) (c : Fin τ.nSC) (j : Fin τ.nSub) {n : ℕ} (hn : n ≠ 0) :
    (bRd (F := F) m).payload (bcell d c j) 0 n = iprop(emp) := by
  show bPay m (bcell d c j) n = _
  unfold bPay; dsimp only; rw [if_neg hn]

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the
    call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing), its
    duty token in every tile's round 0, that each cell has reached round 0, its own position at the origin of round 0,
    and the credit for the sixteen units of its own round. What its duties hand over is not in the kit: subcore 0 makes
    it from the scratch it has filled. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KIProof

end
-- ==== Proof.Cover.lean ====
/-
  Which rows of the result each vector subcore writes. Subcore i of core c has worker number 2 i + c; it writes the
  9984 rows starting at 9984 (2 i + c), in 78 chunks of 128 rows, and, when its worker number is below 4, also the 128
  rows starting at 319488 + 128 (2 i + c). Every row below 320000 has exactly one writer: a row below 319488 = 32 * 9984
  belongs to the worker numbered by its quotient by 9984, a later row to the worker numbered by the quotient of its
  distance from 319488 by 128, which is below 4. So the subcores' row sets partition the array, and each is the
  disjoint union of its chunks.
-/
import Idealize.ShloMosaic.PureOps
import Idealize.ShloMosaic.Lib.ValueIdx
import Mathlib.Data.Finset.Union

noncomputable section

namespace Cert.Cover

open Idealize.ShloMosaic

/-- The result array's index type. -/
abbrev OIdx : Type := (⟨2, ![320000, 128]⟩ : Shape).Idx

/-- The row of an index, as a natural number. -/
abbrev rowOf (j : OIdx) : ℕ := (j 0 : Fin 320000).val

theorem rowOf_lt (j : OIdx) : rowOf j < 320000 := (j 0 : Fin 320000).isLt

/-- The worker number that writes row `r`. -/
def owner (r : ℕ) : ℕ := if r < 319488 then r / 9984 else (r - 319488) / 128

theorem owner_lt {r : ℕ} (h : r < 320000) : owner r < 32 := by
  unfold owner; split <;> omega

open Classical in
/-- The rows subcore `i` of core `c` writes. -/
def tileOut (c : Fin 2) (i : Fin 16) : Finset OIdx := Finset.univ.filter fun j => owner (rowOf j) = 2 * i.val + c.val

open Classical in
/-- The rows the subcores of core `c` write. -/
def coreOut (c : Fin 2) : Finset OIdx := Finset.univ.filter fun j => owner (rowOf j) % 2 = c.val

open Classical in
/-- The 128 rows starting at `r0`. -/
def chunkSet (r0 : ℕ) : Finset OIdx := Finset.univ.filter fun j => r0 ≤ rowOf j ∧ rowOf j < r0 + 128

theorem mem_tileOut {c : Fin 2} {i : Fin 16} {j : OIdx} : j ∈ tileOut c i ↔ owner (rowOf j) = 2 * i.val + c.val := by
  unfold tileOut; simp
theorem mem_coreOut {c : Fin 2} {j : OIdx} : j ∈ coreOut c ↔ owner (rowOf j) % 2 = c.val := by
  unfold coreOut; simp
theorem mem_chunkSet {r0 : ℕ} {j : OIdx} : j ∈ chunkSet r0 ↔ r0 ≤ rowOf j ∧ rowOf j < r0 + 128 := by
  unfold chunkSet; simp

/-- Different subcores write disjoint rows. -/
theorem tileOut_disjoint {c c' : Fin 2} {i i' : Fin 16} (h : (c, i) ≠ (c', i')) : Disjoint (tileOut c i) (tileOut c' i') := by
  refine Finset.disjoint_left.mpr fun j h1 h2 => h ?_
  have e1 := mem_tileOut.mp h1
  have e2 := mem_tileOut.mp h2
  have hc : c.val = c'.val := by have := c.isLt; have := c'.isLt; omega
  have hi : i.val = i'.val := by omega
  exact Prod.ext (Fin.ext hc) (Fin.ext hi)

theorem tileOut_disjoint_sub (c : Fin 2) : ∀ i ∈ (Finset.univ : Finset (Fin 16)), ∀ i' ∈ (Finset.univ : Finset (Fin 16)), i ≠ i' →
    Disjoint (tileOut c i) (tileOut c i') :=
  fun _ _ _ _ h => tileOut_disjoint fun e => h (Prod.ext_iff.mp e).2

/-- A core's rows are its subcores'. -/
theorem coreOut_eq (c : Fin 2) : (Finset.univ : Finset (Fin 16)).biUnion (tileOut c) = coreOut c := by
  ext j
  simp only [Finset.mem_biUnion, Finset.mem_univ, true_and, mem_tileOut, mem_coreOut]
  have hc := c.isLt
  have ho := owner_lt (rowOf_lt j)
  constructor
  · rintro ⟨i, hi⟩; omega
  · intro h; exact ⟨⟨owner (rowOf j) / 2, by omega⟩, by show _ = 2 * (owner (rowOf j) / 2) + c.val; omega⟩

theorem coreOut_disjoint : ∀ c ∈ (Finset.univ : Finset (Fin 2)), ∀ c' ∈ (Finset.univ : Finset (Fin 2)), c ≠ c' → Disjoint (coreOut c) (coreOut c') := by
  intro c _ c' _ h
  refine Finset.disjoint_left.mpr fun j h1 h2 => h (Fin.ext ?_)
  rw [← mem_coreOut.mp h1, ← mem_coreOut.mp h2]

/-- The two cores' rows are the whole array. -/
theorem coreOut_cover : (Finset.univ : Finset (Fin 2)).biUnion coreOut = Finset.univ := by
  ext j
  simp only [Finset.mem_biUnion, Finset.mem_univ, true_and, mem_coreOut, iff_true]
  exact ⟨⟨owner (rowOf j) % 2, Nat.mod_lt _ (by decide)⟩, rfl⟩

/-- The first row of subcore `i` of core `c`. -/
abbrev row0 (c : Fin 2) (i : Fin 16) : ℕ := 19968 * i.val + 9984 * c.val

/-- The subcore's extra chunk, when its worker number is below 4. -/
def extraSet (c : Fin 2) (i : Fin 16) : Finset OIdx := if 2 * i.val + c.val < 4 then chunkSet (319488 + 128 * (2 * i.val + c.val)) else ∅

/-- A subcore's rows are its 78 chunks and its extra chunk. -/
theorem tileOut_eq (c : Fin 2) (i : Fin 16) :
    tileOut c i = (Finset.univ : Finset (Fin 78)).biUnion (fun k => chunkSet (row0 c i + 128 * k.val)) ∪ extraSet c i := by
  ext j
  have hc := c.isLt
  have hi := i.isLt
  have hj := rowOf_lt j
  have hr : row0 c i = 19968 * i.val + 9984 * c.val := rfl
  simp only [Finset.mem_union, Finset.mem_biUnion, Finset.mem_univ, true_and, mem_tileOut, mem_chunkSet]
  unfold extraSet owner
  constructor
  · intro h
    split at h
    · left
      refine ⟨⟨(rowOf j - row0 c i) / 128, by show _ < 78; omega⟩, ?_⟩
      show row0 c i + 128 * ((rowOf j - row0 c i) / 128) ≤ rowOf j ∧ rowOf j < row0 c i + 128 * ((rowOf j - row0 c i) / 128) + 128
      omega
    · right
      rw [if_pos (by omega), mem_chunkSet]; omega
  · rintro (⟨k, hk⟩ | h)
    · have := k.isLt
      rw [if_pos (by omega)]; omega
    · split at h
      · rw [mem_chunkSet] at h
        rw [if_neg (by omega)]; omega
      · exact absurd h (Finset.notMem_empty _)

/-- A subcore's chunks are pairwise disjoint, -/
theorem chunks_disjoint (c : Fin 2) (i : Fin 16) : ∀ k ∈ (Finset.univ : Finset (Fin 78)), ∀ k' ∈ (Finset.univ : Finset (Fin 78)), k ≠ k' →
    Disjoint (chunkSet (row0 c i + 128 * k.val)) (chunkSet (row0 c i + 128 * k'.val)) := by
  intro k _ k' _ h
  have hr : row0 c i = 19968 * i.val + 9984 * c.val := rfl
  refine Finset.disjoint_left.mpr fun j h1 h2 => h (Fin.ext ?_)
  have := mem_chunkSet.mp h1
  have := mem_chunkSet.mp h2
  omega

/-- and disjoint from its extra chunk. -/
theorem chunks_extra_disjoint (c : Fin 2) (i : Fin 16) :
    Disjoint ((Finset.univ : Finset (Fin 78)).biUnion (fun k => chunkSet (row0 c i + 128 * k.val))) (extraSet c i) := by
  refine Finset.disjoint_left.mpr fun j h1 h2 => ?_
  obtain ⟨k, -, hk⟩ := Finset.mem_biUnion.mp h1
  have hk' := mem_chunkSet.mp hk
  have hr : row0 c i = 19968 * i.val + 9984 * c.val := rfl
  have := k.isLt; have := c.isLt; have := i.isLt
  unfold extraSet at h2
  split at h2
  · have := mem_chunkSet.mp h2; omega
  · exact absurd h2 (Finset.notMem_empty _)

end Cert.Cover

end
-- ==== Proof.Split.lean ====
/-
  How the TensorCore's arrays are dealt to the two cores and their sixteen vector subcores. An array every subcore only
  reads goes out in read shares: the full share in two halves, one per core, and each half in sixteen tokens and a
  remainder. The result array goes out by rows: the two cores' row sets, and within a core the sixteen subcores' row sets;
  since every piece holds the same function, splitting and joining are equations.
-/
import proofs.«203798_g65764539236737_cont_9to1_m_400_20_alg».proof.Proof.Base
import proofs.«203798_g65764539236737_cont_9to1_m_400_20_alg».proof.Proof.Cover

noncomputable section

namespace Cert.KIProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ

/-- Core `c`'s half of the full share. -/
def half (c : Fin 2) : PosShare TreeShare := if c.val = 0 then fullShare.left else fullShare.right

/-- Subcore `i` of core `c`'s read token. -/
abbrev tq (c : Fin 2) (i : Fin 16) : PosShare TreeShare := shareTok (half c) 16 i

/-- What is left of core `c`'s half after the sixteen tokens. -/
abbrev tqRest (c : Fin 2) : PosShare TreeShare := shareDrop (half c) 16

theorem pts_halves {ℓ : Loc nD τ sig} (f : Buf (Elt F) ℓ) :
    (ℓ ↦{fullShare} f : sProp 𝕄) ⊣⊢ bigSep Finset.univ fun c : Fin 2 => ℓ ↦{half c} f := by
  have h : (ℓ ↦{fullShare} f : sProp 𝕄) ⊣⊢ iprop((ℓ ↦{fullShare.left} f) ∗ ℓ ↦{fullShare.right} f) :=
    pointsTo_share (PosShare.mem_left_op_right _)
  rw [show (bigSep Finset.univ fun c : Fin 2 => (ℓ ↦{half c} f : sProp 𝕄)) = iprop((ℓ ↦{fullShare.left} f) ∗ ℓ ↦{fullShare.right} f) by
    rw [show (Finset.univ : Finset (Fin 2)) = {0, 1} by decide, SparseCore.bigSep_insert' (by decide), bigSep_singleton]; rfl]
  exact h

theorem pts_tiles {ℓ : Loc nD τ sig} (c : Fin 2) (f : Buf (Elt F) ℓ) :
    (ℓ ↦{half c} f : sProp 𝕄) ⊣⊢ iprop((ℓ ↦{tqRest c} f) ∗ bigSep Finset.univ fun i : Fin 16 => ℓ ↦{tq c i} f) :=
  pointsTo_toks (half c) 16

/-- The result array held whole is its two cores' rows, -/
theorem out_cores (d : Dev nD) (f : Buf (Elt F) (outLoc d)) :
    (outLoc d ↦{fullShare} f : sProp 𝕄) = bigSep Finset.univ fun c : Fin 2 => outLoc d ↦[Cover.coreOut c]{fullShare} f := by
  rw [← pointsTo_biUnion Finset.univ (ℓ := outLoc d) Cover.coreOut Cover.coreOut_disjoint, Cover.coreOut_cover]; try rfl

/-- and a core's rows are its sixteen subcores'. -/
theorem out_tiles (d : Dev nD) (c : Fin 2) (f : Buf (Elt F) (outLoc d)) :
    (outLoc d ↦[Cover.coreOut c]{fullShare} f : sProp 𝕄) = bigSep Finset.univ fun i : Fin 16 => outLoc d ↦[Cover.tileOut c i]{fullShare} f := by
  rw [← pointsTo_biUnion Finset.univ (ℓ := outLoc d) (Cover.tileOut c) (Cover.tileOut_disjoint_sub c), Cover.coreOut_eq]

end Cert.KIProof

end
-- ==== Proof.Common.lean ====
/-
  What the launch's handshakes carry for the one SparseCore call. The TensorCore hands core c a half share of the
  table's array and of the index array, each at its value as a function of the arguments, and core c's rows of the result
  array; the core hands subcore i a read token of each, the subcore's rows of the result, and, to subcore 0 alone, the
  core's shared scratch whole. A subcore hands back its tokens, its rows holding the result, and the read share of the
  shared scratch, holding the table, that the barrier left it with; the core hands back its halves and its rows holding
  the result. Each subcore's proof consumes its barrier kit and owes an arrival on every barrier cell of its core.
-/
import proofs.«203798_g65764539236737_cont_9to1_m_400_20_alg».proof.Proof.Base
import proofs.«203798_g65764539236737_cont_9to1_m_400_20_alg».proof.Proof.Cells
import proofs.«203798_g65764539236737_cont_9to1_m_400_20_alg».proof.Proof.Split

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- A core of the call's grid and a subcore of it, as plain numbers below 2 and 16. -/
abbrev cF (c : Fin ((K (F := F)).nCore 0)) : Fin 2 := Fin.cast nCore_zero c
abbrev iF (i : Fin ((K (F := F)).nSub 0)) : Fin 16 := Fin.cast nSub_zero i

/-- What core `c` is handed, with the result rows at `f`. -/
abbrev corePts (d : Dev nD) (c : Fin 2) (f : Buf (Elt F) (outLoc d)) : sProp 𝕄 :=
  iprop((tabLoc d ↦{half c} tabOf m d) ∗ (idxLoc d ↦{half c} idxOf m d) ∗ outLoc d ↦[Cover.coreOut c]{fullShare} f)

/-- What subcore `i` of core `c` is handed of the TensorCore's arrays, with the result rows at `f`. -/
abbrev tilePts (d : Dev nD) (c : Fin 2) (i : Fin 16) (f : Buf (Elt F) (outLoc d)) : sProp 𝕄 :=
  iprop((tabLoc d ↦{tq c i} tabOf m d) ∗ (idxLoc d ↦{tq c i} idxOf m d) ∗ outLoc d ↦[Cover.tileOut c i]{fullShare} f)

/-- The shared scratch as a subcore receives it: whole, at some contents, for subcore 0; nothing for the others. -/
def shGo (d : Dev nD) (c : Fin τ.nSC) (i : Fin 16) : sProp 𝕄 :=
  if i.val = 0 then iprop(∃ f, shLoc d c ↦{fullShare} f) else iprop(emp)

/-- The shared scratch as a subcore returns it: its read share, holding the table. -/
abbrev shTd (d : Dev nD) (c : Fin τ.nSC) (i : Fin 16) : sProp 𝕄 := shLoc d c ↦{shShare i.val} shTab m d c

instance shGo_storable (d : Dev nD) (c : Fin τ.nSC) (i : Fin 16) : BI.Storable (upEmb : UEmb _ 𝕄) (shGo (F := F) d c i) := by
  unfold shGo; split <;> infer_instance

def P : (K (F := F)).Pay (nD := nD) (Val := Elt F) (Name := ℕ) (U := UU) where
  st := fun q d c => match q with | 0 => corePts m d (cF c) (m (outLoc d))
  dn := fun q d c => match q with | 0 => corePts m d (cF c) (resOf m d)
  go := fun q d c i => match q with
    | 0 => iprop(tilePts m d (cF c) (iF i) (m (outLoc d)) ∗ shGo d ((K (F := F)).core 0 c) (iF i))
  td := fun q d c i => match q with
    | 0 => iprop(tilePts m d (cF c) (iF i) (resOf m d) ∗ shTd m d ((K (F := F)).core 0 c) (iF i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (corePts m d (cF c) (m (outLoc d))))
  dn q d c := match q with
    | 0 => (inferInstance : BI.Storable (upEmb : UEmb _ 𝕄) (corePts m d (cF c) (resOf m d)))
  go q d c i := match q with
    | 0 => (inferInstance : BI.Storable (upEmb : UEmb _ 𝕄) iprop(tilePts m d (cF c) (iF i) (m (outLoc d)) ∗ shGo d ((K (F := F)).core 0 c) (iF i)))
  td q d c i := match q with
    | 0 => (inferInstance : BI.Storable (upEmb : UEmb _ 𝕄) iprop(tilePts m d (cF c) (iF i) (resOf m d) ∗ shTd m d ((K (F := F)).core 0 c) (iF i)))

end Cert.KIProof

end
-- ==== Proof.VecSplit.lean ====
/-
  How a core's operands split among its sixteen subcores and gather again. The halves of the table's and the index
  array's shares go out as sixteen read tokens each, the remainders waiting for the tokens' return; the core's rows of the
  result go out as the subcores' rows and come back holding the result; the core's shared scratch, one of the
  sequencer's own buffers, goes whole to subcore 0 and comes back as the sixteen read shares the barrier dealt, which
  compose to the full share.
-/
import proofs.«203798_g65764539236737_cont_9to1_m_400_20_alg».proof.Proof.Common

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

omit [FloatOps F] in
theorem bigSep_tasks (Φ : Fin 16 → sProp 𝕄) :
    (bigSep Finset.univ fun i : Fin ((K (F := F)).nSub 0) => Φ (iF i)) = bigSep Finset.univ Φ :=
  bigSep_congr fun _ _ => congrArg Φ (Fin.ext rfl)

omit [FloatOps F] in
theorem bigSep_emp' {I : Type} (s : Finset I) : (bigSep s fun _ => iprop(emp)) = (iprop(emp) : sProp 𝕄) := bigSep_emp_const s

omit [FloatOps F] in
/-- Only subcore 0 is handed the shared scratch. -/
theorem shGo_all (d : Dev nD) (c : Fin τ.nSC) :
    (bigSep Finset.univ fun i : Fin 16 => shGo (F := F) d c i) = iprop((∃ f, shLoc d c ↦{fullShare} f) ∗ emp) := by
  rw [show (Finset.univ : Finset (Fin 16)) = insert 0 (Finset.univ.erase 0) from (Finset.insert_erase (Finset.mem_univ _)).symm,
    SparseCore.bigSep_insert' (Finset.notMem_erase _ _),
    show (bigSep (Finset.univ.erase (0 : Fin 16)) fun i => shGo (F := F) d c i) = bigSep (Finset.univ.erase (0 : Fin 16)) fun _ => iprop(emp) from
      bigSep_congr fun i hi => by
        unfold shGo; exact if_neg (fun h : i.val = 0 => (Finset.ne_of_mem_erase hi) (Fin.ext h)),
    bigSep_emp']
  unfold shGo; rw [if_pos (show (0 : Fin 16).val = 0 from rfl)]

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(corePts m d (cF c) (m (outLoc d)) ∗ ownBufs (S d ((K (F := F)).core 0 c))) ⊢ |={Set.univ}=> iprop(
      (bigSep Finset.univ fun i : Fin ((K (F := F)).nSub 0) =>
        iprop(tilePts m d (cF c) (iF i) (m (outLoc d)) ∗ shGo d ((K (F := F)).core 0 c) (iF i)))
      ∗ ((bigSep Finset.univ fun i : Fin ((K (F := F)).nSub 0) =>
          iprop(tilePts m d (cF c) (iF i) (resOf m d) ∗ shTd m d ((K (F := F)).core 0 c) (iF i)))
          -∗ iprop(corePts m d (cF c) (resOf m d) ∗ ownBufs (S d ((K (F := F)).core 0 c)))))
  rw [bigSep_tasks (F := F) (fun i => iprop(tilePts m d (cF c) i (m (outLoc d)) ∗ shGo d ((K (F := F)).core 0 c) i)),
    bigSep_tasks (F := F) (fun i => iprop(tilePts m d (cF c) i (resOf m d) ∗ shTd m d ((K (F := F)).core 0 c) i)),
    bigSep_sep', bigSep_sep', bigSep_sep', bigSep_sep', bigSep_sep', bigSep_sep', ownBufs_S, shGo_all]
  unfold corePts
  rw [out_tiles, out_tiles]
  iintro ⟨⟨Ht, Hi, Ho⟩, Hsh, Hrest⟩
  ihave Ht' := (pts_tiles (F := F) (cF c) (tabOf m d)).1 $$ Ht
  icases Ht' with ⟨Htr, Htt⟩
  ihave Hi' := (pts_tiles (F := F) (cF c) (idxOf m d)).1 $$ Hi
  icases Hi' with ⟨Hir, Hit⟩
  imodintro
  isplitl [Htt Hit Ho Hsh]
  · isplitl [Htt Hit Ho]
    · isplitl [Htt]; · iexact Htt
      isplitl [Hit]; · iexact Hit
      iexact Ho
    · isplitl [Hsh]; · iexact Hsh
      iempintro
  iintro ⟨⟨Htt, Hit, Ho⟩, Hsh⟩
  isplitl [Htr Htt Hir Hit Ho]
  · isplitl [Htr Htt]
    · iapply (pts_tiles (F := F) (cF c) (tabOf m d)).2
      isplitl [Htr]; · iexact Htr
      iexact Htt
    isplitl [Hir Hit]
    · iapply (pts_tiles (F := F) (cF c) (idxOf m d)).2
      isplitl [Hir]; · iexact Hir
      iexact Hit
    iexact Ho
  isplitl [Hsh]
  · iexists (shTab m d ((K (F := F)).core 0 c))
    iapply (pointsTo_shShares_join (F := F) Finset.univ (shTab m d ((K (F := F)).core 0 c)))
    iexact Hsh
  iexact Hrest

end Cert.KIProof

end
-- ==== Proof.LaunchElem.lean ====
/-
  The launch element of the proof's ghost state. The element holds the handshakes' initial rounds, the barrier cells'
  initial rounds (one round per cell, a unit duty per subcore of the cell's core) and the TensorCore region's staging
  cells' initial rounds, beside the transfers' counters. At the launch the barrier part funds every cell's round state,
  positions and duty tokens; the barrier semaphores, free and at zero, and the round states allocate the cells'
  invariants all at once; the credit for the arrivals every subcore owes regroups as, per subcore, the sixteen units of its
  own cell. Each subcore is then dealt its kit: every invariant of its core and that each cell reached round 0, shared by
  all, and its own position, tokens and credit.
-/
import proofs.«203798_g65764539236737_cont_9to1_m_400_20_alg».proof.Proof.Common

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid1.bound 1) => (bcell x.1.1 x.1.2.1 (x.2.castLE hsub1), 0, x.1.2.2.val)

/-- The launch element, given the staging cells' initial rounds. -/
def u₀ (pinit : UP) : UU := (initOf (K (F := F)).hsCells (K (F := F)).hsToks, (initOf bCells bToks, (pinit, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, (p, (1 : Counters))) : UB × (UP × Counters)))))
  have h2 : (ownU (((1 : UH), (b, (p, (1 : Counters)))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, (1 : Counters)) : UP × Counters)))))
  iintro Hu
  ihave H := h1 $$ Hu
  icases H with ⟨HH, HR⟩
  ihave H' := h2 $$ HR
  icases H' with ⟨HB, HP⟩
  isplitl [HH]; · iexact HH
  isplitl [HB]; · iexact HB
  iexact HP

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the arrivals owed, regrouped: each subcore the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem bigSep_emp'' {I : Type} (s : Finset I) : (bigSep s fun _ => iprop(emp)) = (iprop(emp) : sProp 𝕄) := bigSep_emp_const s

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp'']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp'']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp'']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch element: the handshakes' rounds, what @main's proof starts from (`G`, funded from the staging cells'
    rounds), and every subcore's kit. -/
theorem hu₀ (pinit : UP) (G : Dev nD → sProp 𝕄) (hG : (BI.own (EP (F := F) pinit) : sProp 𝕄) ⊢ |==> bigSep Finset.univ G) :
    iprop(ownU (u₀ (F := F) pinit) ∗ (P (F := F) m).oxCred ∗ (K (F := F)).freeSems0)
    ⊢ |={Set.univ}=> iprop(BI.own (EH (initOf (K (F := F)).hsCells (K (F := F)).hsToks)) ∗ bigSep Finset.univ G
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod hG $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.KIProof

end
-- ==== Proof.RegionGhost.lean ====
/-
  The ghost state the TensorCore region starts from: the pipeline's staging cells' launch state and the duty tokens of
  its one point, per device, and how the launch element's third factor funds them on every device at once.
-/
import proofs.«203798_g65764539236737_cont_9to1_m_400_20_alg».proof.Proof.Base
import proofs.«203798_g65764539236737_cont_9to1_m_400_20_alg».proof.Proof.Gen.KernelIdeal.Launch

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipeline has no prefetched table: its one admissible contents. -/
abbrev adm : (p : Fin 1) → (pcfgs (F := F) p).Adm := fun p => (cfgs p).toPCfg_adm

/-- The program's staging cells are pairwise distinct. -/
theorem phinj : Function.Injective (Pipeline.cellOf (nD := nD) (τ := τ) (Pipeline.pin (pcfgs (F := F)) adm)) := Gen.cellOf_inj

/-- What the region is entered with on device `d`: its staging cells' launch state and its point's duty tokens. -/
def regionGhost (d : Dev nD) : sProp 𝕄 :=
  iprop(Pipeline.cellsGhost (Pipeline.pin (pcfgs (F := F)) adm) EP 0 d ∗ Pipeline.toksInit (Pipeline.pin (pcfgs (F := F)) adm) EP 0 d)

/-- The launch element's factor for the staging cells funds every device's region. -/
theorem regionGhost_fund :
    BI.own ((EP : Emb UP 𝕄) (initOf (Pipeline.cells (Pipeline.pin (pcfgs (F := F)) adm) phinj) (Pipeline.launchToks (Pipeline.pin (pcfgs (F := F)) adm) phinj)))
      ⊢ iprop(|==> bigSep Finset.univ fun d : Dev nD => (regionGhost (F := F) d : sProp 𝕄)) := by
  refine (Pipeline.fund_ghost (Pipeline.pin (pcfgs (F := F)) adm) EP phinj).trans (bupd_mono ?_)
  rw [← bigSep_sep']
  refine bigSep_mono fun d _ => ?_
  rw [show (Finset.univ : Finset (Fin 1)) = {0} from by decide, bigSep_singleton, bigSep_singleton]
  unfold regionGhost
  exact BI.Entails.refl _

end Cert.KIProof

end
-- ==== Proof.PreRange.lean ====
/-
  The precondition read back: every word of the index array names a table row.

  The precondition is the conjunction of four tests reduced by `and` to one bit: three say that a table has only
  finite entries, the fourth that every word w of the index array satisfies 0 ≤ w and w ≤ 5, both read signed. From
  the bit being 1 the fourth test holds at every index, and a word that is nonnegative and at most 5 read signed is,
  read unsigned, below 6. Nothing is used of the three tables, so the statement holds for every reading of the floats.
-/
import proofs.«203798_g65764539236737_cont_9to1_m_400_20_alg».proof.Pre_input_domain
import proofs.«203798_g65764539236737_cont_9to1_m_400_20_alg».proof.Proof.Gen.Pre_input_domain
import Idealize.ShloMosaic.Lib.ReduceAll
import Idealize.ShloMosaic.Lib.ValueIdx

namespace Cert.RefSide

open Idealize.ShloMosaic Idealize.ShloMosaic.ValueIdx

/-- The rank-0 shape has one index. -/
instance subsingleton_idx0 : Subsingleton (⟨0, ![]⟩ : Shape).Idx := ⟨fun a b => funext fun d => d.elim0⟩

/-- A 32-bit word that is nonnegative and at most 5 read signed is below 6 read unsigned. -/
theorem toNat_lt_six_of_toInt {w : BitVec 32} (h0 : (0 : Int) ≤ w.toInt) (h5 : w.toInt ≤ 5) : w.toNat < 6 := by
  have hc := BitVec.toInt_eq_toNat_cond w
  have hlt := w.isLt
  split at hc <;> omega

/-- Under the precondition every word of the index array is below 6. -/
theorem range_of_pre {F : FTy → Type} [FloatOps F] (a : IVec (⟨2, ![320000, 3]⟩ : Shape) 32)
    (e0 e1 e2 : FVec F (⟨2, ![6, 128]⟩ : Shape) .f32)
    (h : Cert.Pre_input_domain.fn (F := F) a e0 e1 e2 = fun _ => 1#1) : ∀ j, (a j).toNat < 6 := by
  intro j
  have h0 := congrFun h ix0
  dsimp only [Cert.Pre_input_domain.fn, Cert.Pre_input_domain.fn_part1] at h0
  obtain ⟨-, h19⟩ := IntOp.andi_eq_one.1 h0
  have hj := Host.reduce_andi_all _ _ _ _ _ h19 j
  obtain ⟨hge, hle⟩ := IntOp.andi_eq_one.1 hj
  have hge' : (0#32 : BitVec 32).toInt ≤ (a j).toInt := IntOp.cmpi_sge.1 hge
  have hle' : (a j).toInt ≤ (5#32 : BitVec 32).toInt := IntOp.cmpi_sle.1 hle
  have z0 : (0#32 : BitVec 32).toInt = 0 := by decide
  have z5 : (5#32 : BitVec 32).toInt = 5 := by decide
  rw [z0] at hge'
  rw [z5] at hle'
  exact toNat_lt_six_of_toInt hge' hle'

end Cert.RefSide
-- ==== Proof.Spec.lean ====
/-
  The function both programs compute, on the extended reals: entry (r, l) of the result is the sum of lane l of three
  table rows, row a[r,0] of the first table, row a[r,1] of the second and row a[r,2] of the third. A word that names no
  row reads as zero, so the function is total; under the precondition every word of a is below 6. The two programs add
  the three rows in different orders; addition of extended reals is commutative and associative, and zero is neutral.
-/
import Idealize.ShloMosaic.PureOps.Ideal
import Idealize.ShloMosaic.Lib.ValueIdx

noncomputable section

namespace Cert.Spec

open Idealize.ShloMosaic Idealize.ShloMosaic.ValueIdx

/-- Lane `l` of row `w` of a six-row table; zero when the word `w` names no row. -/
def row (e : FVec Ideal (⟨2, ![6, 128]⟩ : Shape) .f32) (w : BitVec 32) (l : Fin 128) : EReal :=
  if h : w.toNat < 6 then e (ix2 (⟨w.toNat, h⟩ : Fin 6) l) else 0

/-- The result, the three rows added in the order third + first + second. -/
def out (a : IVec (⟨2, ![320000, 3]⟩ : Shape) 32) (e0 e1 e2 : FVec Ideal (⟨2, ![6, 128]⟩ : Shape) .f32) :
    FVec Ideal (⟨2, ![320000, 128]⟩ : Shape) .f32 :=
  fun j => row e2 (a (ix2 (j 0 : Fin 320000) (2 : Fin 3))) (j 1 : Fin 128)
    + row e0 (a (ix2 (j 0 : Fin 320000) (0 : Fin 3))) (j 1 : Fin 128)
    + row e1 (a (ix2 (j 0 : Fin 320000) (1 : Fin 3))) (j 1 : Fin 128)

/-- The same three rows added to zero one after the other, first, second, third. -/
def outSeq (a : IVec (⟨2, ![320000, 3]⟩ : Shape) 32) (e0 e1 e2 : FVec Ideal (⟨2, ![6, 128]⟩ : Shape) .f32) :
    FVec Ideal (⟨2, ![320000, 128]⟩ : Shape) .f32 :=
  fun j => ((0 : EReal) + row e0 (a (ix2 (j 0 : Fin 320000) (0 : Fin 3))) (j 1 : Fin 128)
    + row e1 (a (ix2 (j 0 : Fin 320000) (1 : Fin 3))) (j 1 : Fin 128))
    + row e2 (a (ix2 (j 0 : Fin 320000) (2 : Fin 3))) (j 1 : Fin 128)

/-- The two orders of addition give one function. -/
theorem outSeq_eq (a : IVec (⟨2, ![320000, 3]⟩ : Shape) 32) (e0 e1 e2 : FVec Ideal (⟨2, ![6, 128]⟩ : Shape) .f32) :
    outSeq a e0 e1 e2 = out a e0 e1 e2 := by
  funext j
  show ((0 : EReal) + _ + _) + _ = _ + _ + _
  rw [zero_add, add_comm (_ + _) _, add_assoc]

end Cert.Spec

end
-- ==== Proof.Bridge.lean ====
/-
  At the ideal instance, when every word of the index array is below 6, the table's row named by the combined index
  word of a row is the sum of the three table rows that row's three words name: the combined word
  (n0 * 6 + n1) * 6 + n2 does not overflow 32 bits, is below 216, and its quotient by 36, its quotient by 6 reduced
  modulo 6, and its remainder modulo 6 give back n0, n1 and n2.
-/
import proofs.«203798_g65764539236737_cont_9to1_m_400_20_alg».proof.Proof.Spec
import proofs.«203798_g65764539236737_cont_9to1_m_400_20_alg».proof.Proof.KSpec

noncomputable section

namespace Cert.Bridge

open Idealize.ShloMosaic Idealize.ShloMosaic.ValueIdx

/-- The combined index word of three words below 6, as a natural number. -/
theorem comb_toNat (x y z : BitVec 32) (hx : x.toNat < 6) (hy : y.toNat < 6) (hz : z.toNat < 6) :
    (IntOp.addi (IntOp.muli (IntOp.addi (IntOp.muli x 6#32) y) 6#32) z).toNat = (x.toNat * 6 + y.toNat) * 6 + z.toNat := by
  simp only [IntOp.addi, IntOp.muli, BitVec.toNat_add, BitVec.toNat_mul, BitVec.toNat_ofNat]
  omega

/-- Lane `l` of a row below 6 read through `Spec.row`. -/
theorem row_of_lt (e : FVec Ideal (⟨2, ![6, 128]⟩ : Shape) .f32) (w : BitVec 32) (l : Fin 128) (n : Fin 6) (h : w.toNat = n.val) :
    Cert.Spec.row e w l = e (ix2 n l) := by
  unfold Cert.Spec.row
  rw [dif_pos (h ▸ n.isLt)]
  congr 2
  exact Fin.ext h

/-- Under the range fact the kernel's result is the specification. -/
theorem res_eq_out (a : IVec (⟨2, ![320000, 3]⟩ : Shape) 32) (e0 e1 e2 : FVec Ideal (⟨2, ![6, 128]⟩ : Shape) .f32)
    (h : ∀ j, (a j).toNat < 6) : Cert.KSpec.res (F := Ideal) a e0 e1 e2 = Cert.Spec.out a e0 e1 e2 := by
  funext j
  have h0 := h (ix2 (j 0 : Fin 320000) (0 : Fin 3))
  have h1 := h (ix2 (j 0 : Fin 320000) (1 : Fin 3))
  have h2 := h (ix2 (j 0 : Fin 320000) (2 : Fin 3))
  have hW := comb_toNat _ _ _ h0 h1 h2
  have hidx : (Cert.KSpec.idx a (ix1 (j 0 : Fin 320000))).toNat
      = ((a (ix2 (j 0 : Fin 320000) (0 : Fin 3))).toNat * 6 + (a (ix2 (j 0 : Fin 320000) (1 : Fin 3))).toNat) * 6
        + (a (ix2 (j 0 : Fin 320000) (2 : Fin 3))).toNat := hW
  show FloatOps.addf (FloatOps.addf (e2 _) (e0 _)) (e1 _) = _
  show (e2 _ + e0 _ + e1 _ : EReal) = Cert.Spec.row e2 _ _ + Cert.Spec.row e0 _ _ + Cert.Spec.row e1 _ _
  refine congrArg₂ (· + ·) (congrArg₂ (· + ·) ?_ ?_) ?_
  · refine Eq.trans ?_ (row_of_lt e2 _ (j 1 : Fin 128) ⟨_, h2⟩ rfl).symm
    refine congrArg e2 (congrArg (fun n => ix2 n (j 1 : Fin 128)) (Fin.ext ?_))
    show (Cert.KSpec.idx a (ix1 (j 0 : Fin 320000))).toNat % 216 % 6 = (a (ix2 (j 0 : Fin 320000) (2 : Fin 3))).toNat
    omega
  · refine Eq.trans ?_ (row_of_lt e0 _ (j 1 : Fin 128) ⟨_, h0⟩ rfl).symm
    refine congrArg e0 (congrArg (fun n => ix2 n (j 1 : Fin 128)) (Fin.ext ?_))
    show (Cert.KSpec.idx a (ix1 (j 0 : Fin 320000))).toNat % 216 / 36 = (a (ix2 (j 0 : Fin 320000) (0 : Fin 3))).toNat
    omega
  · refine Eq.trans ?_ (row_of_lt e1 _ (j 1 : Fin 128) ⟨_, h1⟩ rfl).symm
    refine congrArg e1 (congrArg (fun n => ix2 n (j 1 : Fin 128)) (Fin.ext ?_))
    show (Cert.KSpec.idx a (ix1 (j 0 : Fin 320000))).toNat % 216 / 6 % 6 = (a (ix2 (j 0 : Fin 320000) (1 : Fin 3))).toNat
    omega

end Cert.Bridge

end
-- ==== Proof.Launch.lean ====
/-
  The kernel program's run: every weakly fair execution of all its threads ends, nothing faulting, with the four
  arguments unchanged and the result array holding the table's rows named by the combined index words. It is the launch
  theorem for SparseCore programs applied to the subcore's task, the split of a core's operands, @main on the TensorCore
  and the launch element; the final memory is read off the TensorCore's final assertion, the five arrays held whole.
  The precondition gives what the task needs: every combined index word names a row of the table.
-/
import proofs.«203798_g65764539236737_cont_9to1_m_400_20_alg».proof.Proof.VecSplit
import proofs.«203798_g65764539236737_cont_9to1_m_400_20_alg».proof.Proof.LaunchElem
import proofs.«203798_g65764539236737_cont_9to1_m_400_20_alg».proof.Proof.RegionGhost
import proofs.«203798_g65764539236737_cont_9to1_m_400_20_alg».proof.Proof.PreRange
import proofs.«203798_g65764539236737_cont_9to1_m_400_20_alg».proof.Proof.Bridge

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the proof asks of the launch memory: every combined index word names a row of the table. -/
def PreOK : Prop := ∀ (d : Dev nD) (r : (⟨1, ![320000]⟩ : Shape).Idx), (idxOf m d r).toNat < 216

/-- The TensorCore's final assertion: the four arguments as launched and the result array holding the result. -/
abbrev FIN (d : Dev nD) : sProp 𝕄 :=
  iprop((aLoc d ↦{fullShare} m (aLoc d)) ∗ (e0Loc d ↦{fullShare} m (e0Loc d)) ∗ (e1Loc d ↦{fullShare} m (e1Loc d))
    ∗ (e2Loc d ↦{fullShare} m (e2Loc d)) ∗ outLoc d ↦{fullShare} resOf m d)

def fq (d : Dev nD) (s' : Phys nD τ sig (Elt F)) : Prop :=
  s'.mem.mem (outLoc d) = resOf m d ∧ s'.mem.mem (aLoc d) = m (aLoc d) ∧ s'.mem.mem (e0Loc d) = m (e0Loc d)
    ∧ s'.mem.mem (e1Loc d) = m (e1Loc d) ∧ s'.mem.mem (e2Loc d) = m (e2Loc d)

set_option maxRecDepth 16384 in
theorem hfin (d : Dev nD) (s' : Phys nD τ sig (Elt F)) : iprop(FIN m d ∗ SI s') ⊢ (⌜fq m d s'⌝ : sProp 𝕄) := by
  iintro ⟨⟨Ha, H0, H1, H2, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := e0Loc d) (I := Finset.univ) (q := fullShare) (f := m (e0Loc d)))) $$ [HSI H0]
  · isplitl [HSI] <;> iassumption
  icases H with ⟨%h0, HSI, -⟩
  ihave H := (persistent_entails_right (SI_pointsTo_agree (st := s') (ℓ := e1Loc d) (I := Finset.univ) (q := fullShare) (f := m (e1Loc d)))) $$ [HSI H1]
  · isplitl [HSI] <;> iassumption
  icases H with ⟨%h1, HSI, -⟩
  ihave H := (persistent_entails_right (SI_pointsTo_agree (st := s') (ℓ := e2Loc d) (I := Finset.univ) (q := fullShare) (f := m (e2Loc d)))) $$ [HSI H2]
  · isplitl [HSI] <;> iassumption
  icases H with ⟨%h2, HSI, -⟩
  ihave H := (SI_pointsTo_agree (st := s') (ℓ := outLoc d) (I := Finset.univ) (q := fullShare) (f := resOf m d)) $$ [HSI Ho]
  · isplitl [HSI] <;> iassumption
  icases H with %ho
  ipureintro
  exact ⟨funext fun i => ho i (Finset.mem_univ i), funext fun i => ha i (Finset.mem_univ i), funext fun i => h0 i (Finset.mem_univ i),
    funext fun i => h1 i (Finset.mem_univ i), funext fun i => h2 i (Finset.mem_univ i)⟩

/-- The claim's post: on every device the result array holds the result and the arguments are unchanged. -/
def QC : PUnit × MemSt nD τ sig (Elt F) → Prop := fun r => ∀ c : Dev nD,
  r.2.mem (outLoc c) = resOf m c ∧ r.2.mem (aLoc c) = m (aLoc c) ∧ r.2.mem (e0Loc c) = m (e0Loc c)
    ∧ r.2.mem (e1Loc c) = m (e1Loc c) ∧ r.2.mem (e2Loc c) = m (e2Loc c)

/-- The staging cells' initial rounds, the launch element's third component. -/
abbrev pinit : UP := initOf (Pipeline.cells (Pipeline.pin (pcfgs (F := F)) adm) phinj) (Pipeline.launchToks (Pipeline.pin (pcfgs (F := F)) adm) phinj)

/-- The program's run, from the subcore's task and @main's proof. -/
theorem run_of [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ regionGhost (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun d => regionGhost (F := F) d) (FIN m) (u₀ (F := F) (pinit (F := F)))
    (hu₀ m (pinit (F := F)) (fun d => regionGhost (F := F) d) (regionGhost_fund (F := F)))
    hmain (fq m) (hfin m) (QC m) (fun _ h => h)

/-- The precondition gives the range fact: three words below 6 combine to a word below 216. -/
theorem ok_of_range (h : ∀ (d : Dev nD) j, (m (aLoc d) j).toNat < 6) : PreOK m := by
  intro d r
  have e := Bridge.comb_toNat _ _ _ (h d (ValueIdx.ix2 (r 0 : Fin 320000) (0 : Fin 3))) (h d (ValueIdx.ix2 (r 0 : Fin 320000) (1 : Fin 3)))
    (h d (ValueIdx.ix2 (r 0 : Fin 320000) (2 : Fin 3)))
  have h0 := h d (ValueIdx.ix2 (r 0 : Fin 320000) (0 : Fin 3))
  have h1 := h d (ValueIdx.ix2 (r 0 : Fin 320000) (1 : Fin 3))
  have h2 := h d (ValueIdx.ix2 (r 0 : Fin 320000) (2 : Fin 3))
  show (KSpec.idx (m (aLoc d)) r).toNat < 216
  unfold KSpec.idx
  rw [e]; omega

theorem ok_of_pre (hpre : ∀ d : Dev nD, Cert.Pre_input_domain.fn (F := F) (m (aLoc d)) (m (e0Loc d)) (m (e1Loc d)) (m (e2Loc d)) = fun _ => 1#1) : PreOK m :=
  ok_of_range m fun d => Cert.RefSide.range_of_pre (F := F) (m (aLoc d)) (m (e0Loc d)) (m (e1Loc d)) (m (e2Loc d)) (hpre d)

end Cert.KIProof

end
-- ==== Proof.BaseK.lean ====
/-
  The kernel's program as the launch theorem for SparseCore programs sees it, and the ghost state its proof runs over:
  the handshakes' rounds, the subcore barrier cells' rounds, the TensorCore region's staging cells' rounds, and the
  transfers' counters. Then the TensorCore's arrays by location. Everything here is generic in the float instance.
-/
import proofs.«203798_g65764539236737_cont_9to1_m_400_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«203798_g65764539236737_cont_9to1_m_400_20_alg».proof.Proof.Gen.Kernel
import proofs.«203798_g65764539236737_cont_9to1_m_400_20_alg».proof.Proof.KSpec

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds: the left factor of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds: one factor further in. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The TensorCore's arrays -/

abbrev aLoc (d : Dev nD) : Loc nD τ sig := (SparseCore.T d).loc main_arg0
abbrev e0Loc (d : Dev nD) : Loc nD τ sig := (SparseCore.T d).loc main_arg1
abbrev e1Loc (d : Dev nD) : Loc nD τ sig := (SparseCore.T d).loc main_arg2
abbrev e2Loc (d : Dev nD) : Loc nD τ sig := (SparseCore.T d).loc main_arg3
/-- The table the TensorCore region writes and the SparseCore kernel reads. -/
abbrev tabLoc (d : Dev nD) : Loc nD τ sig := (SparseCore.T d).loc main_v9_0
/-- The combined index words, flat, as the SparseCore kernel reads them. -/
abbrev idxLoc (d : Dev nD) : Loc nD τ sig := (SparseCore.T d).loc main_v10
/-- The result. -/
abbrev outLoc (d : Dev nD) : Loc nD τ sig := (SparseCore.T d).loc main_v11

variable (m : (ℓ : Loc nD τ sig) → Buf (Elt F) ℓ)

/-- The table, the index words and the result as functions of the launch memory's arguments. -/
abbrev tabOf [FloatOps F] (d : Dev nD) : Buf (Elt F) (tabLoc d) := KSpec.tab (F := F) (m (e0Loc d)) (m (e1Loc d)) (m (e2Loc d))
abbrev idxOf (d : Dev nD) : Buf (Elt F) (idxLoc d) := KSpec.idx (m (aLoc d))
abbrev resOf [FloatOps F] (d : Dev nD) : Buf (Elt F) (outLoc d) := KSpec.res (F := F) (m (aLoc d)) (m (e0Loc d)) (m (e1Loc d)) (m (e2Loc d))

end Cert.KProof

end
-- ==== Proof.CellsK.lean ====
/-
  The subcore-barrier cells of the gather kernel, and what the barrier carries: the SparseCore's shared table. Subcore 0
  of a SparseCore fills the shared scratch with the table and, at the barrier, its unit on tile j's cell hands tile j a
  read share of the scratch holding the table; the other tiles' units hand over nothing. The sixteen read shares are a
  fixed function of the tile and compose to the full share.
-/
import proofs.«203798_g65764539236737_cont_9to1_m_400_20_alg».proof.Proof.BaseK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The shared scratch and its sixteen read shares -/

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Tile `j`'s read share of the shared scratch: the full share halved `j` times (the left half each time) then its right
    half, for `j < 15`; the last tile's is what remains after fifteen halvings. -/
def shShare (j : ℕ) : PosShare TreeShare :=
  if j < 15 then Transfers.shareTokN fullShare j else Transfers.shareDrop fullShare 15

theorem shShare_lt {j : ℕ} (h : j < 15) : shShare j = Transfers.shareTokN fullShare j := if_pos h
theorem shShare_last : shShare 15 = Transfers.shareDrop fullShare 15 := if_neg (by decide)

/-- A points-to at the full share is the sixteen tiles' read shares of it. -/
theorem pointsTo_shShares {ℓ : Loc nD τ sig} (I : Finset (Idx ℓ)) (f : Buf (Elt F) ℓ) :
    (ℓ ↦[I]{fullShare} f : sProp 𝕄) ⊣⊢ bigSep Finset.univ fun j : Fin 16 => ℓ ↦[I]{shShare j.val} f := by
  have h1 : (bigSep Finset.univ fun j : Fin 16 => (ℓ ↦[I]{shShare j.val} f : sProp 𝕄))
      = bigSep (Finset.range 16) fun j => ℓ ↦[I]{shShare j} f := by
    rw [← Nat.Iio_eq_range, ← Fin.map_valEmbedding_univ, BI.bigSep_map]; rfl
  have h2 : (bigSep (Finset.range 16) fun j => (ℓ ↦[I]{shShare j} f : sProp 𝕄))
      = iprop((ℓ ↦[I]{Transfers.shareDrop fullShare 15} f) ∗ bigSep (Finset.range 15) fun j => ℓ ↦[I]{Transfers.shareTokN fullShare j} f) := by
    rw [show Finset.range 16 = insert 15 (Finset.range 15) from Finset.range_add_one, BI.bigSep_insert Finset.notMem_range_self, shShare_last]
    congr 1
    all_goals exact bigSep_congr fun j hj => by rw [shShare_lt (Finset.mem_range.mp hj)]
  rw [h1, h2]
  exact Transfers.pointsTo_toks_range fullShare 15

theorem pointsTo_shShares_split {ℓ : Loc nD τ sig} (I : Finset (Idx ℓ)) (f : Buf (Elt F) ℓ) :
    (ℓ ↦[I]{fullShare} f : sProp 𝕄) ⊢ bigSep Finset.univ fun j : Fin 16 => ℓ ↦[I]{shShare j.val} f := (pointsTo_shShares I f).1
theorem pointsTo_shShares_join {ℓ : Loc nD τ sig} (I : Finset (Idx ℓ)) (f : Buf (Elt F) ℓ) :
    (bigSep Finset.univ fun j : Fin 16 => (ℓ ↦[I]{shShare j.val} f : sProp 𝕄)) ⊢ ℓ ↦[I]{fullShare} f := (pointsTo_shShares I f).2

variable (m : (ℓ : Loc nD τ sig) → Buf (Elt F) ℓ)
variable [FloatOps F]

/-- The table as the contents of SparseCore `c`'s shared scratch (the same shape and element type as the table's array). -/
abbrev shTab (d : Dev nD) (c : Fin τ.nSC) : Buf (Elt F) (shLoc d c) := tabOf m d

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty `n` in tile `j`'s round hands over: subcore 0's, tile `j`'s read share of the shared scratch holding the
    table; the others', nothing. -/
def bPay (g : GSem nD τ sig) (n : ℕ) : sProp 𝕄 :=
  match g with
  | ((d, .scVector c j), _) => if n = 0 then iprop(shLoc d c ↦{shShare j.val} shTab m d c) else iprop(emp)
  | _ => iprop(emp)

/-- The barrier cells' schedule: one round on each, of one unit duty per tile of the SparseCore (named by its number),
    subcore 0's handing over the table. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bPay_zero (d : Dev nD) (c : Fin τ.nSC) (j : Fin τ.nSub) :
    (bRd (F := F) m).payload (bcell d c j) 0 0 = iprop(shLoc d c ↦{shShare j.val} shTab m d c) := by
  show bPay m (bcell d c j) 0 = _
  unfold bPay; dsimp only; rw [if_pos rfl]
theorem bPay_pos (d : Dev nD) (c : Fin τ.nSC) (j : Fin τ.nSub) {n : ℕ} (hn : n ≠ 0) :
    (bRd (F := F) m).payload (bcell d c j) 0 n = iprop(emp) := by
  show bPay m (bcell d c j) n = _
  unfold bPay; dsimp only; rw [if_neg hn]

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore, at the
    call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing), its
    duty token in every tile's round 0, that each cell has reached round 0, its own position at the origin of round 0,
    and the credit for the sixteen units of its own round. What its duties hand over is not in the kit: subcore 0 makes
    it from the scratch it has filled. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KProof

end
-- ==== Proof.SplitK.lean ====
/-
  How the TensorCore's arrays are dealt to the two cores and their sixteen vector subcores. An array every subcore only
  reads goes out in read shares: the full share in two halves, one per core, and each half in sixteen tokens and a
  remainder. The result array goes out by rows: the two cores' row sets, and within a core the sixteen subcores' row sets;
  since every piece holds the same function, splitting and joining are equations.
-/
import proofs.«203798_g65764539236737_cont_9to1_m_400_20_alg».proof.Proof.BaseK
import proofs.«203798_g65764539236737_cont_9to1_m_400_20_alg».proof.Proof.Cover

noncomputable section

namespace Cert.KProof

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ

/-- Core `c`'s half of the full share. -/
def half (c : Fin 2) : PosShare TreeShare := if c.val = 0 then fullShare.left else fullShare.right

/-- Subcore `i` of core `c`'s read token. -/
abbrev tq (c : Fin 2) (i : Fin 16) : PosShare TreeShare := shareTok (half c) 16 i

/-- What is left of core `c`'s half after the sixteen tokens. -/
abbrev tqRest (c : Fin 2) : PosShare TreeShare := shareDrop (half c) 16

theorem pts_halves {ℓ : Loc nD τ sig} (f : Buf (Elt F) ℓ) :
    (ℓ ↦{fullShare} f : sProp 𝕄) ⊣⊢ bigSep Finset.univ fun c : Fin 2 => ℓ ↦{half c} f := by
  have h : (ℓ ↦{fullShare} f : sProp 𝕄) ⊣⊢ iprop((ℓ ↦{fullShare.left} f) ∗ ℓ ↦{fullShare.right} f) :=
    pointsTo_share (PosShare.mem_left_op_right _)
  rw [show (bigSep Finset.univ fun c : Fin 2 => (ℓ ↦{half c} f : sProp 𝕄)) = iprop((ℓ ↦{fullShare.left} f) ∗ ℓ ↦{fullShare.right} f) by
    rw [show (Finset.univ : Finset (Fin 2)) = {0, 1} by decide, SparseCore.bigSep_insert' (by decide), bigSep_singleton]; rfl]
  exact h

theorem pts_tiles {ℓ : Loc nD τ sig} (c : Fin 2) (f : Buf (Elt F) ℓ) :
    (ℓ ↦{half c} f : sProp 𝕄) ⊣⊢ iprop((ℓ ↦{tqRest c} f) ∗ bigSep Finset.univ fun i : Fin 16 => ℓ ↦{tq c i} f) :=
  pointsTo_toks (half c) 16

/-- The result array held whole is its two cores' rows, -/
theorem out_cores (d : Dev nD) (f : Buf (Elt F) (outLoc d)) :
    (outLoc d ↦{fullShare} f : sProp 𝕄) = bigSep Finset.univ fun c : Fin 2 => outLoc d ↦[Cover.coreOut c]{fullShare} f := by
  rw [← pointsTo_biUnion Finset.univ (ℓ := outLoc d) Cover.coreOut Cover.coreOut_disjoint, Cover.coreOut_cover]; try rfl

/-- and a core's rows are its sixteen subcores'. -/
theorem out_tiles (d : Dev nD) (c : Fin 2) (f : Buf (Elt F) (outLoc d)) :
    (outLoc d ↦[Cover.coreOut c]{fullShare} f : sProp 𝕄) = bigSep Finset.univ fun i : Fin 16 => outLoc d ↦[Cover.tileOut c i]{fullShare} f := by
  rw [← pointsTo_biUnion Finset.univ (ℓ := outLoc d) (Cover.tileOut c) (Cover.tileOut_disjoint_sub c), Cover.coreOut_eq]

end Cert.KProof

end
-- ==== Proof.CommonK.lean ====
/-
  What the launch's handshakes carry for the one SparseCore call. The TensorCore hands core c a half share of the
  table's array and of the index array, each at its value as a function of the arguments, and core c's rows of the result
  array; the core hands subcore i a read token of each, the subcore's rows of the result, and, to subcore 0 alone, the
  core's shared scratch whole. A subcore hands back its tokens, its rows holding the result, and the read share of the
  shared scratch, holding the table, that the barrier left it with; the core hands back its halves and its rows holding
  the result. Each subcore's proof consumes its barrier kit and owes an arrival on every barrier cell of its core.
-/
import proofs.«203798_g65764539236737_cont_9to1_m_400_20_alg».proof.Proof.BaseK
import proofs.«203798_g65764539236737_cont_9to1_m_400_20_alg».proof.Proof.CellsK
import proofs.«203798_g65764539236737_cont_9to1_m_400_20_alg».proof.Proof.SplitK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- A core of the call's grid and a subcore of it, as plain numbers below 2 and 16. -/
abbrev cF (c : Fin ((K (F := F)).nCore 0)) : Fin 2 := Fin.cast nCore_zero c
abbrev iF (i : Fin ((K (F := F)).nSub 0)) : Fin 16 := Fin.cast nSub_zero i

/-- What core `c` is handed, with the result rows at `f`. -/
abbrev corePts (d : Dev nD) (c : Fin 2) (f : Buf (Elt F) (outLoc d)) : sProp 𝕄 :=
  iprop((tabLoc d ↦{half c} tabOf m d) ∗ (idxLoc d ↦{half c} idxOf m d) ∗ outLoc d ↦[Cover.coreOut c]{fullShare} f)

/-- What subcore `i` of core `c` is handed of the TensorCore's arrays, with the result rows at `f`. -/
abbrev tilePts (d : Dev nD) (c : Fin 2) (i : Fin 16) (f : Buf (Elt F) (outLoc d)) : sProp 𝕄 :=
  iprop((tabLoc d ↦{tq c i} tabOf m d) ∗ (idxLoc d ↦{tq c i} idxOf m d) ∗ outLoc d ↦[Cover.tileOut c i]{fullShare} f)

/-- The shared scratch as a subcore receives it: whole, at some contents, for subcore 0; nothing for the others. -/
def shGo (d : Dev nD) (c : Fin τ.nSC) (i : Fin 16) : sProp 𝕄 :=
  if i.val = 0 then iprop(∃ f, shLoc d c ↦{fullShare} f) else iprop(emp)

/-- The shared scratch as a subcore returns it: its read share, holding the table. -/
abbrev shTd (d : Dev nD) (c : Fin τ.nSC) (i : Fin 16) : sProp 𝕄 := shLoc d c ↦{shShare i.val} shTab m d c

instance shGo_storable (d : Dev nD) (c : Fin τ.nSC) (i : Fin 16) : BI.Storable (upEmb : UEmb _ 𝕄) (shGo (F := F) d c i) := by
  unfold shGo; split <;> infer_instance

def P : (K (F := F)).Pay (nD := nD) (Val := Elt F) (Name := ℕ) (U := UU) where
  st := fun q d c => match q with | 0 => corePts m d (cF c) (m (outLoc d))
  dn := fun q d c => match q with | 0 => corePts m d (cF c) (resOf m d)
  go := fun q d c i => match q with
    | 0 => iprop(tilePts m d (cF c) (iF i) (m (outLoc d)) ∗ shGo d ((K (F := F)).core 0 c) (iF i))
  td := fun q d c i => match q with
    | 0 => iprop(tilePts m d (cF c) (iF i) (resOf m d) ∗ shTd m d ((K (F := F)).core 0 c) (iF i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (corePts m d (cF c) (m (outLoc d))))
  dn q d c := match q with
    | 0 => (inferInstance : BI.Storable (upEmb : UEmb _ 𝕄) (corePts m d (cF c) (resOf m d)))
  go q d c i := match q with
    | 0 => (inferInstance : BI.Storable (upEmb : UEmb _ 𝕄) iprop(tilePts m d (cF c) (iF i) (m (outLoc d)) ∗ shGo d ((K (F := F)).core 0 c) (iF i)))
  td q d c i := match q with
    | 0 => (inferInstance : BI.Storable (upEmb : UEmb _ 𝕄) iprop(tilePts m d (cF c) (iF i) (resOf m d) ∗ shTd m d ((K (F := F)).core 0 c) (iF i)))

end Cert.KProof

end
-- ==== Proof.VecSplitK.lean ====
/-
  How a core's operands split among its sixteen subcores and gather again. The halves of the table's and the index
  array's shares go out as sixteen read tokens each, the remainders waiting for the tokens' return; the core's rows of the
  result go out as the subcores' rows and come back holding the result; the core's shared scratch, one of the
  sequencer's own buffers, goes whole to subcore 0 and comes back as the sixteen read shares the barrier dealt, which
  compose to the full share.
-/
import proofs.«203798_g65764539236737_cont_9to1_m_400_20_alg».proof.Proof.CommonK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

omit [FloatOps F] in
theorem bigSep_tasks (Φ : Fin 16 → sProp 𝕄) :
    (bigSep Finset.univ fun i : Fin ((K (F := F)).nSub 0) => Φ (iF i)) = bigSep Finset.univ Φ :=
  bigSep_congr fun _ _ => congrArg Φ (Fin.ext rfl)

omit [FloatOps F] in
theorem bigSep_emp' {I : Type} (s : Finset I) : (bigSep s fun _ => iprop(emp)) = (iprop(emp) : sProp 𝕄) := bigSep_emp_const s

omit [FloatOps F] in
/-- Only subcore 0 is handed the shared scratch. -/
theorem shGo_all (d : Dev nD) (c : Fin τ.nSC) :
    (bigSep Finset.univ fun i : Fin 16 => shGo (F := F) d c i) = iprop((∃ f, shLoc d c ↦{fullShare} f) ∗ emp) := by
  rw [show (Finset.univ : Finset (Fin 16)) = insert 0 (Finset.univ.erase 0) from (Finset.insert_erase (Finset.mem_univ _)).symm,
    SparseCore.bigSep_insert' (Finset.notMem_erase _ _),
    show (bigSep (Finset.univ.erase (0 : Fin 16)) fun i => shGo (F := F) d c i) = bigSep (Finset.univ.erase (0 : Fin 16)) fun _ => iprop(emp) from
      bigSep_congr fun i hi => by
        unfold shGo; exact if_neg (fun h : i.val = 0 => (Finset.ne_of_mem_erase hi) (Fin.ext h)),
    bigSep_emp']
  unfold shGo; rw [if_pos (show (0 : Fin 16).val = 0 from rfl)]

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(corePts m d (cF c) (m (outLoc d)) ∗ ownBufs (S d ((K (F := F)).core 0 c))) ⊢ |={Set.univ}=> iprop(
      (bigSep Finset.univ fun i : Fin ((K (F := F)).nSub 0) =>
        iprop(tilePts m d (cF c) (iF i) (m (outLoc d)) ∗ shGo d ((K (F := F)).core 0 c) (iF i)))
      ∗ ((bigSep Finset.univ fun i : Fin ((K (F := F)).nSub 0) =>
          iprop(tilePts m d (cF c) (iF i) (resOf m d) ∗ shTd m d ((K (F := F)).core 0 c) (iF i)))
          -∗ iprop(corePts m d (cF c) (resOf m d) ∗ ownBufs (S d ((K (F := F)).core 0 c)))))
  rw [bigSep_tasks (F := F) (fun i => iprop(tilePts m d (cF c) i (m (outLoc d)) ∗ shGo d ((K (F := F)).core 0 c) i)),
    bigSep_tasks (F := F) (fun i => iprop(tilePts m d (cF c) i (resOf m d) ∗ shTd m d ((K (F := F)).core 0 c) i)),
    bigSep_sep', bigSep_sep', bigSep_sep', bigSep_sep', bigSep_sep', bigSep_sep', ownBufs_S, shGo_all]
  unfold corePts
  rw [out_tiles, out_tiles]
  iintro ⟨⟨Ht, Hi, Ho⟩, Hsh, Hrest⟩
  ihave Ht' := (pts_tiles (F := F) (cF c) (tabOf m d)).1 $$ Ht
  icases Ht' with ⟨Htr, Htt⟩
  ihave Hi' := (pts_tiles (F := F) (cF c) (idxOf m d)).1 $$ Hi
  icases Hi' with ⟨Hir, Hit⟩
  imodintro
  isplitl [Htt Hit Ho Hsh]
  · isplitl [Htt Hit Ho]
    · isplitl [Htt]; · iexact Htt
      isplitl [Hit]; · iexact Hit
      iexact Ho
    · isplitl [Hsh]; · iexact Hsh
      iempintro
  iintro ⟨⟨Htt, Hit, Ho⟩, Hsh⟩
  isplitl [Htr Htt Hir Hit Ho]
  · isplitl [Htr Htt]
    · iapply (pts_tiles (F := F) (cF c) (tabOf m d)).2
      isplitl [Htr]; · iexact Htr
      iexact Htt
    isplitl [Hir Hit]
    · iapply (pts_tiles (F := F) (cF c) (idxOf m d)).2
      isplitl [Hir]; · iexact Hir
      iexact Hit
    iexact Ho
  isplitl [Hsh]
  · iexists (shTab m d ((K (F := F)).core 0 c))
    iapply (pointsTo_shShares_join (F := F) Finset.univ (shTab m d ((K (F := F)).core 0 c)))
    iexact Hsh
  iexact Hrest

end Cert.KProof

end
-- ==== Proof.LaunchElemK.lean ====
/-
  The launch element of the proof's ghost state. The element holds the handshakes' initial rounds, the barrier cells'
  initial rounds (one round per cell, a unit duty per subcore of the cell's core) and the TensorCore region's staging
  cells' initial rounds, beside the transfers' counters. At the launch the barrier part funds every cell's round state,
  positions and duty tokens; the barrier semaphores, free and at zero, and the round states allocate the cells'
  invariants all at once; the credit for the arrivals every subcore owes regroups as, per subcore, the sixteen units of its
  own cell. Each subcore is then dealt its kit: every invariant of its core and that each cell reached round 0, shared by
  all, and its own position, tokens and credit.
-/
import proofs.«203798_g65764539236737_cont_9to1_m_400_20_alg».proof.Proof.CommonK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a core. -/
def bToks : Finset (GSem nD τ sig × ℕ × ℕ) :=
  Finset.univ.image fun x : DCI × Fin (grid1.bound 1) => (bcell x.1.1 x.1.2.1 (x.2.castLE hsub1), 0, x.1.2.2.val)

/-- The launch element, given the staging cells' initial rounds. -/
def u₀ (pinit : UP) : UU := (initOf (K (F := F)).hsCells (K (F := F)).hsToks, (initOf bCells bToks, (pinit, 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, (p, (1 : Counters))) : UB × (UP × Counters)))))
  have h2 : (ownU (((1 : UH), (b, (p, (1 : Counters)))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((p, (1 : Counters)) : UP × Counters)))))
  iintro Hu
  ihave H := h1 $$ Hu
  icases H with ⟨HH, HR⟩
  ihave H' := h2 $$ HR
  icases H' with ⟨HB, HP⟩
  isplitl [HH]; · iexact HH
  isplitl [HB]; · iexact HB
  iexact HP

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the arrivals owed, regrouped: each subcore the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem bigSep_emp'' {I : Type} (s : Finset I) : (bigSep s fun _ => iprop(emp)) = (iprop(emp) : sProp 𝕄) := bigSep_emp_const s

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp'']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp'']; iempintro
  isplitl [Hat]; · iexact Hat
  iexact Hcred

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp'']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- The launch element: the handshakes' rounds, what @main's proof starts from (`G`, funded from the staging cells'
    rounds), and every subcore's kit. -/
theorem hu₀ (pinit : UP) (G : Dev nD → sProp 𝕄) (hG : (BI.own (EP (F := F) pinit) : sProp 𝕄) ⊢ |==> bigSep Finset.univ G) :
    iprop(ownU (u₀ (F := F) pinit) ∗ (P (F := F) m).oxCred ∗ (K (F := F)).freeSems0)
    ⊢ |={Set.univ}=> iprop(BI.own (EH (initOf (K (F := F)).hsCells (K (F := F)).hsToks)) ∗ bigSep Finset.univ G
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod hG $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.KProof

end
-- ==== Proof.RegionGhostK.lean ====
/-
  The ghost state the TensorCore region starts from: the pipeline's staging cells' launch state and the duty tokens of
  its one point, per device, and how the launch element's third factor funds them on every device at once.
-/
import proofs.«203798_g65764539236737_cont_9to1_m_400_20_alg».proof.Proof.BaseK
import proofs.«203798_g65764539236737_cont_9to1_m_400_20_alg».proof.Proof.Gen.Kernel.Launch

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The pipeline has no prefetched table: its one admissible contents. -/
abbrev adm : (p : Fin 1) → (pcfgs (F := F) p).Adm := fun p => (cfgs p).toPCfg_adm

/-- The program's staging cells are pairwise distinct. -/
theorem phinj : Function.Injective (Pipeline.cellOf (nD := nD) (τ := τ) (Pipeline.pin (pcfgs (F := F)) adm)) := Gen.cellOf_inj

/-- What the region is entered with on device `d`: its staging cells' launch state and its point's duty tokens. -/
def regionGhost (d : Dev nD) : sProp 𝕄 :=
  iprop(Pipeline.cellsGhost (Pipeline.pin (pcfgs (F := F)) adm) EP 0 d ∗ Pipeline.toksInit (Pipeline.pin (pcfgs (F := F)) adm) EP 0 d)

/-- The launch element's factor for the staging cells funds every device's region. -/
theorem regionGhost_fund :
    BI.own ((EP : Emb UP 𝕄) (initOf (Pipeline.cells (Pipeline.pin (pcfgs (F := F)) adm) phinj) (Pipeline.launchToks (Pipeline.pin (pcfgs (F := F)) adm) phinj)))
      ⊢ iprop(|==> bigSep Finset.univ fun d : Dev nD => (regionGhost (F := F) d : sProp 𝕄)) := by
  refine (Pipeline.fund_ghost (Pipeline.pin (pcfgs (F := F)) adm) EP phinj).trans (bupd_mono ?_)
  rw [← bigSep_sep']
  refine bigSep_mono fun d _ => ?_
  rw [show (Finset.univ : Finset (Fin 1)) = {0} from by decide, bigSep_singleton, bigSep_singleton]
  unfold regionGhost
  exact BI.Entails.refl _

end Cert.KProof

end
-- ==== Proof.LaunchK.lean ====
/-
  The kernel program's run: every weakly fair execution of all its threads ends, nothing faulting, with the four
  arguments unchanged and the result array holding the table's rows named by the combined index words. It is the launch
  theorem for SparseCore programs applied to the subcore's task, the split of a core's operands, @main on the TensorCore
  and the launch element; the final memory is read off the TensorCore's final assertion, the five arrays held whole.
  The precondition gives what the task needs: every combined index word names a row of the table.
-/
import proofs.«203798_g65764539236737_cont_9to1_m_400_20_alg».proof.Proof.VecSplitK
import proofs.«203798_g65764539236737_cont_9to1_m_400_20_alg».proof.Proof.LaunchElemK
import proofs.«203798_g65764539236737_cont_9to1_m_400_20_alg».proof.Proof.RegionGhostK
import proofs.«203798_g65764539236737_cont_9to1_m_400_20_alg».proof.Proof.PreRange
import proofs.«203798_g65764539236737_cont_9to1_m_400_20_alg».proof.Proof.Bridge

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the proof asks of the launch memory: every combined index word names a row of the table. -/
def PreOK : Prop := ∀ (d : Dev nD) (r : (⟨1, ![320000]⟩ : Shape).Idx), (idxOf m d r).toNat < 216

/-- The TensorCore's final assertion: the four arguments as launched and the result array holding the result. -/
abbrev FIN (d : Dev nD) : sProp 𝕄 :=
  iprop((aLoc d ↦{fullShare} m (aLoc d)) ∗ (e0Loc d ↦{fullShare} m (e0Loc d)) ∗ (e1Loc d ↦{fullShare} m (e1Loc d))
    ∗ (e2Loc d ↦{fullShare} m (e2Loc d)) ∗ outLoc d ↦{fullShare} resOf m d)

def fq (d : Dev nD) (s' : Phys nD τ sig (Elt F)) : Prop :=
  s'.mem.mem (outLoc d) = resOf m d ∧ s'.mem.mem (aLoc d) = m (aLoc d) ∧ s'.mem.mem (e0Loc d) = m (e0Loc d)
    ∧ s'.mem.mem (e1Loc d) = m (e1Loc d) ∧ s'.mem.mem (e2Loc d) = m (e2Loc d)

set_option maxRecDepth 16384 in
theorem hfin (d : Dev nD) (s' : Phys nD τ sig (Elt F)) : iprop(FIN m d ∗ SI s') ⊢ (⌜fq m d s'⌝ : sProp 𝕄) := by
  iintro ⟨⟨Ha, H0, H1, H2, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := e0Loc d) (I := Finset.univ) (q := fullShare) (f := m (e0Loc d)))) $$ [HSI H0]
  · isplitl [HSI] <;> iassumption
  icases H with ⟨%h0, HSI, -⟩
  ihave H := (persistent_entails_right (SI_pointsTo_agree (st := s') (ℓ := e1Loc d) (I := Finset.univ) (q := fullShare) (f := m (e1Loc d)))) $$ [HSI H1]
  · isplitl [HSI] <;> iassumption
  icases H with ⟨%h1, HSI, -⟩
  ihave H := (persistent_entails_right (SI_pointsTo_agree (st := s') (ℓ := e2Loc d) (I := Finset.univ) (q := fullShare) (f := m (e2Loc d)))) $$ [HSI H2]
  · isplitl [HSI] <;> iassumption
  icases H with ⟨%h2, HSI, -⟩
  ihave H := (SI_pointsTo_agree (st := s') (ℓ := outLoc d) (I := Finset.univ) (q := fullShare) (f := resOf m d)) $$ [HSI Ho]
  · isplitl [HSI] <;> iassumption
  icases H with %ho
  ipureintro
  exact ⟨funext fun i => ho i (Finset.mem_univ i), funext fun i => ha i (Finset.mem_univ i), funext fun i => h0 i (Finset.mem_univ i),
    funext fun i => h1 i (Finset.mem_univ i), funext fun i => h2 i (Finset.mem_univ i)⟩

/-- The claim's post: on every device the result array holds the result and the arguments are unchanged. -/
def QC : PUnit × MemSt nD τ sig (Elt F) → Prop := fun r => ∀ c : Dev nD,
  r.2.mem (outLoc c) = resOf m c ∧ r.2.mem (aLoc c) = m (aLoc c) ∧ r.2.mem (e0Loc c) = m (e0Loc c)
    ∧ r.2.mem (e1Loc c) = m (e1Loc c) ∧ r.2.mem (e2Loc c) = m (e2Loc c)

/-- The staging cells' initial rounds, the launch element's third component. -/
abbrev pinit : UP := initOf (Pipeline.cells (Pipeline.pin (pcfgs (F := F)) adm) phinj) (Pipeline.launchToks (Pipeline.pin (pcfgs (F := F)) adm) phinj)

/-- The program's run, from the subcore's task and @main's proof. -/
theorem run_of [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ regionGhost (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun d => regionGhost (F := F) d) (FIN m) (u₀ (F := F) (pinit (F := F)))
    (hu₀ m (pinit (F := F)) (fun d => regionGhost (F := F) d) (regionGhost_fund (F := F)))
    hmain (fq m) (hfin m) (QC m) (fun _ h => h)

/-- The precondition gives the range fact: three words below 6 combine to a word below 216. -/
theorem ok_of_range (h : ∀ (d : Dev nD) j, (m (aLoc d) j).toNat < 6) : PreOK m := by
  intro d r
  have e := Bridge.comb_toNat _ _ _ (h d (ValueIdx.ix2 (r 0 : Fin 320000) (0 : Fin 3))) (h d (ValueIdx.ix2 (r 0 : Fin 320000) (1 : Fin 3)))
    (h d (ValueIdx.ix2 (r 0 : Fin 320000) (2 : Fin 3)))
  have h0 := h d (ValueIdx.ix2 (r 0 : Fin 320000) (0 : Fin 3))
  have h1 := h d (ValueIdx.ix2 (r 0 : Fin 320000) (1 : Fin 3))
  have h2 := h d (ValueIdx.ix2 (r 0 : Fin 320000) (2 : Fin 3))
  show (KSpec.idx (m (aLoc d)) r).toNat < 216
  unfold KSpec.idx
  rw [e]; omega

theorem ok_of_pre (hpre : ∀ d : Dev nD, Cert.Pre_input_domain.fn (F := F) (m (aLoc d)) (m (e0Loc d)) (m (e1Loc d)) (m (e2Loc d)) = fun _ => 1#1) : PreOK m :=
  ok_of_range m fun d => Cert.RefSide.range_of_pre (F := F) (m (aLoc d)) (m (e0Loc d)) (m (e1Loc d)) (m (e2Loc d)) (hpre d)

end Cert.KProof

end
-- ==== Proof.TileViews.lean ====
/-
  One vector subcore's storage as its task addresses it: its twelve transfer semaphores and six scratch buffers set
  apart from the rest of its own, the operand arrays through the whole-array memrefs, and the result's chunks through
  the slices the task takes, each chunk's element set the 128 rows it names.
-/
import proofs.«203798_g65764539236737_cont_9to1_m_400_20_alg».proof.Proof.Cells
import proofs.«203798_g65764539236737_cont_9to1_m_400_20_alg».proof.Proof.Cover
import proofs.«203798_g65764539236737_cont_9to1_m_400_20_alg».proof.Proof.Gen.KernelIdeal.Skeleton

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The twelve transfer semaphores and six scratch buffers of a task -/

/-- The twelve transfer semaphores the task uses. -/
def tileSems : Finset (SemLoc sig) :=
  {SemLoc.dma cc1_scratch7.sem, SemLoc.dma cc1_scratch8.sem, SemLoc.dma cc1_scratch9.sem, SemLoc.dma cc1_scratch10.sem,
   SemLoc.dma cc1_scratch11.sem, SemLoc.dma cc1_scratch12.sem, SemLoc.dma cc1_scratch13.sem, SemLoc.dma cc1_scratch14.sem,
   SemLoc.dma cc1_scoped0.sem, SemLoc.dma cc1_scoped1.sem, SemLoc.dma cc1_scoped2.sem, SemLoc.dma cc1_scoped3.sem}

theorem tileSems_scoped : ∀ sm ∈ tileSems, sm.isScoped .scVector = true := by decide

theorem tileSems_bigSep (Φ : SemLoc sig → sProp 𝕄) :
    bigSep tileSems Φ = iprop(Φ (SemLoc.dma cc1_scratch7.sem) ∗ Φ (SemLoc.dma cc1_scratch8.sem) ∗ Φ (SemLoc.dma cc1_scratch9.sem)
      ∗ Φ (SemLoc.dma cc1_scratch10.sem) ∗ Φ (SemLoc.dma cc1_scratch11.sem) ∗ Φ (SemLoc.dma cc1_scratch12.sem)
      ∗ Φ (SemLoc.dma cc1_scratch13.sem) ∗ Φ (SemLoc.dma cc1_scratch14.sem) ∗ Φ (SemLoc.dma cc1_scoped0.sem)
      ∗ Φ (SemLoc.dma cc1_scoped1.sem) ∗ Φ (SemLoc.dma cc1_scoped2.sem) ∗ Φ (SemLoc.dma cc1_scoped3.sem)) := by
  unfold tileSems
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), bigSep_singleton]

def tileRefs : Finset (Ref sig .scVector) := {cc1_scratch1, cc1_scratch2, cc1_scratch3, cc1_scratch4, cc1_scratch5, cc1_scratch6}

theorem tileRefs_bigSep (Φ : Ref sig .scVector → sProp 𝕄) :
    bigSep tileRefs Φ = iprop(Φ cc1_scratch1 ∗ Φ cc1_scratch2 ∗ Φ cc1_scratch3 ∗ Φ cc1_scratch4 ∗ Φ cc1_scratch5 ∗ Φ cc1_scratch6) := by
  unfold tileRefs
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The tile -/

section Tile

variable (d : Dev nD) (L : grid1.Coords)

abbrev cV (L : grid1.Coords) : Fin τ.nSC := (L 0).castLE hcore1
abbrev jV (L : grid1.Coords) : Fin τ.nSub := (L 1).castLE hsub1
/-- The tile's core and subcore numbers. -/
abbrev cL (L : grid1.Coords) : Fin 2 := ⟨(L 0).val, (L 0).isLt⟩
abbrev iL (L : grid1.Coords) : Fin 16 := ⟨(L 1).val, (L 1).isLt⟩
/-- The tile's thread. -/
abbrev tV : Thread nD τ := V d (cV L) (jV L)

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)

/-! ## The tile's semaphores -/

def tileCells : Finset (GSem nD τ sig) := tileSems.image fun sm => (tV d L, sm)

theorem tileCells_sub : tileCells d L ⊆ ownCells (tV d L) := by
  intro g hg
  obtain ⟨sm, hsm, rfl⟩ := Finset.mem_image.mp hg
  exact mem_ownCells.mpr ⟨rfl, tileSems_scoped sm hsm⟩

theorem ownSems0_V :
    (ownSems0 (tV d L) : sProp 𝕄)
      = iprop((semVal (tV d L, SemLoc.dma cc1_scratch7.sem) 0 ∗ semVal (tV d L, SemLoc.dma cc1_scratch8.sem) 0
          ∗ semVal (tV d L, SemLoc.dma cc1_scratch9.sem) 0 ∗ semVal (tV d L, SemLoc.dma cc1_scratch10.sem) 0
          ∗ semVal (tV d L, SemLoc.dma cc1_scratch11.sem) 0 ∗ semVal (tV d L, SemLoc.dma cc1_scratch12.sem) 0
          ∗ semVal (tV d L, SemLoc.dma cc1_scratch13.sem) 0 ∗ semVal (tV d L, SemLoc.dma cc1_scratch14.sem) 0
          ∗ semVal (tV d L, SemLoc.dma cc1_scoped0.sem) 0 ∗ semVal (tV d L, SemLoc.dma cc1_scoped1.sem) 0
          ∗ semVal (tV d L, SemLoc.dma cc1_scoped2.sem) 0 ∗ semVal (tV d L, SemLoc.dma cc1_scoped3.sem) 0)
          ∗ bigSep (ownCells (tV d L) \ tileCells d L) fun g => semVal g 0) := by
  unfold SparseCore.Cfg.ownSems0
  rw [SparseCore.bigSep_sdiff_split' (tileCells_sub d L)]
  have h : (bigSep (tileCells d L) fun g => (semVal g 0 : sProp 𝕄)) = bigSep tileSems fun sm => semVal (tV d L, sm) 0 := by
    unfold tileCells
    exact SparseCore.bigSep_image_of_injOn (fun a _ b _ e => (Prod.mk.inj e).2) _
  rw [h, tileSems_bigSep]

/-! ## The tile's scratch buffers -/

def tileDevRefs : Finset (DevRef τ sig) := tileRefs.image (Proc.scVector (cV L) (jV L)).devRef

theorem tileDevRefs_sub : tileDevRefs L ⊆ ownRefs (τ := τ) (.scVector (cV L) (jV L)) := by
  intro b hb
  obtain ⟨r, hr, rfl⟩ := Finset.mem_image.mp hb
  unfold tileRefs at hr
  simp only [Finset.mem_insert, Finset.mem_singleton] at hr
  rcases hr with rfl | rfl | rfl | rfl | rfl | rfl <;> exact SparseCore.Cfg.mem_ownRefs_of_owner rfl

theorem ownBufs_V :
    (ownBufs (tV d L) : sProp 𝕄)
      = iprop(((∃ f, (tV d L).loc cc1_scratch1 ↦{fullShare} f) ∗ (∃ f, (tV d L).loc cc1_scratch2 ↦{fullShare} f)
          ∗ (∃ f, (tV d L).loc cc1_scratch3 ↦{fullShare} f) ∗ (∃ f, (tV d L).loc cc1_scratch4 ↦{fullShare} f)
          ∗ (∃ f, (tV d L).loc cc1_scratch5 ↦{fullShare} f) ∗ (∃ f, (tV d L).loc cc1_scratch6 ↦{fullShare} f))
          ∗ bigSep (ownRefs (τ := τ) (.scVector (cV L) (jV L)) \ tileDevRefs L) fun b => iprop(∃ f, ((d, b) : Loc nD τ sig) ↦{fullShare} f)) := by
  unfold SparseCore.Cfg.ownBufs
  rw [show (tV d L).2 = Proc.scVector (cV L) (jV L) from rfl, SparseCore.bigSep_sdiff_split' (tileDevRefs_sub L)]
  have h : (bigSep (tileDevRefs L) fun b => (iprop(∃ f, ((d, b) : Loc nD τ sig) ↦{fullShare} f) : sProp 𝕄))
      = bigSep tileRefs fun r => iprop(∃ f, ((d, (Proc.scVector (cV L) (jV L)).devRef r) : Loc nD τ sig) ↦{fullShare} f) := by
    unfold tileDevRefs
    exact SparseCore.bigSep_image_of_injOn (fun a _ b _ e => Proc.devRef_injective _ e) _
  rw [h, tileRefs_bigSep]

end Tile

end Cert.KIProof

end
-- ==== Proof.TileInv.lean ====
/-
  The state of one vector subcore's task at the head of trip g of its loop, as an assertion. The task's 78 chunks of 128
  rows are numbered k; chunk k's index words are words [128 k, 128 k + 128) of the index scratch and its rows of the
  result are rows [row0 + 128 k, + 128). At the head of trip g the gathers of chunks 4 g and 4 g + 1 are in flight into
  buffers 0 and 1; for g > 0 the copies-out of chunks 4 g - 2 and 4 g - 1 are in flight from buffers 2 and 3; chunks below
  4 g - 2 of the result hold the result's value, chunks from 4 g on still hold what the launch left.
-/
import proofs.«203798_g65764539236737_cont_9to1_m_400_20_alg».proof.Proof.TileViews

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

/-- The tile's first row of the result. -/
abbrev row0L (L : grid1.Coords) : ℕ := 19968 * (L 1).val + 9984 * (L 0).val

omit [FloatOps F] in
theorem row0L_le : row0L L + 9984 ≤ 319488 := by
  have h1 : (L 1).val < 16 := (L 1).isLt
  have h0 : (L 0).val < 2 := (L 0).isLt
  unfold row0L; omega

/-! ## The windows, by their first word or row -/

/-- The 128 index words starting at word `o` of the index scratch (clamped into the scratch). -/
abbrev ixRect (o : ℕ) : Rect S9984 :=
  Rect.unit (s := S9984) ![min o 9856] S128.size (fun a => match a with | 0 => by show min o 9856 + 128 ≤ 9984; omega)
abbrev ixWin (o : ℕ) : Memref sig .scVector .vmem S128 .i32 := (ixV).slice (ixRect o) (fun _ => rfl)

/-- The 128 rows starting at row `r` of the result (clamped into the array). -/
abbrev outRect (r : ℕ) : Rect S320000x128 :=
  Rect.unit (s := S320000x128) ![min r 319872, 0] S128x128.size
    (fun a => match a with | 0 => by show min r 319872 + 128 ≤ 320000; omega | 1 => by show (0 : ℕ) + 128 ≤ 128; omega)
abbrev outWin (r : ℕ) : Memref sig .scVector .hbm S128x128 .f32 := (outV).slice (outRect r) (fun _ => rfl)

/-- The shared scratch as the gathers address it: the slice of all of it. -/
abbrev shSl : Memref sig .scVector .shared S216x128 .f32 :=
  (shV).slice (Rect.unit (s := S216x128) ![0, 0] S216x128.size inb_S216x128_S216x128_0_0) (fun _ => rfl)

omit [FloatOps F] in
/-- A slice the program takes at offsets that are `![o]` is the window at `o`. -/
theorem ixSlice_eq {off : Fin 1 → ℕ} {hinb : ∀ a, off a + S128.size a ≤ S9984.size a} (o : ℕ) (ho : o ≤ 9856) (e : off = ![o]) :
    (ixV).slice (Rect.unit (s := S9984) off S128.size hinb) (fun _ => rfl) = ixWin o := by
  subst e
  have : min o 9856 = o := Nat.min_eq_left ho
  unfold ixWin ixRect
  congr 2
  funext a; match a with | 0 => exact this.symm

omit [FloatOps F] in
theorem outSlice_eq {off : Fin 2 → ℕ} {hinb : ∀ a, off a + S128x128.size a ≤ S320000x128.size a} (r : ℕ) (hr : r ≤ 319872) (e : off = ![r, 0]) :
    (outV).slice (Rect.unit (s := S320000x128) off S128x128.size hinb) (fun _ => rfl) = outWin r := by
  subst e
  have : min r 319872 = r := Nat.min_eq_left hr
  unfold outWin outRect
  congr 2
  funext a; match a with | 0 => exact this.symm | 1 => rfl

/-! ## Contents -/

/-- The index scratch after the task's index copy: word `x` is the combined index word of row `row0 + x`. -/
def ixOf : S9984.Idx → Elt F .i32 :=
  fun x => idxOf m d (ValueIdx.ix1 (⟨(row0L L + (x 0 : Fin 9984).val) % 320000, Nat.mod_lt _ (by decide)⟩ : Fin 320000))

/-- What a buffer holds once the gather of the chunk at rows `r, …, r + 127` has landed: those rows of the result. -/
def gat (r : ℕ) : S128x128.Idx → Elt F .f32 :=
  fun x => resOf m d (ValueIdx.ix2 (⟨(r + (x 0 : Fin 128).val) % 320000, Nat.mod_lt _ (by decide)⟩ : Fin 320000) (x 1 : Fin 128))

/-! ## The pieces -/

/-- The index window at word `o`, held by exactly its elements. -/
abbrev ixPts (o : ℕ) : sProp 𝕄 := (ixWin o).view.loc (tV d L) ↦[(ixWin o).view.set]{fullShare} ixOf m d L
/-- The result's rows `r, …, r + 127`, held by exactly their elements, at contents `f`. -/
abbrev outPts (r : ℕ) (f : Buf (Elt F) (outLoc d)) : sProp 𝕄 := (outWin r).view.loc (tV d L) ↦[(outWin r).view.set]{fullShare} f
/-- The tile's read share of the shared scratch. -/
abbrev shQ (L : grid1.Coords) : PosShare TreeShare := shShare (jV L).val
/-- The read token of the shared scratch for the gathers on the transfer semaphore numbered `t`. -/
abbrev shTok (t : ℕ) : sProp 𝕄 := (shSl).view.loc (tV d L) ↦[(shSl).view.set]{Transfers.shareTokN (shQ L) t} shTab m d (cV L)
/-- The four buffers whole, each held by exactly its elements. -/
abbrev b0Pts (f : S128x128.Idx → Elt F .f32) : sProp 𝕄 := (b0V).view.loc (tV d L) ↦[(b0V).view.set]{fullShare} f
abbrev b1Pts (f : S128x128.Idx → Elt F .f32) : sProp 𝕄 := (b1V).view.loc (tV d L) ↦[(b1V).view.set]{fullShare} f
abbrev b2Pts (f : S128x128.Idx → Elt F .f32) : sProp 𝕄 := (b2V).view.loc (tV d L) ↦[(b2V).view.set]{fullShare} f
abbrev b3Pts (f : S128x128.Idx → Elt F .f32) : sProp 𝕄 := (b3V).view.loc (tV d L) ↦[(b3V).view.set]{fullShare} f

/-- The gather of the chunk at index word `o` in flight into buffer `bV` on transfer semaphore `sg` (numbered `t`): it
    delivers the buffer holding the chunk's rows of the result, the chunk's index window, and the read token. -/
abbrev gFlight (sg : DmaSem sig) (t : ℕ) (bP : (S128x128.Idx → Elt F .f32) → sProp 𝕄) (o : ℕ) : sProp 𝕄 :=
  Transfers.Flight (countersEmb : UEmb Counters 𝕄) (tV d L) (SemLoc.dma sg) (default : HIx 1) (b0V).view.dmaCredit
    iprop((bP (gat m d (row0L L + o)) ∗ ixPts m d L o) ∗ shTok m d L t)

/-- The copy-out of the chunk at index word `o` in flight from buffer `bV` on transfer semaphore `ss`: it delivers the
    chunk's rows of the result holding the result's value, and the buffer. -/
abbrev sFlight (ss : DmaSem sig) (bP : (S128x128.Idx → Elt F .f32) → sProp 𝕄) (o : ℕ) : sProp 𝕄 :=
  Transfers.Flight (countersEmb : UEmb Counters 𝕄) (tV d L) (SemLoc.dma ss) (default : HIx 1) (outWin (row0L L + o)).view.dmaCredit
    iprop(outPts d L (row0L L + o) (resOf m d) ∗ bP (gat m d (row0L L + o)))

/-- The index windows not lent to a gather in flight at the head of trip `g`. -/
abbrev ixFam (g : ℕ) : sProp 𝕄 :=
  bigSep (Finset.univ : Finset (Fin 78)) fun k => if k.val = 4 * g ∨ k.val = 4 * g + 1 then iprop(emp) else ixPts m d L (128 * k.val)

/-- The result's chunks at the head of trip `g`: those copied out and waited for hold the result's value, the two being
    copied out are lent, the rest hold what the launch left. -/
abbrev outFam (g : ℕ) : sProp 𝕄 :=
  bigSep (Finset.univ : Finset (Fin 78)) fun k =>
    if k.val + 2 < 4 * g then outPts d L (row0L L + 128 * k.val) (resOf m d)
    else if k.val < 4 * g then iprop(emp)
    else outPts d L (row0L L + 128 * k.val) (m (outLoc d))

/-- The loop's invariant at the head of trip `g`. -/
def Inv (O : CellTallies nD τ sig (HIx 1)) (W : Waits sig (HIx 1)) (g : ℕ) (_ : PUnit) : sProp 𝕄 :=
  iprop(Transfers.MayWaits (tV d L) (default : HIx 1) O
    ∗ (∃ W', ⌜∀ p ∈ W', p ∈ W ∨ p.2 = none⌝ ∗ owes (tV d L) O W')
    ∗ gFlight m d L cc1_scratch7.sem 8 (b0Pts d L) (512 * g)
    ∗ gFlight m d L cc1_scratch8.sem 9 (b1Pts d L) (512 * g + 128)
    ∗ semVal (tV d L, SemLoc.dma cc1_scratch9.sem) 0 ∗ semVal (tV d L, SemLoc.dma cc1_scratch10.sem) 0
    ∗ shTok m d L 10 ∗ shTok m d L 11
    ∗ semVal (tV d L, SemLoc.dma cc1_scratch11.sem) 0 ∗ semVal (tV d L, SemLoc.dma cc1_scratch12.sem) 0
    ∗ (if g = 0 then iprop((∃ f, b2Pts d L f) ∗ (∃ f, b3Pts d L f)
          ∗ semVal (tV d L, SemLoc.dma cc1_scratch13.sem) 0 ∗ semVal (tV d L, SemLoc.dma cc1_scratch14.sem) 0)
        else iprop(sFlight m d L cc1_scratch13.sem (b2Pts d L) (512 * g - 256) ∗ sFlight m d L cc1_scratch14.sem (b3Pts d L) (512 * g - 128)))
    ∗ ixFam m d L g ∗ outFam m d L g)

end Tile

end Cert.KIProof

end
-- ==== Proof.TileFam.lean ====
/-
  The tile's arrays as families of windows: the index scratch is its 78 windows of 128 words, the tile's rows of the
  result are its 78 chunks of 128 rows and its extra chunk, and the tile's read share of the shared scratch is four read
  tokens, one per gather semaphore, and a remainder.
-/
import proofs.«203798_g65764539236737_cont_9to1_m_400_20_alg».proof.Proof.TileInv

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

/-! ## The windows' element sets -/

omit [FloatOps F] in
theorem mem_ixWin_set {o : ℕ} (ho : o ≤ 9856) {x : S9984.Idx} :
    x ∈ (ixWin o).view.set ↔ o ≤ (x 0 : Fin 9984).val ∧ (x 0 : Fin 9984).val < o + 128 := by
  show x ∈ ((View.whole cc1_scratch1).slice (ixRect o)).set ↔ _
  rw [View.set_slice_whole, Rect.mem_set_unit, Nat.min_eq_left ho]
  constructor
  · intro h; exact h 0
  · intro h a; match a with | 0 => exact h

omit [FloatOps F] in
theorem outWin_set {r : ℕ} (hr : r ≤ 319872) : (outWin r).view.set = Cert.Cover.chunkSet r := by
  show ((View.whole main_v11_scv).slice (outRect r)).set = _
  rw [View.set_slice_whole]
  ext j
  rw [Rect.mem_set_unit, Cert.Cover.mem_chunkSet, Nat.min_eq_left hr]
  constructor
  · intro h; exact h 0
  · intro h a
    match a with
    | 0 => exact h
    | 1 =>
      have h1 : (j 1 : ℕ) < 128 := (j 1).isLt
      exact ⟨Nat.zero_le _, by show (j 1 : ℕ) < 0 + 128; omega⟩

omit [FloatOps F] in
theorem shSl_set : (shSl).view.set = Finset.univ := by
  show ((View.whole cc1_scratch0).slice _).set = _
  rw [View.set_slice_whole]
  ext j
  simp only [Rect.mem_set_unit, Finset.mem_univ, iff_true]
  intro a
  match a with
  | 0 =>
    have h0 : (j 0 : ℕ) < 216 := (j 0).isLt
    exact ⟨Nat.zero_le _, by show (j 0 : ℕ) < 0 + 216; omega⟩
  | 1 =>
    have h1 : (j 1 : ℕ) < 128 := (j 1).isLt
    exact ⟨Nat.zero_le _, by show (j 1 : ℕ) < 0 + 128; omega⟩

/-! ## The index scratch is its windows -/

/-- The elements of the index window at word `o`. -/
abbrev ixSet (o : ℕ) : Finset S9984.Idx := (ixWin o).view.set

omit [FloatOps F] in
theorem ixWins_disjoint : ∀ k ∈ (Finset.univ : Finset (Fin 78)), ∀ k' ∈ (Finset.univ : Finset (Fin 78)), k ≠ k' →
    Disjoint (ixSet (128 * k.val)) (ixSet (128 * k'.val)) := by
  intro k _ k' _ h
  refine Finset.disjoint_left.mpr fun x h1 h2 => h (Fin.ext ?_)
  have hk := k.isLt; have hk' := k'.isLt
  have := (mem_ixWin_set (o := 128 * k.val) (by omega)).mp h1
  have := (mem_ixWin_set (o := 128 * k'.val) (by omega)).mp h2
  omega

omit [FloatOps F] in
theorem ixWins_cover : (Finset.univ : Finset (Fin 78)).biUnion (fun k => ixSet (128 * k.val)) = Finset.univ := by
  ext x
  simp only [Finset.mem_biUnion, Finset.mem_univ, true_and, iff_true]
  have hx : ((x 0 : Fin 9984) : ℕ) < 9984 := (x 0 : Fin 9984).isLt
  refine ⟨⟨(x 0 : Fin 9984).val / 128, by omega⟩, ?_⟩
  rw [mem_ixWin_set (by show 128 * ((x 0 : Fin 9984).val / 128) ≤ 9856; omega)]
  show 128 * ((x 0 : Fin 9984).val / 128) ≤ _ ∧ _ < 128 * ((x 0 : Fin 9984).val / 128) + 128
  omega

omit [FloatOps F] in
/-- The index scratch whole is its 78 windows. -/
theorem ix_windows (f : S9984.Idx → Elt F .i32) :
    ((ixV).view.loc (tV d L) ↦{fullShare} f : sProp 𝕄)
      = bigSep Finset.univ fun k : Fin 78 => (ixWin (128 * k.val)).view.loc (tV d L) ↦[(ixWin (128 * k.val)).view.set]{fullShare} f := by
  rw [← pointsTo_biUnion Finset.univ (ℓ := (ixV).view.loc (tV d L)) (fun k : Fin 78 => ixSet (128 * k.val)) ixWins_disjoint, ixWins_cover]; try rfl

omit [FloatOps F] in
/-- A window the program slices at offsets that are `![o]` is the window at word `o`. -/
theorem ixPts_spell {off : Fin 1 → ℕ} {hinb : ∀ a, off a + S128.size a ≤ S9984.size a} (o : ℕ) (ho : o ≤ 9856) (e : off = ![o])
    (q : PosShare TreeShare) (f : S9984.Idx → Elt F .i32) :
    ((((ixV).slice (Rect.unit (s := S9984) off S128.size hinb) (fun _ => rfl)).view.loc (tV d L)
        ↦[((ixV).slice (Rect.unit (s := S9984) off S128.size hinb) (fun _ => rfl)).view.set]{q} f : sProp 𝕄))
      = ((ixWin o).view.loc (tV d L) ↦[(ixWin o).view.set]{q} f) := by
  have hs : (((ixV).slice (Rect.unit (s := S9984) off S128.size hinb) (fun _ => rfl)).view.set : Finset S9984.Idx) = ixSet o := by
    subst e
    ext x
    rw [mem_ixWin_set ho]
    show x ∈ ((View.whole cc1_scratch1).slice _).set ↔ _
    rw [View.set_slice_whole, Rect.mem_set_unit]
    constructor
    · intro h; exact h 0
    · intro h a; match a with | 0 => exact h
  show ((tV d L).loc cc1_scratch1 ↦[(((ixV).slice (Rect.unit (s := S9984) off S128.size hinb) (fun _ => rfl)).view.set : Finset S9984.Idx)]{q} f : sProp 𝕄)
    = ((tV d L).loc cc1_scratch1 ↦[ixSet o]{q} f)
  rw [hs]

omit [FloatOps F] in
/-- A chunk of the result the program slices at offsets that are `![r, 0]` is the chunk at row `r`. -/
theorem outPts_spell {off : Fin 2 → ℕ} {hinb : ∀ a, off a + S128x128.size a ≤ S320000x128.size a} (r : ℕ) (hr : r ≤ 319872) (e : off = ![r, 0])
    (q : PosShare TreeShare) (f : Buf (Elt F) (outLoc d)) :
    ((((outV).slice (Rect.unit (s := S320000x128) off S128x128.size hinb) (fun _ => rfl)).view.loc (tV d L)
        ↦[((outV).slice (Rect.unit (s := S320000x128) off S128x128.size hinb) (fun _ => rfl)).view.set]{q} f : sProp 𝕄))
      = ((outWin r).view.loc (tV d L) ↦[(outWin r).view.set]{q} f) := by
  have hs : (((outV).slice (Rect.unit (s := S320000x128) off S128x128.size hinb) (fun _ => rfl)).view.set : Finset Cert.Cover.OIdx) = (outWin r).view.set := by
    subst e
    rw [outWin_set hr]
    show ((View.whole main_v11_scv).slice _).set = _
    rw [View.set_slice_whole]
    ext j
    rw [Rect.mem_set_unit, Cert.Cover.mem_chunkSet]
    constructor
    · intro h; exact h 0
    · intro h a
      match a with
      | 0 => exact h
      | 1 =>
        have h1 : (j 1 : ℕ) < 128 := (j 1).isLt
        exact ⟨Nat.zero_le _, by show (j 1 : ℕ) < 0 + 128; omega⟩
  show (outLoc d ↦[(((outV).slice (Rect.unit (s := S320000x128) off S128x128.size hinb) (fun _ => rfl)).view.set : Finset Cert.Cover.OIdx)]{q} f : sProp 𝕄)
    = (outLoc d ↦[((outWin r).view.set : Finset Cert.Cover.OIdx)]{q} f)
  rw [hs]

omit [FloatOps F] in
/-- A buffer whole is held by exactly its elements. -/
theorem b0Pts_eq (f : S128x128.Idx → Elt F .f32) : ((tV d L).loc cc1_scratch3 ↦{fullShare} f : sProp 𝕄) = b0Pts d L f := by
  have hs : ((b0V).view.set : Finset S128x128.Idx) = Finset.univ := View.set_whole _
  show ((tV d L).loc cc1_scratch3 ↦[Finset.univ]{fullShare} f : sProp 𝕄) = ((tV d L).loc cc1_scratch3 ↦[((b0V).view.set : Finset S128x128.Idx)]{fullShare} f)
  rw [hs]
omit [FloatOps F] in
theorem b1Pts_eq (f : S128x128.Idx → Elt F .f32) : ((tV d L).loc cc1_scratch4 ↦{fullShare} f : sProp 𝕄) = b1Pts d L f := by
  have hs : ((b1V).view.set : Finset S128x128.Idx) = Finset.univ := View.set_whole _
  show ((tV d L).loc cc1_scratch4 ↦[Finset.univ]{fullShare} f : sProp 𝕄) = ((tV d L).loc cc1_scratch4 ↦[((b1V).view.set : Finset S128x128.Idx)]{fullShare} f)
  rw [hs]
omit [FloatOps F] in
theorem b2Pts_eq (f : S128x128.Idx → Elt F .f32) : ((tV d L).loc cc1_scratch5 ↦{fullShare} f : sProp 𝕄) = b2Pts d L f := by
  have hs : ((b2V).view.set : Finset S128x128.Idx) = Finset.univ := View.set_whole _
  show ((tV d L).loc cc1_scratch5 ↦[Finset.univ]{fullShare} f : sProp 𝕄) = ((tV d L).loc cc1_scratch5 ↦[((b2V).view.set : Finset S128x128.Idx)]{fullShare} f)
  rw [hs]
omit [FloatOps F] in
theorem b3Pts_eq (f : S128x128.Idx → Elt F .f32) : ((tV d L).loc cc1_scratch6 ↦{fullShare} f : sProp 𝕄) = b3Pts d L f := by
  have hs : ((b3V).view.set : Finset S128x128.Idx) = Finset.univ := View.set_whole _
  show ((tV d L).loc cc1_scratch6 ↦[Finset.univ]{fullShare} f : sProp 𝕄) = ((tV d L).loc cc1_scratch6 ↦[((b3V).view.set : Finset S128x128.Idx)]{fullShare} f)
  rw [hs]

omit [FloatOps F] in
/-- Two members of a family of 78 set apart from the rest. -/
theorem fam_focus2 (Φ : Fin 78 → sProp 𝕄) {a b : Fin 78} (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

/-! ## The tile's rows of the result are its chunks -/

omit [FloatOps F] in
theorem row0L_eq : row0L L = Cert.Cover.row0 (cL L) (iL L) := rfl

omit [FloatOps F] in
/-- The tile's rows of the result are its 78 chunks and its extra chunk. -/
theorem out_chunks (f : Buf (Elt F) (outLoc d)) :
    (outLoc d ↦[Cert.Cover.tileOut (cL L) (iL L)]{fullShare} f : sProp 𝕄)
      ⊣⊢ iprop((bigSep Finset.univ fun k : Fin 78 => outPts d L (row0L L + 128 * k.val) f)
          ∗ outLoc d ↦[Cert.Cover.extraSet (cL L) (iL L)]{fullShare} f) := by
  have hr := row0L_le L
  have hset : ∀ k : Fin 78, (outWin (row0L L + 128 * k.val)).view.set = Cert.Cover.chunkSet (Cert.Cover.row0 (cL L) (iL L) + 128 * k.val) := fun k => by
    have := k.isLt
    rw [outWin_set (by omega)]
  have hfam : (outLoc d ↦[(Finset.univ : Finset (Fin 78)).biUnion fun k => Cert.Cover.chunkSet (Cert.Cover.row0 (cL L) (iL L) + 128 * k.val)]{fullShare} f : sProp 𝕄)
      = bigSep Finset.univ fun k : Fin 78 => outPts d L (row0L L + 128 * k.val) f := by
    rw [pointsTo_biUnion Finset.univ (ℓ := outLoc d) _ (Cert.Cover.chunks_disjoint (cL L) (iL L))]
    exact bigSep_congr fun k _ => by unfold outPts; rw [hset k]
  rw [Cert.Cover.tileOut_eq, ← hfam]
  exact pointsTo_union (Cert.Cover.chunks_extra_disjoint (cL L) (iL L))

/-! ## The tile's read share of the shared scratch as read tokens -/

/-- What is left of the tile's read share beside the four gather tokens. -/
abbrev shRest : sProp 𝕄 :=
  iprop((shLoc d (cV L) ↦{Transfers.shareDrop (shQ L) 12} shTab m d (cV L))
    ∗ bigSep (Finset.range 8) fun t => shLoc d (cV L) ↦{Transfers.shareTokN (shQ L) t} shTab m d (cV L))

theorem shTok_eq (t : ℕ) : (shTok m d L t : sProp 𝕄) = shLoc d (cV L) ↦{Transfers.shareTokN (shQ L) t} shTab m d (cV L) := by
  unfold shTok; rw [shSl_set]; rfl

/-- The tile's read share of the shared scratch is the four gather tokens and the remainder. -/
theorem sh_tokens : (shLoc d (cV L) ↦{shQ L} shTab m d (cV L) : sProp 𝕄)
    ⊣⊢ iprop(shRest m d L ∗ shTok m d L 8 ∗ shTok m d L 9 ∗ shTok m d L 10 ∗ shTok m d L 11) := by
  have h := Transfers.pointsTo_toks_range (ℓ := shLoc d (cV L)) (S := Finset.univ) (f := shTab m d (cV L)) (Lvl := ℕ)
    (Name := ℕ) (U := UU) (Ix := HIx 1) (shQ L) 12
  rw [show Finset.range 12 = insert 11 (insert 10 (insert 9 (insert 8 (Finset.range 8)))) from by decide,
    SparseCore.bigSep_insert' (by decide), SparseCore.bigSep_insert' (by decide), SparseCore.bigSep_insert' (by decide), SparseCore.bigSep_insert' (by decide)] at h
  rw [shTok_eq, shTok_eq, shTok_eq, shTok_eq]
  unfold shRest
  constructor
  · refine h.1.trans ?_
    iintro ⟨Hd, H11, H10, H9, H8, Hr⟩
    isplitl [Hd Hr]; · isplitl [Hd] <;> iassumption
    isplitl [H8]; · iexact H8
    isplitl [H9]; · iexact H9
    isplitl [H10]; · iexact H10
    iexact H11
  · refine BIBase.Entails.trans ?_ h.2
    iintro ⟨⟨Hd, Hr⟩, H8, H9, H10, H11⟩
    isplitl [Hd]; · iexact Hd
    isplitl [H11]; · iexact H11
    isplitl [H10]; · iexact H10
    isplitl [H9]; · iexact H9
    isplitl [H8]; · iexact H8
    iexact Hr

end Tile

end Cert.KIProof

end
-- ==== Proof.TilePre.lean ====
/-
  The straight-line steps of the task before its loop that are done by hand: which subcore fills the shared scratch, what
  the subcores' barrier units hand over and what a tile's own round collects, and the barrier itself as one step.
-/
import proofs.«203798_g65764539236737_cont_9to1_m_400_20_alg».proof.Proof.TileFam

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

omit [FloatOps F] in
theorem cond1_pos : ∀ j : Fin (grid1.bound 1), j.val = 0 →
    Scalar.cmpi .ne (Scalar.extui (Scalar.cmpi .eq (BitVec.ofNat 32 j.val) 0#32) : BitVec 32) 0#32 = 1#1 := by decide
omit [FloatOps F] in
theorem cond1_neg : ∀ j : Fin (grid1.bound 1), j.val ≠ 0 →
    ¬ Scalar.cmpi .ne (Scalar.extui (Scalar.cmpi .eq (BitVec.ofNat 32 j.val) 0#32) : BitVec 32) 0#32 = 1#1 := by decide

/-- What the launch hands the task of the shared scratch: subcore 0 the whole scratch at some contents, the others nothing. -/
abbrev shGoL : sProp 𝕄 := if (iL L).val = 0 then iprop(∃ f, shLoc d (cV L) ↦{fullShare} f) else iprop(emp)

/-- Subcore 0's units hand every tile its read share of the filled scratch. -/
theorem pays_zero (h0 : (L 1).val = 0) : (shLoc d (cV L) ↦{fullShare} shTab m d (cV L) : sProp 𝕄)
    ⊢ bigSep Finset.univ fun j : Fin (grid1.bound 1) => (bRd (F := F) m).payload (bcell d (cV L) (j.castLE hsub1)) 0 (jV L).val := by
  rw [show (jV L).val = 0 from h0]
  refine (pointsTo_shShares_split (F := F) Finset.univ (shTab m d (cV L))).trans (Entails.of_eq ?_)
  exact (bigSep_congr fun j _ => (bPay_zero m d (cV L) (j.castLE hsub1)).symm)

/-- The other subcores' units hand over nothing. -/
theorem pays_pos (h0 : (L 1).val ≠ 0) : (iprop(emp) : sProp 𝕄)
    ⊢ bigSep Finset.univ fun j : Fin (grid1.bound 1) => (bRd (F := F) m).payload (bcell d (cV L) (j.castLE hsub1)) 0 (jV L).val :=
  Entails.of_eq ((bigSep_congr (fun j _ => bPay_pos m d (cV L) (j.castLE hsub1) (n := (jV L).val) h0)).trans (bigSep_emp_const _)).symm

/-- What a tile's own round collected holds its read share of the scratch, filled with the table. -/
theorem pays_elim : (bigSep ((bRd (F := F) m).duties (bcell d (cV L) (jV L)) 0 \ ∅) fun n => (bRd (F := F) m).payload (bcell d (cV L) (jV L)) 0 n)
    ⊢ (shLoc d (cV L) ↦{shShare (jV L).val} shTab m d (cV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  rw [bPay_zero]; exact BI.Entails.refl _

/-- The subcore barrier as one step of the task: the tile pays its unit on every tile's cell, handing over what its
    duties carry, waits for its own round, and comes out owing nothing more to the barrier and holding its read share of
    the shared scratch filled with the table. -/
theorem barrier_step (κ : GSem nD τ sig → ℕ) (O : CellTallies nD τ sig (HIx 1)) (W : Waits sig (HIx 1))
    (hOlev : ∀ g ι, 0 < O g ι → 8 * (0 : Fin 1).val + 6 ≤ (K (F := F)).lev g ι) {α : Type}
    (k : PUnit → Prog (TpuEff nD τ sig (Elt F) Λ₀ (.scVector (cV L) (jV L))) α) (Q : α → sProp 𝕄) :
    iprop(levAts (K (F := F)).L (K (F := F)).lev
      ∗ (bigSep Finset.univ fun j : Fin (grid1.bound 1) => cellInv EB (bRd (F := F) m) (κ (bcell d (cV L) (j.castLE hsub1))) (bcell d (cV L) (j.castLE hsub1)))
      ∗ (bigSep Finset.univ fun j : Fin (grid1.bound 1) => dutyTok EB (bcell d (cV L) (j.castLE hsub1)) 0 (jV L).val)
      ∗ (bigSep Finset.univ fun j : Fin (grid1.bound 1) => (bRd (F := F) m).payload (bcell d (cV L) (j.castLE hsub1)) 0 (jV L).val)
      ∗ (bigSep Finset.univ fun j : Fin (grid1.bound 1) => reached EB (bcell d (cV L) (j.castLE hsub1)) 0)
      ∗ atPos EB (bcell d (cV L) (jV L)) 0 ∅ 0
      ∗ cred (tallyAt (bcell d (cV L) (jV L)) (some 0) (grid1.bound 1))
      ∗ owes (tV d L) (O + oxV d (cV L)) W)
    ⊢ iprop((iprop(owes (tV d L) O (insert (SemLoc.reg sc_bar0, (some 0 : HIx 1)) W) ∗ shLoc d (cV L) ↦{shShare (jV L).val} shTab m d (cV L))
          -∗ wp frame (wpE (defs₀ (F := F)) 𝒱₀ (tV d L) none) Set.univ (k ⟨⟩) Q)
        -∗ wp frame (wpE (defs₀ (F := F)) 𝒱₀ (tV d L) none) Set.univ (SparseCore.subcoreBarrier sc_bar0 (grid1.bound 1) hsub1 >>= k) Q) := by
  iintro ⟨#Hlv, #Hinv, Htoks, Hpays, #Hrch, Hat, Hcred, HO⟩ Hk
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := tV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hgot⟩
  ihave Hmy := (pays_elim (F := F) m d L) $$ Hgot
  iapply Hk
  isplitl [HO]; · iexact HO
  iexact Hmy

/-! ## What the two prologue copies leave -/

/-- The shared scratch after subcore 0's copy holds the table. -/
theorem sh_contents (fS : Buf (Elt F) (shLoc d (cV L))) (pay : S216x128.Idx → Elt F .f32)
    (hpay : pay = (tabV).view.read (Elt F) (tabOf m d)) :
    View.write (Elt F) (shV).view fS pay Finset.univ = shTab m d (cV L) := by
  subst hpay
  rw [View.write_whole_univ]; rfl

omit [FloatOps F] in
/-- The index scratch after the task's index copy holds the tile's index words. -/
theorem ix_contents (fI : Buf (Elt F) ((tV d L).loc cc1_scratch1)) (pay : S9984.Idx → Elt F .i32)
    (hpay : pay = ((idxV).slice (Rect.unit (s := S320000) (k1_off1 L) S9984.size (k1_off1_inb L)) (fun _ => rfl)).view.read (Elt F) (idxOf m d)) :
    View.write (Elt F) (ixV).view fI pay Finset.univ = ixOf m d L := by
  subst hpay
  rw [View.write_whole_univ]
  funext x
  rw [View.read_apply]
  unfold ixOf
  refine (cast_eq _ _).trans ?_
  congr 1
  funext a
  match a with
  | 0 =>
    have hx : ((x 0 : Fin 9984) : ℕ) < 9984 := (x 0 : Fin 9984).isLt
    have hr := row0L_le L
    apply Fin.ext
    show (k1_off1 L) 0 + 1 * (x 0 : Fin 9984).val = (row0L L + (x 0 : Fin 9984).val) % 320000
    have e : (k1_off1 L) 0 = row0L L := by rw [k1_off1_eq]; rfl
    rw [e, Nat.one_mul, Nat.mod_eq_of_lt (by omega)]

omit [FloatOps F] in
/-- Every word of the tile's index scratch names a row of the table. -/
theorem hin_slice (hrange : ∀ r, (idxOf m d r).toNat < 216) (r : Rect S9984) (hr : ∀ a, r.stride a = 1) :
    ∀ x, (((ixV).slice r hr).view.read (Elt F) (ixOf m d L) x).toNat < S216x128.size gathers_S216x128_S128x128.axis := by
  intro x
  rw [View.read_apply]
  refine lt_of_eq_of_lt (congrArg BitVec.toNat (cast_eq _ _)) ?_
  exact hrange _

end Tile

end Cert.KIProof

end
-- ==== Proof.TileVals.lean ====
/-
  The values the subcore's transfers move. A gather whose offset list holds the combined index words of 128 consecutive
  rows of the result lands those rows of the result: each word, below 216, names the table's row that the result's row is.
  A copy of a buffer holding 128 consecutive rows of the result onto those rows of the result array leaves them holding
  the result.
-/
import proofs.«203798_g65764539236737_cont_9to1_m_400_20_alg».proof.Proof.TileInv

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "outV" => (Memref.whole Cert.KernelIdeal.main_v11_scv : Memref Cert.KernelIdeal.sig Kind.scVector Space.hbm Cert.KernelIdeal.S320000x128 EltTy.f32)

variable (m : (ℓ : Loc nD τ sig) → Buf (Elt F) ℓ)
variable [FloatOps F]

section Tile

variable (d : Dev nD) (L : grid1.Coords)

/-- The offset list's entry for row `k` of the destination is the list's word `k`. -/
theorem rows_apply (I : S128.Idx → Elt F .i32) (hn : S128.numel = 128) (hin : ∀ x, (I x).toNat < 216) (k : Fin 128) :
    (SparseCore.rows I hn hin k).val = (I (ix1 k)).toNat := by
  unfold SparseCore.rows
  show (I (S128.rowMajor.symm (k.cast hn.symm))).toNat = (I (ix1 k)).toNat
  congr 2
  rw [Equiv.symm_apply_eq]
  exact Fin.ext (by rw [Shape.rowMajor_val_one]; rfl)

/-- A gather through an offset list holding the combined index words of rows `r, …, r + 127` lands those rows of the
    result. -/
theorem gather_value (hrange : ∀ r, (idxOf m d r).toNat < 216) (r : ℕ)
    (I : S128.Idx → Elt F .i32)
    (hI : ∀ k : Fin 128, I (ix1 k) = idxOf m d (ix1 (⟨(r + k.val) % 320000, Nat.mod_lt _ (by decide)⟩ : Fin 320000)))
    (hn : S128.numel = S128x128.size (gathers_S216x128_S128x128).axis')
    (hin : ∀ x, (I x).toNat < S216x128.size (gathers_S216x128_S128x128).axis) :
    SparseCore.gatherPayload gathers_S216x128_S128x128 (tabOf m d) (SparseCore.rows I hn hin) = gat m d r := by
  funext x
  obtain ⟨p, c, rfl⟩ : ∃ (p : Fin 128) (c : Fin 128), x = ix2 p c := ⟨x 0, x 1, eq_ix2 x⟩
  unfold SparseCore.gatherPayload gat
  show tabOf m d _ = KSpec.res (m (aLoc d)) (m (e0Loc d)) (m (e1Loc d)) (m (e2Loc d)) _
  unfold KSpec.res
  refine congrArg (tabOf m d) (funext fun b => ?_)
  match b with
  | ⟨0, _⟩ =>
    apply Fin.ext
    have h0 := Shape.Gathers.idx_axis gathers_S216x128_S128x128 (SparseCore.rows I hn hin) (ix2 p c)
    have h1 : ((gathers_S216x128_S128x128).idx (SparseCore.rows I hn hin) (ix2 p c) (gathers_S216x128_S128x128).axis).val
        = (I (ix1 p)).toNat := by
      rw [h0]; exact rows_apply I hn hin p
    refine h1.trans ?_
    rw [hI p]
    exact (Nat.mod_eq_of_lt (hrange _)).symm
  | ⟨1, _⟩ =>
    apply Fin.ext
    exact Shape.Gathers.idx_of_ne gathers_S216x128_S128x128 (SparseCore.rows I hn hin) (ix2 p c) ⟨1, by decide⟩ (by decide)

omit [FloatOps F] in
/-- The shared scratch read through the slice of all of it is its contents. -/
theorem vals_sh_read (h1 : ∀ a, (![0, 0] : Fin 2 → ℕ) a + S216x128.size a ≤ S216x128.size a)
    (h2 : ∀ a, (Rect.unit (s := S216x128) ![0, 0] S216x128.size h1).stride a = 1) (T : S216x128.Idx → Elt F .f32) :
    (((Memref.whole Cert.KernelIdeal.cc1_scratch0 : Memref Cert.KernelIdeal.sig Kind.scVector Space.shared Cert.KernelIdeal.S216x128 EltTy.f32).slice
      (Rect.unit (s := S216x128) ![0, 0] S216x128.size h1) h2).view.read (Elt F) T) = T := by
  funext y
  show T _ = T y
  refine congrArg T (funext fun a => Fin.ext ?_)
  match a with
  | ⟨0, _⟩ => show 0 + 1 * (y 0).val = (y 0).val; omega
  | ⟨1, _⟩ => show 0 + 1 * (y 1).val = (y 1).val; omega

/-- The same with the table read through the slice of all of the shared scratch, and the list's words given at any index. -/
theorem gather_value' (hrange : ∀ r, (idxOf m d r).toNat < 216) (I : S128.Idx → Elt F .i32) (r : ℕ)
    (hI : ∀ x, I x = idxOf m d (ix1 (⟨(r + (x 0 : Fin 128).val) % 320000, Nat.mod_lt _ (by decide)⟩ : Fin 320000)))
    (h1 : ∀ a, (![0, 0] : Fin 2 → ℕ) a + S216x128.size a ≤ S216x128.size a)
    (h2 : ∀ a, (Rect.unit (s := S216x128) ![0, 0] S216x128.size h1).stride a = 1)
    (hn : S128.numel = S128x128.size (gathers_S216x128_S128x128).axis')
    (hin : ∀ x, (I x).toNat < S216x128.size (gathers_S216x128_S128x128).axis) :
    SparseCore.gatherPayload gathers_S216x128_S128x128
        (((Memref.whole Cert.KernelIdeal.cc1_scratch0 : Memref Cert.KernelIdeal.sig Kind.scVector Space.shared Cert.KernelIdeal.S216x128 EltTy.f32).slice
          (Rect.unit (s := S216x128) ![0, 0] S216x128.size h1) h2).view.read (Elt F) (tabOf m d))
        (SparseCore.rows I hn hin) = gat m d r := by
  rw [vals_sh_read]
  exact gather_value m d hrange r I (fun k => hI (ix1 k)) hn hin

/-- Rows `r, …, r + 127` of the result array, written with a buffer holding those rows of the result, hold the result. -/
theorem out_value (r : ℕ) (hr : r ≤ 319872) (f0 : Buf (Elt F) (outLoc d)) :
    ((outWin r).view.loc (tV d L) ↦[(outWin r).view.set]{fullShare}
        (outWin r).view.writes (Elt F) f0 [⟨Rect.whole S128x128, gat m d r⟩] : sProp 𝕄)
      = outPts d L r (resOf m d) := by
  unfold outPts
  refine pointsTo_congr fun i hi => ?_
  obtain ⟨x, -, rfl⟩ := Finset.mem_map.mp hi
  have h := View.read_writes_cons_emb (outWin r).view f0 (Rect.whole S128x128) (gat m d r) [] x
  rw [Rect.emb_whole_apply, View.read_apply] at h
  have h' : (outWin r).view.writes (Elt F) f0 [⟨Rect.whole S128x128, gat m d r⟩] ((outWin r).view.emb x) = gat m d r x :=
    (cast_eq _ _).symm.trans h
  refine h'.trans ?_
  obtain ⟨p, c, rfl⟩ : ∃ (p : Fin 128) (c : Fin 128), x = ix2 p c := ⟨x 0, x 1, eq_ix2 x⟩
  unfold gat
  refine congrArg (resOf m d) (funext fun a => Fin.ext ?_)
  have hp := p.isLt
  match a with
  | ⟨0, _⟩ =>
    show (r + p.val) % 320000 = min r 319872 + 1 * p.val
    rw [Nat.min_eq_left hr, Nat.mod_eq_of_lt (by omega)]; omega
  | ⟨1, _⟩ =>
    show c.val = 0 + 1 * c.val
    omega

end Tile

end Cert.KIProof

end
-- ==== Proof.TileEntry.lean ====
/-
  From the state at the loop's head, after the two first gathers are issued, to the loop's invariant at trip 0: a
  gather's flight as the invariant states it, what an index window reads, and the families at trip 0.
-/
import proofs.«203798_g65764539236737_cont_9to1_m_400_20_alg».proof.Proof.TilePre
import proofs.«203798_g65764539236737_cont_9to1_m_400_20_alg».proof.Proof.TileVals

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

omit [FloatOps F] in
/-- An index window the program slices at offsets that are `![o]` reads the combined index words of rows
    `row0 + o, …, row0 + o + 127`. -/
theorem win_read {off : Fin 1 → ℕ} {hinb : ∀ a, off a + S128.size a ≤ S9984.size a} (o : ℕ) (ho : o ≤ 9856) (e : off = ![o]) :
    ∀ x, (((ixV).slice (Rect.unit (s := S9984) off S128.size hinb) (fun _ => rfl)).view.read (Elt F) (ixOf m d L)) x
      = idxOf m d (ix1 (⟨((row0L L + o) + (x 0 : Fin 128).val) % 320000, Nat.mod_lt _ (by decide)⟩ : Fin 320000)) := by
  subst e
  intro x
  rw [View.read_apply]
  refine (cast_eq _ _).trans ?_
  unfold ixOf
  refine congrArg (idxOf m d) (funext fun a => ?_)
  match a with
  | 0 =>
    apply Fin.ext
    show (row0L L + (o + 1 * (x 0 : Fin 128).val)) % 320000 = ((row0L L + o) + (x 0 : Fin 128).val) % 320000
    congr 1; omega

omit [FloatOps F] in
/-- A buffer written whole with a payload holds the payload. -/
theorem b0_landed (f0 pay : S128x128.Idx → Elt F .f32) :
    ((b0V).view.loc (tV d L) ↦[(b0V).view.set]{fullShare} (b0V).view.writes (Elt F) f0 [⟨Rect.whole cc1_scratch3.ty.shape, pay⟩] : sProp 𝕄)
      = b0Pts d L pay := by
  unfold b0Pts
  refine pointsTo_congr fun i hi => ?_
  obtain ⟨x, -, rfl⟩ := Finset.mem_map.mp hi
  have h := View.read_writes_cons_emb (b0V).view f0 (Rect.whole cc1_scratch3.ty.shape) pay [] x
  rw [Rect.emb_whole_apply, View.read_apply] at h
  exact (cast_eq _ _).symm.trans h
omit [FloatOps F] in
theorem b1_landed (f0 pay : S128x128.Idx → Elt F .f32) :
    ((b1V).view.loc (tV d L) ↦[(b1V).view.set]{fullShare} (b1V).view.writes (Elt F) f0 [⟨Rect.whole cc1_scratch4.ty.shape, pay⟩] : sProp 𝕄)
      = b1Pts d L pay := by
  unfold b1Pts
  refine pointsTo_congr fun i hi => ?_
  obtain ⟨x, -, rfl⟩ := Finset.mem_map.mp hi
  have h := View.read_writes_cons_emb (b1V).view f0 (Rect.whole cc1_scratch4.ty.shape) pay [] x
  rw [Rect.emb_whole_apply, View.read_apply] at h
  exact (cast_eq _ _).symm.trans h

omit [FloatOps F] in
theorem bufCredit : (b0V).view.dmaCredit = 524288 := by decide

/-- A gather's flight whose delivery yields the buffer holding the chunk's rows, the chunk's index window and the read
    token is the flight the invariant states. -/
theorem gFlight_intro0 (sg : DmaSem sig) (t : ℕ) (bP : (S128x128.Idx → Elt F .f32) → sProp 𝕄) (o : ℕ) (D : sProp 𝕄)
    (h : D ⊢ iprop((bP (gat m d (row0L L + o)) ∗ ixPts m d L o) ∗ shTok m d L t)) :
    (Transfers.Flight (countersEmb : UEmb Counters 𝕄) (tV d L) (SemLoc.dma sg) (default : HIx 1) 524288 D : sProp 𝕄)
      ⊢ gFlight m d L sg t bP o := by
  unfold gFlight
  rw [bufCredit]
  exact Transfers.Flight_mono (countersEmb : UEmb Counters 𝕄) (tV d L) h

/-- A gather into buffer 0 in flight, its delivery stated over the written buffer, is the flight the invariant states. -/
theorem gFlight_exec0 (sg sg' : DmaSem sig) (hsg : sg' = sg) (t : ℕ) (o : ℕ) (ho : o ≤ 9856) {off : Fin 1 → ℕ} {hinb : ∀ a, off a + S128.size a ≤ S9984.size a} (e : off = ![o])
    (f0 pay : S128x128.Idx → Elt F .f32) (hpay : pay = gat m d (row0L L + o))
    (hs : ∀ a, (Rect.unit (s := S216x128) ![0, 0] S216x128.size inb_S216x128_S216x128_0_0).stride a = 1) :
    (Transfers.Flight (countersEmb : UEmb Counters 𝕄) (tV d L) (SemLoc.dma sg') (default : HIx 1) 524288
      iprop((((b0V).view.loc (tV d L) ↦[(b0V).view.set]{fullShare} (b0V).view.writes (Elt F) f0 [⟨Rect.whole cc1_scratch3.ty.shape, pay⟩])
          ∗ (((ixV).slice (Rect.unit (s := S9984) off S128.size hinb) (fun _ => rfl)).view.loc (tV d L)
              ↦[((ixV).slice (Rect.unit (s := S9984) off S128.size hinb) (fun _ => rfl)).view.set]{fullShare} ixOf m d L))
        ∗ ((shSl).view.loc (tV d L) ↦[((shV).slice (Rect.unit (s := S216x128) ![0, 0] S216x128.size inb_S216x128_S216x128_0_0) hs).view.set]{Transfers.shareTokN (shQ L) t}
            shTab m d (cV L))) : sProp 𝕄)
      ⊢ gFlight m d L sg t (b0Pts d L) o := by
  subst hpay hsg
  refine gFlight_intro0 m d L _ t (b0Pts d L) o _ ?_
  rw [b0_landed, ixPts_spell d L o ho e]

/-- A gather into buffer 1 in flight, its delivery stated over the written buffer, is the flight the invariant states. -/
theorem gFlight_exec1 (sg sg' : DmaSem sig) (hsg : sg' = sg) (t : ℕ) (o : ℕ) (ho : o ≤ 9856) {off : Fin 1 → ℕ} {hinb : ∀ a, off a + S128.size a ≤ S9984.size a} (e : off = ![o])
    (f0 pay : S128x128.Idx → Elt F .f32) (hpay : pay = gat m d (row0L L + o))
    (hs : ∀ a, (Rect.unit (s := S216x128) ![0, 0] S216x128.size inb_S216x128_S216x128_0_0).stride a = 1) :
    (Transfers.Flight (countersEmb : UEmb Counters 𝕄) (tV d L) (SemLoc.dma sg') (default : HIx 1) 524288
      iprop((((b1V).view.loc (tV d L) ↦[(b1V).view.set]{fullShare} (b1V).view.writes (Elt F) f0 [⟨Rect.whole cc1_scratch4.ty.shape, pay⟩])
          ∗ (((ixV).slice (Rect.unit (s := S9984) off S128.size hinb) (fun _ => rfl)).view.loc (tV d L)
              ↦[((ixV).slice (Rect.unit (s := S9984) off S128.size hinb) (fun _ => rfl)).view.set]{fullShare} ixOf m d L))
        ∗ ((shSl).view.loc (tV d L) ↦[((shV).slice (Rect.unit (s := S216x128) ![0, 0] S216x128.size inb_S216x128_S216x128_0_0) hs).view.set]{Transfers.shareTokN (shQ L) t}
            shTab m d (cV L))) : sProp 𝕄)
      ⊢ gFlight m d L sg t (b1Pts d L) o := by
  subst hpay hsg
  refine gFlight_intro0 m d L _ t (b1Pts d L) o _ ?_
  rw [b1_landed, ixPts_spell d L o ho e]

omit [FloatOps F] in
/-- The index windows at trip 0: all but the first two, which the first two gathers hold. -/
theorem ixFam_zero :
    (bigSep (((Finset.univ : Finset (Fin 78)).erase ⟨0, by decide⟩).erase ⟨1, by decide⟩) fun k => ixPts m d L (128 * k.val))
      ⊢ ixFam m d L 0 := by
  unfold ixFam
  rw [fam_focus2 _ (a := (⟨0, by decide⟩ : Fin 78)) (b := (⟨1, by decide⟩ : Fin 78)) (by decide),
    if_pos (show ((⟨0, by decide⟩ : Fin 78) : ℕ) = 4 * 0 ∨ ((⟨0, by decide⟩ : Fin 78) : ℕ) = 4 * 0 + 1 from Or.inl rfl),
    if_pos (show ((⟨1, by decide⟩ : Fin 78) : ℕ) = 4 * 0 ∨ ((⟨1, by decide⟩ : Fin 78) : ℕ) = 4 * 0 + 1 from Or.inr rfl)]
  have h : (bigSep (((Finset.univ : Finset (Fin 78)).erase ⟨0, by decide⟩).erase ⟨1, by decide⟩)
        fun k : Fin 78 => if k.val = 4 * 0 ∨ k.val = 4 * 0 + 1 then (iprop(emp) : sProp 𝕄) else ixPts m d L (128 * k.val))
      = bigSep (((Finset.univ : Finset (Fin 78)).erase ⟨0, by decide⟩).erase ⟨1, by decide⟩) fun k => ixPts m d L (128 * k.val) :=
    bigSep_congr fun k hk => if_neg (by
      have h1 : k ≠ ⟨1, by decide⟩ := (Finset.mem_erase.mp hk).1
      have h0 : k ≠ ⟨0, by decide⟩ := (Finset.mem_erase.mp (Finset.mem_erase.mp hk).2).1
      have h1' : k.val ≠ 1 := fun e => h1 (Fin.ext e)
      have h0' : k.val ≠ 0 := fun e => h0 (Fin.ext e)
      omega)
  rw [h]
  iintro H
  isplitr; · iempintro
  isplitr; · iempintro
  iexact H

/-- The result's chunks at trip 0: all as the launch left them. -/
theorem outFam_zero : (outFam m d L 0 : sProp 𝕄) = bigSep Finset.univ fun k : Fin 78 => outPts d L (row0L L + 128 * k.val) (m (outLoc d)) :=
  bigSep_congr fun k _ => by rw [if_neg (by omega), if_neg (by omega)]

end Tile

end Cert.KIProof

end
-- ==== Proof.TileOffs.lean ====
/-
  One trip of the subcore's counted loop waits, before it reuses a buffer, for the copy that last read it: the copies
  of chunks 4 g - 2 and 4 g - 1 at the first two steps of trip g, which exist exactly when g is not 0, and the copies
  of chunks 4 g and 4 g + 1 at the last two, which the trip itself started. Here the four conditions are decided as
  statements about g, and the row offsets of the first two waits, which are only meaningful when g is not 0, are put
  in closed form: 128 (4 g - 2) and 128 (4 g - 1) rows after the subcore's first row, column 0.
-/
import proofs.«203798_g65764539236737_cont_9to1_m_400_20_alg».proof.Proof.Base

namespace Cert.KIProof

open Cert.KernelIdeal Cert.KernelIdeal.Gen
open Idealize.ShloMosaic

/-! ## The four conditions of a trip -/

/-- The wait for the copy of chunk 4 g - 2 is taken exactly when g is not 0. -/
theorem k1_cond2_iff : ∀ g : Fin k1_t1_loop.trips, (k1_cond2 g = 1#1 ↔ g.val ≠ 0) := by decide +kernel
/-- The wait for the copy of chunk 4 g - 1 is taken exactly when g is not 0. -/
theorem k1_cond3_iff : ∀ g : Fin k1_t1_loop.trips, (k1_cond3 g = 1#1 ↔ g.val ≠ 0) := by decide +kernel
/-- The wait for the copy of chunk 4 g is always taken. -/
theorem k1_cond4_all : ∀ g : Fin k1_t1_loop.trips, k1_cond4 g = 1#1 := by decide +kernel
/-- The wait for the copy of chunk 4 g + 1 is always taken. -/
theorem k1_cond5_all : ∀ g : Fin k1_t1_loop.trips, k1_cond5 g = 1#1 := by decide +kernel

/-! ## The two offsets that have a closed form only past the first trip -/

/-- The rows of chunk 4 g - 2, for g not 0: 4 g - 2 does not wrap below zero there. -/
theorem k1_off2_eq (i : grid1.Coords) (g : Fin k1_t1_loop.trips) (hg : g.val ≠ 0) :
    k1_off2 i g = ![19968 * (i 1).val + 9984 * (i 0).val + 128 * (4 * g.val - 2), 0] := by
  have r_i1 : (i 1).val < 16 := (i 1).isLt
  have h_arg1 : Affine.IsInt (BitVec.ofNat 32 (i 1).val) (((i 1).val : Int)) := Affine.ofNat _ (by omega)
  have h_c2 : Affine.IsInt 2#32 (2) := Affine.ofNat _ (by omega)
  have h_v0 : Affine.IsInt _ (2 * ((i 1).val : Int)) := Affine.muli h_arg1 h_c2 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c9984 : Affine.IsInt 9984#32 (9984) := Affine.ofNat _ (by omega)
  have h_v2 : Affine.IsInt _ (19968 * ((i 1).val : Int) + 9984 * ((i 0).val : Int)) := Affine.muli h_v1 h_c9984 (by omega)
  have h_c0 : Affine.IsInt 0#32 (0) := Affine.ofNat _ (by omega)
  have h_c1 : Affine.IsInt 1#32 (1) := Affine.ofNat _ (by omega)
  have r_g : g.val < 19 := Nat.lt_of_lt_of_le g.isLt k1_t1_abs.2.1
  have h_arg20 : Affine.IsInt _ ((g.val : Int)) := Affine.iv h_c0 h_c1 g.val (by omega)
  have h_c4 : Affine.IsInt 4#32 (4) := Affine.ofNat _ (by omega)
  have h_v36 : Affine.IsInt _ (4 * (g.val : Int)) := Affine.muli h_arg20 h_c4 (by omega)
  have h_v37 : Affine.IsInt _ (4 * (g.val : Int)) := Affine.addi h_v36 h_c0 (by omega)
  have h_v100 : Affine.IsInt _ (4 * (g.val : Int) - 2) := Affine.subi h_v37 h_c2 (by omega)
  have h_c128 : Affine.IsInt 128#32 (128) := Affine.ofNat _ (by omega)
  have h_v101 : Affine.IsInt _ (512 * (g.val : Int) - 256) := Affine.muli h_v100 h_c128 (by omega)
  have h_v102 : Affine.IsInt _ (19968 * ((i 1).val : Int) + 9984 * ((i 0).val : Int) + 512 * (g.val : Int) - 256) :=
    Affine.addi h_v2 h_v101 (by omega)
  exact Affine.vec_cons h_v102 (by omega) <| Affine.vec_cons (Affine.ofNat 0 (by omega) : Affine.IsInt 0#32 0) (by omega) <| Affine.vec_nil

/-- The rows of chunk 4 g - 1, for g not 0. -/
theorem k1_off6_eq (i : grid1.Coords) (g : Fin k1_t1_loop.trips) (hg : g.val ≠ 0) :
    k1_off6 i g = ![19968 * (i 1).val + 9984 * (i 0).val + 128 * (4 * g.val - 1), 0] := by
  have r_i1 : (i 1).val < 16 := (i 1).isLt
  have h_arg1 : Affine.IsInt (BitVec.ofNat 32 (i 1).val) (((i 1).val : Int)) := Affine.ofNat _ (by omega)
  have h_c2 : Affine.IsInt 2#32 (2) := Affine.ofNat _ (by omega)
  have h_v0 : Affine.IsInt _ (2 * ((i 1).val : Int)) := Affine.muli h_arg1 h_c2 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c9984 : Affine.IsInt 9984#32 (9984) := Affine.ofNat _ (by omega)
  have h_v2 : Affine.IsInt _ (19968 * ((i 1).val : Int) + 9984 * ((i 0).val : Int)) := Affine.muli h_v1 h_c9984 (by omega)
  have h_c0 : Affine.IsInt 0#32 (0) := Affine.ofNat _ (by omega)
  have h_c1 : Affine.IsInt 1#32 (1) := Affine.ofNat _ (by omega)
  have r_g : g.val < 19 := Nat.lt_of_lt_of_le g.isLt k1_t1_abs.2.1
  have h_arg20 : Affine.IsInt _ ((g.val : Int)) := Affine.iv h_c0 h_c1 g.val (by omega)
  have h_c4 : Affine.IsInt 4#32 (4) := Affine.ofNat _ (by omega)
  have h_v52 : Affine.IsInt _ (4 * (g.val : Int)) := Affine.muli h_arg20 h_c4 (by omega)
  have h_v53 : Affine.IsInt _ (4 * (g.val : Int) + 1) := Affine.addi h_v52 h_c1 (by omega)
  have h_v100 : Affine.IsInt _ (4 * (g.val : Int) - 1) := Affine.subi h_v53 h_c2 (by omega)
  have h_c128 : Affine.IsInt 128#32 (128) := Affine.ofNat _ (by omega)
  have h_v101 : Affine.IsInt _ (512 * (g.val : Int) - 128) := Affine.muli h_v100 h_c128 (by omega)
  have h_v102 : Affine.IsInt _ (19968 * ((i 1).val : Int) + 9984 * ((i 0).val : Int) + 512 * (g.val : Int) - 128) :=
    Affine.addi h_v2 h_v101 (by omega)
  exact Affine.vec_cons h_v102 (by omega) <| Affine.vec_cons (Affine.ofNat 0 (by omega) : Affine.IsInt 0#32 0) (by omega) <| Affine.vec_nil

end Cert.KIProof
-- ==== Proof.TileTrip.lean ====
/-
  One trip of a vector subcore's loop, from the loop's invariant at trip k to the invariant at trip k + 1. The trip
  makes four steps, one per buffer. At step s it waits for the copy that last read buffer s + 2 (mod 4) — for the first
  two steps the copies of chunks 4 k - 2 and 4 k - 1, which exist only when k is not 0; for the last two the copies of
  chunks 4 k and 4 k + 1, which the trip itself started —, starts the gather of chunk 4 k + s + 2 into that buffer, waits
  for the gather of chunk 4 k + s into buffer s, and starts the copy of buffer s out to the chunk's rows of the result.
  So the gathers of chunks 4 k and 4 k + 1 and, past the first trip, the copies of chunks 4 k - 2 and 4 k - 1, in flight
  at the head, become the gathers of chunks 4 k + 4 and 4 k + 5 and the copies of chunks 4 k + 2 and 4 k + 3 in flight at
  the end, and the index windows and result rows move between the invariant's two families accordingly: the families at
  trips k and k + 1 differ on six chunks only. A landed gather holds its chunk's rows of the result because every
  combined index word is below 216; a chunk copied out of such a buffer holds the result's value.
-/
import proofs.«203798_g65764539236737_cont_9to1_m_400_20_alg».proof.Proof.TileInv
import proofs.«203798_g65764539236737_cont_9to1_m_400_20_alg».proof.Proof.TileOffs
import proofs.«203798_g65764539236737_cont_9to1_m_400_20_alg».proof.Proof.TileVals

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F] (d : Dev nD) (L : grid1.Coords)

/-- The index window a trip's gather number `r` names, as the program slices it. -/
abbrev pIx (k : Fin k1_t1_loop.trips) (r : Fin 4) : Memref sig .scVector .vmem S128 .i32 :=
  (ixV).slice (Rect.unit (s := S9984) (k1_off3 k (BitVec.ofNat 32 r.val)) S128.size (Facts₀.k1_off3_inb k r)) (fun _ => rfl)
/-- The rows of the result a trip's copy-out number `r` names, as the program slices them. -/
abbrev pOut (k : Fin k1_t1_loop.trips) (r : Fin 4) : Memref sig .scVector .hbm S128x128 .f32 :=
  (outV).slice (Rect.unit (s := S320000x128) (k1_off5 L k (BitVec.ofNat 32 r.val)) S128x128.size (Facts₀.k1_off5_inb L k r)) (fun _ => rfl)

abbrev pIxPts (k : Fin k1_t1_loop.trips) (r : Fin 4) : sProp 𝕄 :=
  (pIx k r).view.loc (tV d L) ↦[(pIx k r).view.set]{fullShare} ixOf m d L
abbrev pOutPts (k : Fin k1_t1_loop.trips) (r : Fin 4) (f : Buf (Elt F) (outLoc d)) : sProp 𝕄 :=
  (pOut L k r).view.loc (tV d L) ↦[(pOut L k r).view.set]{fullShare} f

section Small

omit [FloatOps F] in
theorem trips_lt (k : Fin k1_t1_loop.trips) : k.val < 19 := Nat.lt_of_lt_of_le k.isLt k1_t1_abs.2.1

/-! ## The windows the program slices are the canonical ones -/

omit [FloatOps F] in
theorem pIx_eq (k : Fin k1_t1_loop.trips) (r : Fin 4) : pIx k r = ixWin (512 * k.val + 128 * r.val + 256) :=
  ixSlice_eq _ (by have := trips_lt k; have := r.isLt; omega) (k1_off3_eq k r)

omit [FloatOps F] in
theorem pOut_eq (k : Fin k1_t1_loop.trips) (r : Fin 4) : pOut L k r = outWin (row0L L + 512 * k.val + 128 * r.val) :=
  outSlice_eq _ (by have := trips_lt k; have := r.isLt; have := row0L_le L; omega) (k1_off5_eq L k r)

/-! ## Credits -/

omit [FloatOps F] in
theorem buf_credit0 : (b0V).view.dmaCredit = 524288 := by decide
omit [FloatOps F] in
theorem out_credit (r : ℕ) : (outWin r).view.dmaCredit = 524288 := by rfl

/-! ## The index words are in range -/

theorem hin_of (hrange : ∀ r, (idxOf m d r).toNat < 216) (k : Fin k1_t1_loop.trips) (r : Fin 4) :
    ∀ x, ((pIx k r).view.read (Elt F) (ixOf m d L) x).toNat < S216x128.size (Facts₀.gathers_S216x128_S128x128).axis := by
  intro x
  rw [View.read_apply]
  show (ixOf m d L _).toNat < 216
  unfold ixOf
  exact hrange _

end Small

section Fam

/-! ## Members of a family over the 78 chunks set apart from the rest -/

omit [FloatOps F] in
/-- Six members of a family over the 78 chunks, set apart from the rest. -/
theorem fam_split6 (Φ : Fin 78 → sProp 𝕄) {a b c e f g : Fin 78}
    (hab : a.val < b.val) (hbc : b.val < c.val) (hce : c.val < e.val) (hef : e.val < f.val) (hfg : f.val < g.val) :
    bigSep Finset.univ Φ
      = iprop((Φ a ∗ Φ b ∗ Φ c ∗ Φ e ∗ Φ f ∗ Φ g) ∗ bigSep (Finset.univ \ {a, b, c, e, f, g}) Φ) := by
  have h1 : a ∉ ({b, c, e, f, g} : Finset (Fin 78)) := by
    simp only [Finset.mem_insert, Finset.mem_singleton, Fin.ext_iff]; omega
  have h2 : b ∉ ({c, e, f, g} : Finset (Fin 78)) := by
    simp only [Finset.mem_insert, Finset.mem_singleton, Fin.ext_iff]; omega
  have h3 : c ∉ ({e, f, g} : Finset (Fin 78)) := by
    simp only [Finset.mem_insert, Finset.mem_singleton, Fin.ext_iff]; omega
  have h4 : e ∉ ({f, g} : Finset (Fin 78)) := by
    simp only [Finset.mem_insert, Finset.mem_singleton, Fin.ext_iff]; omega
  have h5 : f ∉ ({g} : Finset (Fin 78)) := by
    simp only [Finset.mem_singleton, Fin.ext_iff]; omega
  rw [SparseCore.bigSep_sdiff_split' (Finset.subset_univ ({a, b, c, e, f, g} : Finset (Fin 78))),
    SparseCore.bigSep_insert' h1, SparseCore.bigSep_insert' h2, SparseCore.bigSep_insert' h3, SparseCore.bigSep_insert' h4,
    SparseCore.bigSep_insert' h5, bigSep_singleton]

omit [FloatOps F] in
/-- A chunk outside six consecutive ones. -/
theorem not_mem_six {j : Fin 78} {a : ℕ} (h0 : a < 78) (h1 : a + 1 < 78) (h2 : a + 2 < 78) (h3 : a + 3 < 78) (h4 : a + 4 < 78) (h5 : a + 5 < 78)
    (hj : j ∈ Finset.univ \ ({⟨a, h0⟩, ⟨a + 1, h1⟩, ⟨a + 2, h2⟩, ⟨a + 3, h3⟩, ⟨a + 4, h4⟩, ⟨a + 5, h5⟩} : Finset (Fin 78))) :
    j.val < a ∨ a + 5 < j.val := by
  simp only [Finset.mem_sdiff, Finset.mem_univ, true_and, Finset.mem_insert, Finset.mem_singleton, Fin.ext_iff] at hj
  omega

/-- The index windows: trips `n` and `n + 1` differ on chunks `4 n, …, 4 n + 5` only. -/
theorem ix_step (n : ℕ) (hn : n < 19) :
    ∃ R : sProp 𝕄,
      ixFam m d L n = iprop((emp ∗ emp ∗ ixPts m d L (128 * (4 * n + 2)) ∗ ixPts m d L (128 * (4 * n + 3))
          ∗ ixPts m d L (128 * (4 * n + 4)) ∗ ixPts m d L (128 * (4 * n + 5))) ∗ R)
      ∧ ixFam m d L (n + 1) = iprop((ixPts m d L (128 * (4 * n)) ∗ ixPts m d L (128 * (4 * n + 1)) ∗ ixPts m d L (128 * (4 * n + 2))
          ∗ ixPts m d L (128 * (4 * n + 3)) ∗ emp ∗ emp) ∗ R) := by
  have h0 : 4 * n < 78 := by omega
  have h1 : 4 * n + 1 < 78 := by omega
  have h2 : 4 * n + 2 < 78 := by omega
  have h3 : 4 * n + 3 < 78 := by omega
  have h4 : 4 * n + 4 < 78 := by omega
  have h5 : 4 * n + 5 < 78 := by omega
  refine ⟨bigSep (Finset.univ \ ({⟨4 * n, h0⟩, ⟨4 * n + 1, h1⟩, ⟨4 * n + 2, h2⟩, ⟨4 * n + 3, h3⟩, ⟨4 * n + 4, h4⟩, ⟨4 * n + 5, h5⟩} : Finset (Fin 78)))
      (fun j => ixPts m d L (128 * j.val)), ?_, ?_⟩
  · unfold ixFam
    rw [fam_split6 _ (a := ⟨4 * n, h0⟩) (b := ⟨4 * n + 1, h1⟩) (c := ⟨4 * n + 2, h2⟩) (e := ⟨4 * n + 3, h3⟩) (f := ⟨4 * n + 4, h4⟩) (g := ⟨4 * n + 5, h5⟩)
      (by show 4 * n < 4 * n + 1; omega) (by show 4 * n + 1 < 4 * n + 2; omega) (by show 4 * n + 2 < 4 * n + 3; omega)
      (by show 4 * n + 3 < 4 * n + 4; omega) (by show 4 * n + 4 < 4 * n + 5; omega)]
    dsimp only
    rw [if_pos (Or.inl rfl), if_pos (Or.inr rfl), if_neg (by omega), if_neg (by omega), if_neg (by omega), if_neg (by omega)]
    congr 1
    exact bigSep_congr fun j hj => by
      have := not_mem_six h0 h1 h2 h3 h4 h5 hj
      exact if_neg (by omega)
  · unfold ixFam
    rw [fam_split6 _ (a := ⟨4 * n, h0⟩) (b := ⟨4 * n + 1, h1⟩) (c := ⟨4 * n + 2, h2⟩) (e := ⟨4 * n + 3, h3⟩) (f := ⟨4 * n + 4, h4⟩) (g := ⟨4 * n + 5, h5⟩)
      (by show 4 * n < 4 * n + 1; omega) (by show 4 * n + 1 < 4 * n + 2; omega) (by show 4 * n + 2 < 4 * n + 3; omega)
      (by show 4 * n + 3 < 4 * n + 4; omega) (by show 4 * n + 4 < 4 * n + 5; omega)]
    dsimp only
    rw [if_neg (by omega), if_neg (by omega), if_neg (by omega), if_neg (by omega), if_pos (Or.inl (by omega)), if_pos (Or.inr (by omega))]
    congr 1
    exact bigSep_congr fun j hj => by
      have := not_mem_six h0 h1 h2 h3 h4 h5 hj
      exact if_neg (by omega)

end Fam

section Respell

/-! ## A window held through the program's slice is the window held through the canonical one -/

omit [FloatOps F] in
theorem ixPts_congr {R R' : Rect S9984} (h : R = R') (hR : ∀ a, R.stride a = 1) (hR' : ∀ a, R'.stride a = 1)
    (q : PosShare TreeShare) (f : S9984.Idx → Elt F .i32) :
    (((ixV).slice R hR).view.loc (tV d L) ↦[((ixV).slice R hR).view.set]{q} f : sProp 𝕄)
      = ((ixV).slice R' hR').view.loc (tV d L) ↦[((ixV).slice R' hR').view.set]{q} f := by
  subst h; rfl

omit [FloatOps F] in
theorem outPts_congr {R R' : Rect S320000x128} (h : R = R') (hR : ∀ a, R.stride a = 1) (hR' : ∀ a, R'.stride a = 1)
    (q : PosShare TreeShare) (f : S320000x128.Idx → Elt F .f32) :
    (((outV).slice R hR).view.loc (tV d L) ↦[((outV).slice R hR).view.set]{q} f : sProp 𝕄)
      = ((outV).slice R' hR').view.loc (tV d L) ↦[((outV).slice R' hR').view.set]{q} f := by
  subst h; rfl

omit [FloatOps F] in
theorem ixRect_eq {off : Fin 1 → ℕ} {hinb : ∀ a, off a + S128.size a ≤ S9984.size a} (o : ℕ) (ho : o ≤ 9856) (e : off = ![o]) :
    Rect.unit (s := S9984) off S128.size hinb = ixRect o := by
  subst e
  have : min o 9856 = o := Nat.min_eq_left ho
  unfold ixRect
  congr 1
  funext a; match a with | 0 => exact this.symm

omit [FloatOps F] in
theorem outRect_eq {off : Fin 2 → ℕ} {hinb : ∀ a, off a + S128x128.size a ≤ S320000x128.size a} (r : ℕ) (hr : r ≤ 319872) (e : off = ![r, 0]) :
    Rect.unit (s := S320000x128) off S128x128.size hinb = outRect r := by
  subst e
  have : min r 319872 = r := Nat.min_eq_left hr
  unfold outRect
  congr 1
  funext a; match a with | 0 => exact this.symm | 1 => rfl

/-- The index window of a trip's gather number `r`, as the program slices it, is the window at word `512 k + 128 r + 256`. -/
theorem pIxPts_eq (k : Fin k1_t1_loop.trips) (r : Fin 4) : pIxPts m d L k r = ixPts m d L (512 * k.val + 128 * r.val + 256) :=
  ixPts_congr d L (ixRect_eq _ (by have := trips_lt k; have := r.isLt; omega) (k1_off3_eq k r)) _ _ _ _

omit [FloatOps F] in
/-- The rows of a trip's copy-out number `r`, as the program slices them, are the rows from `row0 + 512 k + 128 r`. -/
theorem pOutPts_eq (k : Fin k1_t1_loop.trips) (r : Fin 4) (f : Buf (Elt F) (outLoc d)) :
    pOutPts d L k r f = outPts d L (row0L L + 512 * k.val + 128 * r.val) f :=
  outPts_congr d L (outRect_eq _ (by
    have := trips_lt k; have := r.isLt
    have h1 : (L 1).val < 16 := (L 1).isLt
    have h0 : (L 0).val < 2 := (L 0).isLt
    show 19968 * (L 1).val + 9984 * (L 0).val + 512 * k.val + 128 * r.val ≤ 319872
    omega) (k1_off5_eq L k r)) _ _ _ _

end Respell

section FamOut

/-- The result's chunks: trips `p + 1` and `p + 2` differ on chunks `4 p + 2, …, 4 p + 7` only. -/
theorem out_step_succ (p : ℕ) (hp : p + 1 < 19) :
    ∃ R : sProp 𝕄,
      outFam m d L (p + 1) = iprop((emp ∗ emp ∗ outPts d L (row0L L + 128 * (4 * p + 2 + 2)) (m (outLoc d)) ∗ outPts d L (row0L L + 128 * (4 * p + 2 + 3)) (m (outLoc d))
          ∗ outPts d L (row0L L + 128 * (4 * p + 2 + 4)) (m (outLoc d)) ∗ outPts d L (row0L L + 128 * (4 * p + 2 + 5)) (m (outLoc d))) ∗ R)
      ∧ outFam m d L (p + 2) = iprop((outPts d L (row0L L + 128 * (4 * p + 2)) (resOf m d) ∗ outPts d L (row0L L + 128 * (4 * p + 2 + 1)) (resOf m d)
          ∗ outPts d L (row0L L + 128 * (4 * p + 2 + 2)) (resOf m d) ∗ outPts d L (row0L L + 128 * (4 * p + 2 + 3)) (resOf m d) ∗ emp ∗ emp) ∗ R) := by
  have h0 : 4 * p + 2 < 78 := by omega
  have h1 : 4 * p + 2 + 1 < 78 := by omega
  have h2 : 4 * p + 2 + 2 < 78 := by omega
  have h3 : 4 * p + 2 + 3 < 78 := by omega
  have h4 : 4 * p + 2 + 4 < 78 := by omega
  have h5 : 4 * p + 2 + 5 < 78 := by omega
  refine ⟨bigSep (Finset.univ \ ({⟨4 * p + 2, h0⟩, ⟨4 * p + 2 + 1, h1⟩, ⟨4 * p + 2 + 2, h2⟩, ⟨4 * p + 2 + 3, h3⟩, ⟨4 * p + 2 + 4, h4⟩, ⟨4 * p + 2 + 5, h5⟩} : Finset (Fin 78)))
      (fun j => if j.val + 2 < 4 * (p + 1) then outPts d L (row0L L + 128 * j.val) (resOf m d)
        else if j.val < 4 * (p + 1) then iprop(emp) else outPts d L (row0L L + 128 * j.val) (m (outLoc d))), ?_, ?_⟩
  · unfold outFam
    rw [fam_split6 _ (a := ⟨4 * p + 2, h0⟩) (b := ⟨4 * p + 2 + 1, h1⟩) (c := ⟨4 * p + 2 + 2, h2⟩) (e := ⟨4 * p + 2 + 3, h3⟩) (f := ⟨4 * p + 2 + 4, h4⟩) (g := ⟨4 * p + 2 + 5, h5⟩)
      (by show 4 * p + 2 < 4 * p + 2 + 1; omega) (by show 4 * p + 2 + 1 < 4 * p + 2 + 2; omega) (by show 4 * p + 2 + 2 < 4 * p + 2 + 3; omega)
      (by show 4 * p + 2 + 3 < 4 * p + 2 + 4; omega) (by show 4 * p + 2 + 4 < 4 * p + 2 + 5; omega)]
    dsimp only
    rw [if_neg (by omega), if_pos (by omega), if_neg (by omega), if_pos (by omega), if_neg (by omega), if_neg (by omega),
      if_neg (by omega), if_neg (by omega), if_neg (by omega), if_neg (by omega), if_neg (by omega), if_neg (by omega)]
  · unfold outFam
    rw [fam_split6 _ (a := ⟨4 * p + 2, h0⟩) (b := ⟨4 * p + 2 + 1, h1⟩) (c := ⟨4 * p + 2 + 2, h2⟩) (e := ⟨4 * p + 2 + 3, h3⟩) (f := ⟨4 * p + 2 + 4, h4⟩) (g := ⟨4 * p + 2 + 5, h5⟩)
      (by show 4 * p + 2 < 4 * p + 2 + 1; omega) (by show 4 * p + 2 + 1 < 4 * p + 2 + 2; omega) (by show 4 * p + 2 + 2 < 4 * p + 2 + 3; omega)
      (by show 4 * p + 2 + 3 < 4 * p + 2 + 4; omega) (by show 4 * p + 2 + 4 < 4 * p + 2 + 5; omega)]
    dsimp only
    rw [if_pos (by omega), if_pos (by omega), if_pos (by omega), if_pos (by omega), if_neg (by omega), if_pos (by omega), if_neg (by omega), if_pos (by omega)]
    congr 1
    exact bigSep_congr fun j hj => by
      have := not_mem_six h0 h1 h2 h3 h4 h5 hj
      rcases this with h | h
      · rw [if_pos (by omega), if_pos (by omega)]
      · rw [if_neg (by omega), if_neg (by omega), if_neg (by omega), if_neg (by omega)]

/-- The result's chunks: trips `0` and `1` differ on chunks `0, …, 3` only. -/
theorem out_step_zero :
    ∃ R : sProp 𝕄,
      outFam m d L 0 = iprop((outPts d L (row0L L + 128 * 0) (m (outLoc d)) ∗ outPts d L (row0L L + 128 * (0 + 1)) (m (outLoc d))
          ∗ outPts d L (row0L L + 128 * (0 + 2)) (m (outLoc d)) ∗ outPts d L (row0L L + 128 * (0 + 3)) (m (outLoc d))
          ∗ outPts d L (row0L L + 128 * (0 + 4)) (m (outLoc d)) ∗ outPts d L (row0L L + 128 * (0 + 5)) (m (outLoc d))) ∗ R)
      ∧ outFam m d L 1 = iprop((outPts d L (row0L L + 128 * 0) (resOf m d) ∗ outPts d L (row0L L + 128 * (0 + 1)) (resOf m d)
          ∗ emp ∗ emp ∗ outPts d L (row0L L + 128 * (0 + 4)) (m (outLoc d)) ∗ outPts d L (row0L L + 128 * (0 + 5)) (m (outLoc d))) ∗ R) := by
  have h0 : 0 < 78 := by omega
  have h1 : 0 + 1 < 78 := by omega
  have h2 : 0 + 2 < 78 := by omega
  have h3 : 0 + 3 < 78 := by omega
  have h4 : 0 + 4 < 78 := by omega
  have h5 : 0 + 5 < 78 := by omega
  refine ⟨bigSep (Finset.univ \ ({⟨0, h0⟩, ⟨0 + 1, h1⟩, ⟨0 + 2, h2⟩, ⟨0 + 3, h3⟩, ⟨0 + 4, h4⟩, ⟨0 + 5, h5⟩} : Finset (Fin 78)))
      (fun j => outPts d L (row0L L + 128 * j.val) (m (outLoc d))), ?_, ?_⟩
  · unfold outFam
    rw [fam_split6 _ (a := ⟨0, h0⟩) (b := ⟨0 + 1, h1⟩) (c := ⟨0 + 2, h2⟩) (e := ⟨0 + 3, h3⟩) (f := ⟨0 + 4, h4⟩) (g := ⟨0 + 5, h5⟩)
      (by show 0 < 0 + 1; omega) (by show 0 + 1 < 0 + 2; omega) (by show 0 + 2 < 0 + 3; omega) (by show 0 + 3 < 0 + 4; omega) (by show 0 + 4 < 0 + 5; omega)]
    dsimp only
    rw [if_neg (by omega), if_neg (by omega), if_neg (by omega), if_neg (by omega), if_neg (by omega), if_neg (by omega),
      if_neg (by omega), if_neg (by omega), if_neg (by omega), if_neg (by omega), if_neg (by omega), if_neg (by omega)]
    refine congrArg _ (bigSep_congr fun j hj => ?_)
    rw [if_neg (by omega), if_neg (by omega)]
  · unfold outFam
    rw [fam_split6 _ (a := ⟨0, h0⟩) (b := ⟨0 + 1, h1⟩) (c := ⟨0 + 2, h2⟩) (e := ⟨0 + 3, h3⟩) (f := ⟨0 + 4, h4⟩) (g := ⟨0 + 5, h5⟩)
      (by show 0 < 0 + 1; omega) (by show 0 + 1 < 0 + 2; omega) (by show 0 + 2 < 0 + 3; omega) (by show 0 + 3 < 0 + 4; omega) (by show 0 + 4 < 0 + 5; omega)]
    dsimp only
    rw [if_pos (by omega), if_pos (by omega), if_neg (by omega), if_pos (by omega), if_neg (by omega), if_pos (by omega),
      if_neg (by omega), if_neg (by omega), if_neg (by omega), if_neg (by omega)]
    refine congrArg _ (bigSep_congr fun j hj => ?_)
    have := not_mem_six h0 h1 h2 h3 h4 h5 hj
    rw [if_neg (by omega), if_neg (by omega)]

end FamOut

section Values

/-- Word `x` of the index window of gather number `r` of trip `k`, as the program slices it, is the combined index word
    of row `row0 + (512 k + 128 r + 256) + x`. -/
theorem pIx_read (k : Fin k1_t1_loop.trips) (r : Fin 4) (x : S128.Idx) :
    (pIx k r).view.read (Elt F) (ixOf m d L) x
      = idxOf m d (ValueIdx.ix1 (⟨(row0L L + (512 * k.val + 128 * r.val + 256) + (x 0 : Fin 128).val) % 320000, Nat.mod_lt _ (by decide)⟩ : Fin 320000)) := by
  rw [View.read_apply]
  refine (cast_eq _ _).trans ?_
  unfold ixOf
  refine congrArg (idxOf m d) (congrArg ValueIdx.ix1 (Fin.ext ?_))
  show (row0L L + ((k1_off3 k (BitVec.ofNat 32 r.val)) 0 + 1 * (x 0 : Fin 128).val)) % 320000 = _
  rw [k1_off3_eq k r]
  show (row0L L + ((512 * k.val + 128 * r.val + 256) + 1 * (x 0 : Fin 128).val)) % 320000 = _
  congr 1; omega

/-- What a gather lands: the gather number `r` of trip `k` reads the index window at word `512 k + 128 r + 256`, whose
    words name, below 216, the rows of the table that are the chunk's rows of the result. -/
theorem payload_eq (hrange : ∀ r, (idxOf m d r).toNat < 216) (k : Fin k1_t1_loop.trips) (r : Fin 4)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    SparseCore.gatherPayload Facts₀.gathers_S216x128_S128x128
        (((shV).slice (Rect.unit (s := S216x128) ![0, 0] S216x128.size h1) h2).view.read (Elt F) (tabOf m d))
        (SparseCore.rows ((pIx k r).view.read (Elt F) (ixOf m d L)) hn hin)
      = gat m d (row0L L + (512 * k.val + 128 * r.val + 256)) :=
  gather_value' m d hrange _ _ (pIx_read m d L k r) h1 h2 hn hin

omit [FloatOps F] in
/-- Rows of the result sliced at equal offsets, written with one payload, are one assertion. -/
theorem outW_congr {off off' : Fin 2 → ℕ} (h : off = off')
    (inb : ∀ a, off a + S128x128.size a ≤ S320000x128.size a) (inb' : ∀ a, off' a + S128x128.size a ≤ S320000x128.size a)
    (q : PosShare TreeShare) (f0 : S320000x128.Idx → Elt F .f32) (P : S128x128.Idx → Elt F .f32) :
    ((((outV).slice (Rect.unit (s := S320000x128) off S128x128.size inb) (fun _ => rfl)).view.loc (tV d L)
        ↦[((outV).slice (Rect.unit (s := S320000x128) off S128x128.size inb) (fun _ => rfl)).view.set]{q}
          ((outV).slice (Rect.unit (s := S320000x128) off S128x128.size inb) (fun _ => rfl)).view.writes (Elt F) f0 [⟨Rect.whole S128x128, P⟩]) : sProp 𝕄)
      = (((outV).slice (Rect.unit (s := S320000x128) off' S128x128.size inb') (fun _ => rfl)).view.loc (tV d L)
        ↦[((outV).slice (Rect.unit (s := S320000x128) off' S128x128.size inb') (fun _ => rfl)).view.set]{q}
          ((outV).slice (Rect.unit (s := S320000x128) off' S128x128.size inb') (fun _ => rfl)).view.writes (Elt F) f0 [⟨Rect.whole S128x128, P⟩]) := by
  subst h; rfl

/-- What a copy-out writes: the rows `row0 + 512 k + 128 r, …` of the result, written with a buffer holding those rows of
    the result's value, hold the result's value. -/
theorem out_eq (k : Fin k1_t1_loop.trips) (r : Fin 4) (f0 : Buf (Elt F) (outLoc d)) :
    ((pOut L k r).view.loc (tV d L) ↦[(pOut L k r).view.set]{fullShare}
        (pOut L k r).view.writes (Elt F) f0 [⟨Rect.whole S128x128, gat m d (row0L L + (512 * k.val + 128 * r.val))⟩] : sProp 𝕄)
      = outPts d L (row0L L + (512 * k.val + 128 * r.val)) (resOf m d) := by
  have hk := trips_lt k
  have hr := r.isLt
  have h1 : (L 1).val < 16 := (L 1).isLt
  have h0 : (L 0).val < 2 := (L 0).isLt
  have hb : row0L L + (512 * k.val + 128 * r.val) ≤ 319872 := by
    show 19968 * (L 1).val + 9984 * (L 0).val + (512 * k.val + 128 * r.val) ≤ 319872
    omega
  have e : k1_off5 L k (BitVec.ofNat 32 r.val) = ![min (row0L L + (512 * k.val + 128 * r.val)) 319872, 0] := by
    rw [k1_off5_eq L k r, Nat.min_eq_left hb]
    show ![19968 * (L 1).val + 9984 * (L 0).val + 512 * k.val + 128 * r.val, 0] = ![19968 * (L 1).val + 9984 * (L 0).val + (512 * k.val + 128 * r.val), 0]
    rw [Nat.add_assoc (19968 * (L 1).val + 9984 * (L 0).val)]
  exact (outW_congr d L e _ _ fullShare f0 _).trans (out_value m d L _ hb f0)

end Values

section Flights

/-- A flight of the gathers' amount whose delivery yields a gather's is the gather's flight. -/
theorem gFlight_intro (sg : DmaSem sig) (t : ℕ) (bP : (S128x128.Idx → Elt F .f32) → sProp 𝕄) (o : ℕ) (D : sProp 𝕄)
    (h : D ⊢ iprop((bP (gat m d (row0L L + o)) ∗ ixPts m d L o) ∗ shTok m d L t)) :
    (Transfers.Flight (countersEmb : UEmb Counters 𝕄) (tV d L) (SemLoc.dma sg) (default : HIx 1) 524288 D : sProp 𝕄)
      ⊢ gFlight m d L sg t bP o := by
  unfold gFlight
  rw [buf_credit0]
  exact Transfers.Flight_mono countersEmb (tV d L) h

/-- A flight of the copies' amount whose delivery yields a copy-out's is the copy-out's flight. -/
theorem sFlight_intro (ss : DmaSem sig) (bP : (S128x128.Idx → Elt F .f32) → sProp 𝕄) (o : ℕ) (D : sProp 𝕄)
    (h : D ⊢ iprop(outPts d L (row0L L + o) (resOf m d) ∗ bP (gat m d (row0L L + o)))) :
    (Transfers.Flight (countersEmb : UEmb Counters 𝕄) (tV d L) (SemLoc.dma ss) (default : HIx 1) 524288 D : sProp 𝕄)
      ⊢ sFlight m d L ss bP o := by
  unfold sFlight
  rw [out_credit]
  exact Transfers.Flight_mono countersEmb (tV d L) h

omit [FloatOps F] in
/-- Buffer 0 after a gather that wrote all of it holds the gather's payload. -/
theorem land_b0 (prior P G : S128x128.Idx → Elt F .f32) (h : P = G) :
    ((b0V).view.loc (tV d L) ↦[(b0V).view.set]{fullShare} (b0V).view.writes (Elt F) prior [⟨Rect.whole S128x128, P⟩] : sProp 𝕄) = b0Pts d L G := by
  subst h
  exact pointsTo_congr fun i _ => congrFun (View.read_writes_whole (b0V).view prior P) i

omit [FloatOps F] in
theorem land_fun_b0 (prior P : S128x128.Idx → Elt F .f32) :
    (b0V).view.writes (Elt F) prior [⟨Rect.whole S128x128, P⟩] = P :=
  View.read_writes_whole (b0V).view prior P

omit [FloatOps F] in
/-- Buffer 1 after a gather that wrote all of it holds the gather's payload. -/
theorem land_b1 (prior P G : S128x128.Idx → Elt F .f32) (h : P = G) :
    ((b1V).view.loc (tV d L) ↦[(b1V).view.set]{fullShare} (b1V).view.writes (Elt F) prior [⟨Rect.whole S128x128, P⟩] : sProp 𝕄) = b1Pts d L G := by
  subst h
  exact pointsTo_congr fun i _ => congrFun (View.read_writes_whole (b1V).view prior P) i

omit [FloatOps F] in
theorem land_fun_b1 (prior P : S128x128.Idx → Elt F .f32) :
    (b1V).view.writes (Elt F) prior [⟨Rect.whole S128x128, P⟩] = P :=
  View.read_writes_whole (b1V).view prior P

omit [FloatOps F] in
/-- Buffer 2 after a gather that wrote all of it holds the gather's payload. -/
theorem land_b2 (prior P G : S128x128.Idx → Elt F .f32) (h : P = G) :
    ((b2V).view.loc (tV d L) ↦[(b2V).view.set]{fullShare} (b2V).view.writes (Elt F) prior [⟨Rect.whole S128x128, P⟩] : sProp 𝕄) = b2Pts d L G := by
  subst h
  exact pointsTo_congr fun i _ => congrFun (View.read_writes_whole (b2V).view prior P) i

omit [FloatOps F] in
theorem land_fun_b2 (prior P : S128x128.Idx → Elt F .f32) :
    (b2V).view.writes (Elt F) prior [⟨Rect.whole S128x128, P⟩] = P :=
  View.read_writes_whole (b2V).view prior P

omit [FloatOps F] in
/-- Buffer 3 after a gather that wrote all of it holds the gather's payload. -/
theorem land_b3 (prior P G : S128x128.Idx → Elt F .f32) (h : P = G) :
    ((b3V).view.loc (tV d L) ↦[(b3V).view.set]{fullShare} (b3V).view.writes (Elt F) prior [⟨Rect.whole S128x128, P⟩] : sProp 𝕄) = b3Pts d L G := by
  subst h
  exact pointsTo_congr fun i _ => congrFun (View.read_writes_whole (b3V).view prior P) i

omit [FloatOps F] in
theorem land_fun_b3 (prior P : S128x128.Idx → Elt F .f32) :
    (b3V).view.writes (Elt F) prior [⟨Rect.whole S128x128, P⟩] = P :=
  View.read_writes_whole (b3V).view prior P

/-- The gather number `r` of trip `k`, in flight into buffer 0, as the loop's invariant states it. -/
theorem gClose_b0 (hrange : ∀ r, (idxOf m d r).toNat < 216) (sg : DmaSem sig) (t : ℕ) (k : Fin k1_t1_loop.trips) (r : Fin 4)
    (o : ℕ) (ho : o = 512 * k.val + 128 * r.val + 256) (prior : S128x128.Idx → Elt F .f32)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    (Transfers.Flight (countersEmb : UEmb Counters 𝕄) (tV d L) (SemLoc.dma sg) (default : HIx 1) 524288
      iprop((((b0V).view.loc (tV d L) ↦[(b0V).view.set]{fullShare} (b0V).view.writes (Elt F) prior
              [⟨Rect.whole S128x128, SparseCore.gatherPayload Facts₀.gathers_S216x128_S128x128
                  (((shV).slice (Rect.unit (s := S216x128) ![0, 0] S216x128.size h1) h2).view.read (Elt F) (tabOf m d))
                  (SparseCore.rows ((pIx k r).view.read (Elt F) (ixOf m d L)) hn hin)⟩])
            ∗ pIxPts m d L k r)
          ∗ ((shSl).view.loc (tV d L) ↦[((shV).slice (Rect.unit (s := S216x128) ![0, 0] S216x128.size h1) h2).view.set]{Transfers.shareTokN (shQ L) t} tabOf m d)) : sProp 𝕄)
      ⊢ gFlight m d L sg t (b0Pts d L) o := by
  subst ho
  refine gFlight_intro m d L sg t (b0Pts d L) _ _ (sep_mono (sep_mono (Entails.of_eq ?_) (Entails.of_eq (pIxPts_eq m d L k r))) .rfl)
  exact land_b0 d L prior _ _ (payload_eq m d L hrange k r h1 h2 hn hin)

/-- The gather number `r` of trip `k`, in flight into buffer 1, as the loop's invariant states it. -/
theorem gClose_b1 (hrange : ∀ r, (idxOf m d r).toNat < 216) (sg : DmaSem sig) (t : ℕ) (k : Fin k1_t1_loop.trips) (r : Fin 4)
    (o : ℕ) (ho : o = 512 * k.val + 128 * r.val + 256) (prior : S128x128.Idx → Elt F .f32)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    (Transfers.Flight (countersEmb : UEmb Counters 𝕄) (tV d L) (SemLoc.dma sg) (default : HIx 1) 524288
      iprop((((b1V).view.loc (tV d L) ↦[(b1V).view.set]{fullShare} (b1V).view.writes (Elt F) prior
              [⟨Rect.whole S128x128, SparseCore.gatherPayload Facts₀.gathers_S216x128_S128x128
                  (((shV).slice (Rect.unit (s := S216x128) ![0, 0] S216x128.size h1) h2).view.read (Elt F) (tabOf m d))
                  (SparseCore.rows ((pIx k r).view.read (Elt F) (ixOf m d L)) hn hin)⟩])
            ∗ pIxPts m d L k r)
          ∗ ((shSl).view.loc (tV d L) ↦[((shV).slice (Rect.unit (s := S216x128) ![0, 0] S216x128.size h1) h2).view.set]{Transfers.shareTokN (shQ L) t} tabOf m d)) : sProp 𝕄)
      ⊢ gFlight m d L sg t (b1Pts d L) o := by
  subst ho
  refine gFlight_intro m d L sg t (b1Pts d L) _ _ (sep_mono (sep_mono (Entails.of_eq ?_) (Entails.of_eq (pIxPts_eq m d L k r))) .rfl)
  exact land_b1 d L prior _ _ (payload_eq m d L hrange k r h1 h2 hn hin)

/-- The copy-out number `r` of trip `k`, in flight from buffer 2 holding the chunk's rows, as the loop's invariant states it. -/
theorem sClose_b2 (ss : DmaSem sig) (k : Fin k1_t1_loop.trips) (r : Fin 4) (o : ℕ) (ho : o = 512 * k.val + 128 * r.val)
    (f0 : Buf (Elt F) (outLoc d)) (cont : S128x128.Idx → Elt F .f32) (hc : cont = gat m d (row0L L + o)) :
    (Transfers.Flight (countersEmb : UEmb Counters 𝕄) (tV d L) (SemLoc.dma ss) (default : HIx 1) 524288
      iprop(((pOut L k r).view.loc (tV d L) ↦[(pOut L k r).view.set]{fullShare}
              (pOut L k r).view.writes (Elt F) f0 [⟨Rect.whole S128x128, ReadAs.same.apply ((b2V).view.read (Elt F) cont)⟩])
          ∗ ((b2V).view.loc (tV d L) ↦[(b2V).view.set]{fullShare} cont)) : sProp 𝕄)
      ⊢ sFlight m d L ss (b2Pts d L) o := by
  subst ho hc
  refine sFlight_intro m d L ss (b2Pts d L) _ _ (sep_mono (Entails.of_eq ?_) .rfl)
  exact out_eq m d L k r f0

/-- The copy-out number `r` of trip `k`, in flight from buffer 3 holding the chunk's rows, as the loop's invariant states it. -/
theorem sClose_b3 (ss : DmaSem sig) (k : Fin k1_t1_loop.trips) (r : Fin 4) (o : ℕ) (ho : o = 512 * k.val + 128 * r.val)
    (f0 : Buf (Elt F) (outLoc d)) (cont : S128x128.Idx → Elt F .f32) (hc : cont = gat m d (row0L L + o)) :
    (Transfers.Flight (countersEmb : UEmb Counters 𝕄) (tV d L) (SemLoc.dma ss) (default : HIx 1) 524288
      iprop(((pOut L k r).view.loc (tV d L) ↦[(pOut L k r).view.set]{fullShare}
              (pOut L k r).view.writes (Elt F) f0 [⟨Rect.whole S128x128, ReadAs.same.apply ((b3V).view.read (Elt F) cont)⟩])
          ∗ ((b3V).view.loc (tV d L) ↦[(b3V).view.set]{fullShare} cont)) : sProp 𝕄)
      ⊢ sFlight m d L ss (b3Pts d L) o := by
  subst ho hc
  refine sFlight_intro m d L ss (b3Pts d L) _ _ (sep_mono (Entails.of_eq ?_) .rfl)
  exact out_eq m d L k r f0

end Flights

section Trip

omit [FloatOps F] in
theorem fin4_vals : (0 : Fin 4).val = 0 ∧ (1 : Fin 4).val = 1 ∧ (2 : Fin 4).val = 2 ∧ (3 : Fin 4).val = 3 := ⟨rfl, rfl, rfl, rfl⟩

set_option maxHeartbeats 16000000 in
/-- One trip past the first: all four waits for earlier copies are taken. -/
theorem trip_pos (hrange : ∀ r, (idxOf m d r).toNat < 216) (O : CellTallies nD τ sig (HIx 1)) (W : Waits sig (HIx 1)) (v2 : BitVec 32)
    (k : Fin k1_t1_loop.trips) (hk : k.val ≠ 0) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  have hk19 := trips_lt k
  obtain ⟨f0, f1, f2, f3⟩ := fin4_vals
  obtain ⟨p, hp⟩ : ∃ p, k.val = p + 1 := ⟨k.val - 1, by omega⟩
  have k1_h2 : k1_cond2 k = 1#1 := (k1_cond2_iff k).mpr hk
  have k1_h3 : k1_cond3 k = 1#1 := (k1_cond3_iff k).mpr hk
  have k1_h4 : k1_cond4 k = 1#1 := k1_cond4_all k
  have k1_h5 : k1_cond5 k = 1#1 := k1_cond5_all k
  have hin0 := hin_of m d L hrange k 0
  have hin1 := hin_of m d L hrange k 1
  have hin2 := hin_of m d L hrange k 2
  have hin3 := hin_of m d L hrange k 3
  obtain ⟨RI, eI, eI'⟩ := ix_step m d L k.val hk19
  obtain ⟨RO, eO, eO'⟩ := out_step_succ m d L p (by omega)
  have eO1 := eO
  rw [← hp] at eO1
  have eO2 := eO'
  rw [show p + 2 = k.val + 1 from by omega] at eO2
  -- the windows and rows the trip names, in the program's spelling
  have ei : ∀ (r : Fin 4) (j : ℕ), j = 4 * k.val + 2 + r.val → ixPts m d L (128 * j) = pIxPts m d L k r := fun r j hj => by
    rw [pIxPts_eq]; exact congrArg _ (by omega)
  have eo : ∀ (r : Fin 4) (j : ℕ) (f : Buf (Elt F) (outLoc d)), j = 4 * k.val + r.val → outPts d L (row0L L + 128 * j) f = pOutPts d L k r f := fun r j f hj => by
    rw [pOutPts_eq]; exact congrArg (fun x => outPts d L x f) (by omega)
  unfold k1_t1_body
  unfold Inv
  rw [if_neg hk, eI, eO1]
  iintro ⟨#Hmw, ⟨%W', %hW', HO⟩, Hg0, Hg1, Hsg2, Hsg3, Ht10, Ht11, Hss0, Hss1, ⟨Hs2, Hs3⟩, ⟨⟨-, -, Hi0, Hi1, Hi2, Hi3⟩, HRI⟩, ⟨⟨-, -, Ho0, Ho1, Ho2, Ho3⟩, HRO⟩⟩
  ihave Hi0 := (Entails.of_eq (ei 0 _ (by omega))) $$ Hi0
  ihave Hi1 := (Entails.of_eq (ei 1 _ (by omega))) $$ Hi1
  ihave Hi2 := (Entails.of_eq (ei 2 _ (by omega))) $$ Hi2
  ihave Hi3 := (Entails.of_eq (ei 3 _ (by omega))) $$ Hi3
  ihave Ho0 := (Entails.of_eq (eo 0 _ _ (by omega))) $$ Ho0
  ihave Ho1 := (Entails.of_eq (eo 1 _ _ (by omega))) $$ Ho1
  ihave Ho2 := (Entails.of_eq (eo 2 _ _ (by omega))) $$ Ho2
  ihave Ho3 := (Entails.of_eq (eo 3 _ _ (by omega))) $$ Ho3
  sl_exec
  icases Hg0_dst with ⟨Hb0, Hix0⟩
  sl_exec
  icases Hg1_dst with ⟨Hb1, Hix1⟩
  sl_exec
  sl_step
  sl_unfold_run_names
  rw [if_neg (Nat.succ_ne_zero _), eI', eO2]
  icases Hg0_src with -
  icases Hg1_src with -
  isplitl []; · iexact Hmw
  isplitl [HO]
  · iexists _; isplitr
    swap; · iexact HO
    ipureintro; intro q hq
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    exact hW' q hq
  isplitl [Hg0]
  · iapply (gClose_b0 m d L hrange cc1_scratch7.sem 8 k 2 _ (by omega) _ _ _ _ hin2); iexact Hg0
  isplitl [Hg1]
  · iapply (gClose_b1 m d L hrange cc1_scratch8.sem 9 k 3 _ (by omega) _ _ _ _ hin3); iexact Hg1
  isplitl [Hsg2]; · iexact Hsg2
  isplitl [Hsg3]; · iexact Hsg3
  isplitl [Ht10]; · iexact Ht10
  isplitl [Ht11]; · iexact Ht11
  isplitl [Hss0]; · iexact Hss0
  isplitl [Hss1]; · iexact Hss1
  isplitl [Hs2 Hs3]
  · isplitl [Hs2]
    · iapply (sClose_b2 m d L cc1_scratch13.sem k 2 _ (by omega) _ _
        ((land_fun_b2 _ _).trans ((payload_eq m d L hrange k 0 _ _ _ hin0).trans (congrArg (gat m d) (by omega)))))
      iexact Hs2
    · iapply (sClose_b3 m d L cc1_scratch14.sem k 3 _ (by omega) _ _
        ((land_fun_b3 _ _).trans ((payload_eq m d L hrange k 1 _ _ _ hin1).trans (congrArg (gat m d) (by omega)))))
      iexact Hs3
  isplitl [Hix0 Hix1 Hi0 Hi1 HRI]
  · isplitr [HRI]
    · isplitl [Hix0]
      · iapply (Entails.of_eq (congrArg (ixPts m d L) (show 512 * k.val = 128 * (4 * k.val) by omega))); iexact Hix0
      isplitl [Hix1]
      · iapply (Entails.of_eq (congrArg (ixPts m d L) (show 512 * k.val + 128 = 128 * (4 * k.val + 1) by omega))); iexact Hix1
      isplitl [Hi0]
      · iapply (Entails.of_eq (ei 0 _ (by omega)).symm); iexact Hi0
      isplitl [Hi1]
      · iapply (Entails.of_eq (ei 1 _ (by omega)).symm); iexact Hi1
      isplitl []; · iempintro
      iempintro
    · iexact HRI
  · isplitr [HRO]
    · isplitl [Hs2_dst]
      · iapply (Entails.of_eq (congrArg (fun x => outPts d L x (resOf m d)) (show row0L L + (512 * k.val - 256) = row0L L + 128 * (4 * p + 2) by omega)))
        iexact Hs2_dst
      isplitl [Hs3_dst]
      · iapply (Entails.of_eq (congrArg (fun x => outPts d L x (resOf m d)) (show row0L L + (512 * k.val - 128) = row0L L + 128 * (4 * p + 2 + 1) by omega)))
        iexact Hs3_dst
      isplitl [Ho0]
      · iapply (Entails.of_eq ((out_eq m d L k 0 _).trans (congrArg (fun x => outPts d L x (resOf m d)) (show row0L L + (512 * k.val + 128 * (0 : Fin 4).val) = row0L L + 128 * (4 * p + 2 + 2) by omega))))
        iexact Ho0
      isplitl [Ho1]
      · iapply (Entails.of_eq ((out_eq m d L k 1 _).trans (congrArg (fun x => outPts d L x (resOf m d)) (show row0L L + (512 * k.val + 128 * (1 : Fin 4).val) = row0L L + 128 * (4 * p + 2 + 3) by omega))))
        iexact Ho1
      isplitl []; · iempintro
      iempintro
    · iexact HRO

set_option maxHeartbeats 16000000 in
/-- The first trip: the two waits for copies of earlier chunks are skipped. -/
theorem trip_zero (hrange : ∀ r, (idxOf m d r).toNat < 216) (O : CellTallies nD τ sig (HIx 1)) (W : Waits sig (HIx 1)) (v2 : BitVec 32)
    (k : Fin k1_t1_loop.trips) (hk : k.val = 0) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  have hk19 := trips_lt k
  obtain ⟨f0, f1, f2, f3⟩ := fin4_vals
  have k1_h2 : ¬ k1_cond2 k = 1#1 := fun h => (k1_cond2_iff k).mp h hk
  have k1_h3 : ¬ k1_cond3 k = 1#1 := fun h => (k1_cond3_iff k).mp h hk
  have k1_h4 : k1_cond4 k = 1#1 := k1_cond4_all k
  have k1_h5 : k1_cond5 k = 1#1 := k1_cond5_all k
  have hin0 := hin_of m d L hrange k 0
  have hin1 := hin_of m d L hrange k 1
  have hin2 := hin_of m d L hrange k 2
  have hin3 := hin_of m d L hrange k 3
  obtain ⟨RI, eI, eI'⟩ := ix_step m d L k.val hk19
  obtain ⟨RO, eO, eO'⟩ := out_step_zero m d L
  have eO1 : outFam m d L k.val = outFam m d L 0 := by rw [hk]
  have eO2 : outFam m d L (k.val + 1) = outFam m d L 1 := by rw [hk]
  have ei : ∀ (r : Fin 4) (j : ℕ), j = 4 * k.val + 2 + r.val → ixPts m d L (128 * j) = pIxPts m d L k r := fun r j hj => by
    rw [pIxPts_eq]; exact congrArg _ (by omega)
  have eo : ∀ (r : Fin 4) (j : ℕ) (f : Buf (Elt F) (outLoc d)), j = 4 * k.val + r.val → outPts d L (row0L L + 128 * j) f = pOutPts d L k r f := fun r j f hj => by
    rw [pOutPts_eq]; exact congrArg (fun x => outPts d L x f) (by omega)
  unfold k1_t1_body
  unfold Inv
  rw [if_pos hk, eI, eO1, eO]
  iintro ⟨#Hmw, ⟨%W', %hW', HO⟩, Hg0, Hg1, Hsg2, Hsg3, Ht10, Ht11, Hss0, Hss1, ⟨⟨%fb2, Hb2⟩, ⟨%fb3, Hb3⟩, Hss2, Hss3⟩, ⟨⟨-, -, Hi0, Hi1, Hi2, Hi3⟩, HRI⟩, ⟨⟨Ho0, Ho1, Ho2, Ho3, Ho4, Ho5⟩, HRO⟩⟩
  ihave Hi0 := (Entails.of_eq (ei 0 _ (by omega))) $$ Hi0
  ihave Hi1 := (Entails.of_eq (ei 1 _ (by omega))) $$ Hi1
  ihave Hi2 := (Entails.of_eq (ei 2 _ (by omega))) $$ Hi2
  ihave Hi3 := (Entails.of_eq (ei 3 _ (by omega))) $$ Hi3
  ihave Ho0 := (Entails.of_eq (eo 0 _ _ (by omega))) $$ Ho0
  ihave Ho1 := (Entails.of_eq (eo 1 _ _ (by omega))) $$ Ho1
  ihave Ho2 := (Entails.of_eq (eo 2 _ _ (by omega))) $$ Ho2
  ihave Ho3 := (Entails.of_eq (eo 3 _ _ (by omega))) $$ Ho3
  sl_exec
  icases Hg0_dst with ⟨Hb0, Hix0⟩
  sl_exec
  icases Hg1_dst with ⟨Hb1, Hix1⟩
  sl_exec
  sl_step
  sl_unfold_run_names
  rw [if_neg (Nat.succ_ne_zero _), eI', eO2, eO']
  icases Hg0_src with -
  icases Hg1_src with -
  isplitl []; · iexact Hmw
  isplitl [HO]
  · iexists _; isplitr
    swap; · iexact HO
    ipureintro; intro q hq
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    exact hW' q hq
  isplitl [Hg0]
  · iapply (gClose_b0 m d L hrange cc1_scratch7.sem 8 k 2 _ (by omega) _ _ _ _ hin2); iexact Hg0
  isplitl [Hg1]
  · iapply (gClose_b1 m d L hrange cc1_scratch8.sem 9 k 3 _ (by omega) _ _ _ _ hin3); iexact Hg1
  isplitl [Hsg2]; · iexact Hsg2
  isplitl [Hsg3]; · iexact Hsg3
  isplitl [Ht10]; · iexact Ht10
  isplitl [Ht11]; · iexact Ht11
  isplitl [Hss0]; · iexact Hss0
  isplitl [Hss1]; · iexact Hss1
  isplitl [Hss2 Hss3]
  · isplitl [Hss2]
    · iapply (sClose_b2 m d L cc1_scratch13.sem k 2 _ (by omega) _ _
        ((land_fun_b2 _ _).trans ((payload_eq m d L hrange k 0 _ _ _ hin0).trans (congrArg (gat m d) (by omega)))))
      iexact Hss2
    · iapply (sClose_b3 m d L cc1_scratch14.sem k 3 _ (by omega) _ _
        ((land_fun_b3 _ _).trans ((payload_eq m d L hrange k 1 _ _ _ hin1).trans (congrArg (gat m d) (by omega)))))
      iexact Hss3
  isplitl [Hix0 Hix1 Hi0 Hi1 HRI]
  · isplitr [HRI]
    · isplitl [Hix0]
      · iapply (Entails.of_eq (congrArg (ixPts m d L) (show 512 * k.val = 128 * (4 * k.val) by omega))); iexact Hix0
      isplitl [Hix1]
      · iapply (Entails.of_eq (congrArg (ixPts m d L) (show 512 * k.val + 128 = 128 * (4 * k.val + 1) by omega))); iexact Hix1
      isplitl [Hi0]
      · iapply (Entails.of_eq (ei 0 _ (by omega)).symm); iexact Hi0
      isplitl [Hi1]
      · iapply (Entails.of_eq (ei 1 _ (by omega)).symm); iexact Hi1
      isplitl []; · iempintro
      iempintro
    · iexact HRI
  · isplitr [HRO]
    · isplitl [Ho0]
      · iapply (Entails.of_eq ((out_eq m d L k 0 _).trans (congrArg (fun x => outPts d L x (resOf m d)) (show row0L L + (512 * k.val + 128 * (0 : Fin 4).val) = row0L L + 128 * 0 by omega))))
        iexact Ho0
      isplitl [Ho1]
      · iapply (Entails.of_eq ((out_eq m d L k 1 _).trans (congrArg (fun x => outPts d L x (resOf m d)) (show row0L L + (512 * k.val + 128 * (1 : Fin 4).val) = row0L L + 128 * (0 + 1) by omega))))
        iexact Ho1
      isplitl []; · iempintro
      isplitl []; · iempintro
      isplitl [Ho4]; · iexact Ho4
      iexact Ho5
    · iexact HRO

/-- One trip of the loop. -/
theorem trip (hrange : ∀ r, (idxOf m d r).toNat < 216) (O : CellTallies nD τ sig (HIx 1)) (W : Waits sig (HIx 1)) (v2 : BitVec 32)
    (k : Fin k1_t1_loop.trips) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  by_cases hk : k.val = 0
  · exact trip_zero m d L hrange O W v2 k hk acc
  · exact trip_pos m d L hrange O W v2 k hk acc

end Trip

end Cert.KIProof

end
-- ==== Proof.TileEpi.lean ====
/-
  The end of one vector subcore's task, after its counted loop: what is in flight then, the last four chunks' windows set
  apart from the rest, the extra chunk of the four lowest-numbered subcores — its index words, its rows of the result —,
  and the task's rows of the result put back together once every chunk holds the result.
-/
import proofs.«203798_g65764539236737_cont_9to1_m_400_20_alg».proof.Proof.TileVals
import proofs.«203798_g65764539236737_cont_9to1_m_400_20_alg».proof.Proof.TileFam

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

/-! ## The subcore's number and its extra chunk -/

/-- The subcore's worker number. -/
abbrev widL (L : grid1.Coords) : ℕ := 2 * (L 1).val + (L 0).val

omit [FloatOps F] in
/-- The extra chunk is taken exactly by the workers numbered below 4. -/
theorem epi_cond6_iff : ∀ L : grid1.Coords, (k1_cond6 L = 1#1 ↔ widL L < 4) := by decide +kernel

omit [FloatOps F] in
theorem epi_extraSet_pos (h : widL L < 4) : Cert.Cover.extraSet (cL L) (iL L) = Cert.Cover.chunkSet (319488 + 128 * widL L) := by
  unfold Cert.Cover.extraSet; rw [if_pos h]
omit [FloatOps F] in
theorem epi_extraSet_neg (h : ¬ widL L < 4) : Cert.Cover.extraSet (cL L) (iL L) = ∅ := by
  unfold Cert.Cover.extraSet; rw [if_neg h]

omit [FloatOps F] in
/-- The extra chunk's rows of the result, as the program slices them, are the rows from `319488 + 128 wid`. -/
theorem epi_extraOut_eq (h6 : k1_cond6 L = 1#1) :
    (outV).slice (Rect.unit (s := S320000x128) (k1_off11 L) S128x128.size (k1_off11_inb L h6)) (fun _ => rfl) = outWin (319488 + 128 * widL L) := by
  have hw := (epi_cond6_iff L).mp h6
  refine outSlice_eq _ (by unfold widL at hw ⊢; omega) ?_
  rw [k1_off11_eq]
  funext a
  match a with
  | ⟨0, _⟩ => show 256 * (L 1).val + 128 * (L 0).val + 319488 = 319488 + 128 * (2 * (L 1).val + (L 0).val); omega
  | ⟨1, _⟩ => rfl

omit [FloatOps F] in
/-- Held by exactly its elements, the extra chunk is the task's extra rows. -/
theorem epi_extraPts (h : widL L < 4) (f : Buf (Elt F) (outLoc d)) :
    (outLoc d ↦[Cert.Cover.extraSet (cL L) (iL L)]{fullShare} f : sProp 𝕄) = outPts d L (319488 + 128 * widL L) f := by
  unfold outPts
  rw [epi_extraSet_pos L h, outWin_set (by unfold widL at h ⊢; omega)]

omit [FloatOps F] in
/-- A task with no extra chunk holds no extra rows: at any contents. -/
theorem epi_extra_none (h : ¬ widL L < 4) (f g : Buf (Elt F) (outLoc d)) :
    (outLoc d ↦[Cert.Cover.extraSet (cL L) (iL L)]{fullShare} f : sProp 𝕄) = outLoc d ↦[Cert.Cover.extraSet (cL L) (iL L)]{fullShare} g := by
  rw [epi_extraSet_neg L h]
  exact pointsTo_congr fun i hi => absurd hi (Finset.notMem_empty i)

/-! ## The extra chunk's index words -/

/-- The extra index buffer after the extra chunk's index copy: word `x` is the combined index word of row `319488 + 128 wid + x`. -/
def exOf : S128.Idx → Elt F .i32 :=
  fun x => idxOf m d (ix1 (⟨(319488 + 128 * widL L + (x 0 : Fin 128).val) % 320000, Nat.mod_lt _ (by decide)⟩ : Fin 320000))

omit [FloatOps F] in
/-- What the extra chunk's index copy writes is those words. -/
theorem epi_ex_contents (h6 : k1_cond6 L = 1#1) (fE : Buf (Elt F) ((tV d L).loc cc1_scratch2)) (pay : S128.Idx → Elt F .i32)
    (hpay : pay = ((idxV).slice (Rect.unit (s := S320000) (k1_off10 L) S128.size (k1_off10_inb L h6)) (fun _ => rfl)).view.read (Elt F) (idxOf m d)) :
    View.write (Elt F) (exV).view fE pay Finset.univ = exOf m d L := by
  subst hpay
  rw [View.write_whole_univ]
  funext x
  rw [View.read_apply]
  unfold exOf
  refine (cast_eq _ _).trans ?_
  congr 1
  funext a
  match a with
  | 0 =>
    have hx : ((x 0 : Fin 128) : ℕ) < 128 := (x 0 : Fin 128).isLt
    have hw := (epi_cond6_iff L).mp h6
    have e0 : (k1_off10 L) 0 = 256 * (L 1).val + 128 * (L 0).val + 319488 := congrFun (k1_off10_eq L) 0
    apply Fin.ext
    show (k1_off10 L) 0 + 1 * (x 0 : Fin 128).val = (319488 + 128 * widL L + (x 0 : Fin 128).val) % 320000
    rw [e0, Nat.mod_eq_of_lt (by unfold widL at hw ⊢; omega)]
    show 256 * (L 1).val + 128 * (L 0).val + 319488 + 1 * (x 0 : Fin 128).val = 319488 + 128 * (2 * (L 1).val + (L 0).val) + (x 0 : Fin 128).val
    omega

omit [FloatOps F] in
/-- Every word of it names a row of the table. -/
theorem epi_ex_hin (hrange : ∀ r, (idxOf m d r).toNat < 216) :
    ∀ x, (((exV).view.read (Elt F) (exOf m d L)) x).toNat < S216x128.size gathers_S216x128_S128x128.axis := by
  intro x
  rw [View.read_apply]
  refine lt_of_eq_of_lt (congrArg BitVec.toNat (cast_eq _ _)) ?_
  exact hrange _

/-! ## The last chunks' windows set apart -/

omit [FloatOps F] in
/-- Four members of a family over the 78 chunks, set apart from the rest. -/
theorem epi_split4 (Φ : Fin 78 → sProp 𝕄) :
    bigSep Finset.univ Φ = iprop((Φ 74 ∗ Φ 75 ∗ Φ 76 ∗ Φ 77) ∗ bigSep (Finset.univ \ {74, 75, 76, 77}) Φ) := by
  rw [SparseCore.bigSep_sdiff_split' (Finset.subset_univ ({74, 75, 76, 77} : Finset (Fin 78))),
    SparseCore.bigSep_insert' (by decide), SparseCore.bigSep_insert' (by decide), SparseCore.bigSep_insert' (by decide), bigSep_singleton]

omit [FloatOps F] in
theorem epi_lt74 {j : Fin 78} (hj : j ∈ Finset.univ \ ({74, 75, 76, 77} : Finset (Fin 78))) : j.val < 74 := by
  have := j.isLt
  simp only [Finset.mem_sdiff, Finset.mem_univ, true_and, Finset.mem_insert, Finset.mem_singleton, Fin.ext_iff] at hj
  have h74 : ((74 : Fin 78) : ℕ) = 74 := rfl
  have h75 : ((75 : Fin 78) : ℕ) = 75 := rfl
  have h76 : ((76 : Fin 78) : ℕ) = 76 := rfl
  have h77 : ((77 : Fin 78) : ℕ) = 77 := rfl
  omega

/-- After the loop the index windows of chunks 76 and 77 are lent to the gathers in flight; with them back, the index
    scratch is whole again. -/
theorem epi_ix_last : ∃ R : sProp 𝕄,
    ixFam m d L 19 = iprop((ixPts m d L 9472 ∗ ixPts m d L 9600 ∗ emp ∗ emp) ∗ R)
    ∧ ((ixV).view.loc (tV d L) ↦{fullShare} ixOf m d L : sProp 𝕄)
        = iprop((ixPts m d L 9472 ∗ ixPts m d L 9600 ∗ ixPts m d L 9728 ∗ ixPts m d L 9856) ∗ R) := by
  refine ⟨bigSep (Finset.univ \ ({74, 75, 76, 77} : Finset (Fin 78))) (fun j => ixPts m d L (128 * j.val)), ?_, ?_⟩
  · unfold ixFam
    rw [epi_split4]
    rw [if_neg (by decide), if_neg (by decide), if_pos (Or.inl (by decide)), if_pos (Or.inr (by decide))]
    refine congrArg _ (bigSep_congr fun j hj => ?_)
    have := epi_lt74 hj
    exact if_neg (by omega)
  · rw [ix_windows, epi_split4]
    rfl

/-- After the loop chunks 74 and 75 of the result are lent to the copies in flight and chunks 76 and 77 hold what the
    launch left; with all four holding the result, every chunk does. -/
theorem epi_out_last : ∃ R : sProp 𝕄,
    outFam m d L 19 = iprop((emp ∗ emp ∗ outPts d L (row0L L + 9728) (m (outLoc d)) ∗ outPts d L (row0L L + 9856) (m (outLoc d))) ∗ R)
    ∧ (bigSep Finset.univ fun k : Fin 78 => outPts d L (row0L L + 128 * k.val) (resOf m d))
        = iprop((outPts d L (row0L L + 9472) (resOf m d) ∗ outPts d L (row0L L + 9600) (resOf m d)
            ∗ outPts d L (row0L L + 9728) (resOf m d) ∗ outPts d L (row0L L + 9856) (resOf m d)) ∗ R) := by
  refine ⟨bigSep (Finset.univ \ ({74, 75, 76, 77} : Finset (Fin 78))) (fun j => outPts d L (row0L L + 128 * j.val) (resOf m d)), ?_, ?_⟩
  · unfold outFam
    rw [epi_split4]
    rw [if_neg (by decide), if_pos (by decide), if_neg (by decide), if_pos (by decide), if_neg (by decide), if_neg (by decide),
      if_neg (by decide), if_neg (by decide)]
    refine congrArg _ (bigSep_congr fun j hj => ?_)
    have := epi_lt74 hj
    exact if_pos (by omega)
  · rw [epi_split4]
    rfl

/-! ## What the extra chunk's transfers leave -/

omit [FloatOps F] in
/-- The extra chunk's index words as the copy reads them out of the index array. -/
theorem epi_ex_pay (h6 : k1_cond6 L = 1#1) :
    ((idxV).slice (Rect.unit (s := S320000) (k1_off10 L) S128.size (k1_off10_inb L h6)) (fun _ => rfl)).view.read (Elt F) (idxOf m d) = exOf m d L := by
  have h := epi_ex_contents m d L h6 (fun _ => 0#32) _ rfl
  rw [View.write_whole_univ] at h
  exact h

omit [FloatOps F] in
/-- The extra index buffer after the copy holds them. -/
theorem epi_ex_land (h6 : k1_cond6 L = 1#1) (j : Buf (Elt F) ((tV d L).loc cc1_scratch2)) :
    ((exV).view.loc (tV d L) ↦[(exV).view.set]{fullShare}
        (exV).view.writes (Elt F) j [⟨Rect.whole cc1_scratch2.ty.shape, ReadAs.same.apply
          (((idxV).slice (Rect.unit (s := S320000) (k1_off10 L) S128.size (k1_off10_inb L h6)) (fun _ => rfl)).view.read (Elt F) (idxOf m d))⟩] : sProp 𝕄)
      = (exV).view.loc (tV d L) ↦[(exV).view.set]{fullShare} exOf m d L := by
  refine pointsTo_congr fun i _ => ?_
  exact (congrFun (View.read_writes_whole (exV).view j _) i).trans (congrFun (epi_ex_pay m d L h6) i)

omit [FloatOps F] in
/-- The task's extra rows, spelt through the slice the program takes. -/
theorem epi_extra_spell (h6 : k1_cond6 L = 1#1) (f : Buf (Elt F) (outLoc d)) :
    (outLoc d ↦[Cert.Cover.extraSet (cL L) (iL L)]{fullShare} f : sProp 𝕄)
      = (((outV).slice (Rect.unit (s := S320000x128) (k1_off11 L) S128x128.size (k1_off11_inb L h6)) (fun _ => rfl)).view.loc (tV d L)
          ↦[((outV).slice (Rect.unit (s := S320000x128) (k1_off11 L) S128x128.size (k1_off11_inb L h6)) (fun _ => rfl)).view.set]{fullShare} f) := by
  have hw := (epi_cond6_iff L).mp h6
  rw [epi_extraPts d L hw f]
  refine (outPts_spell d L (319488 + 128 * widL L) (by unfold widL at hw ⊢; omega) ?_ fullShare f).symm
  rw [k1_off11_eq]
  funext a
  match a with
  | ⟨0, _⟩ => show 256 * (L 1).val + 128 * (L 0).val + 319488 = 319488 + 128 * (2 * (L 1).val + (L 0).val); omega
  | ⟨1, _⟩ => rfl

/-- Rows `r, …, r + 127` of the result array, through a slice the program takes at offsets `![r, 0]`, written with a
    buffer holding those rows of the result, hold the result. -/
theorem out_value_off {off : Fin 2 → ℕ} {hinb : ∀ a, off a + S128x128.size a ≤ S320000x128.size a} (r : ℕ) (hr : r ≤ 319872) (e : off = ![r, 0])
    (f0 : Buf (Elt F) (outLoc d)) :
    ((((outV).slice (Rect.unit (s := S320000x128) off S128x128.size hinb) (fun _ => rfl)).view.loc (tV d L)
        ↦[((outV).slice (Rect.unit (s := S320000x128) off S128x128.size hinb) (fun _ => rfl)).view.set]{fullShare}
          ((outV).slice (Rect.unit (s := S320000x128) off S128x128.size hinb) (fun _ => rfl)).view.writes (Elt F) f0 [⟨Rect.whole S128x128, gat m d r⟩] : sProp 𝕄))
      = outPts d L r (resOf m d) := by
  have h1 : ((((outV).slice (Rect.unit (s := S320000x128) off S128x128.size hinb) (fun _ => rfl)).view.loc (tV d L)
        ↦[((outV).slice (Rect.unit (s := S320000x128) off S128x128.size hinb) (fun _ => rfl)).view.set]{fullShare}
          ((outV).slice (Rect.unit (s := S320000x128) off S128x128.size hinb) (fun _ => rfl)).view.writes (Elt F) f0 [⟨Rect.whole S128x128, gat m d r⟩] : sProp 𝕄))
      = (((outV).slice (Rect.unit (s := S320000x128) off S128x128.size hinb) (fun _ => rfl)).view.loc (tV d L)
        ↦[((outV).slice (Rect.unit (s := S320000x128) off S128x128.size hinb) (fun _ => rfl)).view.set]{fullShare} resOf m d) := by
    refine pointsTo_congr fun i hi => ?_
    obtain ⟨x, -, rfl⟩ := Finset.mem_map.mp hi
    have h := View.read_writes_cons_emb ((outV).slice (Rect.unit (s := S320000x128) off S128x128.size hinb) (fun _ => rfl)).view f0 (Rect.whole S128x128) (gat m d r) [] x
    have hx : (Rect.whole S128x128).emb x = x := Rect.emb_whole_apply S128x128 x
    rw [hx, View.read_apply] at h
    refine ((cast_eq _ _).symm.trans h).trans ?_
    obtain ⟨p, c, rfl⟩ : ∃ (p : Fin 128) (c : Fin 128), x = ix2 p c := ⟨x 0, x 1, eq_ix2 x⟩
    unfold gat
    refine congrArg (resOf m d) (funext fun a => Fin.ext ?_)
    have hp := p.isLt
    subst e
    match a with
    | ⟨0, _⟩ =>
      show (r + p.val) % 320000 = r + 1 * p.val
      rw [Nat.mod_eq_of_lt (by omega)]; omega
    | ⟨1, _⟩ =>
      show c.val = 0 + 1 * c.val
      omega
  rw [h1, outPts_spell d L r hr e]

/-- The extra chunk done: its rows of the result array, written with buffer 0 after the extra gather, hold the result. -/
theorem epi_extra_done (h6 : k1_cond6 L = 1#1) (hrange : ∀ r, (idxOf m d r).toNat < 216) (prior : S128x128.Idx → Elt F .f32) (f0 : Buf (Elt F) (outLoc d))
    (h1 : ∀ a, (![0, 0] : Fin 2 → ℕ) a + S216x128.size a ≤ S216x128.size a)
    (h2 : ∀ a, (Rect.unit (s := S216x128) ![0, 0] S216x128.size h1).stride a = 1)
    (hn : S128.numel = S128x128.size (gathers_S216x128_S128x128).axis')
    (hin : ∀ x, (((exV).view.read (Elt F) (exOf m d L)) x).toNat < S216x128.size (gathers_S216x128_S128x128).axis) :
    ((((outV).slice (Rect.unit (s := S320000x128) (k1_off11 L) S128x128.size (k1_off11_inb L h6)) (fun _ => rfl)).view.loc (tV d L)
        ↦[((outV).slice (Rect.unit (s := S320000x128) (k1_off11 L) S128x128.size (k1_off11_inb L h6)) (fun _ => rfl)).view.set]{fullShare}
          ((outV).slice (Rect.unit (s := S320000x128) (k1_off11 L) S128x128.size (k1_off11_inb L h6)) (fun _ => rfl)).view.writes (Elt F) f0
            [⟨Rect.whole S128x128, ReadAs.same.apply ((b0V).view.read (Elt F) ((b0V).view.writes (Elt F) prior
              [⟨Rect.whole cc1_scratch3.ty.shape, SparseCore.gatherPayload gathers_S216x128_S128x128
                (((shV).slice (Rect.unit (s := S216x128) ![0, 0] S216x128.size h1) h2).view.read (Elt F) (tabOf m d))
                (SparseCore.rows ((exV).view.read (Elt F) (exOf m d L)) hn hin)⟩]))⟩] : sProp 𝕄))
      = outLoc d ↦[Cert.Cover.extraSet (cL L) (iL L)]{fullShare} resOf m d := by
  have hw := (epi_cond6_iff L).mp h6
  have hg : ReadAs.same.apply ((b0V).view.read (Elt F) ((b0V).view.writes (Elt F) prior
              [⟨Rect.whole cc1_scratch3.ty.shape, SparseCore.gatherPayload gathers_S216x128_S128x128
                (((shV).slice (Rect.unit (s := S216x128) ![0, 0] S216x128.size h1) h2).view.read (Elt F) (tabOf m d))
                (SparseCore.rows ((exV).view.read (Elt F) (exOf m d L)) hn hin)⟩]))
      = gat m d (319488 + 128 * widL L) := by
    rw [View.read_writes_whole (b0V).view prior _]
    exact gather_value' m d hrange _ _ (fun x => rfl) h1 h2 hn hin
  rw [hg, epi_extraPts d L hw]
  refine out_value_off m d L (319488 + 128 * widL L) (by unfold widL at hw ⊢; omega) ?_ f0
  rw [k1_off11_eq]
  funext a
  match a with
  | ⟨0, _⟩ => show 256 * (L 1).val + 128 * (L 0).val + 319488 = 319488 + 128 * (2 * (L 1).val + (L 0).val); omega
  | ⟨1, _⟩ => rfl

/-! ## The tail's chunks, as the program slices them -/

/-- The rows of the tail's chunk number `r` (chunks 74 to 77), as the program slices them. -/
abbrev tOut (r : Fin 4) : Memref sig .scVector .hbm S128x128 .f32 :=
  (outV).slice (Rect.unit (s := S320000x128) (k1_off9 L (BitVec.ofNat 32 (9472 + 128 * r.val))) S128x128.size (k1_off9_inb L r)) (fun _ => rfl)

omit [FloatOps F] in
/-- Their rows in closed form. -/
theorem epi_off9 (r : Fin 4) : k1_off9 L (BitVec.ofNat 32 (9472 + 128 * r.val)) = ![row0L L + (9472 + 128 * r.val), 0] := by
  rw [k1_off9_eq]
  funext a
  match a with
  | ⟨0, _⟩ => show 19968 * (L 1).val + 9984 * (L 0).val + 128 * r.val + 9472 = 19968 * (L 1).val + 9984 * (L 0).val + (9472 + 128 * r.val); omega
  | ⟨1, _⟩ => rfl

omit [FloatOps F] in
/-- A chunk of the tail held through the program's slice. -/
theorem epi_tOut_spell (r : Fin 4) (f : Buf (Elt F) (outLoc d)) :
    outPts d L (row0L L + (9472 + 128 * r.val)) f
      = ((tOut L r).view.loc (tV d L) ↦[(tOut L r).view.set]{fullShare} f : sProp 𝕄) :=
  (outPts_spell d L (row0L L + (9472 + 128 * r.val)) (by have := row0L_le L; have := r.isLt; omega) (epi_off9 L r) fullShare f).symm

/-- A chunk of the tail copied out of a buffer holding its rows of the result holds the result. -/
theorem epi_out_land (r : Fin 4) (f0 : Buf (Elt F) (outLoc d)) (P : S128x128.Idx → Elt F .f32) (hP : P = gat m d (row0L L + (9472 + 128 * r.val))) :
    ((tOut L r).view.loc (tV d L) ↦[(tOut L r).view.set]{fullShare} (tOut L r).view.writes (Elt F) f0 [⟨Rect.whole S128x128, P⟩] : sProp 𝕄)
      = outPts d L (row0L L + (9472 + 128 * r.val)) (resOf m d) := by
  subst hP
  exact out_value_off m d L _ (by have := row0L_le L; have := r.isLt; omega) (epi_off9 L r) f0

/-! ## The loop's invariant at its exit -/

/-- After the nineteenth trip: the gathers of chunks 76 and 77 and the copies of chunks 74 and 75 are in flight. -/
theorem epi_inv_last (O : CellTallies nD τ sig (HIx 1)) (W : Waits sig (HIx 1)) (acc : PUnit) :
    Inv m d L O W 19 acc = iprop(Transfers.MayWaits (tV d L) (default : HIx 1) O
      ∗ (∃ W', ⌜∀ p ∈ W', p ∈ W ∨ p.2 = none⌝ ∗ owes (tV d L) O W')
      ∗ gFlight m d L cc1_scratch7.sem 8 (b0Pts d L) 9728
      ∗ gFlight m d L cc1_scratch8.sem 9 (b1Pts d L) 9856
      ∗ semVal (tV d L, SemLoc.dma cc1_scratch9.sem) 0 ∗ semVal (tV d L, SemLoc.dma cc1_scratch10.sem) 0
      ∗ shTok m d L 10 ∗ shTok m d L 11
      ∗ semVal (tV d L, SemLoc.dma cc1_scratch11.sem) 0 ∗ semVal (tV d L, SemLoc.dma cc1_scratch12.sem) 0
      ∗ (sFlight m d L cc1_scratch13.sem (b2Pts d L) 9472 ∗ sFlight m d L cc1_scratch14.sem (b3Pts d L) 9600)
      ∗ ixFam m d L 19 ∗ outFam m d L 19) := by
  unfold Inv
  rw [if_neg (by decide)]

end Tile

end Cert.KIProof

end
-- ==== Proof.TileBody.lean ====
/-
  One vector subcore's task of the gather kernel, from what the launch hands it to what it hands back: the conditional
  fill of the shared scratch, the index copy, the barrier, the two first gathers, the loop at its invariant, the tail and
  the extra chunk.
-/
import proofs.«203798_g65764539236737_cont_9to1_m_400_20_alg».proof.Proof.TileEntry
import proofs.«203798_g65764539236737_cont_9to1_m_400_20_alg».proof.Proof.TileTrip
import proofs.«203798_g65764539236737_cont_9to1_m_400_20_alg».proof.Proof.TileEpi

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid1.Coords)

/-- Transfer semaphores by their numbers. -/
abbrev dsem8 : DmaSem sig := ⟨8, by decide⟩
abbrev dsem9 : DmaSem sig := ⟨9, by decide⟩
abbrev dsem16 : DmaSem sig := ⟨16, by decide⟩
abbrev dsem17 : DmaSem sig := ⟨17, by decide⟩

omit [FloatOps F] in
/-- The waits recorded so far, packed: each is one the task started with, or at no call's index, or at this call's. -/
theorem owes_pack (O : CellTallies nD τ sig (HIx 1)) (W W0 : Waits sig (HIx 1))
    (h : ∀ p ∈ W0, p ∈ W ∨ p.2 = none ∨ p.2 = some (0 : Fin 1)) :
    (owes (tV d L) O W0 : sProp 𝕄) ⊢ iprop(∃ W1, ⌜∀ p ∈ W1, p ∈ W ∨ p.2 = none ∨ p.2 = some (0 : Fin 1)⌝ ∗ owes (tV d L) O W1) := by
  iintro H; iexists W0; isplitr
  · ipureintro; exact h
  · iexact H

set_option maxHeartbeats 8000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hrange : ∀ r, (idxOf m d r).toNat < 216) (qT qI : PosShare TreeShare) :
    iprop(levAts (K (F := F)).L (K (F := F)).lev ∗ bkit m d (cV L) (jV L)
        ∗ (((tabLoc d ↦{qT} tabOf m d) ∗ (idxLoc d ↦{qI} idxOf m d)
            ∗ (outLoc d ↦[Cert.Cover.tileOut (cL L) (iL L)]{fullShare} m (outLoc d))) ∗ shGoL d L)
        ∗ scopedBufs (tV d L) ∗ scopedSems0 (tV d L) ∗ owes (tV d L) (O + oxV d (cV L)) W)
      ⊢ wp frame (wpE (defs₀ (F := F)) 𝒱₀ (tV d L) none) Set.univ
          (cc1__sc_gather L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3)
          fun _ => iprop((((tabLoc d ↦{qT} tabOf m d) ∗ (idxLoc d ↦{qI} idxOf m d)
              ∗ (outLoc d ↦[Cert.Cover.tileOut (cL L) (iL L)]{fullShare} resOf m d))
              ∗ (shLoc d (cV L) ↦{shShare (iL L).val} shTab m d (cV L)))
            ∗ scopedBufs (tV d L) ∗ scopedSems0 (tV d L)
            ∗ ∃ W', ⌜∀ p ∈ W', p ∈ W ∨ p.2 = none ∨ p.2 = some (0 : Fin 1)⌝ ∗ owes (tV d L) O W') := by
  simp only [cc1__sc_gather_eq_skeleton]; unfold cc1__sc_gather_skel
  simp only [k1_part3_eq_skeleton]; unfold k1_part3_skel
  rw [(K (F := F)).scopedBufs_V hF d (cV L) (jV L), SparseCore.Cfg.scopedSems0_V (Val := Elt F) d (cV L) (jV L), ownSems0_V, ownBufs_V]
  unfold bkit shGoL
  have hO' : ∀ g, (O + oxV d (cV L)) g none = 0 := fun g => by rw [Pi.add_apply, Finsupp.add_apply, hO g, oxV_none]
  by_cases h0 : (L 1).val = 0
  on_goal 1 =>
    have k1_h1 := cond1_pos (L 1) h0
    rw [if_pos (show (iL L).val = 0 from h0)]
    iintro ⟨#Hlv, ⟨⟨%κ, #Hinv⟩, Htoks, #Hrch, Hat, Hcred⟩, ⟨⟨Htab, Hidx, Hout⟩, ⟨%fS, Hsh⟩⟩,
      ⟨⟨⟨%fI, HI⟩, ⟨%fE, HE⟩, ⟨%f0, HB0⟩, ⟨%f1, HB1⟩, ⟨%f2, HB2⟩, ⟨%f3, HB3⟩⟩, Hbufs⟩,
      ⟨⟨Hg0, Hg1, Hg2, Hg3, Hs0, Hs1, Hs2, Hs3, Hr0, Hr1, Hr2, Hr3⟩, Hsems⟩, HO⟩
    ihave Hmw1 := (show levAts (K (F := F)).L (K (F := F)).lev ⊢ Transfers.MayWaits (tV d L) (default : HIx 1) (O + oxV d (cV L)) from
      (K (F := F)).mayWaits_none (thr := tV d L) hO') $$ Hlv
    ihave Hmw2 := (show levAts (K (F := F)).L (K (F := F)).lev ⊢ Transfers.MayWaits (tV d L) (default : HIx 1) O from
      (K (F := F)).mayWaits_none (thr := tV d L) hO) $$ Hlv
    ihave Htab' := (Entails.of_eq (show (tabLoc d ↦{qT} tabOf m d : sProp 𝕄) = (tabV).view.loc (tV d L) ↦{qT} tabOf m d from rfl)) $$ Htab
    ihave Hidx' := (Entails.of_eq (show (idxLoc d ↦{qI} idxOf m d : sProp 𝕄) = (idxV).view.loc (tV d L) ↦{qI} idxOf m d from rfl)) $$ Hidx
    ihave HI' := (Entails.of_eq (show ((tV d L).loc cc1_scratch1 ↦{fullShare} fI : sProp 𝕄) = (ixV).view.loc (tV d L) ↦{fullShare} fI from rfl)) $$ HI
    ihave Hsh' := (Entails.of_eq (show (shLoc d (cV L) ↦{fullShare} fS : sProp 𝕄) = (shV).view.loc (tV d L) ↦{fullShare} fS from rfl)) $$ Hsh
    sl_exec
    ihave Hsh2 := (Entails.of_eq (show ((shV).view.loc (tV d L) ↦{fullShare} View.write (Elt F) (shV).view fS (tile_body.sl.dma0 m d) Finset.univ : sProp 𝕄)
        = (shLoc d (cV L) ↦{fullShare} shTab m d (cV L)) from
      congrArg (fun f => (shLoc d (cV L) ↦{fullShare} f : sProp 𝕄)) (sh_contents m d L fS (tile_body.sl.dma0 m d) rfl))) $$ Hsh'
    ihave HI2 := (Entails.of_eq (congrArg (fun f => ((ixV).view.loc (tV d L) ↦{fullShare} f : sProp 𝕄)) (ix_contents m d L fI (tile_body.sl.dma0_1 m d L) rfl))) $$ HI'
    ihave Hpays := (pays_zero (F := F) m d L h0) $$ Hsh2
    rw [Prog.bind_assoc]
    iapply (barrier_step (F := F) m d L κ O _ hOlev _ _) $$ [HO Htoks Hpays Hcred Hat]
    · isplitr; · iexact Hlv
      isplitr; · iexact Hinv
      isplitl [Htoks]; · iexact Htoks
      isplitl [Hpays]; · iexact Hpays
      isplitr; · iexact Hrch
      isplitl [Hat]; · iexact Hat
      isplitl [Hcred]; · iexact Hcred
      iexact HO
    iintro ⟨HO, Hmy⟩
    ihave HOw := (owes_pack (F := F) d L O W (insert (SemLoc.reg sc_bar0, (some 0 : HIx 1)) (insert (SemLoc.dma dsem17, (default : HIx 1)) (insert (SemLoc.dma dsem16, (default : HIx 1)) W))) (by
      intro p hp
      simp only [Finset.mem_insert] at hp
      rcases hp with rfl | rfl | rfl | hp
      · exact .inr (.inr rfl)
      · exact .inr (.inl rfl)
      · exact .inr (.inl rfl)
      · exact .inl hp)) $$ HO
    icases HOw with ⟨%W1, %hW1, HO⟩
  on_goal 2 =>
    have k1_h1 := cond1_neg (L 1) h0
    rw [if_neg (show ¬ (iL L).val = 0 from h0)]
    iintro ⟨#Hlv, ⟨⟨%κ, #Hinv⟩, Htoks, #Hrch, Hat, Hcred⟩, ⟨⟨Htab, Hidx, Hout⟩, -⟩,
      ⟨⟨⟨%fI, HI⟩, ⟨%fE, HE⟩, ⟨%f0, HB0⟩, ⟨%f1, HB1⟩, ⟨%f2, HB2⟩, ⟨%f3, HB3⟩⟩, Hbufs⟩,
      ⟨⟨Hg0, Hg1, Hg2, Hg3, Hs0, Hs1, Hs2, Hs3, Hr0, Hr1, Hr2, Hr3⟩, Hsems⟩, HO⟩
    ihave Hmw1 := (show levAts (K (F := F)).L (K (F := F)).lev ⊢ Transfers.MayWaits (tV d L) (default : HIx 1) (O + oxV d (cV L)) from
      (K (F := F)).mayWaits_none (thr := tV d L) hO') $$ Hlv
    ihave Hmw2 := (show levAts (K (F := F)).L (K (F := F)).lev ⊢ Transfers.MayWaits (tV d L) (default : HIx 1) O from
      (K (F := F)).mayWaits_none (thr := tV d L) hO) $$ Hlv
    ihave Htab' := (Entails.of_eq (show (tabLoc d ↦{qT} tabOf m d : sProp 𝕄) = (tabV).view.loc (tV d L) ↦{qT} tabOf m d from rfl)) $$ Htab
    ihave Hidx' := (Entails.of_eq (show (idxLoc d ↦{qI} idxOf m d : sProp 𝕄) = (idxV).view.loc (tV d L) ↦{qI} idxOf m d from rfl)) $$ Hidx
    ihave HI' := (Entails.of_eq (show ((tV d L).loc cc1_scratch1 ↦{fullShare} fI : sProp 𝕄) = (ixV).view.loc (tV d L) ↦{fullShare} fI from rfl)) $$ HI
    sl_exec
    first
      | ihave HI2 := (Entails.of_eq (congrArg (fun f => ((ixV).view.loc (tV d L) ↦{fullShare} f : sProp 𝕄)) (ix_contents m d L fI (tile_body.sl.dma0_2 m d L) rfl))) $$ HI'
      | ihave HI2 := (Entails.of_eq (congrArg (fun f => ((ixV).view.loc (tV d L) ↦{fullShare} f : sProp 𝕄)) (ix_contents m d L fI (tile_body.sl.dma0_1_1 m d L) rfl))) $$ HI'
      | (trace_state; fail "name of the index copy's payload")
    ihave Hpays := (pays_pos (F := F) m d L h0) $$ []
    · iempintro
    rw [Prog.bind_assoc]
    iapply (barrier_step (F := F) m d L κ O _ hOlev _ _) $$ [HO Htoks Hpays Hcred Hat]
    · isplitr; · iexact Hlv
      isplitr; · iexact Hinv
      isplitl [Htoks]; · iexact Htoks
      isplitl [Hpays]; · iexact Hpays
      isplitr; · iexact Hrch
      isplitl [Hat]; · iexact Hat
      isplitl [Hcred]; · iexact Hcred
      iexact HO
    iintro ⟨HO, Hmy⟩
    ihave HOw := (owes_pack (F := F) d L O W (insert (SemLoc.reg sc_bar0, (some 0 : HIx 1)) (insert (SemLoc.dma dsem17, (default : HIx 1)) W)) (by
      intro p hp
      simp only [Finset.mem_insert] at hp
      rcases hp with rfl | rfl | hp
      · exact .inr (.inr rfl)
      · exact .inr (.inl rfl)
      · exact .inl hp)) $$ HO
    icases HOw with ⟨%W1, %hW1, HO⟩
  all_goals
    -- the read share as four gather tokens and a remainder; the index scratch as its windows; the rows as their chunks
    ihave Htk := (sh_tokens m d L).1 $$ Hmy
    icases Htk with ⟨Hshr, Htk8, Htk9, Htk10, Htk11⟩
    ihave HIw := (Entails.of_eq ((ix_windows d L (ixOf m d L)).trans (fam_focus2 _ (a := (⟨0, by decide⟩ : Fin 78)) (b := (⟨1, by decide⟩ : Fin 78)) (by decide)))) $$ HI2
    icases HIw with ⟨Hw0, Hw1, HIrest⟩
    ihave Hw0' := (Entails.of_eq (ixPts_spell d L (off := ![0]) (hinb := inb_S9984_S128_0) 0 (by omega) rfl fullShare (ixOf m d L)).symm) $$ Hw0
    ihave Hw1' := (Entails.of_eq (ixPts_spell d L (off := ![128]) (hinb := inb_S9984_S128_128) 128 (by omega) rfl fullShare (ixOf m d L)).symm) $$ Hw1
    ihave Ho := (out_chunks d L (m (outLoc d))).1 $$ Hout
    icases Ho with ⟨HoutF, Hextra⟩
    ihave HB0' := (Entails.of_eq (b0Pts_eq d L f0)) $$ HB0
    ihave HB1' := (Entails.of_eq (b1Pts_eq d L f1)) $$ HB1
    ihave HB2' := (Entails.of_eq (b2Pts_eq d L f2)) $$ HB2
    ihave HB3' := (Entails.of_eq (b3Pts_eq d L f3)) $$ HB3
    have hin0 := hin_slice m d L hrange (Rect.unit (s := S9984) ![0] S128.size inb_S9984_S128_0) (fun _ => rfl)
    have hin1 := hin_slice m d L hrange (Rect.unit (s := S9984) ![128] S128.size inb_S9984_S128_128) (fun _ => rfl)
    sl_exec
    rw [Prog.bind_assoc]
    sl_for (Inv m d L O W1) $$ [Hmw2 HO Hg0 Hg1 Hg2 Hg3 Htk10 Htk11 Hs0 Hs1 HB2' HB3' Hs2 Hs3 HIrest HoutF]
    case region => intro k acc; exact trip m d L hrange O W1 _ k acc
    · unfold Inv
      rw [if_pos rfl]
      isplitr; · iexact Hmw2
      isplitl [HO]
      · iexists W1; isplitr
        · ipureintro; exact fun p hp => .inl hp
        · iexact HO
      isplitl [Hg0]
      · first
        | (sl_unfold_run_names; iapply (gFlight_exec0 m d L cc1_scratch7.sem dsem8 rfl 8 (512 * 0) (by omega) (off := ![0]) (hinb := inb_S9984_S128_0) rfl f0 (_)
          (gather_value' m d hrange _ (row0L L + 512 * 0) (win_read m d L (512 * 0) (by omega) rfl) _ _ _ _) _) $$ Hg0)
        | iapply (gFlight_exec0 m d L cc1_scratch7.sem dsem8 rfl 8 (512 * 0) (by omega) (off := ![0]) (hinb := inb_S9984_S128_0) rfl f0 (tile_body.sl.gather0 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_1 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_2 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_3 m d L hin0)
          (gather_value' m d hrange _ (row0L L + 512 * 0) (win_read m d L (512 * 0) (by omega) rfl) _ _ _ _) _) $$ Hg0
      isplitl [Hg1]
      · first
        | (sl_unfold_run_names; iapply (gFlight_exec1 m d L cc1_scratch8.sem dsem9 rfl 9 (512 * 0 + 128) (by omega) (off := ![128]) (hinb := inb_S9984_S128_128) rfl f1 (_)
          (gather_value' m d hrange _ (row0L L + (512 * 0 + 128)) (win_read m d L (512 * 0 + 128) (by omega) rfl) _ _ _ _) _) $$ Hg1)
        | iapply (gFlight_exec1 m d L cc1_scratch8.sem dsem9 rfl 9 (512 * 0 + 128) (by omega) (off := ![128]) (hinb := inb_S9984_S128_128) rfl f1 (tile_body.sl.gather1 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_1 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_2 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_3 m d L hin1)
          (gather_value' m d hrange _ (row0L L + (512 * 0 + 128)) (win_read m d L (512 * 0 + 128) (by omega) rfl) _ _ _ _) _) $$ Hg1
      isplitl [Hg2]; · iexact Hg2
      isplitl [Hg3]; · iexact Hg3
      isplitl [Htk10]; · iexact Htk10
      isplitl [Htk11]; · iexact Htk11
      isplitl [Hs0]; · iexact Hs0
      isplitl [Hs1]; · iexact Hs1
      isplitl [HB2' HB3' Hs2 Hs3]
      · isplitl [HB2']; · iexists _; iexact HB2'
        isplitl [HB3']; · iexists _; iexact HB3'
        isplitl [Hs2]; · iexact Hs2
        iexact Hs3
      isplitl [HIrest]
      · iapply (ixFam_zero m d L) $$ HIrest
      rw [outFam_zero]
      iexact HoutF
    iintro %_ HI
    -- the loop is over: what is in flight, and the last four chunks' windows set apart
    have ht : Scf.trips k1_t1_loop.lb k1_t1_loop.ub k1_t1_loop.st = 19 := by decide
    ihave HI := (Entails.of_eq ((congrArg (fun g => Inv m d L O W1 g _) ht).trans (epi_inv_last m d L O W1 _))) $$ HI
    icases HI with ⟨-, ⟨%W', %hW', HO⟩, Hg0, Hg1, Hsg2, Hsg3, Ht10, Ht11, Hss0, Hss1, ⟨Hs2, Hs3⟩, HixF, HoutF⟩
    obtain ⟨Rix, hix1, hix2⟩ := epi_ix_last m d L
    obtain ⟨Rout, ho1, ho2⟩ := epi_out_last m d L
    ihave HixF := (Entails.of_eq hix1) $$ HixF
    icases HixF with ⟨⟨Hi0, Hi1, -, -⟩, HRix⟩
    ihave HoutF := (Entails.of_eq ho1) $$ HoutF
    icases HoutF with ⟨⟨-, -, Ho2c, Ho3c⟩, HRout⟩
    ihave Ho2c := (Entails.of_eq (epi_tOut_spell d L 2 (m (outLoc d)))) $$ Ho2c
    ihave Ho3c := (Entails.of_eq (epi_tOut_spell d L 3 (m (outLoc d)))) $$ Ho3c
    ihave HE := (show ((tV d L).loc cc1_scratch2 ↦{fullShare} fE : sProp 𝕄) ⊢ ((exV).view.loc (tV d L) ↦[(exV).view.set]{fullShare} fE) from
      Entails.of_eq (by rw [show ((exV).view.set : Finset S128.Idx) = Finset.univ from View.set_whole _])) $$ HE
    iclear Htk8 Htk9
    -- the copy of chunk 74 and the gather of chunk 76 waited for, chunk 76 copied out
    sl_exec
    icases Hg0_dst with ⟨Hb0, Hix2⟩
    -- the copy of chunk 75 and the gather of chunk 77 waited for, chunk 77 copied out
    sl_exec
    icases Hg1_dst with ⟨Hb1, Hix3⟩
    by_cases h6 : k1_cond6 L = 1#1
    · -- a worker numbered below 4: the two last copies waited for, then the extra chunk
      ihave Hextra := (Entails.of_eq (epi_extra_spell d L h6 (m (outLoc d)))) $$ Hextra
      sl_exec
      sl_unfold_run_names
      ihave HE := (Entails.of_eq (epi_ex_land m d L h6 _)) $$ HE
      have hinE := epi_ex_hin m d L hrange
      sl_exec
      sl_step
      sl_unfold_run_names
      -- the operand shares, the result's rows, the read share of the shared scratch
      isplitl [Htab' Hidx' Hextra Ho3c Ho2c HRout Hs2_dst Hs3_dst Hshr Hg0_src Hg1_src Ht10 Ht11]
      · isplitl [Htab' Hidx' Hextra Ho3c Ho2c HRout Hs2_dst Hs3_dst]
        · isplitl [Htab']; · iexact Htab'
          isplitl [Hidx']; · iexact Hidx'
          iapply (out_chunks d L (resOf m d)).mpr
          isplitl [Ho3c Ho2c HRout Hs2_dst Hs3_dst]
          · iapply (Entails.of_eq ho2.symm)
            isplitr [HRout]
            · isplitl [Hs2_dst]; · iexact Hs2_dst
              isplitl [Hs3_dst]; · iexact Hs3_dst
              isplitl [Ho2c]
              · iapply (Entails.of_eq (epi_out_land m d L 2 _ _ rfl)); iexact Ho2c
              iapply (Entails.of_eq (epi_out_land m d L 3 _ _ rfl)); iexact Ho3c
            · iexact HRout
          · iapply (Entails.of_eq (epi_extra_done m d L h6 hrange _ _ _ _ _ hinE)); iexact Hextra
        · iapply (sh_tokens m d L).mpr
          isplitl [Hshr]; · iexact Hshr
          isplitl [Hg0_src]; · iexact Hg0_src
          isplitl [Hg1_src]; · iexact Hg1_src
          isplitl [Ht10]; · iexact Ht10
          iexact Ht11
      -- the scratch buffers
      isplitl [Hi0 Hi1 Hix2 Hix3 HRix HE Hb0 Hb1 Hs2_src Hs3_src Hbufs]
      · isplitr [Hbufs]
        · isplitl [Hi0 Hi1 Hix2 Hix3 HRix]
          · iexists _
            iapply (Entails.of_eq hix2.symm)
            isplitr [HRix]
            · isplitl [Hi0]; · iexact Hi0
              isplitl [Hi1]; · iexact Hi1
              isplitl [Hix2]; · iexact Hix2
              iexact Hix3
            · iexact HRix
          isplitl [HE]; · iexists _; iexact HE
          isplitl [Hb0]; · iexists _; iapply (Entails.of_eq (b0Pts_eq d L _).symm); iexact Hb0
          isplitl [Hb1]; · iexists _; iapply (Entails.of_eq (b1Pts_eq d L _).symm); iexact Hb1
          isplitl [Hs2_src]; · iexists _; iapply (Entails.of_eq (b2Pts_eq d L _).symm); iexact Hs2_src
          iexists _; iapply (Entails.of_eq (b3Pts_eq d L _).symm); iexact Hs3_src
        · iexact Hbufs
      -- the semaphores, and what the task still owes
      isplitr [HO]
      · isplitr [Hsems]
        · isplitl [Hg0]; · iexact Hg0
          isplitl [Hg1]; · iexact Hg1
          isplitl [Hsg2]; · iexact Hsg2
          isplitl [Hsg3]; · iexact Hsg3
          isplitl [Hss0]; · iexact Hss0
          isplitl [Hss1]; · iexact Hss1
          isplitl [Hs2]; · iexact Hs2
          isplitl [Hs3]; · iexact Hs3
          isplitl [Hr0]; · iexact Hr0
          isplitl [Hr1]; · iexact Hr1
          isplitl [Hr2]; · iexact Hr2
          iexact Hr3
        · iexact Hsems
      iexists _
      isplitr; swap
      · iexact HO
      ipureintro
      intro p hp
      simp only [Finset.mem_insert] at hp
      rcases hp with rfl | rfl | rfl | rfl | rfl | rfl | rfl | rfl | rfl | hp
      iterate 9 exact Or.inr (Or.inl rfl)
      rcases hW' p hp with h | h
      · exact hW1 p h
      · exact Or.inr (Or.inl h)
    · -- the others: the two last copies waited for
      have hneg : ¬ widL L < 4 := fun h => h6 ((epi_cond6_iff L).mpr h)
      sl_exec
      sl_step
      sl_unfold_run_names
      -- the operand shares, the result's rows, the read share of the shared scratch
      isplitl [Htab' Hidx' Hextra Ho3c Ho2c HRout Hs2_dst Hs3_dst Hshr Hg0_src Hg1_src Ht10 Ht11]
      · isplitl [Htab' Hidx' Hextra Ho3c Ho2c HRout Hs2_dst Hs3_dst]
        · isplitl [Htab']; · iexact Htab'
          isplitl [Hidx']; · iexact Hidx'
          iapply (out_chunks d L (resOf m d)).mpr
          isplitl [Ho3c Ho2c HRout Hs2_dst Hs3_dst]
          · iapply (Entails.of_eq ho2.symm)
            isplitr [HRout]
            · isplitl [Hs2_dst]; · iexact Hs2_dst
              isplitl [Hs3_dst]; · iexact Hs3_dst
              isplitl [Ho2c]
              · iapply (Entails.of_eq (epi_out_land m d L 2 _ _ rfl)); iexact Ho2c
              iapply (Entails.of_eq (epi_out_land m d L 3 _ _ rfl)); iexact Ho3c
            · iexact HRout
          · iapply (Entails.of_eq (epi_extra_none d L hneg (m (outLoc d)) (resOf m d))); iexact Hextra
        · iapply (sh_tokens m d L).mpr
          isplitl [Hshr]; · iexact Hshr
          isplitl [Hg0_src]; · iexact Hg0_src
          isplitl [Hg1_src]; · iexact Hg1_src
          isplitl [Ht10]; · iexact Ht10
          iexact Ht11
      -- the scratch buffers
      isplitl [Hi0 Hi1 Hix2 Hix3 HRix HE Hb0 Hb1 Hs2_src Hs3_src Hbufs]
      · isplitr [Hbufs]
        · isplitl [Hi0 Hi1 Hix2 Hix3 HRix]
          · iexists _
            iapply (Entails.of_eq hix2.symm)
            isplitr [HRix]
            · isplitl [Hi0]; · iexact Hi0
              isplitl [Hi1]; · iexact Hi1
              isplitl [Hix2]; · iexact Hix2
              iexact Hix3
            · iexact HRix
          isplitl [HE]; · iexists _; iexact HE
          isplitl [Hb0]; · iexists _; iapply (Entails.of_eq (b0Pts_eq d L _).symm); iexact Hb0
          isplitl [Hb1]; · iexists _; iapply (Entails.of_eq (b1Pts_eq d L _).symm); iexact Hb1
          isplitl [Hs2_src]; · iexists _; iapply (Entails.of_eq (b2Pts_eq d L _).symm); iexact Hs2_src
          iexists _; iapply (Entails.of_eq (b3Pts_eq d L _).symm); iexact Hs3_src
        · iexact Hbufs
      -- the semaphores, and what the task still owes
      isplitr [HO]
      · isplitr [Hsems]
        · isplitl [Hg0]; · iexact Hg0
          isplitl [Hg1]; · iexact Hg1
          isplitl [Hsg2]; · iexact Hsg2
          isplitl [Hsg3]; · iexact Hsg3
          isplitl [Hss0]; · iexact Hss0
          isplitl [Hss1]; · iexact Hss1
          isplitl [Hs2]; · iexact Hs2
          isplitl [Hs3]; · iexact Hs3
          isplitl [Hr0]; · iexact Hr0
          isplitl [Hr1]; · iexact Hr1
          isplitl [Hr2]; · iexact Hr2
          iexact Hr3
        · iexact Hsems
      iexists _
      isplitr; swap
      · iexact HO
      ipureintro
      intro p hp
      simp only [Finset.mem_insert] at hp
      rcases hp with rfl | rfl | rfl | rfl | rfl | rfl | hp
      iterate 6 exact Or.inr (Or.inl rfl)
      rcases hW' p hp with h | h
      · exact hW1 p h
      · exact Or.inr (Or.inl h)

end Tile

end Cert.KIProof

end
-- ==== Proof.TileObl.lean ====
/-
  The launch theorem's obligation for a vector subcore's task of the one SparseCore call: the task's proof at the tile's
  coordinates, through the kernel table's row for vector subcores.
-/
import proofs.«203798_g65764539236737_cont_9to1_m_400_20_alg».proof.Proof.Common
import proofs.«203798_g65764539236737_cont_9to1_m_400_20_alg».proof.Proof.TileBody

noncomputable section

namespace Cert.KIProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.KernelIdeal.main_v9_0_scv : Memref Cert.KernelIdeal.sig Kind.scVector Space.hbm Cert.KernelIdeal.S216x128 EltTy.f32)
local notation "idxV" => (Memref.whole Cert.KernelIdeal.main_v10_scv : Memref Cert.KernelIdeal.sig Kind.scVector Space.hbm Cert.KernelIdeal.S320000 EltTy.i32)
local notation "outV" => (Memref.whole Cert.KernelIdeal.main_v11_scv : Memref Cert.KernelIdeal.sig Kind.scVector Space.hbm Cert.KernelIdeal.S320000x128 EltTy.f32)
local notation "shV" => (Memref.whole Cert.KernelIdeal.cc1_scratch0 : Memref Cert.KernelIdeal.sig Kind.scVector Space.shared Cert.KernelIdeal.S216x128 EltTy.f32)
local notation "ixV" => (Memref.whole Cert.KernelIdeal.cc1_scratch1 : Memref Cert.KernelIdeal.sig Kind.scVector Space.vmem Cert.KernelIdeal.S9984 EltTy.i32)
local notation "exV" => (Memref.whole Cert.KernelIdeal.cc1_scratch2 : Memref Cert.KernelIdeal.sig Kind.scVector Space.vmem Cert.KernelIdeal.S128 EltTy.i32)
local notation "b0V" => (Memref.whole Cert.KernelIdeal.cc1_scratch3 : Memref Cert.KernelIdeal.sig Kind.scVector Space.vmem Cert.KernelIdeal.S128x128 EltTy.f32)
local notation "b1V" => (Memref.whole Cert.KernelIdeal.cc1_scratch4 : Memref Cert.KernelIdeal.sig Kind.scVector Space.vmem Cert.KernelIdeal.S128x128 EltTy.f32)
local notation "b2V" => (Memref.whole Cert.KernelIdeal.cc1_scratch5 : Memref Cert.KernelIdeal.sig Kind.scVector Space.vmem Cert.KernelIdeal.S128x128 EltTy.f32)
local notation "b3V" => (Memref.whole Cert.KernelIdeal.cc1_scratch6 : Memref Cert.KernelIdeal.sig Kind.scVector Space.vmem Cert.KernelIdeal.S128x128 EltTy.f32)

variable (m : (ℓ : Loc nD τ sig) → Buf (Elt F) ℓ)
variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          tabV (Memref.isWhole_whole _) idxV (Memref.isWhole_whole _) outV (Memref.isWhole_whole _)
          shV (Memref.isWhole_whole _) ixV (Memref.isWhole_whole _) exV (Memref.isWhole_whole _)
          b0V (Memref.isWhole_whole _) b1V (Memref.isWhole_whole _) b2V (Memref.isWhole_whole _) b3V (Memref.isWhole_whole _)
          cc1_scratch7 cc1_scratch8 cc1_scratch9 cc1_scratch10 cc1_scratch11 cc1_scratch12 cc1_scratch13 cc1_scratch14
          cc1_scoped0 cc1_scoped1 cc1_scoped2 cc1_scoped3) ⟨⟩ c s := rfl

set_option maxRecDepth 16384 in
theorem tileObl (h : ∀ (d : Dev nD) (r : (⟨1, ![320000]⟩ : Shape).Idx), (idxOf m d r).toNat < 216) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts O W hO hOlev (h d) _ _

end Cert.KIProof

end
-- ==== Proof.TileViewsK.lean ====
/-
  One vector subcore's storage as its task addresses it: its twelve transfer semaphores and six scratch buffers set
  apart from the rest of its own, the operand arrays through the whole-array memrefs, and the result's chunks through
  the slices the task takes, each chunk's element set the 128 rows it names.
-/
import proofs.«203798_g65764539236737_cont_9to1_m_400_20_alg».proof.Proof.CellsK
import proofs.«203798_g65764539236737_cont_9to1_m_400_20_alg».proof.Proof.Cover
import proofs.«203798_g65764539236737_cont_9to1_m_400_20_alg».proof.Proof.Gen.Kernel.Skeleton

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The twelve transfer semaphores and six scratch buffers of a task -/

/-- The twelve transfer semaphores the task uses. -/
def tileSems : Finset (SemLoc sig) :=
  {SemLoc.dma cc1_scratch7.sem, SemLoc.dma cc1_scratch8.sem, SemLoc.dma cc1_scratch9.sem, SemLoc.dma cc1_scratch10.sem,
   SemLoc.dma cc1_scratch11.sem, SemLoc.dma cc1_scratch12.sem, SemLoc.dma cc1_scratch13.sem, SemLoc.dma cc1_scratch14.sem,
   SemLoc.dma cc1_scoped0.sem, SemLoc.dma cc1_scoped1.sem, SemLoc.dma cc1_scoped2.sem, SemLoc.dma cc1_scoped3.sem}

theorem tileSems_scoped : ∀ sm ∈ tileSems, sm.isScoped .scVector = true := by decide

theorem tileSems_bigSep (Φ : SemLoc sig → sProp 𝕄) :
    bigSep tileSems Φ = iprop(Φ (SemLoc.dma cc1_scratch7.sem) ∗ Φ (SemLoc.dma cc1_scratch8.sem) ∗ Φ (SemLoc.dma cc1_scratch9.sem)
      ∗ Φ (SemLoc.dma cc1_scratch10.sem) ∗ Φ (SemLoc.dma cc1_scratch11.sem) ∗ Φ (SemLoc.dma cc1_scratch12.sem)
      ∗ Φ (SemLoc.dma cc1_scratch13.sem) ∗ Φ (SemLoc.dma cc1_scratch14.sem) ∗ Φ (SemLoc.dma cc1_scoped0.sem)
      ∗ Φ (SemLoc.dma cc1_scoped1.sem) ∗ Φ (SemLoc.dma cc1_scoped2.sem) ∗ Φ (SemLoc.dma cc1_scoped3.sem)) := by
  unfold tileSems
  rw [SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert),
    SparseCore.bigSep_insert' (by decide +revert), SparseCore.bigSep_insert' (by decide +revert), bigSep_singleton]

def tileRefs : Finset (Ref sig .scVector) := {cc1_scratch1, cc1_scratch2, cc1_scratch3, cc1_scratch4, cc1_scratch5, cc1_scratch6}

theorem tileRefs_bigSep (Φ : Ref sig .scVector → sProp 𝕄) :
    bigSep tileRefs Φ = iprop(Φ cc1_scratch1 ∗ Φ cc1_scratch2 ∗ Φ cc1_scratch3 ∗ Φ cc1_scratch4 ∗ Φ cc1_scratch5 ∗ Φ cc1_scratch6) := by
  unfold tileRefs
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The tile -/

section Tile

variable (d : Dev nD) (L : grid1.Coords)

abbrev cV (L : grid1.Coords) : Fin τ.nSC := (L 0).castLE hcore1
abbrev jV (L : grid1.Coords) : Fin τ.nSub := (L 1).castLE hsub1
/-- The tile's core and subcore numbers. -/
abbrev cL (L : grid1.Coords) : Fin 2 := ⟨(L 0).val, (L 0).isLt⟩
abbrev iL (L : grid1.Coords) : Fin 16 := ⟨(L 1).val, (L 1).isLt⟩
/-- The tile's thread. -/
abbrev tV : Thread nD τ := V d (cV L) (jV L)

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)

/-! ## The tile's semaphores -/

def tileCells : Finset (GSem nD τ sig) := tileSems.image fun sm => (tV d L, sm)

theorem tileCells_sub : tileCells d L ⊆ ownCells (tV d L) := by
  intro g hg
  obtain ⟨sm, hsm, rfl⟩ := Finset.mem_image.mp hg
  exact mem_ownCells.mpr ⟨rfl, tileSems_scoped sm hsm⟩

theorem ownSems0_V :
    (ownSems0 (tV d L) : sProp 𝕄)
      = iprop((semVal (tV d L, SemLoc.dma cc1_scratch7.sem) 0 ∗ semVal (tV d L, SemLoc.dma cc1_scratch8.sem) 0
          ∗ semVal (tV d L, SemLoc.dma cc1_scratch9.sem) 0 ∗ semVal (tV d L, SemLoc.dma cc1_scratch10.sem) 0
          ∗ semVal (tV d L, SemLoc.dma cc1_scratch11.sem) 0 ∗ semVal (tV d L, SemLoc.dma cc1_scratch12.sem) 0
          ∗ semVal (tV d L, SemLoc.dma cc1_scratch13.sem) 0 ∗ semVal (tV d L, SemLoc.dma cc1_scratch14.sem) 0
          ∗ semVal (tV d L, SemLoc.dma cc1_scoped0.sem) 0 ∗ semVal (tV d L, SemLoc.dma cc1_scoped1.sem) 0
          ∗ semVal (tV d L, SemLoc.dma cc1_scoped2.sem) 0 ∗ semVal (tV d L, SemLoc.dma cc1_scoped3.sem) 0)
          ∗ bigSep (ownCells (tV d L) \ tileCells d L) fun g => semVal g 0) := by
  unfold SparseCore.Cfg.ownSems0
  rw [SparseCore.bigSep_sdiff_split' (tileCells_sub d L)]
  have h : (bigSep (tileCells d L) fun g => (semVal g 0 : sProp 𝕄)) = bigSep tileSems fun sm => semVal (tV d L, sm) 0 := by
    unfold tileCells
    exact SparseCore.bigSep_image_of_injOn (fun a _ b _ e => (Prod.mk.inj e).2) _
  rw [h, tileSems_bigSep]

/-! ## The tile's scratch buffers -/

def tileDevRefs : Finset (DevRef τ sig) := tileRefs.image (Proc.scVector (cV L) (jV L)).devRef

theorem tileDevRefs_sub : tileDevRefs L ⊆ ownRefs (τ := τ) (.scVector (cV L) (jV L)) := by
  intro b hb
  obtain ⟨r, hr, rfl⟩ := Finset.mem_image.mp hb
  unfold tileRefs at hr
  simp only [Finset.mem_insert, Finset.mem_singleton] at hr
  rcases hr with rfl | rfl | rfl | rfl | rfl | rfl <;> exact SparseCore.Cfg.mem_ownRefs_of_owner rfl

theorem ownBufs_V :
    (ownBufs (tV d L) : sProp 𝕄)
      = iprop(((∃ f, (tV d L).loc cc1_scratch1 ↦{fullShare} f) ∗ (∃ f, (tV d L).loc cc1_scratch2 ↦{fullShare} f)
          ∗ (∃ f, (tV d L).loc cc1_scratch3 ↦{fullShare} f) ∗ (∃ f, (tV d L).loc cc1_scratch4 ↦{fullShare} f)
          ∗ (∃ f, (tV d L).loc cc1_scratch5 ↦{fullShare} f) ∗ (∃ f, (tV d L).loc cc1_scratch6 ↦{fullShare} f))
          ∗ bigSep (ownRefs (τ := τ) (.scVector (cV L) (jV L)) \ tileDevRefs L) fun b => iprop(∃ f, ((d, b) : Loc nD τ sig) ↦{fullShare} f)) := by
  unfold SparseCore.Cfg.ownBufs
  rw [show (tV d L).2 = Proc.scVector (cV L) (jV L) from rfl, SparseCore.bigSep_sdiff_split' (tileDevRefs_sub L)]
  have h : (bigSep (tileDevRefs L) fun b => (iprop(∃ f, ((d, b) : Loc nD τ sig) ↦{fullShare} f) : sProp 𝕄))
      = bigSep tileRefs fun r => iprop(∃ f, ((d, (Proc.scVector (cV L) (jV L)).devRef r) : Loc nD τ sig) ↦{fullShare} f) := by
    unfold tileDevRefs
    exact SparseCore.bigSep_image_of_injOn (fun a _ b _ e => Proc.devRef_injective _ e) _
  rw [h, tileRefs_bigSep]

end Tile

end Cert.KProof

end
-- ==== Proof.TileInvK.lean ====
/-
  The state of one vector subcore's task at the head of trip g of its loop, as an assertion. The task's 78 chunks of 128
  rows are numbered k; chunk k's index words are words [128 k, 128 k + 128) of the index scratch and its rows of the
  result are rows [row0 + 128 k, + 128). At the head of trip g the gathers of chunks 4 g and 4 g + 1 are in flight into
  buffers 0 and 1; for g > 0 the copies-out of chunks 4 g - 2 and 4 g - 1 are in flight from buffers 2 and 3; chunks below
  4 g - 2 of the result hold the result's value, chunks from 4 g on still hold what the launch left.
-/
import proofs.«203798_g65764539236737_cont_9to1_m_400_20_alg».proof.Proof.TileViewsK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

/-- The tile's first row of the result. -/
abbrev row0L (L : grid1.Coords) : ℕ := 19968 * (L 1).val + 9984 * (L 0).val

omit [FloatOps F] in
theorem row0L_le : row0L L + 9984 ≤ 319488 := by
  have h1 : (L 1).val < 16 := (L 1).isLt
  have h0 : (L 0).val < 2 := (L 0).isLt
  unfold row0L; omega

/-! ## The windows, by their first word or row -/

/-- The 128 index words starting at word `o` of the index scratch (clamped into the scratch). -/
abbrev ixRect (o : ℕ) : Rect S9984 :=
  Rect.unit (s := S9984) ![min o 9856] S128.size (fun a => match a with | 0 => by show min o 9856 + 128 ≤ 9984; omega)
abbrev ixWin (o : ℕ) : Memref sig .scVector .vmem S128 .i32 := (ixV).slice (ixRect o) (fun _ => rfl)

/-- The 128 rows starting at row `r` of the result (clamped into the array). -/
abbrev outRect (r : ℕ) : Rect S320000x128 :=
  Rect.unit (s := S320000x128) ![min r 319872, 0] S128x128.size
    (fun a => match a with | 0 => by show min r 319872 + 128 ≤ 320000; omega | 1 => by show (0 : ℕ) + 128 ≤ 128; omega)
abbrev outWin (r : ℕ) : Memref sig .scVector .hbm S128x128 .f32 := (outV).slice (outRect r) (fun _ => rfl)

/-- The shared scratch as the gathers address it: the slice of all of it. -/
abbrev shSl : Memref sig .scVector .shared S216x128 .f32 :=
  (shV).slice (Rect.unit (s := S216x128) ![0, 0] S216x128.size inb_S216x128_S216x128_0_0) (fun _ => rfl)

omit [FloatOps F] in
/-- A slice the program takes at offsets that are `![o]` is the window at `o`. -/
theorem ixSlice_eq {off : Fin 1 → ℕ} {hinb : ∀ a, off a + S128.size a ≤ S9984.size a} (o : ℕ) (ho : o ≤ 9856) (e : off = ![o]) :
    (ixV).slice (Rect.unit (s := S9984) off S128.size hinb) (fun _ => rfl) = ixWin o := by
  subst e
  have : min o 9856 = o := Nat.min_eq_left ho
  unfold ixWin ixRect
  congr 2
  funext a; match a with | 0 => exact this.symm

omit [FloatOps F] in
theorem outSlice_eq {off : Fin 2 → ℕ} {hinb : ∀ a, off a + S128x128.size a ≤ S320000x128.size a} (r : ℕ) (hr : r ≤ 319872) (e : off = ![r, 0]) :
    (outV).slice (Rect.unit (s := S320000x128) off S128x128.size hinb) (fun _ => rfl) = outWin r := by
  subst e
  have : min r 319872 = r := Nat.min_eq_left hr
  unfold outWin outRect
  congr 2
  funext a; match a with | 0 => exact this.symm | 1 => rfl

/-! ## Contents -/

/-- The index scratch after the task's index copy: word `x` is the combined index word of row `row0 + x`. -/
def ixOf : S9984.Idx → Elt F .i32 :=
  fun x => idxOf m d (ValueIdx.ix1 (⟨(row0L L + (x 0 : Fin 9984).val) % 320000, Nat.mod_lt _ (by decide)⟩ : Fin 320000))

/-- What a buffer holds once the gather of the chunk at rows `r, …, r + 127` has landed: those rows of the result. -/
def gat (r : ℕ) : S128x128.Idx → Elt F .f32 :=
  fun x => resOf m d (ValueIdx.ix2 (⟨(r + (x 0 : Fin 128).val) % 320000, Nat.mod_lt _ (by decide)⟩ : Fin 320000) (x 1 : Fin 128))

/-! ## The pieces -/

/-- The index window at word `o`, held by exactly its elements. -/
abbrev ixPts (o : ℕ) : sProp 𝕄 := (ixWin o).view.loc (tV d L) ↦[(ixWin o).view.set]{fullShare} ixOf m d L
/-- The result's rows `r, …, r + 127`, held by exactly their elements, at contents `f`. -/
abbrev outPts (r : ℕ) (f : Buf (Elt F) (outLoc d)) : sProp 𝕄 := (outWin r).view.loc (tV d L) ↦[(outWin r).view.set]{fullShare} f
/-- The tile's read share of the shared scratch. -/
abbrev shQ (L : grid1.Coords) : PosShare TreeShare := shShare (jV L).val
/-- The read token of the shared scratch for the gathers on the transfer semaphore numbered `t`. -/
abbrev shTok (t : ℕ) : sProp 𝕄 := (shSl).view.loc (tV d L) ↦[(shSl).view.set]{Transfers.shareTokN (shQ L) t} shTab m d (cV L)
/-- The four buffers whole, each held by exactly its elements. -/
abbrev b0Pts (f : S128x128.Idx → Elt F .f32) : sProp 𝕄 := (b0V).view.loc (tV d L) ↦[(b0V).view.set]{fullShare} f
abbrev b1Pts (f : S128x128.Idx → Elt F .f32) : sProp 𝕄 := (b1V).view.loc (tV d L) ↦[(b1V).view.set]{fullShare} f
abbrev b2Pts (f : S128x128.Idx → Elt F .f32) : sProp 𝕄 := (b2V).view.loc (tV d L) ↦[(b2V).view.set]{fullShare} f
abbrev b3Pts (f : S128x128.Idx → Elt F .f32) : sProp 𝕄 := (b3V).view.loc (tV d L) ↦[(b3V).view.set]{fullShare} f

/-- The gather of the chunk at index word `o` in flight into buffer `bV` on transfer semaphore `sg` (numbered `t`): it
    delivers the buffer holding the chunk's rows of the result, the chunk's index window, and the read token. -/
abbrev gFlight (sg : DmaSem sig) (t : ℕ) (bP : (S128x128.Idx → Elt F .f32) → sProp 𝕄) (o : ℕ) : sProp 𝕄 :=
  Transfers.Flight (countersEmb : UEmb Counters 𝕄) (tV d L) (SemLoc.dma sg) (default : HIx 1) (b0V).view.dmaCredit
    iprop((bP (gat m d (row0L L + o)) ∗ ixPts m d L o) ∗ shTok m d L t)

/-- The copy-out of the chunk at index word `o` in flight from buffer `bV` on transfer semaphore `ss`: it delivers the
    chunk's rows of the result holding the result's value, and the buffer. -/
abbrev sFlight (ss : DmaSem sig) (bP : (S128x128.Idx → Elt F .f32) → sProp 𝕄) (o : ℕ) : sProp 𝕄 :=
  Transfers.Flight (countersEmb : UEmb Counters 𝕄) (tV d L) (SemLoc.dma ss) (default : HIx 1) (outWin (row0L L + o)).view.dmaCredit
    iprop(outPts d L (row0L L + o) (resOf m d) ∗ bP (gat m d (row0L L + o)))

/-- The index windows not lent to a gather in flight at the head of trip `g`. -/
abbrev ixFam (g : ℕ) : sProp 𝕄 :=
  bigSep (Finset.univ : Finset (Fin 78)) fun k => if k.val = 4 * g ∨ k.val = 4 * g + 1 then iprop(emp) else ixPts m d L (128 * k.val)

/-- The result's chunks at the head of trip `g`: those copied out and waited for hold the result's value, the two being
    copied out are lent, the rest hold what the launch left. -/
abbrev outFam (g : ℕ) : sProp 𝕄 :=
  bigSep (Finset.univ : Finset (Fin 78)) fun k =>
    if k.val + 2 < 4 * g then outPts d L (row0L L + 128 * k.val) (resOf m d)
    else if k.val < 4 * g then iprop(emp)
    else outPts d L (row0L L + 128 * k.val) (m (outLoc d))

/-- The loop's invariant at the head of trip `g`. -/
def Inv (O : CellTallies nD τ sig (HIx 1)) (W : Waits sig (HIx 1)) (g : ℕ) (_ : PUnit) : sProp 𝕄 :=
  iprop(Transfers.MayWaits (tV d L) (default : HIx 1) O
    ∗ (∃ W', ⌜∀ p ∈ W', p ∈ W ∨ p.2 = none⌝ ∗ owes (tV d L) O W')
    ∗ gFlight m d L cc1_scratch7.sem 8 (b0Pts d L) (512 * g)
    ∗ gFlight m d L cc1_scratch8.sem 9 (b1Pts d L) (512 * g + 128)
    ∗ semVal (tV d L, SemLoc.dma cc1_scratch9.sem) 0 ∗ semVal (tV d L, SemLoc.dma cc1_scratch10.sem) 0
    ∗ shTok m d L 10 ∗ shTok m d L 11
    ∗ semVal (tV d L, SemLoc.dma cc1_scratch11.sem) 0 ∗ semVal (tV d L, SemLoc.dma cc1_scratch12.sem) 0
    ∗ (if g = 0 then iprop((∃ f, b2Pts d L f) ∗ (∃ f, b3Pts d L f)
          ∗ semVal (tV d L, SemLoc.dma cc1_scratch13.sem) 0 ∗ semVal (tV d L, SemLoc.dma cc1_scratch14.sem) 0)
        else iprop(sFlight m d L cc1_scratch13.sem (b2Pts d L) (512 * g - 256) ∗ sFlight m d L cc1_scratch14.sem (b3Pts d L) (512 * g - 128)))
    ∗ ixFam m d L g ∗ outFam m d L g)

end Tile

end Cert.KProof

end
-- ==== Proof.TileFamK.lean ====
/-
  The tile's arrays as families of windows: the index scratch is its 78 windows of 128 words, the tile's rows of the
  result are its 78 chunks of 128 rows and its extra chunk, and the tile's read share of the shared scratch is four read
  tokens, one per gather semaphore, and a remainder.
-/
import proofs.«203798_g65764539236737_cont_9to1_m_400_20_alg».proof.Proof.TileInvK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

/-! ## The windows' element sets -/

omit [FloatOps F] in
theorem mem_ixWin_set {o : ℕ} (ho : o ≤ 9856) {x : S9984.Idx} :
    x ∈ (ixWin o).view.set ↔ o ≤ (x 0 : Fin 9984).val ∧ (x 0 : Fin 9984).val < o + 128 := by
  show x ∈ ((View.whole cc1_scratch1).slice (ixRect o)).set ↔ _
  rw [View.set_slice_whole, Rect.mem_set_unit, Nat.min_eq_left ho]
  constructor
  · intro h; exact h 0
  · intro h a; match a with | 0 => exact h

omit [FloatOps F] in
theorem outWin_set {r : ℕ} (hr : r ≤ 319872) : (outWin r).view.set = Cert.Cover.chunkSet r := by
  show ((View.whole main_v11_scv).slice (outRect r)).set = _
  rw [View.set_slice_whole]
  ext j
  rw [Rect.mem_set_unit, Cert.Cover.mem_chunkSet, Nat.min_eq_left hr]
  constructor
  · intro h; exact h 0
  · intro h a
    match a with
    | 0 => exact h
    | 1 =>
      have h1 : (j 1 : ℕ) < 128 := (j 1).isLt
      exact ⟨Nat.zero_le _, by show (j 1 : ℕ) < 0 + 128; omega⟩

omit [FloatOps F] in
theorem shSl_set : (shSl).view.set = Finset.univ := by
  show ((View.whole cc1_scratch0).slice _).set = _
  rw [View.set_slice_whole]
  ext j
  simp only [Rect.mem_set_unit, Finset.mem_univ, iff_true]
  intro a
  match a with
  | 0 =>
    have h0 : (j 0 : ℕ) < 216 := (j 0).isLt
    exact ⟨Nat.zero_le _, by show (j 0 : ℕ) < 0 + 216; omega⟩
  | 1 =>
    have h1 : (j 1 : ℕ) < 128 := (j 1).isLt
    exact ⟨Nat.zero_le _, by show (j 1 : ℕ) < 0 + 128; omega⟩

/-! ## The index scratch is its windows -/

/-- The elements of the index window at word `o`. -/
abbrev ixSet (o : ℕ) : Finset S9984.Idx := (ixWin o).view.set

omit [FloatOps F] in
theorem ixWins_disjoint : ∀ k ∈ (Finset.univ : Finset (Fin 78)), ∀ k' ∈ (Finset.univ : Finset (Fin 78)), k ≠ k' →
    Disjoint (ixSet (128 * k.val)) (ixSet (128 * k'.val)) := by
  intro k _ k' _ h
  refine Finset.disjoint_left.mpr fun x h1 h2 => h (Fin.ext ?_)
  have hk := k.isLt; have hk' := k'.isLt
  have := (mem_ixWin_set (o := 128 * k.val) (by omega)).mp h1
  have := (mem_ixWin_set (o := 128 * k'.val) (by omega)).mp h2
  omega

omit [FloatOps F] in
theorem ixWins_cover : (Finset.univ : Finset (Fin 78)).biUnion (fun k => ixSet (128 * k.val)) = Finset.univ := by
  ext x
  simp only [Finset.mem_biUnion, Finset.mem_univ, true_and, iff_true]
  have hx : ((x 0 : Fin 9984) : ℕ) < 9984 := (x 0 : Fin 9984).isLt
  refine ⟨⟨(x 0 : Fin 9984).val / 128, by omega⟩, ?_⟩
  rw [mem_ixWin_set (by show 128 * ((x 0 : Fin 9984).val / 128) ≤ 9856; omega)]
  show 128 * ((x 0 : Fin 9984).val / 128) ≤ _ ∧ _ < 128 * ((x 0 : Fin 9984).val / 128) + 128
  omega

omit [FloatOps F] in
/-- The index scratch whole is its 78 windows. -/
theorem ix_windows (f : S9984.Idx → Elt F .i32) :
    ((ixV).view.loc (tV d L) ↦{fullShare} f : sProp 𝕄)
      = bigSep Finset.univ fun k : Fin 78 => (ixWin (128 * k.val)).view.loc (tV d L) ↦[(ixWin (128 * k.val)).view.set]{fullShare} f := by
  rw [← pointsTo_biUnion Finset.univ (ℓ := (ixV).view.loc (tV d L)) (fun k : Fin 78 => ixSet (128 * k.val)) ixWins_disjoint, ixWins_cover]; try rfl

omit [FloatOps F] in
/-- A window the program slices at offsets that are `![o]` is the window at word `o`. -/
theorem ixPts_spell {off : Fin 1 → ℕ} {hinb : ∀ a, off a + S128.size a ≤ S9984.size a} (o : ℕ) (ho : o ≤ 9856) (e : off = ![o])
    (q : PosShare TreeShare) (f : S9984.Idx → Elt F .i32) :
    ((((ixV).slice (Rect.unit (s := S9984) off S128.size hinb) (fun _ => rfl)).view.loc (tV d L)
        ↦[((ixV).slice (Rect.unit (s := S9984) off S128.size hinb) (fun _ => rfl)).view.set]{q} f : sProp 𝕄))
      = ((ixWin o).view.loc (tV d L) ↦[(ixWin o).view.set]{q} f) := by
  have hs : (((ixV).slice (Rect.unit (s := S9984) off S128.size hinb) (fun _ => rfl)).view.set : Finset S9984.Idx) = ixSet o := by
    subst e
    ext x
    rw [mem_ixWin_set ho]
    show x ∈ ((View.whole cc1_scratch1).slice _).set ↔ _
    rw [View.set_slice_whole, Rect.mem_set_unit]
    constructor
    · intro h; exact h 0
    · intro h a; match a with | 0 => exact h
  show ((tV d L).loc cc1_scratch1 ↦[(((ixV).slice (Rect.unit (s := S9984) off S128.size hinb) (fun _ => rfl)).view.set : Finset S9984.Idx)]{q} f : sProp 𝕄)
    = ((tV d L).loc cc1_scratch1 ↦[ixSet o]{q} f)
  rw [hs]

omit [FloatOps F] in
/-- A chunk of the result the program slices at offsets that are `![r, 0]` is the chunk at row `r`. -/
theorem outPts_spell {off : Fin 2 → ℕ} {hinb : ∀ a, off a + S128x128.size a ≤ S320000x128.size a} (r : ℕ) (hr : r ≤ 319872) (e : off = ![r, 0])
    (q : PosShare TreeShare) (f : Buf (Elt F) (outLoc d)) :
    ((((outV).slice (Rect.unit (s := S320000x128) off S128x128.size hinb) (fun _ => rfl)).view.loc (tV d L)
        ↦[((outV).slice (Rect.unit (s := S320000x128) off S128x128.size hinb) (fun _ => rfl)).view.set]{q} f : sProp 𝕄))
      = ((outWin r).view.loc (tV d L) ↦[(outWin r).view.set]{q} f) := by
  have hs : (((outV).slice (Rect.unit (s := S320000x128) off S128x128.size hinb) (fun _ => rfl)).view.set : Finset Cert.Cover.OIdx) = (outWin r).view.set := by
    subst e
    rw [outWin_set hr]
    show ((View.whole main_v11_scv).slice _).set = _
    rw [View.set_slice_whole]
    ext j
    rw [Rect.mem_set_unit, Cert.Cover.mem_chunkSet]
    constructor
    · intro h; exact h 0
    · intro h a
      match a with
      | 0 => exact h
      | 1 =>
        have h1 : (j 1 : ℕ) < 128 := (j 1).isLt
        exact ⟨Nat.zero_le _, by show (j 1 : ℕ) < 0 + 128; omega⟩
  show (outLoc d ↦[(((outV).slice (Rect.unit (s := S320000x128) off S128x128.size hinb) (fun _ => rfl)).view.set : Finset Cert.Cover.OIdx)]{q} f : sProp 𝕄)
    = (outLoc d ↦[((outWin r).view.set : Finset Cert.Cover.OIdx)]{q} f)
  rw [hs]

omit [FloatOps F] in
/-- A buffer whole is held by exactly its elements. -/
theorem b0Pts_eq (f : S128x128.Idx → Elt F .f32) : ((tV d L).loc cc1_scratch3 ↦{fullShare} f : sProp 𝕄) = b0Pts d L f := by
  have hs : ((b0V).view.set : Finset S128x128.Idx) = Finset.univ := View.set_whole _
  show ((tV d L).loc cc1_scratch3 ↦[Finset.univ]{fullShare} f : sProp 𝕄) = ((tV d L).loc cc1_scratch3 ↦[((b0V).view.set : Finset S128x128.Idx)]{fullShare} f)
  rw [hs]
omit [FloatOps F] in
theorem b1Pts_eq (f : S128x128.Idx → Elt F .f32) : ((tV d L).loc cc1_scratch4 ↦{fullShare} f : sProp 𝕄) = b1Pts d L f := by
  have hs : ((b1V).view.set : Finset S128x128.Idx) = Finset.univ := View.set_whole _
  show ((tV d L).loc cc1_scratch4 ↦[Finset.univ]{fullShare} f : sProp 𝕄) = ((tV d L).loc cc1_scratch4 ↦[((b1V).view.set : Finset S128x128.Idx)]{fullShare} f)
  rw [hs]
omit [FloatOps F] in
theorem b2Pts_eq (f : S128x128.Idx → Elt F .f32) : ((tV d L).loc cc1_scratch5 ↦{fullShare} f : sProp 𝕄) = b2Pts d L f := by
  have hs : ((b2V).view.set : Finset S128x128.Idx) = Finset.univ := View.set_whole _
  show ((tV d L).loc cc1_scratch5 ↦[Finset.univ]{fullShare} f : sProp 𝕄) = ((tV d L).loc cc1_scratch5 ↦[((b2V).view.set : Finset S128x128.Idx)]{fullShare} f)
  rw [hs]
omit [FloatOps F] in
theorem b3Pts_eq (f : S128x128.Idx → Elt F .f32) : ((tV d L).loc cc1_scratch6 ↦{fullShare} f : sProp 𝕄) = b3Pts d L f := by
  have hs : ((b3V).view.set : Finset S128x128.Idx) = Finset.univ := View.set_whole _
  show ((tV d L).loc cc1_scratch6 ↦[Finset.univ]{fullShare} f : sProp 𝕄) = ((tV d L).loc cc1_scratch6 ↦[((b3V).view.set : Finset S128x128.Idx)]{fullShare} f)
  rw [hs]

omit [FloatOps F] in
/-- Two members of a family of 78 set apart from the rest. -/
theorem fam_focus2 (Φ : Fin 78 → sProp 𝕄) {a b : Fin 78} (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

/-! ## The tile's rows of the result are its chunks -/

omit [FloatOps F] in
theorem row0L_eq : row0L L = Cert.Cover.row0 (cL L) (iL L) := rfl

omit [FloatOps F] in
/-- The tile's rows of the result are its 78 chunks and its extra chunk. -/
theorem out_chunks (f : Buf (Elt F) (outLoc d)) :
    (outLoc d ↦[Cert.Cover.tileOut (cL L) (iL L)]{fullShare} f : sProp 𝕄)
      ⊣⊢ iprop((bigSep Finset.univ fun k : Fin 78 => outPts d L (row0L L + 128 * k.val) f)
          ∗ outLoc d ↦[Cert.Cover.extraSet (cL L) (iL L)]{fullShare} f) := by
  have hr := row0L_le L
  have hset : ∀ k : Fin 78, (outWin (row0L L + 128 * k.val)).view.set = Cert.Cover.chunkSet (Cert.Cover.row0 (cL L) (iL L) + 128 * k.val) := fun k => by
    have := k.isLt
    rw [outWin_set (by omega)]
  have hfam : (outLoc d ↦[(Finset.univ : Finset (Fin 78)).biUnion fun k => Cert.Cover.chunkSet (Cert.Cover.row0 (cL L) (iL L) + 128 * k.val)]{fullShare} f : sProp 𝕄)
      = bigSep Finset.univ fun k : Fin 78 => outPts d L (row0L L + 128 * k.val) f := by
    rw [pointsTo_biUnion Finset.univ (ℓ := outLoc d) _ (Cert.Cover.chunks_disjoint (cL L) (iL L))]
    exact bigSep_congr fun k _ => by unfold outPts; rw [hset k]
  rw [Cert.Cover.tileOut_eq, ← hfam]
  exact pointsTo_union (Cert.Cover.chunks_extra_disjoint (cL L) (iL L))

/-! ## The tile's read share of the shared scratch as read tokens -/

/-- What is left of the tile's read share beside the four gather tokens. -/
abbrev shRest : sProp 𝕄 :=
  iprop((shLoc d (cV L) ↦{Transfers.shareDrop (shQ L) 12} shTab m d (cV L))
    ∗ bigSep (Finset.range 8) fun t => shLoc d (cV L) ↦{Transfers.shareTokN (shQ L) t} shTab m d (cV L))

theorem shTok_eq (t : ℕ) : (shTok m d L t : sProp 𝕄) = shLoc d (cV L) ↦{Transfers.shareTokN (shQ L) t} shTab m d (cV L) := by
  unfold shTok; rw [shSl_set]; rfl

/-- The tile's read share of the shared scratch is the four gather tokens and the remainder. -/
theorem sh_tokens : (shLoc d (cV L) ↦{shQ L} shTab m d (cV L) : sProp 𝕄)
    ⊣⊢ iprop(shRest m d L ∗ shTok m d L 8 ∗ shTok m d L 9 ∗ shTok m d L 10 ∗ shTok m d L 11) := by
  have h := Transfers.pointsTo_toks_range (ℓ := shLoc d (cV L)) (S := Finset.univ) (f := shTab m d (cV L)) (Lvl := ℕ)
    (Name := ℕ) (U := UU) (Ix := HIx 1) (shQ L) 12
  rw [show Finset.range 12 = insert 11 (insert 10 (insert 9 (insert 8 (Finset.range 8)))) from by decide,
    SparseCore.bigSep_insert' (by decide), SparseCore.bigSep_insert' (by decide), SparseCore.bigSep_insert' (by decide), SparseCore.bigSep_insert' (by decide)] at h
  rw [shTok_eq, shTok_eq, shTok_eq, shTok_eq]
  unfold shRest
  constructor
  · refine h.1.trans ?_
    iintro ⟨Hd, H11, H10, H9, H8, Hr⟩
    isplitl [Hd Hr]; · isplitl [Hd] <;> iassumption
    isplitl [H8]; · iexact H8
    isplitl [H9]; · iexact H9
    isplitl [H10]; · iexact H10
    iexact H11
  · refine BIBase.Entails.trans ?_ h.2
    iintro ⟨⟨Hd, Hr⟩, H8, H9, H10, H11⟩
    isplitl [Hd]; · iexact Hd
    isplitl [H11]; · iexact H11
    isplitl [H10]; · iexact H10
    isplitl [H9]; · iexact H9
    isplitl [H8]; · iexact H8
    iexact Hr

end Tile

end Cert.KProof

end
-- ==== Proof.TilePreK.lean ====
/-
  The straight-line steps of the task before its loop that are done by hand: which subcore fills the shared scratch, what
  the subcores' barrier units hand over and what a tile's own round collects, and the barrier itself as one step.
-/
import proofs.«203798_g65764539236737_cont_9to1_m_400_20_alg».proof.Proof.TileFamK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

omit [FloatOps F] in
theorem cond1_pos : ∀ j : Fin (grid1.bound 1), j.val = 0 →
    Scalar.cmpi .ne (Scalar.extui (Scalar.cmpi .eq (BitVec.ofNat 32 j.val) 0#32) : BitVec 32) 0#32 = 1#1 := by decide
omit [FloatOps F] in
theorem cond1_neg : ∀ j : Fin (grid1.bound 1), j.val ≠ 0 →
    ¬ Scalar.cmpi .ne (Scalar.extui (Scalar.cmpi .eq (BitVec.ofNat 32 j.val) 0#32) : BitVec 32) 0#32 = 1#1 := by decide

/-- What the launch hands the task of the shared scratch: subcore 0 the whole scratch at some contents, the others nothing. -/
abbrev shGoL : sProp 𝕄 := if (iL L).val = 0 then iprop(∃ f, shLoc d (cV L) ↦{fullShare} f) else iprop(emp)

/-- Subcore 0's units hand every tile its read share of the filled scratch. -/
theorem pays_zero (h0 : (L 1).val = 0) : (shLoc d (cV L) ↦{fullShare} shTab m d (cV L) : sProp 𝕄)
    ⊢ bigSep Finset.univ fun j : Fin (grid1.bound 1) => (bRd (F := F) m).payload (bcell d (cV L) (j.castLE hsub1)) 0 (jV L).val := by
  rw [show (jV L).val = 0 from h0]
  refine (pointsTo_shShares_split (F := F) Finset.univ (shTab m d (cV L))).trans (Entails.of_eq ?_)
  exact (bigSep_congr fun j _ => (bPay_zero m d (cV L) (j.castLE hsub1)).symm)

/-- The other subcores' units hand over nothing. -/
theorem pays_pos (h0 : (L 1).val ≠ 0) : (iprop(emp) : sProp 𝕄)
    ⊢ bigSep Finset.univ fun j : Fin (grid1.bound 1) => (bRd (F := F) m).payload (bcell d (cV L) (j.castLE hsub1)) 0 (jV L).val :=
  Entails.of_eq ((bigSep_congr (fun j _ => bPay_pos m d (cV L) (j.castLE hsub1) (n := (jV L).val) h0)).trans (bigSep_emp_const _)).symm

/-- What a tile's own round collected holds its read share of the scratch, filled with the table. -/
theorem pays_elim : (bigSep ((bRd (F := F) m).duties (bcell d (cV L) (jV L)) 0 \ ∅) fun n => (bRd (F := F) m).payload (bcell d (cV L) (jV L)) 0 n)
    ⊢ (shLoc d (cV L) ↦{shShare (jV L).val} shTab m d (cV L) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  rw [bPay_zero]; exact BI.Entails.refl _

/-- The subcore barrier as one step of the task: the tile pays its unit on every tile's cell, handing over what its
    duties carry, waits for its own round, and comes out owing nothing more to the barrier and holding its read share of
    the shared scratch filled with the table. -/
theorem barrier_step (κ : GSem nD τ sig → ℕ) (O : CellTallies nD τ sig (HIx 1)) (W : Waits sig (HIx 1))
    (hOlev : ∀ g ι, 0 < O g ι → 8 * (0 : Fin 1).val + 6 ≤ (K (F := F)).lev g ι) {α : Type}
    (k : PUnit → Prog (TpuEff nD τ sig (Elt F) Λ₀ (.scVector (cV L) (jV L))) α) (Q : α → sProp 𝕄) :
    iprop(levAts (K (F := F)).L (K (F := F)).lev
      ∗ (bigSep Finset.univ fun j : Fin (grid1.bound 1) => cellInv EB (bRd (F := F) m) (κ (bcell d (cV L) (j.castLE hsub1))) (bcell d (cV L) (j.castLE hsub1)))
      ∗ (bigSep Finset.univ fun j : Fin (grid1.bound 1) => dutyTok EB (bcell d (cV L) (j.castLE hsub1)) 0 (jV L).val)
      ∗ (bigSep Finset.univ fun j : Fin (grid1.bound 1) => (bRd (F := F) m).payload (bcell d (cV L) (j.castLE hsub1)) 0 (jV L).val)
      ∗ (bigSep Finset.univ fun j : Fin (grid1.bound 1) => reached EB (bcell d (cV L) (j.castLE hsub1)) 0)
      ∗ atPos EB (bcell d (cV L) (jV L)) 0 ∅ 0
      ∗ cred (tallyAt (bcell d (cV L) (jV L)) (some 0) (grid1.bound 1))
      ∗ owes (tV d L) (O + oxV d (cV L)) W)
    ⊢ iprop((iprop(owes (tV d L) O (insert (SemLoc.reg sc_bar0, (some 0 : HIx 1)) W) ∗ shLoc d (cV L) ↦{shShare (jV L).val} shTab m d (cV L))
          -∗ wp frame (wpE (defs₀ (F := F)) 𝒱₀ (tV d L) none) Set.univ (k ⟨⟩) Q)
        -∗ wp frame (wpE (defs₀ (F := F)) 𝒱₀ (tV d L) none) Set.univ (SparseCore.subcoreBarrier sc_bar0 (grid1.bound 1) hsub1 >>= k) Q) := by
  iintro ⟨#Hlv, #Hinv, Htoks, Hpays, #Hrch, Hat, Hcred, HO⟩ Hk
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := tV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, -, -, Hgot⟩
  ihave Hmy := (pays_elim (F := F) m d L) $$ Hgot
  iapply Hk
  isplitl [HO]; · iexact HO
  iexact Hmy

/-! ## What the two prologue copies leave -/

/-- The shared scratch after subcore 0's copy holds the table. -/
theorem sh_contents (fS : Buf (Elt F) (shLoc d (cV L))) (pay : S216x128.Idx → Elt F .f32)
    (hpay : pay = (tabV).view.read (Elt F) (tabOf m d)) :
    View.write (Elt F) (shV).view fS pay Finset.univ = shTab m d (cV L) := by
  subst hpay
  rw [View.write_whole_univ]; rfl

omit [FloatOps F] in
/-- The index scratch after the task's index copy holds the tile's index words. -/
theorem ix_contents (fI : Buf (Elt F) ((tV d L).loc cc1_scratch1)) (pay : S9984.Idx → Elt F .i32)
    (hpay : pay = ((idxV).slice (Rect.unit (s := S320000) (k1_off1 L) S9984.size (k1_off1_inb L)) (fun _ => rfl)).view.read (Elt F) (idxOf m d)) :
    View.write (Elt F) (ixV).view fI pay Finset.univ = ixOf m d L := by
  subst hpay
  rw [View.write_whole_univ]
  funext x
  rw [View.read_apply]
  unfold ixOf
  refine (cast_eq _ _).trans ?_
  congr 1
  funext a
  match a with
  | 0 =>
    have hx : ((x 0 : Fin 9984) : ℕ) < 9984 := (x 0 : Fin 9984).isLt
    have hr := row0L_le L
    apply Fin.ext
    show (k1_off1 L) 0 + 1 * (x 0 : Fin 9984).val = (row0L L + (x 0 : Fin 9984).val) % 320000
    have e : (k1_off1 L) 0 = row0L L := by rw [k1_off1_eq]; rfl
    rw [e, Nat.one_mul, Nat.mod_eq_of_lt (by omega)]

omit [FloatOps F] in
/-- Every word of the tile's index scratch names a row of the table. -/
theorem hin_slice (hrange : ∀ r, (idxOf m d r).toNat < 216) (r : Rect S9984) (hr : ∀ a, r.stride a = 1) :
    ∀ x, (((ixV).slice r hr).view.read (Elt F) (ixOf m d L) x).toNat < S216x128.size gathers_S216x128_S128x128.axis := by
  intro x
  rw [View.read_apply]
  refine lt_of_eq_of_lt (congrArg BitVec.toNat (cast_eq _ _)) ?_
  exact hrange _

end Tile

end Cert.KProof

end
-- ==== Proof.TileValsK.lean ====
/-
  The values the subcore's transfers move. A gather whose offset list holds the combined index words of 128 consecutive
  rows of the result lands those rows of the result: each word, below 216, names the table's row that the result's row is.
  A copy of a buffer holding 128 consecutive rows of the result onto those rows of the result array leaves them holding
  the result.
-/
import proofs.«203798_g65764539236737_cont_9to1_m_400_20_alg».proof.Proof.TileInvK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "outV" => (Memref.whole Cert.Kernel.main_v11_scv : Memref Cert.Kernel.sig Kind.scVector Space.hbm Cert.Kernel.S320000x128 EltTy.f32)

variable (m : (ℓ : Loc nD τ sig) → Buf (Elt F) ℓ)
variable [FloatOps F]

section Tile

variable (d : Dev nD) (L : grid1.Coords)

/-- The offset list's entry for row `k` of the destination is the list's word `k`. -/
theorem rows_apply (I : S128.Idx → Elt F .i32) (hn : S128.numel = 128) (hin : ∀ x, (I x).toNat < 216) (k : Fin 128) :
    (SparseCore.rows I hn hin k).val = (I (ix1 k)).toNat := by
  unfold SparseCore.rows
  show (I (S128.rowMajor.symm (k.cast hn.symm))).toNat = (I (ix1 k)).toNat
  congr 2
  rw [Equiv.symm_apply_eq]
  exact Fin.ext (by rw [Shape.rowMajor_val_one]; rfl)

/-- A gather through an offset list holding the combined index words of rows `r, …, r + 127` lands those rows of the
    result. -/
theorem gather_value (hrange : ∀ r, (idxOf m d r).toNat < 216) (r : ℕ)
    (I : S128.Idx → Elt F .i32)
    (hI : ∀ k : Fin 128, I (ix1 k) = idxOf m d (ix1 (⟨(r + k.val) % 320000, Nat.mod_lt _ (by decide)⟩ : Fin 320000)))
    (hn : S128.numel = S128x128.size (gathers_S216x128_S128x128).axis')
    (hin : ∀ x, (I x).toNat < S216x128.size (gathers_S216x128_S128x128).axis) :
    SparseCore.gatherPayload gathers_S216x128_S128x128 (tabOf m d) (SparseCore.rows I hn hin) = gat m d r := by
  funext x
  obtain ⟨p, c, rfl⟩ : ∃ (p : Fin 128) (c : Fin 128), x = ix2 p c := ⟨x 0, x 1, eq_ix2 x⟩
  unfold SparseCore.gatherPayload gat
  show tabOf m d _ = KSpec.res (m (aLoc d)) (m (e0Loc d)) (m (e1Loc d)) (m (e2Loc d)) _
  unfold KSpec.res
  refine congrArg (tabOf m d) (funext fun b => ?_)
  match b with
  | ⟨0, _⟩ =>
    apply Fin.ext
    have h0 := Shape.Gathers.idx_axis gathers_S216x128_S128x128 (SparseCore.rows I hn hin) (ix2 p c)
    have h1 : ((gathers_S216x128_S128x128).idx (SparseCore.rows I hn hin) (ix2 p c) (gathers_S216x128_S128x128).axis).val
        = (I (ix1 p)).toNat := by
      rw [h0]; exact rows_apply I hn hin p
    refine h1.trans ?_
    rw [hI p]
    exact (Nat.mod_eq_of_lt (hrange _)).symm
  | ⟨1, _⟩ =>
    apply Fin.ext
    exact Shape.Gathers.idx_of_ne gathers_S216x128_S128x128 (SparseCore.rows I hn hin) (ix2 p c) ⟨1, by decide⟩ (by decide)

omit [FloatOps F] in
/-- The shared scratch read through the slice of all of it is its contents. -/
theorem vals_sh_read (h1 : ∀ a, (![0, 0] : Fin 2 → ℕ) a + S216x128.size a ≤ S216x128.size a)
    (h2 : ∀ a, (Rect.unit (s := S216x128) ![0, 0] S216x128.size h1).stride a = 1) (T : S216x128.Idx → Elt F .f32) :
    (((Memref.whole Cert.Kernel.cc1_scratch0 : Memref Cert.Kernel.sig Kind.scVector Space.shared Cert.Kernel.S216x128 EltTy.f32).slice
      (Rect.unit (s := S216x128) ![0, 0] S216x128.size h1) h2).view.read (Elt F) T) = T := by
  funext y
  show T _ = T y
  refine congrArg T (funext fun a => Fin.ext ?_)
  match a with
  | ⟨0, _⟩ => show 0 + 1 * (y 0).val = (y 0).val; omega
  | ⟨1, _⟩ => show 0 + 1 * (y 1).val = (y 1).val; omega

/-- The same with the table read through the slice of all of the shared scratch, and the list's words given at any index. -/
theorem gather_value' (hrange : ∀ r, (idxOf m d r).toNat < 216) (I : S128.Idx → Elt F .i32) (r : ℕ)
    (hI : ∀ x, I x = idxOf m d (ix1 (⟨(r + (x 0 : Fin 128).val) % 320000, Nat.mod_lt _ (by decide)⟩ : Fin 320000)))
    (h1 : ∀ a, (![0, 0] : Fin 2 → ℕ) a + S216x128.size a ≤ S216x128.size a)
    (h2 : ∀ a, (Rect.unit (s := S216x128) ![0, 0] S216x128.size h1).stride a = 1)
    (hn : S128.numel = S128x128.size (gathers_S216x128_S128x128).axis')
    (hin : ∀ x, (I x).toNat < S216x128.size (gathers_S216x128_S128x128).axis) :
    SparseCore.gatherPayload gathers_S216x128_S128x128
        (((Memref.whole Cert.Kernel.cc1_scratch0 : Memref Cert.Kernel.sig Kind.scVector Space.shared Cert.Kernel.S216x128 EltTy.f32).slice
          (Rect.unit (s := S216x128) ![0, 0] S216x128.size h1) h2).view.read (Elt F) (tabOf m d))
        (SparseCore.rows I hn hin) = gat m d r := by
  rw [vals_sh_read]
  exact gather_value m d hrange r I (fun k => hI (ix1 k)) hn hin

/-- Rows `r, …, r + 127` of the result array, written with a buffer holding those rows of the result, hold the result. -/
theorem out_value (r : ℕ) (hr : r ≤ 319872) (f0 : Buf (Elt F) (outLoc d)) :
    ((outWin r).view.loc (tV d L) ↦[(outWin r).view.set]{fullShare}
        (outWin r).view.writes (Elt F) f0 [⟨Rect.whole S128x128, gat m d r⟩] : sProp 𝕄)
      = outPts d L r (resOf m d) := by
  unfold outPts
  refine pointsTo_congr fun i hi => ?_
  obtain ⟨x, -, rfl⟩ := Finset.mem_map.mp hi
  have h := View.read_writes_cons_emb (outWin r).view f0 (Rect.whole S128x128) (gat m d r) [] x
  rw [Rect.emb_whole_apply, View.read_apply] at h
  have h' : (outWin r).view.writes (Elt F) f0 [⟨Rect.whole S128x128, gat m d r⟩] ((outWin r).view.emb x) = gat m d r x :=
    (cast_eq _ _).symm.trans h
  refine h'.trans ?_
  obtain ⟨p, c, rfl⟩ : ∃ (p : Fin 128) (c : Fin 128), x = ix2 p c := ⟨x 0, x 1, eq_ix2 x⟩
  unfold gat
  refine congrArg (resOf m d) (funext fun a => Fin.ext ?_)
  have hp := p.isLt
  match a with
  | ⟨0, _⟩ =>
    show (r + p.val) % 320000 = min r 319872 + 1 * p.val
    rw [Nat.min_eq_left hr, Nat.mod_eq_of_lt (by omega)]; omega
  | ⟨1, _⟩ =>
    show c.val = 0 + 1 * c.val
    omega

end Tile

end Cert.KProof

end
-- ==== Proof.TileEntryK.lean ====
/-
  From the state at the loop's head, after the two first gathers are issued, to the loop's invariant at trip 0: a
  gather's flight as the invariant states it, what an index window reads, and the families at trip 0.
-/
import proofs.«203798_g65764539236737_cont_9to1_m_400_20_alg».proof.Proof.TilePreK
import proofs.«203798_g65764539236737_cont_9to1_m_400_20_alg».proof.Proof.TileValsK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx
local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

omit [FloatOps F] in
/-- An index window the program slices at offsets that are `![o]` reads the combined index words of rows
    `row0 + o, …, row0 + o + 127`. -/
theorem win_read {off : Fin 1 → ℕ} {hinb : ∀ a, off a + S128.size a ≤ S9984.size a} (o : ℕ) (ho : o ≤ 9856) (e : off = ![o]) :
    ∀ x, (((ixV).slice (Rect.unit (s := S9984) off S128.size hinb) (fun _ => rfl)).view.read (Elt F) (ixOf m d L)) x
      = idxOf m d (ix1 (⟨((row0L L + o) + (x 0 : Fin 128).val) % 320000, Nat.mod_lt _ (by decide)⟩ : Fin 320000)) := by
  subst e
  intro x
  rw [View.read_apply]
  refine (cast_eq _ _).trans ?_
  unfold ixOf
  refine congrArg (idxOf m d) (funext fun a => ?_)
  match a with
  | 0 =>
    apply Fin.ext
    show (row0L L + (o + 1 * (x 0 : Fin 128).val)) % 320000 = ((row0L L + o) + (x 0 : Fin 128).val) % 320000
    congr 1; omega

omit [FloatOps F] in
/-- A buffer written whole with a payload holds the payload. -/
theorem b0_landed (f0 pay : S128x128.Idx → Elt F .f32) :
    ((b0V).view.loc (tV d L) ↦[(b0V).view.set]{fullShare} (b0V).view.writes (Elt F) f0 [⟨Rect.whole cc1_scratch3.ty.shape, pay⟩] : sProp 𝕄)
      = b0Pts d L pay := by
  unfold b0Pts
  refine pointsTo_congr fun i hi => ?_
  obtain ⟨x, -, rfl⟩ := Finset.mem_map.mp hi
  have h := View.read_writes_cons_emb (b0V).view f0 (Rect.whole cc1_scratch3.ty.shape) pay [] x
  rw [Rect.emb_whole_apply, View.read_apply] at h
  exact (cast_eq _ _).symm.trans h
omit [FloatOps F] in
theorem b1_landed (f0 pay : S128x128.Idx → Elt F .f32) :
    ((b1V).view.loc (tV d L) ↦[(b1V).view.set]{fullShare} (b1V).view.writes (Elt F) f0 [⟨Rect.whole cc1_scratch4.ty.shape, pay⟩] : sProp 𝕄)
      = b1Pts d L pay := by
  unfold b1Pts
  refine pointsTo_congr fun i hi => ?_
  obtain ⟨x, -, rfl⟩ := Finset.mem_map.mp hi
  have h := View.read_writes_cons_emb (b1V).view f0 (Rect.whole cc1_scratch4.ty.shape) pay [] x
  rw [Rect.emb_whole_apply, View.read_apply] at h
  exact (cast_eq _ _).symm.trans h

omit [FloatOps F] in
theorem bufCredit : (b0V).view.dmaCredit = 524288 := by decide

/-- A gather's flight whose delivery yields the buffer holding the chunk's rows, the chunk's index window and the read
    token is the flight the invariant states. -/
theorem gFlight_intro0 (sg : DmaSem sig) (t : ℕ) (bP : (S128x128.Idx → Elt F .f32) → sProp 𝕄) (o : ℕ) (D : sProp 𝕄)
    (h : D ⊢ iprop((bP (gat m d (row0L L + o)) ∗ ixPts m d L o) ∗ shTok m d L t)) :
    (Transfers.Flight (countersEmb : UEmb Counters 𝕄) (tV d L) (SemLoc.dma sg) (default : HIx 1) 524288 D : sProp 𝕄)
      ⊢ gFlight m d L sg t bP o := by
  unfold gFlight
  rw [bufCredit]
  exact Transfers.Flight_mono (countersEmb : UEmb Counters 𝕄) (tV d L) h

/-- A gather into buffer 0 in flight, its delivery stated over the written buffer, is the flight the invariant states. -/
theorem gFlight_exec0 (sg sg' : DmaSem sig) (hsg : sg' = sg) (t : ℕ) (o : ℕ) (ho : o ≤ 9856) {off : Fin 1 → ℕ} {hinb : ∀ a, off a + S128.size a ≤ S9984.size a} (e : off = ![o])
    (f0 pay : S128x128.Idx → Elt F .f32) (hpay : pay = gat m d (row0L L + o))
    (hs : ∀ a, (Rect.unit (s := S216x128) ![0, 0] S216x128.size inb_S216x128_S216x128_0_0).stride a = 1) :
    (Transfers.Flight (countersEmb : UEmb Counters 𝕄) (tV d L) (SemLoc.dma sg') (default : HIx 1) 524288
      iprop((((b0V).view.loc (tV d L) ↦[(b0V).view.set]{fullShare} (b0V).view.writes (Elt F) f0 [⟨Rect.whole cc1_scratch3.ty.shape, pay⟩])
          ∗ (((ixV).slice (Rect.unit (s := S9984) off S128.size hinb) (fun _ => rfl)).view.loc (tV d L)
              ↦[((ixV).slice (Rect.unit (s := S9984) off S128.size hinb) (fun _ => rfl)).view.set]{fullShare} ixOf m d L))
        ∗ ((shSl).view.loc (tV d L) ↦[((shV).slice (Rect.unit (s := S216x128) ![0, 0] S216x128.size inb_S216x128_S216x128_0_0) hs).view.set]{Transfers.shareTokN (shQ L) t}
            shTab m d (cV L))) : sProp 𝕄)
      ⊢ gFlight m d L sg t (b0Pts d L) o := by
  subst hpay hsg
  refine gFlight_intro0 m d L _ t (b0Pts d L) o _ ?_
  rw [b0_landed, ixPts_spell d L o ho e]

/-- A gather into buffer 1 in flight, its delivery stated over the written buffer, is the flight the invariant states. -/
theorem gFlight_exec1 (sg sg' : DmaSem sig) (hsg : sg' = sg) (t : ℕ) (o : ℕ) (ho : o ≤ 9856) {off : Fin 1 → ℕ} {hinb : ∀ a, off a + S128.size a ≤ S9984.size a} (e : off = ![o])
    (f0 pay : S128x128.Idx → Elt F .f32) (hpay : pay = gat m d (row0L L + o))
    (hs : ∀ a, (Rect.unit (s := S216x128) ![0, 0] S216x128.size inb_S216x128_S216x128_0_0).stride a = 1) :
    (Transfers.Flight (countersEmb : UEmb Counters 𝕄) (tV d L) (SemLoc.dma sg') (default : HIx 1) 524288
      iprop((((b1V).view.loc (tV d L) ↦[(b1V).view.set]{fullShare} (b1V).view.writes (Elt F) f0 [⟨Rect.whole cc1_scratch4.ty.shape, pay⟩])
          ∗ (((ixV).slice (Rect.unit (s := S9984) off S128.size hinb) (fun _ => rfl)).view.loc (tV d L)
              ↦[((ixV).slice (Rect.unit (s := S9984) off S128.size hinb) (fun _ => rfl)).view.set]{fullShare} ixOf m d L))
        ∗ ((shSl).view.loc (tV d L) ↦[((shV).slice (Rect.unit (s := S216x128) ![0, 0] S216x128.size inb_S216x128_S216x128_0_0) hs).view.set]{Transfers.shareTokN (shQ L) t}
            shTab m d (cV L))) : sProp 𝕄)
      ⊢ gFlight m d L sg t (b1Pts d L) o := by
  subst hpay hsg
  refine gFlight_intro0 m d L _ t (b1Pts d L) o _ ?_
  rw [b1_landed, ixPts_spell d L o ho e]

omit [FloatOps F] in
/-- The index windows at trip 0: all but the first two, which the first two gathers hold. -/
theorem ixFam_zero :
    (bigSep (((Finset.univ : Finset (Fin 78)).erase ⟨0, by decide⟩).erase ⟨1, by decide⟩) fun k => ixPts m d L (128 * k.val))
      ⊢ ixFam m d L 0 := by
  unfold ixFam
  rw [fam_focus2 _ (a := (⟨0, by decide⟩ : Fin 78)) (b := (⟨1, by decide⟩ : Fin 78)) (by decide),
    if_pos (show ((⟨0, by decide⟩ : Fin 78) : ℕ) = 4 * 0 ∨ ((⟨0, by decide⟩ : Fin 78) : ℕ) = 4 * 0 + 1 from Or.inl rfl),
    if_pos (show ((⟨1, by decide⟩ : Fin 78) : ℕ) = 4 * 0 ∨ ((⟨1, by decide⟩ : Fin 78) : ℕ) = 4 * 0 + 1 from Or.inr rfl)]
  have h : (bigSep (((Finset.univ : Finset (Fin 78)).erase ⟨0, by decide⟩).erase ⟨1, by decide⟩)
        fun k : Fin 78 => if k.val = 4 * 0 ∨ k.val = 4 * 0 + 1 then (iprop(emp) : sProp 𝕄) else ixPts m d L (128 * k.val))
      = bigSep (((Finset.univ : Finset (Fin 78)).erase ⟨0, by decide⟩).erase ⟨1, by decide⟩) fun k => ixPts m d L (128 * k.val) :=
    bigSep_congr fun k hk => if_neg (by
      have h1 : k ≠ ⟨1, by decide⟩ := (Finset.mem_erase.mp hk).1
      have h0 : k ≠ ⟨0, by decide⟩ := (Finset.mem_erase.mp (Finset.mem_erase.mp hk).2).1
      have h1' : k.val ≠ 1 := fun e => h1 (Fin.ext e)
      have h0' : k.val ≠ 0 := fun e => h0 (Fin.ext e)
      omega)
  rw [h]
  iintro H
  isplitr; · iempintro
  isplitr; · iempintro
  iexact H

/-- The result's chunks at trip 0: all as the launch left them. -/
theorem outFam_zero : (outFam m d L 0 : sProp 𝕄) = bigSep Finset.univ fun k : Fin 78 => outPts d L (row0L L + 128 * k.val) (m (outLoc d)) :=
  bigSep_congr fun k _ => by rw [if_neg (by omega), if_neg (by omega)]

end Tile

end Cert.KProof

end
-- ==== Proof.TileOffsK.lean ====
/-
  One trip of the subcore's counted loop waits, before it reuses a buffer, for the copy that last read it: the copies
  of chunks 4 g - 2 and 4 g - 1 at the first two steps of trip g, which exist exactly when g is not 0, and the copies
  of chunks 4 g and 4 g + 1 at the last two, which the trip itself started. Here the four conditions are decided as
  statements about g, and the row offsets of the first two waits, which are only meaningful when g is not 0, are put
  in closed form: 128 (4 g - 2) and 128 (4 g - 1) rows after the subcore's first row, column 0.
-/
import proofs.«203798_g65764539236737_cont_9to1_m_400_20_alg».proof.Proof.BaseK

namespace Cert.KProof

open Cert.Kernel Cert.Kernel.Gen
open Idealize.ShloMosaic

/-! ## The four conditions of a trip -/

/-- The wait for the copy of chunk 4 g - 2 is taken exactly when g is not 0. -/
theorem k1_cond2_iff : ∀ g : Fin k1_t1_loop.trips, (k1_cond2 g = 1#1 ↔ g.val ≠ 0) := by decide +kernel
/-- The wait for the copy of chunk 4 g - 1 is taken exactly when g is not 0. -/
theorem k1_cond3_iff : ∀ g : Fin k1_t1_loop.trips, (k1_cond3 g = 1#1 ↔ g.val ≠ 0) := by decide +kernel
/-- The wait for the copy of chunk 4 g is always taken. -/
theorem k1_cond4_all : ∀ g : Fin k1_t1_loop.trips, k1_cond4 g = 1#1 := by decide +kernel
/-- The wait for the copy of chunk 4 g + 1 is always taken. -/
theorem k1_cond5_all : ∀ g : Fin k1_t1_loop.trips, k1_cond5 g = 1#1 := by decide +kernel

/-! ## The two offsets that have a closed form only past the first trip -/

/-- The rows of chunk 4 g - 2, for g not 0: 4 g - 2 does not wrap below zero there. -/
theorem k1_off2_eq (i : grid1.Coords) (g : Fin k1_t1_loop.trips) (hg : g.val ≠ 0) :
    k1_off2 i g = ![19968 * (i 1).val + 9984 * (i 0).val + 128 * (4 * g.val - 2), 0] := by
  have r_i1 : (i 1).val < 16 := (i 1).isLt
  have h_arg1 : Affine.IsInt (BitVec.ofNat 32 (i 1).val) (((i 1).val : Int)) := Affine.ofNat _ (by omega)
  have h_c2 : Affine.IsInt 2#32 (2) := Affine.ofNat _ (by omega)
  have h_v0 : Affine.IsInt _ (2 * ((i 1).val : Int)) := Affine.muli h_arg1 h_c2 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c9984 : Affine.IsInt 9984#32 (9984) := Affine.ofNat _ (by omega)
  have h_v2 : Affine.IsInt _ (19968 * ((i 1).val : Int) + 9984 * ((i 0).val : Int)) := Affine.muli h_v1 h_c9984 (by omega)
  have h_c0 : Affine.IsInt 0#32 (0) := Affine.ofNat _ (by omega)
  have h_c1 : Affine.IsInt 1#32 (1) := Affine.ofNat _ (by omega)
  have r_g : g.val < 19 := Nat.lt_of_lt_of_le g.isLt k1_t1_abs.2.1
  have h_arg20 : Affine.IsInt _ ((g.val : Int)) := Affine.iv h_c0 h_c1 g.val (by omega)
  have h_c4 : Affine.IsInt 4#32 (4) := Affine.ofNat _ (by omega)
  have h_v36 : Affine.IsInt _ (4 * (g.val : Int)) := Affine.muli h_arg20 h_c4 (by omega)
  have h_v37 : Affine.IsInt _ (4 * (g.val : Int)) := Affine.addi h_v36 h_c0 (by omega)
  have h_v100 : Affine.IsInt _ (4 * (g.val : Int) - 2) := Affine.subi h_v37 h_c2 (by omega)
  have h_c128 : Affine.IsInt 128#32 (128) := Affine.ofNat _ (by omega)
  have h_v101 : Affine.IsInt _ (512 * (g.val : Int) - 256) := Affine.muli h_v100 h_c128 (by omega)
  have h_v102 : Affine.IsInt _ (19968 * ((i 1).val : Int) + 9984 * ((i 0).val : Int) + 512 * (g.val : Int) - 256) :=
    Affine.addi h_v2 h_v101 (by omega)
  exact Affine.vec_cons h_v102 (by omega) <| Affine.vec_cons (Affine.ofNat 0 (by omega) : Affine.IsInt 0#32 0) (by omega) <| Affine.vec_nil

/-- The rows of chunk 4 g - 1, for g not 0. -/
theorem k1_off6_eq (i : grid1.Coords) (g : Fin k1_t1_loop.trips) (hg : g.val ≠ 0) :
    k1_off6 i g = ![19968 * (i 1).val + 9984 * (i 0).val + 128 * (4 * g.val - 1), 0] := by
  have r_i1 : (i 1).val < 16 := (i 1).isLt
  have h_arg1 : Affine.IsInt (BitVec.ofNat 32 (i 1).val) (((i 1).val : Int)) := Affine.ofNat _ (by omega)
  have h_c2 : Affine.IsInt 2#32 (2) := Affine.ofNat _ (by omega)
  have h_v0 : Affine.IsInt _ (2 * ((i 1).val : Int)) := Affine.muli h_arg1 h_c2 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c9984 : Affine.IsInt 9984#32 (9984) := Affine.ofNat _ (by omega)
  have h_v2 : Affine.IsInt _ (19968 * ((i 1).val : Int) + 9984 * ((i 0).val : Int)) := Affine.muli h_v1 h_c9984 (by omega)
  have h_c0 : Affine.IsInt 0#32 (0) := Affine.ofNat _ (by omega)
  have h_c1 : Affine.IsInt 1#32 (1) := Affine.ofNat _ (by omega)
  have r_g : g.val < 19 := Nat.lt_of_lt_of_le g.isLt k1_t1_abs.2.1
  have h_arg20 : Affine.IsInt _ ((g.val : Int)) := Affine.iv h_c0 h_c1 g.val (by omega)
  have h_c4 : Affine.IsInt 4#32 (4) := Affine.ofNat _ (by omega)
  have h_v52 : Affine.IsInt _ (4 * (g.val : Int)) := Affine.muli h_arg20 h_c4 (by omega)
  have h_v53 : Affine.IsInt _ (4 * (g.val : Int) + 1) := Affine.addi h_v52 h_c1 (by omega)
  have h_v100 : Affine.IsInt _ (4 * (g.val : Int) - 1) := Affine.subi h_v53 h_c2 (by omega)
  have h_c128 : Affine.IsInt 128#32 (128) := Affine.ofNat _ (by omega)
  have h_v101 : Affine.IsInt _ (512 * (g.val : Int) - 128) := Affine.muli h_v100 h_c128 (by omega)
  have h_v102 : Affine.IsInt _ (19968 * ((i 1).val : Int) + 9984 * ((i 0).val : Int) + 512 * (g.val : Int) - 128) :=
    Affine.addi h_v2 h_v101 (by omega)
  exact Affine.vec_cons h_v102 (by omega) <| Affine.vec_cons (Affine.ofNat 0 (by omega) : Affine.IsInt 0#32 0) (by omega) <| Affine.vec_nil

end Cert.KProof
-- ==== Proof.TileTripK.lean ====
/-
  One trip of a vector subcore's loop, from the loop's invariant at trip k to the invariant at trip k + 1. The trip
  makes four steps, one per buffer. At step s it waits for the copy that last read buffer s + 2 (mod 4) — for the first
  two steps the copies of chunks 4 k - 2 and 4 k - 1, which exist only when k is not 0; for the last two the copies of
  chunks 4 k and 4 k + 1, which the trip itself started —, starts the gather of chunk 4 k + s + 2 into that buffer, waits
  for the gather of chunk 4 k + s into buffer s, and starts the copy of buffer s out to the chunk's rows of the result.
  So the gathers of chunks 4 k and 4 k + 1 and, past the first trip, the copies of chunks 4 k - 2 and 4 k - 1, in flight
  at the head, become the gathers of chunks 4 k + 4 and 4 k + 5 and the copies of chunks 4 k + 2 and 4 k + 3 in flight at
  the end, and the index windows and result rows move between the invariant's two families accordingly: the families at
  trips k and k + 1 differ on six chunks only. A landed gather holds its chunk's rows of the result because every
  combined index word is below 216; a chunk copied out of such a buffer holds the result's value.
-/
import proofs.«203798_g65764539236737_cont_9to1_m_400_20_alg».proof.Proof.TileInvK
import proofs.«203798_g65764539236737_cont_9to1_m_400_20_alg».proof.Proof.TileOffsK
import proofs.«203798_g65764539236737_cont_9to1_m_400_20_alg».proof.Proof.TileValsK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F] (d : Dev nD) (L : grid1.Coords)

/-- The index window a trip's gather number `r` names, as the program slices it. -/
abbrev pIx (k : Fin k1_t1_loop.trips) (r : Fin 4) : Memref sig .scVector .vmem S128 .i32 :=
  (ixV).slice (Rect.unit (s := S9984) (k1_off3 k (BitVec.ofNat 32 r.val)) S128.size (Facts₀.k1_off3_inb k r)) (fun _ => rfl)
/-- The rows of the result a trip's copy-out number `r` names, as the program slices them. -/
abbrev pOut (k : Fin k1_t1_loop.trips) (r : Fin 4) : Memref sig .scVector .hbm S128x128 .f32 :=
  (outV).slice (Rect.unit (s := S320000x128) (k1_off5 L k (BitVec.ofNat 32 r.val)) S128x128.size (Facts₀.k1_off5_inb L k r)) (fun _ => rfl)

abbrev pIxPts (k : Fin k1_t1_loop.trips) (r : Fin 4) : sProp 𝕄 :=
  (pIx k r).view.loc (tV d L) ↦[(pIx k r).view.set]{fullShare} ixOf m d L
abbrev pOutPts (k : Fin k1_t1_loop.trips) (r : Fin 4) (f : Buf (Elt F) (outLoc d)) : sProp 𝕄 :=
  (pOut L k r).view.loc (tV d L) ↦[(pOut L k r).view.set]{fullShare} f

section Small

omit [FloatOps F] in
theorem trips_lt (k : Fin k1_t1_loop.trips) : k.val < 19 := Nat.lt_of_lt_of_le k.isLt k1_t1_abs.2.1

/-! ## The windows the program slices are the canonical ones -/

omit [FloatOps F] in
theorem pIx_eq (k : Fin k1_t1_loop.trips) (r : Fin 4) : pIx k r = ixWin (512 * k.val + 128 * r.val + 256) :=
  ixSlice_eq _ (by have := trips_lt k; have := r.isLt; omega) (k1_off3_eq k r)

omit [FloatOps F] in
theorem pOut_eq (k : Fin k1_t1_loop.trips) (r : Fin 4) : pOut L k r = outWin (row0L L + 512 * k.val + 128 * r.val) :=
  outSlice_eq _ (by have := trips_lt k; have := r.isLt; have := row0L_le L; omega) (k1_off5_eq L k r)

/-! ## Credits -/

omit [FloatOps F] in
theorem buf_credit0 : (b0V).view.dmaCredit = 524288 := by decide
omit [FloatOps F] in
theorem out_credit (r : ℕ) : (outWin r).view.dmaCredit = 524288 := by rfl

/-! ## The index words are in range -/

theorem hin_of (hrange : ∀ r, (idxOf m d r).toNat < 216) (k : Fin k1_t1_loop.trips) (r : Fin 4) :
    ∀ x, ((pIx k r).view.read (Elt F) (ixOf m d L) x).toNat < S216x128.size (Facts₀.gathers_S216x128_S128x128).axis := by
  intro x
  rw [View.read_apply]
  show (ixOf m d L _).toNat < 216
  unfold ixOf
  exact hrange _

end Small

section Fam

/-! ## Members of a family over the 78 chunks set apart from the rest -/

omit [FloatOps F] in
/-- Six members of a family over the 78 chunks, set apart from the rest. -/
theorem fam_split6 (Φ : Fin 78 → sProp 𝕄) {a b c e f g : Fin 78}
    (hab : a.val < b.val) (hbc : b.val < c.val) (hce : c.val < e.val) (hef : e.val < f.val) (hfg : f.val < g.val) :
    bigSep Finset.univ Φ
      = iprop((Φ a ∗ Φ b ∗ Φ c ∗ Φ e ∗ Φ f ∗ Φ g) ∗ bigSep (Finset.univ \ {a, b, c, e, f, g}) Φ) := by
  have h1 : a ∉ ({b, c, e, f, g} : Finset (Fin 78)) := by
    simp only [Finset.mem_insert, Finset.mem_singleton, Fin.ext_iff]; omega
  have h2 : b ∉ ({c, e, f, g} : Finset (Fin 78)) := by
    simp only [Finset.mem_insert, Finset.mem_singleton, Fin.ext_iff]; omega
  have h3 : c ∉ ({e, f, g} : Finset (Fin 78)) := by
    simp only [Finset.mem_insert, Finset.mem_singleton, Fin.ext_iff]; omega
  have h4 : e ∉ ({f, g} : Finset (Fin 78)) := by
    simp only [Finset.mem_insert, Finset.mem_singleton, Fin.ext_iff]; omega
  have h5 : f ∉ ({g} : Finset (Fin 78)) := by
    simp only [Finset.mem_singleton, Fin.ext_iff]; omega
  rw [SparseCore.bigSep_sdiff_split' (Finset.subset_univ ({a, b, c, e, f, g} : Finset (Fin 78))),
    SparseCore.bigSep_insert' h1, SparseCore.bigSep_insert' h2, SparseCore.bigSep_insert' h3, SparseCore.bigSep_insert' h4,
    SparseCore.bigSep_insert' h5, bigSep_singleton]

omit [FloatOps F] in
/-- A chunk outside six consecutive ones. -/
theorem not_mem_six {j : Fin 78} {a : ℕ} (h0 : a < 78) (h1 : a + 1 < 78) (h2 : a + 2 < 78) (h3 : a + 3 < 78) (h4 : a + 4 < 78) (h5 : a + 5 < 78)
    (hj : j ∈ Finset.univ \ ({⟨a, h0⟩, ⟨a + 1, h1⟩, ⟨a + 2, h2⟩, ⟨a + 3, h3⟩, ⟨a + 4, h4⟩, ⟨a + 5, h5⟩} : Finset (Fin 78))) :
    j.val < a ∨ a + 5 < j.val := by
  simp only [Finset.mem_sdiff, Finset.mem_univ, true_and, Finset.mem_insert, Finset.mem_singleton, Fin.ext_iff] at hj
  omega

/-- The index windows: trips `n` and `n + 1` differ on chunks `4 n, …, 4 n + 5` only. -/
theorem ix_step (n : ℕ) (hn : n < 19) :
    ∃ R : sProp 𝕄,
      ixFam m d L n = iprop((emp ∗ emp ∗ ixPts m d L (128 * (4 * n + 2)) ∗ ixPts m d L (128 * (4 * n + 3))
          ∗ ixPts m d L (128 * (4 * n + 4)) ∗ ixPts m d L (128 * (4 * n + 5))) ∗ R)
      ∧ ixFam m d L (n + 1) = iprop((ixPts m d L (128 * (4 * n)) ∗ ixPts m d L (128 * (4 * n + 1)) ∗ ixPts m d L (128 * (4 * n + 2))
          ∗ ixPts m d L (128 * (4 * n + 3)) ∗ emp ∗ emp) ∗ R) := by
  have h0 : 4 * n < 78 := by omega
  have h1 : 4 * n + 1 < 78 := by omega
  have h2 : 4 * n + 2 < 78 := by omega
  have h3 : 4 * n + 3 < 78 := by omega
  have h4 : 4 * n + 4 < 78 := by omega
  have h5 : 4 * n + 5 < 78 := by omega
  refine ⟨bigSep (Finset.univ \ ({⟨4 * n, h0⟩, ⟨4 * n + 1, h1⟩, ⟨4 * n + 2, h2⟩, ⟨4 * n + 3, h3⟩, ⟨4 * n + 4, h4⟩, ⟨4 * n + 5, h5⟩} : Finset (Fin 78)))
      (fun j => ixPts m d L (128 * j.val)), ?_, ?_⟩
  · unfold ixFam
    rw [fam_split6 _ (a := ⟨4 * n, h0⟩) (b := ⟨4 * n + 1, h1⟩) (c := ⟨4 * n + 2, h2⟩) (e := ⟨4 * n + 3, h3⟩) (f := ⟨4 * n + 4, h4⟩) (g := ⟨4 * n + 5, h5⟩)
      (by show 4 * n < 4 * n + 1; omega) (by show 4 * n + 1 < 4 * n + 2; omega) (by show 4 * n + 2 < 4 * n + 3; omega)
      (by show 4 * n + 3 < 4 * n + 4; omega) (by show 4 * n + 4 < 4 * n + 5; omega)]
    dsimp only
    rw [if_pos (Or.inl rfl), if_pos (Or.inr rfl), if_neg (by omega), if_neg (by omega), if_neg (by omega), if_neg (by omega)]
    congr 1
    exact bigSep_congr fun j hj => by
      have := not_mem_six h0 h1 h2 h3 h4 h5 hj
      exact if_neg (by omega)
  · unfold ixFam
    rw [fam_split6 _ (a := ⟨4 * n, h0⟩) (b := ⟨4 * n + 1, h1⟩) (c := ⟨4 * n + 2, h2⟩) (e := ⟨4 * n + 3, h3⟩) (f := ⟨4 * n + 4, h4⟩) (g := ⟨4 * n + 5, h5⟩)
      (by show 4 * n < 4 * n + 1; omega) (by show 4 * n + 1 < 4 * n + 2; omega) (by show 4 * n + 2 < 4 * n + 3; omega)
      (by show 4 * n + 3 < 4 * n + 4; omega) (by show 4 * n + 4 < 4 * n + 5; omega)]
    dsimp only
    rw [if_neg (by omega), if_neg (by omega), if_neg (by omega), if_neg (by omega), if_pos (Or.inl (by omega)), if_pos (Or.inr (by omega))]
    congr 1
    exact bigSep_congr fun j hj => by
      have := not_mem_six h0 h1 h2 h3 h4 h5 hj
      exact if_neg (by omega)

end Fam

section Respell

/-! ## A window held through the program's slice is the window held through the canonical one -/

omit [FloatOps F] in
theorem ixPts_congr {R R' : Rect S9984} (h : R = R') (hR : ∀ a, R.stride a = 1) (hR' : ∀ a, R'.stride a = 1)
    (q : PosShare TreeShare) (f : S9984.Idx → Elt F .i32) :
    (((ixV).slice R hR).view.loc (tV d L) ↦[((ixV).slice R hR).view.set]{q} f : sProp 𝕄)
      = ((ixV).slice R' hR').view.loc (tV d L) ↦[((ixV).slice R' hR').view.set]{q} f := by
  subst h; rfl

omit [FloatOps F] in
theorem outPts_congr {R R' : Rect S320000x128} (h : R = R') (hR : ∀ a, R.stride a = 1) (hR' : ∀ a, R'.stride a = 1)
    (q : PosShare TreeShare) (f : S320000x128.Idx → Elt F .f32) :
    (((outV).slice R hR).view.loc (tV d L) ↦[((outV).slice R hR).view.set]{q} f : sProp 𝕄)
      = ((outV).slice R' hR').view.loc (tV d L) ↦[((outV).slice R' hR').view.set]{q} f := by
  subst h; rfl

omit [FloatOps F] in
theorem ixRect_eq {off : Fin 1 → ℕ} {hinb : ∀ a, off a + S128.size a ≤ S9984.size a} (o : ℕ) (ho : o ≤ 9856) (e : off = ![o]) :
    Rect.unit (s := S9984) off S128.size hinb = ixRect o := by
  subst e
  have : min o 9856 = o := Nat.min_eq_left ho
  unfold ixRect
  congr 1
  funext a; match a with | 0 => exact this.symm

omit [FloatOps F] in
theorem outRect_eq {off : Fin 2 → ℕ} {hinb : ∀ a, off a + S128x128.size a ≤ S320000x128.size a} (r : ℕ) (hr : r ≤ 319872) (e : off = ![r, 0]) :
    Rect.unit (s := S320000x128) off S128x128.size hinb = outRect r := by
  subst e
  have : min r 319872 = r := Nat.min_eq_left hr
  unfold outRect
  congr 1
  funext a; match a with | 0 => exact this.symm | 1 => rfl

/-- The index window of a trip's gather number `r`, as the program slices it, is the window at word `512 k + 128 r + 256`. -/
theorem pIxPts_eq (k : Fin k1_t1_loop.trips) (r : Fin 4) : pIxPts m d L k r = ixPts m d L (512 * k.val + 128 * r.val + 256) :=
  ixPts_congr d L (ixRect_eq _ (by have := trips_lt k; have := r.isLt; omega) (k1_off3_eq k r)) _ _ _ _

omit [FloatOps F] in
/-- The rows of a trip's copy-out number `r`, as the program slices them, are the rows from `row0 + 512 k + 128 r`. -/
theorem pOutPts_eq (k : Fin k1_t1_loop.trips) (r : Fin 4) (f : Buf (Elt F) (outLoc d)) :
    pOutPts d L k r f = outPts d L (row0L L + 512 * k.val + 128 * r.val) f :=
  outPts_congr d L (outRect_eq _ (by
    have := trips_lt k; have := r.isLt
    have h1 : (L 1).val < 16 := (L 1).isLt
    have h0 : (L 0).val < 2 := (L 0).isLt
    show 19968 * (L 1).val + 9984 * (L 0).val + 512 * k.val + 128 * r.val ≤ 319872
    omega) (k1_off5_eq L k r)) _ _ _ _

end Respell

section FamOut

/-- The result's chunks: trips `p + 1` and `p + 2` differ on chunks `4 p + 2, …, 4 p + 7` only. -/
theorem out_step_succ (p : ℕ) (hp : p + 1 < 19) :
    ∃ R : sProp 𝕄,
      outFam m d L (p + 1) = iprop((emp ∗ emp ∗ outPts d L (row0L L + 128 * (4 * p + 2 + 2)) (m (outLoc d)) ∗ outPts d L (row0L L + 128 * (4 * p + 2 + 3)) (m (outLoc d))
          ∗ outPts d L (row0L L + 128 * (4 * p + 2 + 4)) (m (outLoc d)) ∗ outPts d L (row0L L + 128 * (4 * p + 2 + 5)) (m (outLoc d))) ∗ R)
      ∧ outFam m d L (p + 2) = iprop((outPts d L (row0L L + 128 * (4 * p + 2)) (resOf m d) ∗ outPts d L (row0L L + 128 * (4 * p + 2 + 1)) (resOf m d)
          ∗ outPts d L (row0L L + 128 * (4 * p + 2 + 2)) (resOf m d) ∗ outPts d L (row0L L + 128 * (4 * p + 2 + 3)) (resOf m d) ∗ emp ∗ emp) ∗ R) := by
  have h0 : 4 * p + 2 < 78 := by omega
  have h1 : 4 * p + 2 + 1 < 78 := by omega
  have h2 : 4 * p + 2 + 2 < 78 := by omega
  have h3 : 4 * p + 2 + 3 < 78 := by omega
  have h4 : 4 * p + 2 + 4 < 78 := by omega
  have h5 : 4 * p + 2 + 5 < 78 := by omega
  refine ⟨bigSep (Finset.univ \ ({⟨4 * p + 2, h0⟩, ⟨4 * p + 2 + 1, h1⟩, ⟨4 * p + 2 + 2, h2⟩, ⟨4 * p + 2 + 3, h3⟩, ⟨4 * p + 2 + 4, h4⟩, ⟨4 * p + 2 + 5, h5⟩} : Finset (Fin 78)))
      (fun j => if j.val + 2 < 4 * (p + 1) then outPts d L (row0L L + 128 * j.val) (resOf m d)
        else if j.val < 4 * (p + 1) then iprop(emp) else outPts d L (row0L L + 128 * j.val) (m (outLoc d))), ?_, ?_⟩
  · unfold outFam
    rw [fam_split6 _ (a := ⟨4 * p + 2, h0⟩) (b := ⟨4 * p + 2 + 1, h1⟩) (c := ⟨4 * p + 2 + 2, h2⟩) (e := ⟨4 * p + 2 + 3, h3⟩) (f := ⟨4 * p + 2 + 4, h4⟩) (g := ⟨4 * p + 2 + 5, h5⟩)
      (by show 4 * p + 2 < 4 * p + 2 + 1; omega) (by show 4 * p + 2 + 1 < 4 * p + 2 + 2; omega) (by show 4 * p + 2 + 2 < 4 * p + 2 + 3; omega)
      (by show 4 * p + 2 + 3 < 4 * p + 2 + 4; omega) (by show 4 * p + 2 + 4 < 4 * p + 2 + 5; omega)]
    dsimp only
    rw [if_neg (by omega), if_pos (by omega), if_neg (by omega), if_pos (by omega), if_neg (by omega), if_neg (by omega),
      if_neg (by omega), if_neg (by omega), if_neg (by omega), if_neg (by omega), if_neg (by omega), if_neg (by omega)]
  · unfold outFam
    rw [fam_split6 _ (a := ⟨4 * p + 2, h0⟩) (b := ⟨4 * p + 2 + 1, h1⟩) (c := ⟨4 * p + 2 + 2, h2⟩) (e := ⟨4 * p + 2 + 3, h3⟩) (f := ⟨4 * p + 2 + 4, h4⟩) (g := ⟨4 * p + 2 + 5, h5⟩)
      (by show 4 * p + 2 < 4 * p + 2 + 1; omega) (by show 4 * p + 2 + 1 < 4 * p + 2 + 2; omega) (by show 4 * p + 2 + 2 < 4 * p + 2 + 3; omega)
      (by show 4 * p + 2 + 3 < 4 * p + 2 + 4; omega) (by show 4 * p + 2 + 4 < 4 * p + 2 + 5; omega)]
    dsimp only
    rw [if_pos (by omega), if_pos (by omega), if_pos (by omega), if_pos (by omega), if_neg (by omega), if_pos (by omega), if_neg (by omega), if_pos (by omega)]
    congr 1
    exact bigSep_congr fun j hj => by
      have := not_mem_six h0 h1 h2 h3 h4 h5 hj
      rcases this with h | h
      · rw [if_pos (by omega), if_pos (by omega)]
      · rw [if_neg (by omega), if_neg (by omega), if_neg (by omega), if_neg (by omega)]

/-- The result's chunks: trips `0` and `1` differ on chunks `0, …, 3` only. -/
theorem out_step_zero :
    ∃ R : sProp 𝕄,
      outFam m d L 0 = iprop((outPts d L (row0L L + 128 * 0) (m (outLoc d)) ∗ outPts d L (row0L L + 128 * (0 + 1)) (m (outLoc d))
          ∗ outPts d L (row0L L + 128 * (0 + 2)) (m (outLoc d)) ∗ outPts d L (row0L L + 128 * (0 + 3)) (m (outLoc d))
          ∗ outPts d L (row0L L + 128 * (0 + 4)) (m (outLoc d)) ∗ outPts d L (row0L L + 128 * (0 + 5)) (m (outLoc d))) ∗ R)
      ∧ outFam m d L 1 = iprop((outPts d L (row0L L + 128 * 0) (resOf m d) ∗ outPts d L (row0L L + 128 * (0 + 1)) (resOf m d)
          ∗ emp ∗ emp ∗ outPts d L (row0L L + 128 * (0 + 4)) (m (outLoc d)) ∗ outPts d L (row0L L + 128 * (0 + 5)) (m (outLoc d))) ∗ R) := by
  have h0 : 0 < 78 := by omega
  have h1 : 0 + 1 < 78 := by omega
  have h2 : 0 + 2 < 78 := by omega
  have h3 : 0 + 3 < 78 := by omega
  have h4 : 0 + 4 < 78 := by omega
  have h5 : 0 + 5 < 78 := by omega
  refine ⟨bigSep (Finset.univ \ ({⟨0, h0⟩, ⟨0 + 1, h1⟩, ⟨0 + 2, h2⟩, ⟨0 + 3, h3⟩, ⟨0 + 4, h4⟩, ⟨0 + 5, h5⟩} : Finset (Fin 78)))
      (fun j => outPts d L (row0L L + 128 * j.val) (m (outLoc d))), ?_, ?_⟩
  · unfold outFam
    rw [fam_split6 _ (a := ⟨0, h0⟩) (b := ⟨0 + 1, h1⟩) (c := ⟨0 + 2, h2⟩) (e := ⟨0 + 3, h3⟩) (f := ⟨0 + 4, h4⟩) (g := ⟨0 + 5, h5⟩)
      (by show 0 < 0 + 1; omega) (by show 0 + 1 < 0 + 2; omega) (by show 0 + 2 < 0 + 3; omega) (by show 0 + 3 < 0 + 4; omega) (by show 0 + 4 < 0 + 5; omega)]
    dsimp only
    rw [if_neg (by omega), if_neg (by omega), if_neg (by omega), if_neg (by omega), if_neg (by omega), if_neg (by omega),
      if_neg (by omega), if_neg (by omega), if_neg (by omega), if_neg (by omega), if_neg (by omega), if_neg (by omega)]
    refine congrArg _ (bigSep_congr fun j hj => ?_)
    rw [if_neg (by omega), if_neg (by omega)]
  · unfold outFam
    rw [fam_split6 _ (a := ⟨0, h0⟩) (b := ⟨0 + 1, h1⟩) (c := ⟨0 + 2, h2⟩) (e := ⟨0 + 3, h3⟩) (f := ⟨0 + 4, h4⟩) (g := ⟨0 + 5, h5⟩)
      (by show 0 < 0 + 1; omega) (by show 0 + 1 < 0 + 2; omega) (by show 0 + 2 < 0 + 3; omega) (by show 0 + 3 < 0 + 4; omega) (by show 0 + 4 < 0 + 5; omega)]
    dsimp only
    rw [if_pos (by omega), if_pos (by omega), if_neg (by omega), if_pos (by omega), if_neg (by omega), if_pos (by omega),
      if_neg (by omega), if_neg (by omega), if_neg (by omega), if_neg (by omega)]
    refine congrArg _ (bigSep_congr fun j hj => ?_)
    have := not_mem_six h0 h1 h2 h3 h4 h5 hj
    rw [if_neg (by omega), if_neg (by omega)]

end FamOut

section Values

/-- Word `x` of the index window of gather number `r` of trip `k`, as the program slices it, is the combined index word
    of row `row0 + (512 k + 128 r + 256) + x`. -/
theorem pIx_read (k : Fin k1_t1_loop.trips) (r : Fin 4) (x : S128.Idx) :
    (pIx k r).view.read (Elt F) (ixOf m d L) x
      = idxOf m d (ValueIdx.ix1 (⟨(row0L L + (512 * k.val + 128 * r.val + 256) + (x 0 : Fin 128).val) % 320000, Nat.mod_lt _ (by decide)⟩ : Fin 320000)) := by
  rw [View.read_apply]
  refine (cast_eq _ _).trans ?_
  unfold ixOf
  refine congrArg (idxOf m d) (congrArg ValueIdx.ix1 (Fin.ext ?_))
  show (row0L L + ((k1_off3 k (BitVec.ofNat 32 r.val)) 0 + 1 * (x 0 : Fin 128).val)) % 320000 = _
  rw [k1_off3_eq k r]
  show (row0L L + ((512 * k.val + 128 * r.val + 256) + 1 * (x 0 : Fin 128).val)) % 320000 = _
  congr 1; omega

/-- What a gather lands: the gather number `r` of trip `k` reads the index window at word `512 k + 128 r + 256`, whose
    words name, below 216, the rows of the table that are the chunk's rows of the result. -/
theorem payload_eq (hrange : ∀ r, (idxOf m d r).toNat < 216) (k : Fin k1_t1_loop.trips) (r : Fin 4)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    SparseCore.gatherPayload Facts₀.gathers_S216x128_S128x128
        (((shV).slice (Rect.unit (s := S216x128) ![0, 0] S216x128.size h1) h2).view.read (Elt F) (tabOf m d))
        (SparseCore.rows ((pIx k r).view.read (Elt F) (ixOf m d L)) hn hin)
      = gat m d (row0L L + (512 * k.val + 128 * r.val + 256)) :=
  gather_value' m d hrange _ _ (pIx_read m d L k r) h1 h2 hn hin

omit [FloatOps F] in
/-- Rows of the result sliced at equal offsets, written with one payload, are one assertion. -/
theorem outW_congr {off off' : Fin 2 → ℕ} (h : off = off')
    (inb : ∀ a, off a + S128x128.size a ≤ S320000x128.size a) (inb' : ∀ a, off' a + S128x128.size a ≤ S320000x128.size a)
    (q : PosShare TreeShare) (f0 : S320000x128.Idx → Elt F .f32) (P : S128x128.Idx → Elt F .f32) :
    ((((outV).slice (Rect.unit (s := S320000x128) off S128x128.size inb) (fun _ => rfl)).view.loc (tV d L)
        ↦[((outV).slice (Rect.unit (s := S320000x128) off S128x128.size inb) (fun _ => rfl)).view.set]{q}
          ((outV).slice (Rect.unit (s := S320000x128) off S128x128.size inb) (fun _ => rfl)).view.writes (Elt F) f0 [⟨Rect.whole S128x128, P⟩]) : sProp 𝕄)
      = (((outV).slice (Rect.unit (s := S320000x128) off' S128x128.size inb') (fun _ => rfl)).view.loc (tV d L)
        ↦[((outV).slice (Rect.unit (s := S320000x128) off' S128x128.size inb') (fun _ => rfl)).view.set]{q}
          ((outV).slice (Rect.unit (s := S320000x128) off' S128x128.size inb') (fun _ => rfl)).view.writes (Elt F) f0 [⟨Rect.whole S128x128, P⟩]) := by
  subst h; rfl

/-- What a copy-out writes: the rows `row0 + 512 k + 128 r, …` of the result, written with a buffer holding those rows of
    the result's value, hold the result's value. -/
theorem out_eq (k : Fin k1_t1_loop.trips) (r : Fin 4) (f0 : Buf (Elt F) (outLoc d)) :
    ((pOut L k r).view.loc (tV d L) ↦[(pOut L k r).view.set]{fullShare}
        (pOut L k r).view.writes (Elt F) f0 [⟨Rect.whole S128x128, gat m d (row0L L + (512 * k.val + 128 * r.val))⟩] : sProp 𝕄)
      = outPts d L (row0L L + (512 * k.val + 128 * r.val)) (resOf m d) := by
  have hk := trips_lt k
  have hr := r.isLt
  have h1 : (L 1).val < 16 := (L 1).isLt
  have h0 : (L 0).val < 2 := (L 0).isLt
  have hb : row0L L + (512 * k.val + 128 * r.val) ≤ 319872 := by
    show 19968 * (L 1).val + 9984 * (L 0).val + (512 * k.val + 128 * r.val) ≤ 319872
    omega
  have e : k1_off5 L k (BitVec.ofNat 32 r.val) = ![min (row0L L + (512 * k.val + 128 * r.val)) 319872, 0] := by
    rw [k1_off5_eq L k r, Nat.min_eq_left hb]
    show ![19968 * (L 1).val + 9984 * (L 0).val + 512 * k.val + 128 * r.val, 0] = ![19968 * (L 1).val + 9984 * (L 0).val + (512 * k.val + 128 * r.val), 0]
    rw [Nat.add_assoc (19968 * (L 1).val + 9984 * (L 0).val)]
  exact (outW_congr d L e _ _ fullShare f0 _).trans (out_value m d L _ hb f0)

end Values

section Flights

/-- A flight of the gathers' amount whose delivery yields a gather's is the gather's flight. -/
theorem gFlight_intro (sg : DmaSem sig) (t : ℕ) (bP : (S128x128.Idx → Elt F .f32) → sProp 𝕄) (o : ℕ) (D : sProp 𝕄)
    (h : D ⊢ iprop((bP (gat m d (row0L L + o)) ∗ ixPts m d L o) ∗ shTok m d L t)) :
    (Transfers.Flight (countersEmb : UEmb Counters 𝕄) (tV d L) (SemLoc.dma sg) (default : HIx 1) 524288 D : sProp 𝕄)
      ⊢ gFlight m d L sg t bP o := by
  unfold gFlight
  rw [buf_credit0]
  exact Transfers.Flight_mono countersEmb (tV d L) h

/-- A flight of the copies' amount whose delivery yields a copy-out's is the copy-out's flight. -/
theorem sFlight_intro (ss : DmaSem sig) (bP : (S128x128.Idx → Elt F .f32) → sProp 𝕄) (o : ℕ) (D : sProp 𝕄)
    (h : D ⊢ iprop(outPts d L (row0L L + o) (resOf m d) ∗ bP (gat m d (row0L L + o)))) :
    (Transfers.Flight (countersEmb : UEmb Counters 𝕄) (tV d L) (SemLoc.dma ss) (default : HIx 1) 524288 D : sProp 𝕄)
      ⊢ sFlight m d L ss bP o := by
  unfold sFlight
  rw [out_credit]
  exact Transfers.Flight_mono countersEmb (tV d L) h

omit [FloatOps F] in
/-- Buffer 0 after a gather that wrote all of it holds the gather's payload. -/
theorem land_b0 (prior P G : S128x128.Idx → Elt F .f32) (h : P = G) :
    ((b0V).view.loc (tV d L) ↦[(b0V).view.set]{fullShare} (b0V).view.writes (Elt F) prior [⟨Rect.whole S128x128, P⟩] : sProp 𝕄) = b0Pts d L G := by
  subst h
  exact pointsTo_congr fun i _ => congrFun (View.read_writes_whole (b0V).view prior P) i

omit [FloatOps F] in
theorem land_fun_b0 (prior P : S128x128.Idx → Elt F .f32) :
    (b0V).view.writes (Elt F) prior [⟨Rect.whole S128x128, P⟩] = P :=
  View.read_writes_whole (b0V).view prior P

omit [FloatOps F] in
/-- Buffer 1 after a gather that wrote all of it holds the gather's payload. -/
theorem land_b1 (prior P G : S128x128.Idx → Elt F .f32) (h : P = G) :
    ((b1V).view.loc (tV d L) ↦[(b1V).view.set]{fullShare} (b1V).view.writes (Elt F) prior [⟨Rect.whole S128x128, P⟩] : sProp 𝕄) = b1Pts d L G := by
  subst h
  exact pointsTo_congr fun i _ => congrFun (View.read_writes_whole (b1V).view prior P) i

omit [FloatOps F] in
theorem land_fun_b1 (prior P : S128x128.Idx → Elt F .f32) :
    (b1V).view.writes (Elt F) prior [⟨Rect.whole S128x128, P⟩] = P :=
  View.read_writes_whole (b1V).view prior P

omit [FloatOps F] in
/-- Buffer 2 after a gather that wrote all of it holds the gather's payload. -/
theorem land_b2 (prior P G : S128x128.Idx → Elt F .f32) (h : P = G) :
    ((b2V).view.loc (tV d L) ↦[(b2V).view.set]{fullShare} (b2V).view.writes (Elt F) prior [⟨Rect.whole S128x128, P⟩] : sProp 𝕄) = b2Pts d L G := by
  subst h
  exact pointsTo_congr fun i _ => congrFun (View.read_writes_whole (b2V).view prior P) i

omit [FloatOps F] in
theorem land_fun_b2 (prior P : S128x128.Idx → Elt F .f32) :
    (b2V).view.writes (Elt F) prior [⟨Rect.whole S128x128, P⟩] = P :=
  View.read_writes_whole (b2V).view prior P

omit [FloatOps F] in
/-- Buffer 3 after a gather that wrote all of it holds the gather's payload. -/
theorem land_b3 (prior P G : S128x128.Idx → Elt F .f32) (h : P = G) :
    ((b3V).view.loc (tV d L) ↦[(b3V).view.set]{fullShare} (b3V).view.writes (Elt F) prior [⟨Rect.whole S128x128, P⟩] : sProp 𝕄) = b3Pts d L G := by
  subst h
  exact pointsTo_congr fun i _ => congrFun (View.read_writes_whole (b3V).view prior P) i

omit [FloatOps F] in
theorem land_fun_b3 (prior P : S128x128.Idx → Elt F .f32) :
    (b3V).view.writes (Elt F) prior [⟨Rect.whole S128x128, P⟩] = P :=
  View.read_writes_whole (b3V).view prior P

/-- The gather number `r` of trip `k`, in flight into buffer 0, as the loop's invariant states it. -/
theorem gClose_b0 (hrange : ∀ r, (idxOf m d r).toNat < 216) (sg : DmaSem sig) (t : ℕ) (k : Fin k1_t1_loop.trips) (r : Fin 4)
    (o : ℕ) (ho : o = 512 * k.val + 128 * r.val + 256) (prior : S128x128.Idx → Elt F .f32)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    (Transfers.Flight (countersEmb : UEmb Counters 𝕄) (tV d L) (SemLoc.dma sg) (default : HIx 1) 524288
      iprop((((b0V).view.loc (tV d L) ↦[(b0V).view.set]{fullShare} (b0V).view.writes (Elt F) prior
              [⟨Rect.whole S128x128, SparseCore.gatherPayload Facts₀.gathers_S216x128_S128x128
                  (((shV).slice (Rect.unit (s := S216x128) ![0, 0] S216x128.size h1) h2).view.read (Elt F) (tabOf m d))
                  (SparseCore.rows ((pIx k r).view.read (Elt F) (ixOf m d L)) hn hin)⟩])
            ∗ pIxPts m d L k r)
          ∗ ((shSl).view.loc (tV d L) ↦[((shV).slice (Rect.unit (s := S216x128) ![0, 0] S216x128.size h1) h2).view.set]{Transfers.shareTokN (shQ L) t} tabOf m d)) : sProp 𝕄)
      ⊢ gFlight m d L sg t (b0Pts d L) o := by
  subst ho
  refine gFlight_intro m d L sg t (b0Pts d L) _ _ (sep_mono (sep_mono (Entails.of_eq ?_) (Entails.of_eq (pIxPts_eq m d L k r))) .rfl)
  exact land_b0 d L prior _ _ (payload_eq m d L hrange k r h1 h2 hn hin)

/-- The gather number `r` of trip `k`, in flight into buffer 1, as the loop's invariant states it. -/
theorem gClose_b1 (hrange : ∀ r, (idxOf m d r).toNat < 216) (sg : DmaSem sig) (t : ℕ) (k : Fin k1_t1_loop.trips) (r : Fin 4)
    (o : ℕ) (ho : o = 512 * k.val + 128 * r.val + 256) (prior : S128x128.Idx → Elt F .f32)
    (h1 : ∀ a, (![0, 0] : Fin 2 → ℕ) a + S216x128.size a ≤ S216x128.size a)
    (h2 : ∀ a, (Rect.unit (s := S216x128) ![0, 0] S216x128.size h1).stride a = 1)
    (hn : S128.numel = S128x128.size (Facts₀.gathers_S216x128_S128x128).axis')
    (hin : ∀ x, ((pIx k r).view.read (Elt F) (ixOf m d L) x).toNat < S216x128.size (Facts₀.gathers_S216x128_S128x128).axis) :
    (Transfers.Flight (countersEmb : UEmb Counters 𝕄) (tV d L) (SemLoc.dma sg) (default : HIx 1) 524288
      iprop((((b1V).view.loc (tV d L) ↦[(b1V).view.set]{fullShare} (b1V).view.writes (Elt F) prior
              [⟨Rect.whole S128x128, SparseCore.gatherPayload Facts₀.gathers_S216x128_S128x128
                  (((shV).slice (Rect.unit (s := S216x128) ![0, 0] S216x128.size h1) h2).view.read (Elt F) (tabOf m d))
                  (SparseCore.rows ((pIx k r).view.read (Elt F) (ixOf m d L)) hn hin)⟩])
            ∗ pIxPts m d L k r)
          ∗ ((shSl).view.loc (tV d L) ↦[((shV).slice (Rect.unit (s := S216x128) ![0, 0] S216x128.size h1) h2).view.set]{Transfers.shareTokN (shQ L) t} tabOf m d)) : sProp 𝕄)
      ⊢ gFlight m d L sg t (b1Pts d L) o := by
  subst ho
  refine gFlight_intro m d L sg t (b1Pts d L) _ _ (sep_mono (sep_mono (Entails.of_eq ?_) (Entails.of_eq (pIxPts_eq m d L k r))) .rfl)
  exact land_b1 d L prior _ _ (payload_eq m d L hrange k r h1 h2 hn hin)

/-- The copy-out number `r` of trip `k`, in flight from buffer 2 holding the chunk's rows, as the loop's invariant states it. -/
theorem sClose_b2 (ss : DmaSem sig) (k : Fin k1_t1_loop.trips) (r : Fin 4) (o : ℕ) (ho : o = 512 * k.val + 128 * r.val)
    (f0 : Buf (Elt F) (outLoc d)) (cont : S128x128.Idx → Elt F .f32) (hc : cont = gat m d (row0L L + o)) :
    (Transfers.Flight (countersEmb : UEmb Counters 𝕄) (tV d L) (SemLoc.dma ss) (default : HIx 1) 524288
      iprop(((pOut L k r).view.loc (tV d L) ↦[(pOut L k r).view.set]{fullShare}
              (pOut L k r).view.writes (Elt F) f0 [⟨Rect.whole S128x128, ReadAs.same.apply ((b2V).view.read (Elt F) cont)⟩])
          ∗ ((b2V).view.loc (tV d L) ↦[(b2V).view.set]{fullShare} cont)) : sProp 𝕄)
      ⊢ sFlight m d L ss (b2Pts d L) o := by
  subst ho hc
  refine sFlight_intro m d L ss (b2Pts d L) _ _ (sep_mono (Entails.of_eq ?_) .rfl)
  exact out_eq m d L k r f0

/-- The copy-out number `r` of trip `k`, in flight from buffer 3 holding the chunk's rows, as the loop's invariant states it. -/
theorem sClose_b3 (ss : DmaSem sig) (k : Fin k1_t1_loop.trips) (r : Fin 4) (o : ℕ) (ho : o = 512 * k.val + 128 * r.val)
    (f0 : Buf (Elt F) (outLoc d)) (cont : S128x128.Idx → Elt F .f32) (hc : cont = gat m d (row0L L + o)) :
    (Transfers.Flight (countersEmb : UEmb Counters 𝕄) (tV d L) (SemLoc.dma ss) (default : HIx 1) 524288
      iprop(((pOut L k r).view.loc (tV d L) ↦[(pOut L k r).view.set]{fullShare}
              (pOut L k r).view.writes (Elt F) f0 [⟨Rect.whole S128x128, ReadAs.same.apply ((b3V).view.read (Elt F) cont)⟩])
          ∗ ((b3V).view.loc (tV d L) ↦[(b3V).view.set]{fullShare} cont)) : sProp 𝕄)
      ⊢ sFlight m d L ss (b3Pts d L) o := by
  subst ho hc
  refine sFlight_intro m d L ss (b3Pts d L) _ _ (sep_mono (Entails.of_eq ?_) .rfl)
  exact out_eq m d L k r f0

end Flights

section Trip

omit [FloatOps F] in
theorem fin4_vals : (0 : Fin 4).val = 0 ∧ (1 : Fin 4).val = 1 ∧ (2 : Fin 4).val = 2 ∧ (3 : Fin 4).val = 3 := ⟨rfl, rfl, rfl, rfl⟩

set_option maxHeartbeats 16000000 in
/-- One trip past the first: all four waits for earlier copies are taken. -/
theorem trip_pos (hrange : ∀ r, (idxOf m d r).toNat < 216) (O : CellTallies nD τ sig (HIx 1)) (W : Waits sig (HIx 1)) (v2 : BitVec 32)
    (k : Fin k1_t1_loop.trips) (hk : k.val ≠ 0) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  have hk19 := trips_lt k
  obtain ⟨f0, f1, f2, f3⟩ := fin4_vals
  obtain ⟨p, hp⟩ : ∃ p, k.val = p + 1 := ⟨k.val - 1, by omega⟩
  have k1_h2 : k1_cond2 k = 1#1 := (k1_cond2_iff k).mpr hk
  have k1_h3 : k1_cond3 k = 1#1 := (k1_cond3_iff k).mpr hk
  have k1_h4 : k1_cond4 k = 1#1 := k1_cond4_all k
  have k1_h5 : k1_cond5 k = 1#1 := k1_cond5_all k
  have hin0 := hin_of m d L hrange k 0
  have hin1 := hin_of m d L hrange k 1
  have hin2 := hin_of m d L hrange k 2
  have hin3 := hin_of m d L hrange k 3
  obtain ⟨RI, eI, eI'⟩ := ix_step m d L k.val hk19
  obtain ⟨RO, eO, eO'⟩ := out_step_succ m d L p (by omega)
  have eO1 := eO
  rw [← hp] at eO1
  have eO2 := eO'
  rw [show p + 2 = k.val + 1 from by omega] at eO2
  -- the windows and rows the trip names, in the program's spelling
  have ei : ∀ (r : Fin 4) (j : ℕ), j = 4 * k.val + 2 + r.val → ixPts m d L (128 * j) = pIxPts m d L k r := fun r j hj => by
    rw [pIxPts_eq]; exact congrArg _ (by omega)
  have eo : ∀ (r : Fin 4) (j : ℕ) (f : Buf (Elt F) (outLoc d)), j = 4 * k.val + r.val → outPts d L (row0L L + 128 * j) f = pOutPts d L k r f := fun r j f hj => by
    rw [pOutPts_eq]; exact congrArg (fun x => outPts d L x f) (by omega)
  unfold k1_t1_body
  unfold Inv
  rw [if_neg hk, eI, eO1]
  iintro ⟨#Hmw, ⟨%W', %hW', HO⟩, Hg0, Hg1, Hsg2, Hsg3, Ht10, Ht11, Hss0, Hss1, ⟨Hs2, Hs3⟩, ⟨⟨-, -, Hi0, Hi1, Hi2, Hi3⟩, HRI⟩, ⟨⟨-, -, Ho0, Ho1, Ho2, Ho3⟩, HRO⟩⟩
  ihave Hi0 := (Entails.of_eq (ei 0 _ (by omega))) $$ Hi0
  ihave Hi1 := (Entails.of_eq (ei 1 _ (by omega))) $$ Hi1
  ihave Hi2 := (Entails.of_eq (ei 2 _ (by omega))) $$ Hi2
  ihave Hi3 := (Entails.of_eq (ei 3 _ (by omega))) $$ Hi3
  ihave Ho0 := (Entails.of_eq (eo 0 _ _ (by omega))) $$ Ho0
  ihave Ho1 := (Entails.of_eq (eo 1 _ _ (by omega))) $$ Ho1
  ihave Ho2 := (Entails.of_eq (eo 2 _ _ (by omega))) $$ Ho2
  ihave Ho3 := (Entails.of_eq (eo 3 _ _ (by omega))) $$ Ho3
  sl_exec
  icases Hg0_dst with ⟨Hb0, Hix0⟩
  sl_exec
  icases Hg1_dst with ⟨Hb1, Hix1⟩
  sl_exec
  sl_step
  sl_unfold_run_names
  rw [if_neg (Nat.succ_ne_zero _), eI', eO2]
  icases Hg0_src with -
  icases Hg1_src with -
  isplitl []; · iexact Hmw
  isplitl [HO]
  · iexists _; isplitr
    swap; · iexact HO
    ipureintro; intro q hq
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    exact hW' q hq
  isplitl [Hg0]
  · iapply (gClose_b0 m d L hrange cc1_scratch7.sem 8 k 2 _ (by omega) _ _ _ _ hin2); iexact Hg0
  isplitl [Hg1]
  · iapply (gClose_b1 m d L hrange cc1_scratch8.sem 9 k 3 _ (by omega) _ _ _ _ hin3); iexact Hg1
  isplitl [Hsg2]; · iexact Hsg2
  isplitl [Hsg3]; · iexact Hsg3
  isplitl [Ht10]; · iexact Ht10
  isplitl [Ht11]; · iexact Ht11
  isplitl [Hss0]; · iexact Hss0
  isplitl [Hss1]; · iexact Hss1
  isplitl [Hs2 Hs3]
  · isplitl [Hs2]
    · iapply (sClose_b2 m d L cc1_scratch13.sem k 2 _ (by omega) _ _
        ((land_fun_b2 _ _).trans ((payload_eq m d L hrange k 0 _ _ _ hin0).trans (congrArg (gat m d) (by omega)))))
      iexact Hs2
    · iapply (sClose_b3 m d L cc1_scratch14.sem k 3 _ (by omega) _ _
        ((land_fun_b3 _ _).trans ((payload_eq m d L hrange k 1 _ _ _ hin1).trans (congrArg (gat m d) (by omega)))))
      iexact Hs3
  isplitl [Hix0 Hix1 Hi0 Hi1 HRI]
  · isplitr [HRI]
    · isplitl [Hix0]
      · iapply (Entails.of_eq (congrArg (ixPts m d L) (show 512 * k.val = 128 * (4 * k.val) by omega))); iexact Hix0
      isplitl [Hix1]
      · iapply (Entails.of_eq (congrArg (ixPts m d L) (show 512 * k.val + 128 = 128 * (4 * k.val + 1) by omega))); iexact Hix1
      isplitl [Hi0]
      · iapply (Entails.of_eq (ei 0 _ (by omega)).symm); iexact Hi0
      isplitl [Hi1]
      · iapply (Entails.of_eq (ei 1 _ (by omega)).symm); iexact Hi1
      isplitl []; · iempintro
      iempintro
    · iexact HRI
  · isplitr [HRO]
    · isplitl [Hs2_dst]
      · iapply (Entails.of_eq (congrArg (fun x => outPts d L x (resOf m d)) (show row0L L + (512 * k.val - 256) = row0L L + 128 * (4 * p + 2) by omega)))
        iexact Hs2_dst
      isplitl [Hs3_dst]
      · iapply (Entails.of_eq (congrArg (fun x => outPts d L x (resOf m d)) (show row0L L + (512 * k.val - 128) = row0L L + 128 * (4 * p + 2 + 1) by omega)))
        iexact Hs3_dst
      isplitl [Ho0]
      · iapply (Entails.of_eq ((out_eq m d L k 0 _).trans (congrArg (fun x => outPts d L x (resOf m d)) (show row0L L + (512 * k.val + 128 * (0 : Fin 4).val) = row0L L + 128 * (4 * p + 2 + 2) by omega))))
        iexact Ho0
      isplitl [Ho1]
      · iapply (Entails.of_eq ((out_eq m d L k 1 _).trans (congrArg (fun x => outPts d L x (resOf m d)) (show row0L L + (512 * k.val + 128 * (1 : Fin 4).val) = row0L L + 128 * (4 * p + 2 + 3) by omega))))
        iexact Ho1
      isplitl []; · iempintro
      iempintro
    · iexact HRO

set_option maxHeartbeats 16000000 in
/-- The first trip: the two waits for copies of earlier chunks are skipped. -/
theorem trip_zero (hrange : ∀ r, (idxOf m d r).toNat < 216) (O : CellTallies nD τ sig (HIx 1)) (W : Waits sig (HIx 1)) (v2 : BitVec 32)
    (k : Fin k1_t1_loop.trips) (hk : k.val = 0) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  have hk19 := trips_lt k
  obtain ⟨f0, f1, f2, f3⟩ := fin4_vals
  have k1_h2 : ¬ k1_cond2 k = 1#1 := fun h => (k1_cond2_iff k).mp h hk
  have k1_h3 : ¬ k1_cond3 k = 1#1 := fun h => (k1_cond3_iff k).mp h hk
  have k1_h4 : k1_cond4 k = 1#1 := k1_cond4_all k
  have k1_h5 : k1_cond5 k = 1#1 := k1_cond5_all k
  have hin0 := hin_of m d L hrange k 0
  have hin1 := hin_of m d L hrange k 1
  have hin2 := hin_of m d L hrange k 2
  have hin3 := hin_of m d L hrange k 3
  obtain ⟨RI, eI, eI'⟩ := ix_step m d L k.val hk19
  obtain ⟨RO, eO, eO'⟩ := out_step_zero m d L
  have eO1 : outFam m d L k.val = outFam m d L 0 := by rw [hk]
  have eO2 : outFam m d L (k.val + 1) = outFam m d L 1 := by rw [hk]
  have ei : ∀ (r : Fin 4) (j : ℕ), j = 4 * k.val + 2 + r.val → ixPts m d L (128 * j) = pIxPts m d L k r := fun r j hj => by
    rw [pIxPts_eq]; exact congrArg _ (by omega)
  have eo : ∀ (r : Fin 4) (j : ℕ) (f : Buf (Elt F) (outLoc d)), j = 4 * k.val + r.val → outPts d L (row0L L + 128 * j) f = pOutPts d L k r f := fun r j f hj => by
    rw [pOutPts_eq]; exact congrArg (fun x => outPts d L x f) (by omega)
  unfold k1_t1_body
  unfold Inv
  rw [if_pos hk, eI, eO1, eO]
  iintro ⟨#Hmw, ⟨%W', %hW', HO⟩, Hg0, Hg1, Hsg2, Hsg3, Ht10, Ht11, Hss0, Hss1, ⟨⟨%fb2, Hb2⟩, ⟨%fb3, Hb3⟩, Hss2, Hss3⟩, ⟨⟨-, -, Hi0, Hi1, Hi2, Hi3⟩, HRI⟩, ⟨⟨Ho0, Ho1, Ho2, Ho3, Ho4, Ho5⟩, HRO⟩⟩
  ihave Hi0 := (Entails.of_eq (ei 0 _ (by omega))) $$ Hi0
  ihave Hi1 := (Entails.of_eq (ei 1 _ (by omega))) $$ Hi1
  ihave Hi2 := (Entails.of_eq (ei 2 _ (by omega))) $$ Hi2
  ihave Hi3 := (Entails.of_eq (ei 3 _ (by omega))) $$ Hi3
  ihave Ho0 := (Entails.of_eq (eo 0 _ _ (by omega))) $$ Ho0
  ihave Ho1 := (Entails.of_eq (eo 1 _ _ (by omega))) $$ Ho1
  ihave Ho2 := (Entails.of_eq (eo 2 _ _ (by omega))) $$ Ho2
  ihave Ho3 := (Entails.of_eq (eo 3 _ _ (by omega))) $$ Ho3
  sl_exec
  icases Hg0_dst with ⟨Hb0, Hix0⟩
  sl_exec
  icases Hg1_dst with ⟨Hb1, Hix1⟩
  sl_exec
  sl_step
  sl_unfold_run_names
  rw [if_neg (Nat.succ_ne_zero _), eI', eO2, eO']
  icases Hg0_src with -
  icases Hg1_src with -
  isplitl []; · iexact Hmw
  isplitl [HO]
  · iexists _; isplitr
    swap; · iexact HO
    ipureintro; intro q hq
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    rcases Finset.mem_insert.mp hq with hq | hq; · exact .inr (hq ▸ rfl)
    exact hW' q hq
  isplitl [Hg0]
  · iapply (gClose_b0 m d L hrange cc1_scratch7.sem 8 k 2 _ (by omega) _ _ _ _ hin2); iexact Hg0
  isplitl [Hg1]
  · iapply (gClose_b1 m d L hrange cc1_scratch8.sem 9 k 3 _ (by omega) _ _ _ _ hin3); iexact Hg1
  isplitl [Hsg2]; · iexact Hsg2
  isplitl [Hsg3]; · iexact Hsg3
  isplitl [Ht10]; · iexact Ht10
  isplitl [Ht11]; · iexact Ht11
  isplitl [Hss0]; · iexact Hss0
  isplitl [Hss1]; · iexact Hss1
  isplitl [Hss2 Hss3]
  · isplitl [Hss2]
    · iapply (sClose_b2 m d L cc1_scratch13.sem k 2 _ (by omega) _ _
        ((land_fun_b2 _ _).trans ((payload_eq m d L hrange k 0 _ _ _ hin0).trans (congrArg (gat m d) (by omega)))))
      iexact Hss2
    · iapply (sClose_b3 m d L cc1_scratch14.sem k 3 _ (by omega) _ _
        ((land_fun_b3 _ _).trans ((payload_eq m d L hrange k 1 _ _ _ hin1).trans (congrArg (gat m d) (by omega)))))
      iexact Hss3
  isplitl [Hix0 Hix1 Hi0 Hi1 HRI]
  · isplitr [HRI]
    · isplitl [Hix0]
      · iapply (Entails.of_eq (congrArg (ixPts m d L) (show 512 * k.val = 128 * (4 * k.val) by omega))); iexact Hix0
      isplitl [Hix1]
      · iapply (Entails.of_eq (congrArg (ixPts m d L) (show 512 * k.val + 128 = 128 * (4 * k.val + 1) by omega))); iexact Hix1
      isplitl [Hi0]
      · iapply (Entails.of_eq (ei 0 _ (by omega)).symm); iexact Hi0
      isplitl [Hi1]
      · iapply (Entails.of_eq (ei 1 _ (by omega)).symm); iexact Hi1
      isplitl []; · iempintro
      iempintro
    · iexact HRI
  · isplitr [HRO]
    · isplitl [Ho0]
      · iapply (Entails.of_eq ((out_eq m d L k 0 _).trans (congrArg (fun x => outPts d L x (resOf m d)) (show row0L L + (512 * k.val + 128 * (0 : Fin 4).val) = row0L L + 128 * 0 by omega))))
        iexact Ho0
      isplitl [Ho1]
      · iapply (Entails.of_eq ((out_eq m d L k 1 _).trans (congrArg (fun x => outPts d L x (resOf m d)) (show row0L L + (512 * k.val + 128 * (1 : Fin 4).val) = row0L L + 128 * (0 + 1) by omega))))
        iexact Ho1
      isplitl []; · iempintro
      isplitl []; · iempintro
      isplitl [Ho4]; · iexact Ho4
      iexact Ho5
    · iexact HRO

/-- One trip of the loop. -/
theorem trip (hrange : ∀ r, (idxOf m d r).toNat < 216) (O : CellTallies nD τ sig (HIx 1)) (W : Waits sig (HIx 1)) (v2 : BitVec 32)
    (k : Fin k1_t1_loop.trips) (acc : PUnit) :
    Inv m d L O W k.val acc
      ⊢ wp frame (wpE (defs₀ (F := F)) 𝒱₀ (tV d L) none) Set.univ
          (k1_t1_body L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3 v2 k acc)
          (Inv m d L O W (k.val + 1)) := by
  by_cases hk : k.val = 0
  · exact trip_zero m d L hrange O W v2 k hk acc
  · exact trip_pos m d L hrange O W v2 k hk acc

end Trip

end Cert.KProof

end
-- ==== Proof.TileEpiK.lean ====
/-
  The end of one vector subcore's task, after its counted loop: what is in flight then, the last four chunks' windows set
  apart from the rest, the extra chunk of the four lowest-numbered subcores — its index words, its rows of the result —,
  and the task's rows of the result put back together once every chunk holds the result.
-/
import proofs.«203798_g65764539236737_cont_9to1_m_400_20_alg».proof.Proof.TileValsK
import proofs.«203798_g65764539236737_cont_9to1_m_400_20_alg».proof.Proof.TileFamK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

/-! ## The subcore's number and its extra chunk -/

/-- The subcore's worker number. -/
abbrev widL (L : grid1.Coords) : ℕ := 2 * (L 1).val + (L 0).val

omit [FloatOps F] in
/-- The extra chunk is taken exactly by the workers numbered below 4. -/
theorem epi_cond6_iff : ∀ L : grid1.Coords, (k1_cond6 L = 1#1 ↔ widL L < 4) := by decide +kernel

omit [FloatOps F] in
theorem epi_extraSet_pos (h : widL L < 4) : Cert.Cover.extraSet (cL L) (iL L) = Cert.Cover.chunkSet (319488 + 128 * widL L) := by
  unfold Cert.Cover.extraSet; rw [if_pos h]
omit [FloatOps F] in
theorem epi_extraSet_neg (h : ¬ widL L < 4) : Cert.Cover.extraSet (cL L) (iL L) = ∅ := by
  unfold Cert.Cover.extraSet; rw [if_neg h]

omit [FloatOps F] in
/-- The extra chunk's rows of the result, as the program slices them, are the rows from `319488 + 128 wid`. -/
theorem epi_extraOut_eq (h6 : k1_cond6 L = 1#1) :
    (outV).slice (Rect.unit (s := S320000x128) (k1_off11 L) S128x128.size (k1_off11_inb L h6)) (fun _ => rfl) = outWin (319488 + 128 * widL L) := by
  have hw := (epi_cond6_iff L).mp h6
  refine outSlice_eq _ (by unfold widL at hw ⊢; omega) ?_
  rw [k1_off11_eq]
  funext a
  match a with
  | ⟨0, _⟩ => show 256 * (L 1).val + 128 * (L 0).val + 319488 = 319488 + 128 * (2 * (L 1).val + (L 0).val); omega
  | ⟨1, _⟩ => rfl

omit [FloatOps F] in
/-- Held by exactly its elements, the extra chunk is the task's extra rows. -/
theorem epi_extraPts (h : widL L < 4) (f : Buf (Elt F) (outLoc d)) :
    (outLoc d ↦[Cert.Cover.extraSet (cL L) (iL L)]{fullShare} f : sProp 𝕄) = outPts d L (319488 + 128 * widL L) f := by
  unfold outPts
  rw [epi_extraSet_pos L h, outWin_set (by unfold widL at h ⊢; omega)]

omit [FloatOps F] in
/-- A task with no extra chunk holds no extra rows: at any contents. -/
theorem epi_extra_none (h : ¬ widL L < 4) (f g : Buf (Elt F) (outLoc d)) :
    (outLoc d ↦[Cert.Cover.extraSet (cL L) (iL L)]{fullShare} f : sProp 𝕄) = outLoc d ↦[Cert.Cover.extraSet (cL L) (iL L)]{fullShare} g := by
  rw [epi_extraSet_neg L h]
  exact pointsTo_congr fun i hi => absurd hi (Finset.notMem_empty i)

/-! ## The extra chunk's index words -/

/-- The extra index buffer after the extra chunk's index copy: word `x` is the combined index word of row `319488 + 128 wid + x`. -/
def exOf : S128.Idx → Elt F .i32 :=
  fun x => idxOf m d (ix1 (⟨(319488 + 128 * widL L + (x 0 : Fin 128).val) % 320000, Nat.mod_lt _ (by decide)⟩ : Fin 320000))

omit [FloatOps F] in
/-- What the extra chunk's index copy writes is those words. -/
theorem epi_ex_contents (h6 : k1_cond6 L = 1#1) (fE : Buf (Elt F) ((tV d L).loc cc1_scratch2)) (pay : S128.Idx → Elt F .i32)
    (hpay : pay = ((idxV).slice (Rect.unit (s := S320000) (k1_off10 L) S128.size (k1_off10_inb L h6)) (fun _ => rfl)).view.read (Elt F) (idxOf m d)) :
    View.write (Elt F) (exV).view fE pay Finset.univ = exOf m d L := by
  subst hpay
  rw [View.write_whole_univ]
  funext x
  rw [View.read_apply]
  unfold exOf
  refine (cast_eq _ _).trans ?_
  congr 1
  funext a
  match a with
  | 0 =>
    have hx : ((x 0 : Fin 128) : ℕ) < 128 := (x 0 : Fin 128).isLt
    have hw := (epi_cond6_iff L).mp h6
    have e0 : (k1_off10 L) 0 = 256 * (L 1).val + 128 * (L 0).val + 319488 := congrFun (k1_off10_eq L) 0
    apply Fin.ext
    show (k1_off10 L) 0 + 1 * (x 0 : Fin 128).val = (319488 + 128 * widL L + (x 0 : Fin 128).val) % 320000
    rw [e0, Nat.mod_eq_of_lt (by unfold widL at hw ⊢; omega)]
    show 256 * (L 1).val + 128 * (L 0).val + 319488 + 1 * (x 0 : Fin 128).val = 319488 + 128 * (2 * (L 1).val + (L 0).val) + (x 0 : Fin 128).val
    omega

omit [FloatOps F] in
/-- Every word of it names a row of the table. -/
theorem epi_ex_hin (hrange : ∀ r, (idxOf m d r).toNat < 216) :
    ∀ x, (((exV).view.read (Elt F) (exOf m d L)) x).toNat < S216x128.size gathers_S216x128_S128x128.axis := by
  intro x
  rw [View.read_apply]
  refine lt_of_eq_of_lt (congrArg BitVec.toNat (cast_eq _ _)) ?_
  exact hrange _

/-! ## The last chunks' windows set apart -/

omit [FloatOps F] in
/-- Four members of a family over the 78 chunks, set apart from the rest. -/
theorem epi_split4 (Φ : Fin 78 → sProp 𝕄) :
    bigSep Finset.univ Φ = iprop((Φ 74 ∗ Φ 75 ∗ Φ 76 ∗ Φ 77) ∗ bigSep (Finset.univ \ {74, 75, 76, 77}) Φ) := by
  rw [SparseCore.bigSep_sdiff_split' (Finset.subset_univ ({74, 75, 76, 77} : Finset (Fin 78))),
    SparseCore.bigSep_insert' (by decide), SparseCore.bigSep_insert' (by decide), SparseCore.bigSep_insert' (by decide), bigSep_singleton]

omit [FloatOps F] in
theorem epi_lt74 {j : Fin 78} (hj : j ∈ Finset.univ \ ({74, 75, 76, 77} : Finset (Fin 78))) : j.val < 74 := by
  have := j.isLt
  simp only [Finset.mem_sdiff, Finset.mem_univ, true_and, Finset.mem_insert, Finset.mem_singleton, Fin.ext_iff] at hj
  have h74 : ((74 : Fin 78) : ℕ) = 74 := rfl
  have h75 : ((75 : Fin 78) : ℕ) = 75 := rfl
  have h76 : ((76 : Fin 78) : ℕ) = 76 := rfl
  have h77 : ((77 : Fin 78) : ℕ) = 77 := rfl
  omega

/-- After the loop the index windows of chunks 76 and 77 are lent to the gathers in flight; with them back, the index
    scratch is whole again. -/
theorem epi_ix_last : ∃ R : sProp 𝕄,
    ixFam m d L 19 = iprop((ixPts m d L 9472 ∗ ixPts m d L 9600 ∗ emp ∗ emp) ∗ R)
    ∧ ((ixV).view.loc (tV d L) ↦{fullShare} ixOf m d L : sProp 𝕄)
        = iprop((ixPts m d L 9472 ∗ ixPts m d L 9600 ∗ ixPts m d L 9728 ∗ ixPts m d L 9856) ∗ R) := by
  refine ⟨bigSep (Finset.univ \ ({74, 75, 76, 77} : Finset (Fin 78))) (fun j => ixPts m d L (128 * j.val)), ?_, ?_⟩
  · unfold ixFam
    rw [epi_split4]
    rw [if_neg (by decide), if_neg (by decide), if_pos (Or.inl (by decide)), if_pos (Or.inr (by decide))]
    refine congrArg _ (bigSep_congr fun j hj => ?_)
    have := epi_lt74 hj
    exact if_neg (by omega)
  · rw [ix_windows, epi_split4]
    rfl

/-- After the loop chunks 74 and 75 of the result are lent to the copies in flight and chunks 76 and 77 hold what the
    launch left; with all four holding the result, every chunk does. -/
theorem epi_out_last : ∃ R : sProp 𝕄,
    outFam m d L 19 = iprop((emp ∗ emp ∗ outPts d L (row0L L + 9728) (m (outLoc d)) ∗ outPts d L (row0L L + 9856) (m (outLoc d))) ∗ R)
    ∧ (bigSep Finset.univ fun k : Fin 78 => outPts d L (row0L L + 128 * k.val) (resOf m d))
        = iprop((outPts d L (row0L L + 9472) (resOf m d) ∗ outPts d L (row0L L + 9600) (resOf m d)
            ∗ outPts d L (row0L L + 9728) (resOf m d) ∗ outPts d L (row0L L + 9856) (resOf m d)) ∗ R) := by
  refine ⟨bigSep (Finset.univ \ ({74, 75, 76, 77} : Finset (Fin 78))) (fun j => outPts d L (row0L L + 128 * j.val) (resOf m d)), ?_, ?_⟩
  · unfold outFam
    rw [epi_split4]
    rw [if_neg (by decide), if_pos (by decide), if_neg (by decide), if_pos (by decide), if_neg (by decide), if_neg (by decide),
      if_neg (by decide), if_neg (by decide)]
    refine congrArg _ (bigSep_congr fun j hj => ?_)
    have := epi_lt74 hj
    exact if_pos (by omega)
  · rw [epi_split4]
    rfl

/-! ## What the extra chunk's transfers leave -/

omit [FloatOps F] in
/-- The extra chunk's index words as the copy reads them out of the index array. -/
theorem epi_ex_pay (h6 : k1_cond6 L = 1#1) :
    ((idxV).slice (Rect.unit (s := S320000) (k1_off10 L) S128.size (k1_off10_inb L h6)) (fun _ => rfl)).view.read (Elt F) (idxOf m d) = exOf m d L := by
  have h := epi_ex_contents m d L h6 (fun _ => 0#32) _ rfl
  rw [View.write_whole_univ] at h
  exact h

omit [FloatOps F] in
/-- The extra index buffer after the copy holds them. -/
theorem epi_ex_land (h6 : k1_cond6 L = 1#1) (j : Buf (Elt F) ((tV d L).loc cc1_scratch2)) :
    ((exV).view.loc (tV d L) ↦[(exV).view.set]{fullShare}
        (exV).view.writes (Elt F) j [⟨Rect.whole cc1_scratch2.ty.shape, ReadAs.same.apply
          (((idxV).slice (Rect.unit (s := S320000) (k1_off10 L) S128.size (k1_off10_inb L h6)) (fun _ => rfl)).view.read (Elt F) (idxOf m d))⟩] : sProp 𝕄)
      = (exV).view.loc (tV d L) ↦[(exV).view.set]{fullShare} exOf m d L := by
  refine pointsTo_congr fun i _ => ?_
  exact (congrFun (View.read_writes_whole (exV).view j _) i).trans (congrFun (epi_ex_pay m d L h6) i)

omit [FloatOps F] in
/-- The task's extra rows, spelt through the slice the program takes. -/
theorem epi_extra_spell (h6 : k1_cond6 L = 1#1) (f : Buf (Elt F) (outLoc d)) :
    (outLoc d ↦[Cert.Cover.extraSet (cL L) (iL L)]{fullShare} f : sProp 𝕄)
      = (((outV).slice (Rect.unit (s := S320000x128) (k1_off11 L) S128x128.size (k1_off11_inb L h6)) (fun _ => rfl)).view.loc (tV d L)
          ↦[((outV).slice (Rect.unit (s := S320000x128) (k1_off11 L) S128x128.size (k1_off11_inb L h6)) (fun _ => rfl)).view.set]{fullShare} f) := by
  have hw := (epi_cond6_iff L).mp h6
  rw [epi_extraPts d L hw f]
  refine (outPts_spell d L (319488 + 128 * widL L) (by unfold widL at hw ⊢; omega) ?_ fullShare f).symm
  rw [k1_off11_eq]
  funext a
  match a with
  | ⟨0, _⟩ => show 256 * (L 1).val + 128 * (L 0).val + 319488 = 319488 + 128 * (2 * (L 1).val + (L 0).val); omega
  | ⟨1, _⟩ => rfl

/-- Rows `r, …, r + 127` of the result array, through a slice the program takes at offsets `![r, 0]`, written with a
    buffer holding those rows of the result, hold the result. -/
theorem out_value_off {off : Fin 2 → ℕ} {hinb : ∀ a, off a + S128x128.size a ≤ S320000x128.size a} (r : ℕ) (hr : r ≤ 319872) (e : off = ![r, 0])
    (f0 : Buf (Elt F) (outLoc d)) :
    ((((outV).slice (Rect.unit (s := S320000x128) off S128x128.size hinb) (fun _ => rfl)).view.loc (tV d L)
        ↦[((outV).slice (Rect.unit (s := S320000x128) off S128x128.size hinb) (fun _ => rfl)).view.set]{fullShare}
          ((outV).slice (Rect.unit (s := S320000x128) off S128x128.size hinb) (fun _ => rfl)).view.writes (Elt F) f0 [⟨Rect.whole S128x128, gat m d r⟩] : sProp 𝕄))
      = outPts d L r (resOf m d) := by
  have h1 : ((((outV).slice (Rect.unit (s := S320000x128) off S128x128.size hinb) (fun _ => rfl)).view.loc (tV d L)
        ↦[((outV).slice (Rect.unit (s := S320000x128) off S128x128.size hinb) (fun _ => rfl)).view.set]{fullShare}
          ((outV).slice (Rect.unit (s := S320000x128) off S128x128.size hinb) (fun _ => rfl)).view.writes (Elt F) f0 [⟨Rect.whole S128x128, gat m d r⟩] : sProp 𝕄))
      = (((outV).slice (Rect.unit (s := S320000x128) off S128x128.size hinb) (fun _ => rfl)).view.loc (tV d L)
        ↦[((outV).slice (Rect.unit (s := S320000x128) off S128x128.size hinb) (fun _ => rfl)).view.set]{fullShare} resOf m d) := by
    refine pointsTo_congr fun i hi => ?_
    obtain ⟨x, -, rfl⟩ := Finset.mem_map.mp hi
    have h := View.read_writes_cons_emb ((outV).slice (Rect.unit (s := S320000x128) off S128x128.size hinb) (fun _ => rfl)).view f0 (Rect.whole S128x128) (gat m d r) [] x
    have hx : (Rect.whole S128x128).emb x = x := Rect.emb_whole_apply S128x128 x
    rw [hx, View.read_apply] at h
    refine ((cast_eq _ _).symm.trans h).trans ?_
    obtain ⟨p, c, rfl⟩ : ∃ (p : Fin 128) (c : Fin 128), x = ix2 p c := ⟨x 0, x 1, eq_ix2 x⟩
    unfold gat
    refine congrArg (resOf m d) (funext fun a => Fin.ext ?_)
    have hp := p.isLt
    subst e
    match a with
    | ⟨0, _⟩ =>
      show (r + p.val) % 320000 = r + 1 * p.val
      rw [Nat.mod_eq_of_lt (by omega)]; omega
    | ⟨1, _⟩ =>
      show c.val = 0 + 1 * c.val
      omega
  rw [h1, outPts_spell d L r hr e]

/-- The extra chunk done: its rows of the result array, written with buffer 0 after the extra gather, hold the result. -/
theorem epi_extra_done (h6 : k1_cond6 L = 1#1) (hrange : ∀ r, (idxOf m d r).toNat < 216) (prior : S128x128.Idx → Elt F .f32) (f0 : Buf (Elt F) (outLoc d))
    (h1 : ∀ a, (![0, 0] : Fin 2 → ℕ) a + S216x128.size a ≤ S216x128.size a)
    (h2 : ∀ a, (Rect.unit (s := S216x128) ![0, 0] S216x128.size h1).stride a = 1)
    (hn : S128.numel = S128x128.size (gathers_S216x128_S128x128).axis')
    (hin : ∀ x, (((exV).view.read (Elt F) (exOf m d L)) x).toNat < S216x128.size (gathers_S216x128_S128x128).axis) :
    ((((outV).slice (Rect.unit (s := S320000x128) (k1_off11 L) S128x128.size (k1_off11_inb L h6)) (fun _ => rfl)).view.loc (tV d L)
        ↦[((outV).slice (Rect.unit (s := S320000x128) (k1_off11 L) S128x128.size (k1_off11_inb L h6)) (fun _ => rfl)).view.set]{fullShare}
          ((outV).slice (Rect.unit (s := S320000x128) (k1_off11 L) S128x128.size (k1_off11_inb L h6)) (fun _ => rfl)).view.writes (Elt F) f0
            [⟨Rect.whole S128x128, ReadAs.same.apply ((b0V).view.read (Elt F) ((b0V).view.writes (Elt F) prior
              [⟨Rect.whole cc1_scratch3.ty.shape, SparseCore.gatherPayload gathers_S216x128_S128x128
                (((shV).slice (Rect.unit (s := S216x128) ![0, 0] S216x128.size h1) h2).view.read (Elt F) (tabOf m d))
                (SparseCore.rows ((exV).view.read (Elt F) (exOf m d L)) hn hin)⟩]))⟩] : sProp 𝕄))
      = outLoc d ↦[Cert.Cover.extraSet (cL L) (iL L)]{fullShare} resOf m d := by
  have hw := (epi_cond6_iff L).mp h6
  have hg : ReadAs.same.apply ((b0V).view.read (Elt F) ((b0V).view.writes (Elt F) prior
              [⟨Rect.whole cc1_scratch3.ty.shape, SparseCore.gatherPayload gathers_S216x128_S128x128
                (((shV).slice (Rect.unit (s := S216x128) ![0, 0] S216x128.size h1) h2).view.read (Elt F) (tabOf m d))
                (SparseCore.rows ((exV).view.read (Elt F) (exOf m d L)) hn hin)⟩]))
      = gat m d (319488 + 128 * widL L) := by
    rw [View.read_writes_whole (b0V).view prior _]
    exact gather_value' m d hrange _ _ (fun x => rfl) h1 h2 hn hin
  rw [hg, epi_extraPts d L hw]
  refine out_value_off m d L (319488 + 128 * widL L) (by unfold widL at hw ⊢; omega) ?_ f0
  rw [k1_off11_eq]
  funext a
  match a with
  | ⟨0, _⟩ => show 256 * (L 1).val + 128 * (L 0).val + 319488 = 319488 + 128 * (2 * (L 1).val + (L 0).val); omega
  | ⟨1, _⟩ => rfl

/-! ## The tail's chunks, as the program slices them -/

/-- The rows of the tail's chunk number `r` (chunks 74 to 77), as the program slices them. -/
abbrev tOut (r : Fin 4) : Memref sig .scVector .hbm S128x128 .f32 :=
  (outV).slice (Rect.unit (s := S320000x128) (k1_off9 L (BitVec.ofNat 32 (9472 + 128 * r.val))) S128x128.size (k1_off9_inb L r)) (fun _ => rfl)

omit [FloatOps F] in
/-- Their rows in closed form. -/
theorem epi_off9 (r : Fin 4) : k1_off9 L (BitVec.ofNat 32 (9472 + 128 * r.val)) = ![row0L L + (9472 + 128 * r.val), 0] := by
  rw [k1_off9_eq]
  funext a
  match a with
  | ⟨0, _⟩ => show 19968 * (L 1).val + 9984 * (L 0).val + 128 * r.val + 9472 = 19968 * (L 1).val + 9984 * (L 0).val + (9472 + 128 * r.val); omega
  | ⟨1, _⟩ => rfl

omit [FloatOps F] in
/-- A chunk of the tail held through the program's slice. -/
theorem epi_tOut_spell (r : Fin 4) (f : Buf (Elt F) (outLoc d)) :
    outPts d L (row0L L + (9472 + 128 * r.val)) f
      = ((tOut L r).view.loc (tV d L) ↦[(tOut L r).view.set]{fullShare} f : sProp 𝕄) :=
  (outPts_spell d L (row0L L + (9472 + 128 * r.val)) (by have := row0L_le L; have := r.isLt; omega) (epi_off9 L r) fullShare f).symm

/-- A chunk of the tail copied out of a buffer holding its rows of the result holds the result. -/
theorem epi_out_land (r : Fin 4) (f0 : Buf (Elt F) (outLoc d)) (P : S128x128.Idx → Elt F .f32) (hP : P = gat m d (row0L L + (9472 + 128 * r.val))) :
    ((tOut L r).view.loc (tV d L) ↦[(tOut L r).view.set]{fullShare} (tOut L r).view.writes (Elt F) f0 [⟨Rect.whole S128x128, P⟩] : sProp 𝕄)
      = outPts d L (row0L L + (9472 + 128 * r.val)) (resOf m d) := by
  subst hP
  exact out_value_off m d L _ (by have := row0L_le L; have := r.isLt; omega) (epi_off9 L r) f0

/-! ## The loop's invariant at its exit -/

/-- After the nineteenth trip: the gathers of chunks 76 and 77 and the copies of chunks 74 and 75 are in flight. -/
theorem epi_inv_last (O : CellTallies nD τ sig (HIx 1)) (W : Waits sig (HIx 1)) (acc : PUnit) :
    Inv m d L O W 19 acc = iprop(Transfers.MayWaits (tV d L) (default : HIx 1) O
      ∗ (∃ W', ⌜∀ p ∈ W', p ∈ W ∨ p.2 = none⌝ ∗ owes (tV d L) O W')
      ∗ gFlight m d L cc1_scratch7.sem 8 (b0Pts d L) 9728
      ∗ gFlight m d L cc1_scratch8.sem 9 (b1Pts d L) 9856
      ∗ semVal (tV d L, SemLoc.dma cc1_scratch9.sem) 0 ∗ semVal (tV d L, SemLoc.dma cc1_scratch10.sem) 0
      ∗ shTok m d L 10 ∗ shTok m d L 11
      ∗ semVal (tV d L, SemLoc.dma cc1_scratch11.sem) 0 ∗ semVal (tV d L, SemLoc.dma cc1_scratch12.sem) 0
      ∗ (sFlight m d L cc1_scratch13.sem (b2Pts d L) 9472 ∗ sFlight m d L cc1_scratch14.sem (b3Pts d L) 9600)
      ∗ ixFam m d L 19 ∗ outFam m d L 19) := by
  unfold Inv
  rw [if_neg (by decide)]

end Tile

end Cert.KProof

end
-- ==== Proof.TileBodyK.lean ====
/-
  One vector subcore's task of the gather kernel, from what the launch hands it to what it hands back: the conditional
  fill of the shared scratch, the index copy, the barrier, the two first gathers, the loop at its invariant, the tail and
  the extra chunk.
-/
import proofs.«203798_g65764539236737_cont_9to1_m_400_20_alg».proof.Proof.TileEntryK
import proofs.«203798_g65764539236737_cont_9to1_m_400_20_alg».proof.Proof.TileTripK
import proofs.«203798_g65764539236737_cont_9to1_m_400_20_alg».proof.Proof.TileEpiK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid1.Coords)

/-- Transfer semaphores by their numbers. -/
abbrev dsem8 : DmaSem sig := ⟨8, by decide⟩
abbrev dsem9 : DmaSem sig := ⟨9, by decide⟩
abbrev dsem16 : DmaSem sig := ⟨16, by decide⟩
abbrev dsem17 : DmaSem sig := ⟨17, by decide⟩

omit [FloatOps F] in
/-- The waits recorded so far, packed: each is one the task started with, or at no call's index, or at this call's. -/
theorem owes_pack (O : CellTallies nD τ sig (HIx 1)) (W W0 : Waits sig (HIx 1))
    (h : ∀ p ∈ W0, p ∈ W ∨ p.2 = none ∨ p.2 = some (0 : Fin 1)) :
    (owes (tV d L) O W0 : sProp 𝕄) ⊢ iprop(∃ W1, ⌜∀ p ∈ W1, p ∈ W ∨ p.2 = none ∨ p.2 = some (0 : Fin 1)⌝ ∗ owes (tV d L) O W1) := by
  iintro H; iexists W0; isplitr
  · ipureintro; exact h
  · iexact H

set_option maxHeartbeats 8000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι)
    (hrange : ∀ r, (idxOf m d r).toNat < 216) (qT qI : PosShare TreeShare) :
    iprop(levAts (K (F := F)).L (K (F := F)).lev ∗ bkit m d (cV L) (jV L)
        ∗ (((tabLoc d ↦{qT} tabOf m d) ∗ (idxLoc d ↦{qI} idxOf m d)
            ∗ (outLoc d ↦[Cert.Cover.tileOut (cL L) (iL L)]{fullShare} m (outLoc d))) ∗ shGoL d L)
        ∗ scopedBufs (tV d L) ∗ scopedSems0 (tV d L) ∗ owes (tV d L) (O + oxV d (cV L)) W)
      ⊢ wp frame (wpE (defs₀ (F := F)) 𝒱₀ (tV d L) none) Set.univ
          (cc1__sc_gather L tabV (Memref.isWhole_whole _) idxV (Memref.isWhole_whole _) outV (Memref.isWhole_whole _)
            shV (Memref.isWhole_whole _) ixV (Memref.isWhole_whole _) exV (Memref.isWhole_whole _)
            b0V (Memref.isWhole_whole _) b1V (Memref.isWhole_whole _) b2V (Memref.isWhole_whole _) b3V (Memref.isWhole_whole _)
            cc1_scratch7 cc1_scratch8 cc1_scratch9 cc1_scratch10 cc1_scratch11 cc1_scratch12 cc1_scratch13 cc1_scratch14
            cc1_scoped0 cc1_scoped1 cc1_scoped2 cc1_scoped3)
          fun _ => iprop((((tabLoc d ↦{qT} tabOf m d) ∗ (idxLoc d ↦{qI} idxOf m d)
              ∗ (outLoc d ↦[Cert.Cover.tileOut (cL L) (iL L)]{fullShare} resOf m d))
              ∗ (shLoc d (cV L) ↦{shShare (iL L).val} shTab m d (cV L)))
            ∗ scopedBufs (tV d L) ∗ scopedSems0 (tV d L)
            ∗ ∃ W', ⌜∀ p ∈ W', p ∈ W ∨ p.2 = none ∨ p.2 = some (0 : Fin 1)⌝ ∗ owes (tV d L) O W') := by
  simp only [cc1__sc_gather_eq_skeleton]; unfold cc1__sc_gather_skel
  simp only [k1_part3_eq_skeleton]; unfold k1_part3_skel
  rw [(K (F := F)).scopedBufs_V hF d (cV L) (jV L), SparseCore.Cfg.scopedSems0_V (Val := Elt F) d (cV L) (jV L), ownSems0_V, ownBufs_V]
  unfold bkit shGoL
  have hO' : ∀ g, (O + oxV d (cV L)) g none = 0 := fun g => by rw [Pi.add_apply, Finsupp.add_apply, hO g, oxV_none]
  by_cases h0 : (L 1).val = 0
  on_goal 1 =>
    have k1_h1 := cond1_pos (L 1) h0
    rw [if_pos (show (iL L).val = 0 from h0)]
    iintro ⟨#Hlv, ⟨⟨%κ, #Hinv⟩, Htoks, #Hrch, Hat, Hcred⟩, ⟨⟨Htab, Hidx, Hout⟩, ⟨%fS, Hsh⟩⟩,
      ⟨⟨⟨%fI, HI⟩, ⟨%fE, HE⟩, ⟨%f0, HB0⟩, ⟨%f1, HB1⟩, ⟨%f2, HB2⟩, ⟨%f3, HB3⟩⟩, Hbufs⟩,
      ⟨⟨Hg0, Hg1, Hg2, Hg3, Hs0, Hs1, Hs2, Hs3, Hr0, Hr1, Hr2, Hr3⟩, Hsems⟩, HO⟩
    ihave Hmw1 := (show levAts (K (F := F)).L (K (F := F)).lev ⊢ Transfers.MayWaits (tV d L) (default : HIx 1) (O + oxV d (cV L)) from
      (K (F := F)).mayWaits_none (thr := tV d L) hO') $$ Hlv
    ihave Hmw2 := (show levAts (K (F := F)).L (K (F := F)).lev ⊢ Transfers.MayWaits (tV d L) (default : HIx 1) O from
      (K (F := F)).mayWaits_none (thr := tV d L) hO) $$ Hlv
    ihave Htab' := (Entails.of_eq (show (tabLoc d ↦{qT} tabOf m d : sProp 𝕄) = (tabV).view.loc (tV d L) ↦{qT} tabOf m d from rfl)) $$ Htab
    ihave Hidx' := (Entails.of_eq (show (idxLoc d ↦{qI} idxOf m d : sProp 𝕄) = (idxV).view.loc (tV d L) ↦{qI} idxOf m d from rfl)) $$ Hidx
    ihave HI' := (Entails.of_eq (show ((tV d L).loc cc1_scratch1 ↦{fullShare} fI : sProp 𝕄) = (ixV).view.loc (tV d L) ↦{fullShare} fI from rfl)) $$ HI
    ihave Hsh' := (Entails.of_eq (show (shLoc d (cV L) ↦{fullShare} fS : sProp 𝕄) = (shV).view.loc (tV d L) ↦{fullShare} fS from rfl)) $$ Hsh
    sl_exec
    ihave Hsh2 := (Entails.of_eq (show ((shV).view.loc (tV d L) ↦{fullShare} View.write (Elt F) (shV).view fS (tile_body.sl.dma0 m d) Finset.univ : sProp 𝕄)
        = (shLoc d (cV L) ↦{fullShare} shTab m d (cV L)) from
      congrArg (fun f => (shLoc d (cV L) ↦{fullShare} f : sProp 𝕄)) (sh_contents m d L fS (tile_body.sl.dma0 m d) rfl))) $$ Hsh'
    ihave HI2 := (Entails.of_eq (congrArg (fun f => ((ixV).view.loc (tV d L) ↦{fullShare} f : sProp 𝕄)) (ix_contents m d L fI (tile_body.sl.dma0_1 m d L) rfl))) $$ HI'
    ihave Hpays := (pays_zero (F := F) m d L h0) $$ Hsh2
    rw [Prog.bind_assoc]
    iapply (barrier_step (F := F) m d L κ O _ hOlev _ _) $$ [HO Htoks Hpays Hcred Hat]
    · isplitr; · iexact Hlv
      isplitr; · iexact Hinv
      isplitl [Htoks]; · iexact Htoks
      isplitl [Hpays]; · iexact Hpays
      isplitr; · iexact Hrch
      isplitl [Hat]; · iexact Hat
      isplitl [Hcred]; · iexact Hcred
      iexact HO
    iintro ⟨HO, Hmy⟩
    ihave HOw := (owes_pack (F := F) d L O W (insert (SemLoc.reg sc_bar0, (some 0 : HIx 1)) (insert (SemLoc.dma dsem17, (default : HIx 1)) (insert (SemLoc.dma dsem16, (default : HIx 1)) W))) (by
      intro p hp
      simp only [Finset.mem_insert] at hp
      rcases hp with rfl | rfl | rfl | hp
      · exact .inr (.inr rfl)
      · exact .inr (.inl rfl)
      · exact .inr (.inl rfl)
      · exact .inl hp)) $$ HO
    icases HOw with ⟨%W1, %hW1, HO⟩
  on_goal 2 =>
    have k1_h1 := cond1_neg (L 1) h0
    rw [if_neg (show ¬ (iL L).val = 0 from h0)]
    iintro ⟨#Hlv, ⟨⟨%κ, #Hinv⟩, Htoks, #Hrch, Hat, Hcred⟩, ⟨⟨Htab, Hidx, Hout⟩, -⟩,
      ⟨⟨⟨%fI, HI⟩, ⟨%fE, HE⟩, ⟨%f0, HB0⟩, ⟨%f1, HB1⟩, ⟨%f2, HB2⟩, ⟨%f3, HB3⟩⟩, Hbufs⟩,
      ⟨⟨Hg0, Hg1, Hg2, Hg3, Hs0, Hs1, Hs2, Hs3, Hr0, Hr1, Hr2, Hr3⟩, Hsems⟩, HO⟩
    ihave Hmw1 := (show levAts (K (F := F)).L (K (F := F)).lev ⊢ Transfers.MayWaits (tV d L) (default : HIx 1) (O + oxV d (cV L)) from
      (K (F := F)).mayWaits_none (thr := tV d L) hO') $$ Hlv
    ihave Hmw2 := (show levAts (K (F := F)).L (K (F := F)).lev ⊢ Transfers.MayWaits (tV d L) (default : HIx 1) O from
      (K (F := F)).mayWaits_none (thr := tV d L) hO) $$ Hlv
    ihave Htab' := (Entails.of_eq (show (tabLoc d ↦{qT} tabOf m d : sProp 𝕄) = (tabV).view.loc (tV d L) ↦{qT} tabOf m d from rfl)) $$ Htab
    ihave Hidx' := (Entails.of_eq (show (idxLoc d ↦{qI} idxOf m d : sProp 𝕄) = (idxV).view.loc (tV d L) ↦{qI} idxOf m d from rfl)) $$ Hidx
    ihave HI' := (Entails.of_eq (show ((tV d L).loc cc1_scratch1 ↦{fullShare} fI : sProp 𝕄) = (ixV).view.loc (tV d L) ↦{fullShare} fI from rfl)) $$ HI
    sl_exec
    first
      | ihave HI2 := (Entails.of_eq (congrArg (fun f => ((ixV).view.loc (tV d L) ↦{fullShare} f : sProp 𝕄)) (ix_contents m d L fI (tile_body.sl.dma0_2 m d L) rfl))) $$ HI'
      | ihave HI2 := (Entails.of_eq (congrArg (fun f => ((ixV).view.loc (tV d L) ↦{fullShare} f : sProp 𝕄)) (ix_contents m d L fI (tile_body.sl.dma0_1_1 m d L) rfl))) $$ HI'
      | (trace_state; fail "name of the index copy's payload")
    ihave Hpays := (pays_pos (F := F) m d L h0) $$ []
    · iempintro
    rw [Prog.bind_assoc]
    iapply (barrier_step (F := F) m d L κ O _ hOlev _ _) $$ [HO Htoks Hpays Hcred Hat]
    · isplitr; · iexact Hlv
      isplitr; · iexact Hinv
      isplitl [Htoks]; · iexact Htoks
      isplitl [Hpays]; · iexact Hpays
      isplitr; · iexact Hrch
      isplitl [Hat]; · iexact Hat
      isplitl [Hcred]; · iexact Hcred
      iexact HO
    iintro ⟨HO, Hmy⟩
    ihave HOw := (owes_pack (F := F) d L O W (insert (SemLoc.reg sc_bar0, (some 0 : HIx 1)) (insert (SemLoc.dma dsem17, (default : HIx 1)) W)) (by
      intro p hp
      simp only [Finset.mem_insert] at hp
      rcases hp with rfl | rfl | hp
      · exact .inr (.inr rfl)
      · exact .inr (.inl rfl)
      · exact .inl hp)) $$ HO
    icases HOw with ⟨%W1, %hW1, HO⟩
  all_goals
    -- the read share as four gather tokens and a remainder; the index scratch as its windows; the rows as their chunks
    ihave Htk := (sh_tokens m d L).1 $$ Hmy
    icases Htk with ⟨Hshr, Htk8, Htk9, Htk10, Htk11⟩
    ihave HIw := (Entails.of_eq ((ix_windows d L (ixOf m d L)).trans (fam_focus2 _ (a := (⟨0, by decide⟩ : Fin 78)) (b := (⟨1, by decide⟩ : Fin 78)) (by decide)))) $$ HI2
    icases HIw with ⟨Hw0, Hw1, HIrest⟩
    ihave Hw0' := (Entails.of_eq (ixPts_spell d L (off := ![0]) (hinb := inb_S9984_S128_0) 0 (by omega) rfl fullShare (ixOf m d L)).symm) $$ Hw0
    ihave Hw1' := (Entails.of_eq (ixPts_spell d L (off := ![128]) (hinb := inb_S9984_S128_128) 128 (by omega) rfl fullShare (ixOf m d L)).symm) $$ Hw1
    ihave Ho := (out_chunks d L (m (outLoc d))).1 $$ Hout
    icases Ho with ⟨HoutF, Hextra⟩
    ihave HB0' := (Entails.of_eq (b0Pts_eq d L f0)) $$ HB0
    ihave HB1' := (Entails.of_eq (b1Pts_eq d L f1)) $$ HB1
    ihave HB2' := (Entails.of_eq (b2Pts_eq d L f2)) $$ HB2
    ihave HB3' := (Entails.of_eq (b3Pts_eq d L f3)) $$ HB3
    have hin0 := hin_slice m d L hrange (Rect.unit (s := S9984) ![0] S128.size inb_S9984_S128_0) (fun _ => rfl)
    have hin1 := hin_slice m d L hrange (Rect.unit (s := S9984) ![128] S128.size inb_S9984_S128_128) (fun _ => rfl)
    sl_exec
    rw [Prog.bind_assoc]
    sl_for (Inv m d L O W1) $$ [Hmw2 HO Hg0 Hg1 Hg2 Hg3 Htk10 Htk11 Hs0 Hs1 HB2' HB3' Hs2 Hs3 HIrest HoutF]
    case region => intro k acc; exact trip m d L hrange O W1 _ k acc
    · unfold Inv
      rw [if_pos rfl]
      isplitr; · iexact Hmw2
      isplitl [HO]
      · iexists W1; isplitr
        · ipureintro; exact fun p hp => .inl hp
        · iexact HO
      isplitl [Hg0]
      · first
        | (sl_unfold_run_names; iapply (gFlight_exec0 m d L cc1_scratch7.sem dsem8 rfl 8 (512 * 0) (by omega) (off := ![0]) (hinb := inb_S9984_S128_0) rfl f0 (_)
          (gather_value' m d hrange _ (row0L L + 512 * 0) (win_read m d L (512 * 0) (by omega) rfl) _ _ _ _) _) $$ Hg0)
        | iapply (gFlight_exec0 m d L cc1_scratch7.sem dsem8 rfl 8 (512 * 0) (by omega) (off := ![0]) (hinb := inb_S9984_S128_0) rfl f0 (tile_body.sl.gather0 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_1 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_2 m d L hin0)
          (gather_value' m d hrange _ (row0L L + 512 * 0) (win_read m d L (512 * 0) (by omega) rfl) _ _ _ _) _) $$ Hg0
        | iapply (gFlight_exec0 m d L cc1_scratch7.sem dsem8 rfl 8 (512 * 0) (by omega) (off := ![0]) (hinb := inb_S9984_S128_0) rfl f0 (tile_body.sl.gather0_3 m d L hin0)
          (gather_value' m d hrange _ (row0L L + 512 * 0) (win_read m d L (512 * 0) (by omega) rfl) _ _ _ _) _) $$ Hg0
      isplitl [Hg1]
      · first
        | (sl_unfold_run_names; iapply (gFlight_exec1 m d L cc1_scratch8.sem dsem9 rfl 9 (512 * 0 + 128) (by omega) (off := ![128]) (hinb := inb_S9984_S128_128) rfl f1 (_)
          (gather_value' m d hrange _ (row0L L + (512 * 0 + 128)) (win_read m d L (512 * 0 + 128) (by omega) rfl) _ _ _ _) _) $$ Hg1)
        | iapply (gFlight_exec1 m d L cc1_scratch8.sem dsem9 rfl 9 (512 * 0 + 128) (by omega) (off := ![128]) (hinb := inb_S9984_S128_128) rfl f1 (tile_body.sl.gather1 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_1 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_2 m d L hin1)
          (gather_value' m d hrange _ (row0L L + (512 * 0 + 128)) (win_read m d L (512 * 0 + 128) (by omega) rfl) _ _ _ _) _) $$ Hg1
        | iapply (gFlight_exec1 m d L cc1_scratch8.sem dsem9 rfl 9 (512 * 0 + 128) (by omega) (off := ![128]) (hinb := inb_S9984_S128_128) rfl f1 (tile_body.sl.gather1_3 m d L hin1)
          (gather_value' m d hrange _ (row0L L + (512 * 0 + 128)) (win_read m d L (512 * 0 + 128) (by omega) rfl) _ _ _ _) _) $$ Hg1
      isplitl [Hg2]; · iexact Hg2
      isplitl [Hg3]; · iexact Hg3
      isplitl [Htk10]; · iexact Htk10
      isplitl [Htk11]; · iexact Htk11
      isplitl [Hs0]; · iexact Hs0
      isplitl [Hs1]; · iexact Hs1
      isplitl [HB2' HB3' Hs2 Hs3]
      · isplitl [HB2']; · iexists _; iexact HB2'
        isplitl [HB3']; · iexists _; iexact HB3'
        isplitl [Hs2]; · iexact Hs2
        iexact Hs3
      isplitl [HIrest]
      · iapply (ixFam_zero m d L) $$ HIrest
      rw [outFam_zero]
      iexact HoutF
    iintro %_ HI
    -- the loop is over: what is in flight, and the last four chunks' windows set apart
    have ht : Scf.trips k1_t1_loop.lb k1_t1_loop.ub k1_t1_loop.st = 19 := by decide
    ihave HI := (Entails.of_eq ((congrArg (fun g => Inv m d L O W1 g _) ht).trans (epi_inv_last m d L O W1 _))) $$ HI
    icases HI with ⟨-, ⟨%W', %hW', HO⟩, Hg0, Hg1, Hsg2, Hsg3, Ht10, Ht11, Hss0, Hss1, ⟨Hs2, Hs3⟩, HixF, HoutF⟩
    obtain ⟨Rix, hix1, hix2⟩ := epi_ix_last m d L
    obtain ⟨Rout, ho1, ho2⟩ := epi_out_last m d L
    ihave HixF := (Entails.of_eq hix1) $$ HixF
    icases HixF with ⟨⟨Hi0, Hi1, -, -⟩, HRix⟩
    ihave HoutF := (Entails.of_eq ho1) $$ HoutF
    icases HoutF with ⟨⟨-, -, Ho2c, Ho3c⟩, HRout⟩
    ihave Ho2c := (Entails.of_eq (epi_tOut_spell d L 2 (m (outLoc d)))) $$ Ho2c
    ihave Ho3c := (Entails.of_eq (epi_tOut_spell d L 3 (m (outLoc d)))) $$ Ho3c
    ihave HE := (show ((tV d L).loc cc1_scratch2 ↦{fullShare} fE : sProp 𝕄) ⊢ ((exV).view.loc (tV d L) ↦[(exV).view.set]{fullShare} fE) from
      Entails.of_eq (by rw [show ((exV).view.set : Finset S128.Idx) = Finset.univ from View.set_whole _])) $$ HE
    iclear Htk8 Htk9
    -- the copy of chunk 74 and the gather of chunk 76 waited for, chunk 76 copied out
    sl_exec
    icases Hg0_dst with ⟨Hb0, Hix2⟩
    -- the copy of chunk 75 and the gather of chunk 77 waited for, chunk 77 copied out
    sl_exec
    icases Hg1_dst with ⟨Hb1, Hix3⟩
    by_cases h6 : k1_cond6 L = 1#1
    · -- a worker numbered below 4: the two last copies waited for, then the extra chunk
      ihave Hextra := (Entails.of_eq (epi_extra_spell d L h6 (m (outLoc d)))) $$ Hextra
      sl_exec
      sl_unfold_run_names
      ihave HE := (Entails.of_eq (epi_ex_land m d L h6 _)) $$ HE
      have hinE := epi_ex_hin m d L hrange
      sl_exec
      sl_step
      sl_unfold_run_names
      -- the operand shares, the result's rows, the read share of the shared scratch
      isplitl [Htab' Hidx' Hextra Ho3c Ho2c HRout Hs2_dst Hs3_dst Hshr Hg0_src Hg1_src Ht10 Ht11]
      · isplitl [Htab' Hidx' Hextra Ho3c Ho2c HRout Hs2_dst Hs3_dst]
        · isplitl [Htab']; · iexact Htab'
          isplitl [Hidx']; · iexact Hidx'
          iapply (out_chunks d L (resOf m d)).mpr
          isplitl [Ho3c Ho2c HRout Hs2_dst Hs3_dst]
          · iapply (Entails.of_eq ho2.symm)
            isplitr [HRout]
            · isplitl [Hs2_dst]; · iexact Hs2_dst
              isplitl [Hs3_dst]; · iexact Hs3_dst
              isplitl [Ho2c]
              · iapply (Entails.of_eq (epi_out_land m d L 2 _ _ rfl)); iexact Ho2c
              iapply (Entails.of_eq (epi_out_land m d L 3 _ _ rfl)); iexact Ho3c
            · iexact HRout
          · iapply (Entails.of_eq (epi_extra_done m d L h6 hrange _ _ _ _ _ hinE)); iexact Hextra
        · iapply (sh_tokens m d L).mpr
          isplitl [Hshr]; · iexact Hshr
          isplitl [Hg0_src]; · iexact Hg0_src
          isplitl [Hg1_src]; · iexact Hg1_src
          isplitl [Ht10]; · iexact Ht10
          iexact Ht11
      -- the scratch buffers
      isplitl [Hi0 Hi1 Hix2 Hix3 HRix HE Hb0 Hb1 Hs2_src Hs3_src Hbufs]
      · isplitr [Hbufs]
        · isplitl [Hi0 Hi1 Hix2 Hix3 HRix]
          · iexists _
            iapply (Entails.of_eq hix2.symm)
            isplitr [HRix]
            · isplitl [Hi0]; · iexact Hi0
              isplitl [Hi1]; · iexact Hi1
              isplitl [Hix2]; · iexact Hix2
              iexact Hix3
            · iexact HRix
          isplitl [HE]; · iexists _; iexact HE
          isplitl [Hb0]; · iexists _; iapply (Entails.of_eq (b0Pts_eq d L _).symm); iexact Hb0
          isplitl [Hb1]; · iexists _; iapply (Entails.of_eq (b1Pts_eq d L _).symm); iexact Hb1
          isplitl [Hs2_src]; · iexists _; iapply (Entails.of_eq (b2Pts_eq d L _).symm); iexact Hs2_src
          iexists _; iapply (Entails.of_eq (b3Pts_eq d L _).symm); iexact Hs3_src
        · iexact Hbufs
      -- the semaphores, and what the task still owes
      isplitr [HO]
      · isplitr [Hsems]
        · isplitl [Hg0]; · iexact Hg0
          isplitl [Hg1]; · iexact Hg1
          isplitl [Hsg2]; · iexact Hsg2
          isplitl [Hsg3]; · iexact Hsg3
          isplitl [Hss0]; · iexact Hss0
          isplitl [Hss1]; · iexact Hss1
          isplitl [Hs2]; · iexact Hs2
          isplitl [Hs3]; · iexact Hs3
          isplitl [Hr0]; · iexact Hr0
          isplitl [Hr1]; · iexact Hr1
          isplitl [Hr2]; · iexact Hr2
          iexact Hr3
        · iexact Hsems
      iexists _
      isplitr; swap
      · iexact HO
      ipureintro
      intro p hp
      simp only [Finset.mem_insert] at hp
      rcases hp with rfl | rfl | rfl | rfl | rfl | rfl | rfl | rfl | rfl | hp
      iterate 9 exact Or.inr (Or.inl rfl)
      rcases hW' p hp with h | h
      · exact hW1 p h
      · exact Or.inr (Or.inl h)
    · -- the others: the two last copies waited for
      have hneg : ¬ widL L < 4 := fun h => h6 ((epi_cond6_iff L).mpr h)
      sl_exec
      sl_step
      sl_unfold_run_names
      -- the operand shares, the result's rows, the read share of the shared scratch
      isplitl [Htab' Hidx' Hextra Ho3c Ho2c HRout Hs2_dst Hs3_dst Hshr Hg0_src Hg1_src Ht10 Ht11]
      · isplitl [Htab' Hidx' Hextra Ho3c Ho2c HRout Hs2_dst Hs3_dst]
        · isplitl [Htab']; · iexact Htab'
          isplitl [Hidx']; · iexact Hidx'
          iapply (out_chunks d L (resOf m d)).mpr
          isplitl [Ho3c Ho2c HRout Hs2_dst Hs3_dst]
          · iapply (Entails.of_eq ho2.symm)
            isplitr [HRout]
            · isplitl [Hs2_dst]; · iexact Hs2_dst
              isplitl [Hs3_dst]; · iexact Hs3_dst
              isplitl [Ho2c]
              · iapply (Entails.of_eq (epi_out_land m d L 2 _ _ rfl)); iexact Ho2c
              iapply (Entails.of_eq (epi_out_land m d L 3 _ _ rfl)); iexact Ho3c
            · iexact HRout
          · iapply (Entails.of_eq (epi_extra_none d L hneg (m (outLoc d)) (resOf m d))); iexact Hextra
        · iapply (sh_tokens m d L).mpr
          isplitl [Hshr]; · iexact Hshr
          isplitl [Hg0_src]; · iexact Hg0_src
          isplitl [Hg1_src]; · iexact Hg1_src
          isplitl [Ht10]; · iexact Ht10
          iexact Ht11
      -- the scratch buffers
      isplitl [Hi0 Hi1 Hix2 Hix3 HRix HE Hb0 Hb1 Hs2_src Hs3_src Hbufs]
      · isplitr [Hbufs]
        · isplitl [Hi0 Hi1 Hix2 Hix3 HRix]
          · iexists _
            iapply (Entails.of_eq hix2.symm)
            isplitr [HRix]
            · isplitl [Hi0]; · iexact Hi0
              isplitl [Hi1]; · iexact Hi1
              isplitl [Hix2]; · iexact Hix2
              iexact Hix3
            · iexact HRix
          isplitl [HE]; · iexists _; iexact HE
          isplitl [Hb0]; · iexists _; iapply (Entails.of_eq (b0Pts_eq d L _).symm); iexact Hb0
          isplitl [Hb1]; · iexists _; iapply (Entails.of_eq (b1Pts_eq d L _).symm); iexact Hb1
          isplitl [Hs2_src]; · iexists _; iapply (Entails.of_eq (b2Pts_eq d L _).symm); iexact Hs2_src
          iexists _; iapply (Entails.of_eq (b3Pts_eq d L _).symm); iexact Hs3_src
        · iexact Hbufs
      -- the semaphores, and what the task still owes
      isplitr [HO]
      · isplitr [Hsems]
        · isplitl [Hg0]; · iexact Hg0
          isplitl [Hg1]; · iexact Hg1
          isplitl [Hsg2]; · iexact Hsg2
          isplitl [Hsg3]; · iexact Hsg3
          isplitl [Hss0]; · iexact Hss0
          isplitl [Hss1]; · iexact Hss1
          isplitl [Hs2]; · iexact Hs2
          isplitl [Hs3]; · iexact Hs3
          isplitl [Hr0]; · iexact Hr0
          isplitl [Hr1]; · iexact Hr1
          isplitl [Hr2]; · iexact Hr2
          iexact Hr3
        · iexact Hsems
      iexists _
      isplitr; swap
      · iexact HO
      ipureintro
      intro p hp
      simp only [Finset.mem_insert] at hp
      rcases hp with rfl | rfl | rfl | rfl | rfl | rfl | hp
      iterate 6 exact Or.inr (Or.inl rfl)
      rcases hW' p hp with h | h
      · exact hW1 p h
      · exact Or.inr (Or.inl h)

end Tile

end Cert.KProof

end
-- ==== Proof.TileOblK.lean ====
/-
  The launch theorem's obligation for a vector subcore's task of the one SparseCore call: the task's proof at the tile's
  coordinates, through the kernel table's row for vector subcores.
-/
import proofs.«203798_g65764539236737_cont_9to1_m_400_20_alg».proof.Proof.CommonK
import proofs.«203798_g65764539236737_cont_9to1_m_400_20_alg».proof.Proof.TileBodyK

noncomputable section

namespace Cert.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tabV" => (Memref.whole Cert.Kernel.main_v9_0_scv : Memref Cert.Kernel.sig Kind.scVector Space.hbm Cert.Kernel.S216x128 EltTy.f32)
local notation "idxV" => (Memref.whole Cert.Kernel.main_v10_scv : Memref Cert.Kernel.sig Kind.scVector Space.hbm Cert.Kernel.S320000 EltTy.i32)
local notation "outV" => (Memref.whole Cert.Kernel.main_v11_scv : Memref Cert.Kernel.sig Kind.scVector Space.hbm Cert.Kernel.S320000x128 EltTy.f32)
local notation "shV" => (Memref.whole Cert.Kernel.cc1_scratch0 : Memref Cert.Kernel.sig Kind.scVector Space.shared Cert.Kernel.S216x128 EltTy.f32)
local notation "ixV" => (Memref.whole Cert.Kernel.cc1_scratch1 : Memref Cert.Kernel.sig Kind.scVector Space.vmem Cert.Kernel.S9984 EltTy.i32)
local notation "exV" => (Memref.whole Cert.Kernel.cc1_scratch2 : Memref Cert.Kernel.sig Kind.scVector Space.vmem Cert.Kernel.S128 EltTy.i32)
local notation "b0V" => (Memref.whole Cert.Kernel.cc1_scratch3 : Memref Cert.Kernel.sig Kind.scVector Space.vmem Cert.Kernel.S128x128 EltTy.f32)
local notation "b1V" => (Memref.whole Cert.Kernel.cc1_scratch4 : Memref Cert.Kernel.sig Kind.scVector Space.vmem Cert.Kernel.S128x128 EltTy.f32)
local notation "b2V" => (Memref.whole Cert.Kernel.cc1_scratch5 : Memref Cert.Kernel.sig Kind.scVector Space.vmem Cert.Kernel.S128x128 EltTy.f32)
local notation "b3V" => (Memref.whole Cert.Kernel.cc1_scratch6 : Memref Cert.Kernel.sig Kind.scVector Space.vmem Cert.Kernel.S128x128 EltTy.f32)

variable (m : (ℓ : Loc nD τ sig) → Buf (Elt F) ℓ)
variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          tabV (Memref.isWhole_whole _) idxV (Memref.isWhole_whole _) outV (Memref.isWhole_whole _)
          shV (Memref.isWhole_whole _) ixV (Memref.isWhole_whole _) exV (Memref.isWhole_whole _)
          b0V (Memref.isWhole_whole _) b1V (Memref.isWhole_whole _) b2V (Memref.isWhole_whole _) b3V (Memref.isWhole_whole _)
          cc1_scratch7 cc1_scratch8 cc1_scratch9 cc1_scratch10 cc1_scratch11 cc1_scratch12 cc1_scratch13 cc1_scratch14
          cc1_scoped0 cc1_scoped1 cc1_scoped2 cc1_scoped3) ⟨⟩ c s := rfl

set_option maxRecDepth 16384 in
theorem tileObl (h : ∀ (d : Dev nD) (r : (⟨1, ![320000]⟩ : Shape).Idx), (idxOf m d r).toNat < 216) :
    (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts O W hO hOlev (h d) _ _

end Cert.KProof

end
-- ==== Proof.TcBody.lean ====
/-
  The TensorCore kernel's body, run once at symbolic staging buffers: from the eight buffers held whole it runs to its
  return, the inputs unchanged, the two outputs at contents the run finds (terms over the inputs' contents alone).
-/
import proofs.«203798_g65764539236737_cont_9to1_m_400_20_alg».proof.Proof.Base
import proofs.«203798_g65764539236737_cont_9to1_m_400_20_alg».proof.Proof.Gen.KernelIdeal.Skeleton
import Idealize.ShloMosaic.Lib.Tactic

noncomputable section

namespace Cert.KIProof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Buffers held whole -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body's run -/

set_option maxHeartbeats 4000000 in
/-- What the body leaves in its two outputs' buffers (over the inputs' contents), with the proof that from the eight
    buffers held whole — inputs at `f0 … f5`, outputs at anything — the body runs to its return handing back the inputs
    as they were and the outputs at the witnesses. -/
noncomputable def tcRun (c : Dev nD)
    (M0 : Memref sig .tc .vmem S2500x128 .i32) (h0 : M0.IsWhole) (M1 : Memref sig .tc .vmem S2500x128 .i32) (h1 : M1.IsWhole)
    (M2 : Memref sig .tc .vmem S2500x128 .i32) (h2 : M2.IsWhole) (M3 : Memref sig .tc .vmem S6x128 .f32) (h3 : M3.IsWhole)
    (M4 : Memref sig .tc .vmem S6x128 .f32) (h4 : M4.IsWhole) (M5 : Memref sig .tc .vmem S6x128 .f32) (h5 : M5.IsWhole)
    (M6 : Memref sig .tc .vmem S216x128 .f32) (h6 : M6.IsWhole) (M7 : Memref sig .tc .vmem S2500x128 .i32) (h7 : M7.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 × Bf (F := F) c M7 //
      ∀ (f6 : Bf (F := F) c M6) (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ (iprop(pt c M0 f0 ∗ pt c M1 f1 ∗ pt c M2 f2 ∗ pt c M3 f3 ∗ pt c M4 f4 ∗ pt c M5 f5 ∗ pt c M6 W.1 ∗ pt c M7 W.2) -∗ Q ⟨⟩))
        ⊢ wp frame (wpE (defs₀ (F := F)) Variants.none c none) E
            (cc0__tc_prelude M0 h0 M1 h1 M2 h2 M3 h3 M4 h4 M5 h5 M6 h6 M7 h7) Q } := by
  refine ⟨⟨?_, ?_⟩, fun f6 f7 E Q => ?run⟩
  case run =>
    iintro ⟨H0, H1, H2, H3, H4, H5, H6, H7, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The run at the pipeline's staging buffers. -/
abbrev tcRunAt (d : Dev nD) (x0 x1 x2 : IVec S2500x128 32) (e0 e1 e2 : FVec F S6x128 .f32) :=
  tcRun (F := F) d (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0) x0 x1 x2 e0 e1 e2

end Cert.KIProof

end
-- ==== Proof.Region.lean ====
/-
  The TensorCore region inside the program's launch: the pipeline's proof data at an entry valuation of the TensorCore's
  unscoped buffers, the body obligation from the body's run, the region as a segment from "every unscoped buffer at a
  valuation, the core owing its start signals" to the same at the valuation updated at the two results, and the step of
  @main that enters it.
-/
import proofs.«203798_g65764539236737_cont_9to1_m_400_20_alg».proof.Proof.TcBody
import proofs.«203798_g65764539236737_cont_9to1_m_400_20_alg».proof.Proof.RegionGhost
import proofs.«203798_g65764539236737_cont_9to1_m_400_20_alg».proof.Proof.Gen.KernelIdeal.Points
import Idealize.ShloMosaic.Lib.Pipeline.RegionsLoop
import Idealize.ShloMosaic.Lib.Pipeline.Value

noncomputable section

namespace Cert.KIProof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data, at an entry valuation -/

variable (W : (c : Dev nD) → (b : Ref sig .tc) → Buf (Elt F) ((c : Thread nD τ).loc b))

/-- The input windows' blocks as the fetches stage them: each array at the entry valuation, read through its block view. -/
abbrev stg0 (c : Dev nD) : IVec S2500x128 32 := ((cfg0.win 0).blk t0_0).view.read (Elt F) (W c main_v2)
abbrev stg1 (c : Dev nD) : IVec S2500x128 32 := ((cfg0.win 1).blk t0_0).view.read (Elt F) (W c main_v5)
abbrev stg2 (c : Dev nD) : IVec S2500x128 32 := ((cfg0.win 2).blk t0_0).view.read (Elt F) (W c main_v8)
abbrev stg3 (c : Dev nD) : FVec F S6x128 .f32 := ((cfg0.win 3).blk t0_0).view.read (Elt F) (W c main_arg1)
abbrev stg4 (c : Dev nD) : FVec F S6x128 .f32 := ((cfg0.win 4).blk t0_0).view.read (Elt F) (W c main_arg2)
abbrev stg5 (c : Dev nD) : FVec F S6x128 .f32 := ((cfg0.win 5).blk t0_0).view.read (Elt F) (W c main_arg3)

/-- The body's run at the staged blocks. -/
abbrev run (c : Dev nD) := tcRunAt (F := F) c (stg0 W c) (stg1 W c) (stg2 W c) (stg3 W c) (stg4 W c) (stg5 W c)

/-- What the TensorCore owes while the region runs: its start signals, at the call's index. -/
abbrev owedTc (c : Dev nD) : CellTallies nD τ sig (HIx 1) := (K (F := F)).Otc c 0

/-- The pairs the TensorCore's waits may have recorded so far: those at level zero. -/
abbrev recTc (c : Dev nD) : Set (SemLoc sig × HIx 1) := {p | (K (F := F)).lev (T c, p.1) p.2 ≤ 0}

/-- The proof data of the region entered from valuation `W`: the arrays at `W`; after the body the inputs' buffers as
    fetched and the results' at `G6`, `G7`; the invariant the scoped buffers no window stages; full shares; the
    core owing its start signals throughout, its recorded pairs at level zero. -/
def datG (c : Dev nD) (G6 : FVec F S216x128 .f32) (G7 : IVec S2500x128 32) : Dat τ (Elt F) (HIx 1) ℕ UU ℕ cfg0 c where
  A w := W c (Pipeline.arrRef spec0 w)
  after w _ := match w with
    | ⟨0, _⟩ => stg0 W c
    | ⟨1, _⟩ => stg1 W c
    | ⟨2, _⟩ => stg2 W c
    | ⟨3, _⟩ => stg3 W c
    | ⟨4, _⟩ => stg4 W c
    | ⟨5, _⟩ => stg5 W c
    | ⟨6, _⟩ => G6
    | ⟨7, _⟩ => G7
  Φ _ := Pipeline.scopedRest (Ix := HIx 1) (Name := ℕ) (U := UU) (Lvl := ℕ) (Val := Elt F) spec0 c
  q _ := fullShare
  owed _ := owedTc (F := F) c
  recorded _ := recTc (F := F) c

/-- The proof data with the results' buffers at the run's witnesses. -/
abbrev dat (c : Dev nD) : Dat τ (Elt F) (HIx 1) ℕ UU ℕ cfg0 c := datG W c (run W c).1.1 (run W c).1.2

/-- The one pipeline's proof data. -/
def pdats : (p : Fin 1) → (c : Dev nD) → Dat τ (Elt F) (HIx 1) ℕ UU ℕ (Pipeline.pin (pcfgs (F := F)) adm p) c
  | ⟨0, _⟩ => fun c => dat W c

abbrev 𝒱R : Variants := Variants.none

/-- A fetched window's buffer holds its array's block when the body runs; an output's what it held. -/
theorem before0 (c : Dev nD) (d) (G6 G7) : (datG W c G6 G7).before 0 t0_0 d = stg0 W c := by unfold Dat.before; rw [if_pos (fetch0_0 _)]; rfl
theorem before1 (c : Dev nD) (d) (G6 G7) : (datG W c G6 G7).before 1 t0_0 d = stg1 W c := by unfold Dat.before; rw [if_pos (fetch0_1 _)]; rfl
theorem before2 (c : Dev nD) (d) (G6 G7) : (datG W c G6 G7).before 2 t0_0 d = stg2 W c := by unfold Dat.before; rw [if_pos (fetch0_2 _)]; rfl
theorem before3 (c : Dev nD) (d) (G6 G7) : (datG W c G6 G7).before 3 t0_0 d = stg3 W c := by unfold Dat.before; rw [if_pos (fetch0_3 _)]; rfl
theorem before4 (c : Dev nD) (d) (G6 G7) : (datG W c G6 G7).before 4 t0_0 d = stg4 W c := by unfold Dat.before; rw [if_pos (fetch0_4 _)]; rfl
theorem before5 (c : Dev nD) (d) (G6 G7) : (datG W c G6 G7).before 5 t0_0 d = stg5 W c := by unfold Dat.before; rw [if_pos (fetch0_5 _)]; rfl

set_option maxRecDepth 8192 in
/-- The library's body obligation: the eight staging buffers and the invariant taken apart, the run applied, its post
    reassembled. -/
theorem body_obligation (c : Dev nD) : BodyObligation (dat W c) (defs₀ (F := F)) 𝒱R none Set.univ := fun t => by
  obtain rfl := fin_N0 t
  rw [bigSep_W0, bigSep_W0]
  simp only [owns_whole_eq]
  rw [show (dat W c).Φ t0_0.succ = (dat W c).Φ t0_0.castSucc from rfl,
    show (dat W c).owesAt none t0_0.succ = (dat W c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩, ⟨%d7, %f7, -, H7⟩⟩
  rw [before0] at hf0; rw [before1] at hf1; rw [before2] at hf2; rw [before3] at hf3; rw [before4] at hf4; rw [before5] at hf5
  subst hf0 hf1 hf2 hf3 hf4 hf5
  iapply ((run W c).2 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat, datG]
  isplitl [H1]; · iexists _; isplitr; swap; (· iexact H1); ipureintro; dsimp only [dat, datG]
  isplitl [H2]; · iexists _; isplitr; swap; (· iexact H2); ipureintro; dsimp only [dat, datG]
  isplitl [H3]; · iexists _; isplitr; swap; (· iexact H3); ipureintro; dsimp only [dat, datG]
  isplitl [H4]; · iexists _; isplitr; swap; (· iexact H4); ipureintro; dsimp only [dat, datG]
  isplitl [H5]; · iexists _; isplitr; swap; (· iexact H5); ipureintro; dsimp only [dat, datG]
  isplitl [H6]; · iexists _; isplitr; swap; (· iexact H6); ipureintro; dsimp only [dat, datG]
  iexists _; isplitr; swap; (· iexact H7); ipureintro; dsimp only [dat, datG]

/-! ## A whole-array window's block is the array -/

/-- The block view of a window over a whole array reads the array's contents, places an index at itself and covers
    every element. -/
theorem blk_idx {w : Fin 8} (x : ((cfg0.win w).xblock (cfg0.grid.coords t0_0)).Idx) (a : Fin (cfg0.win w).shape.rank) :
    (((cfg0.win w).rect t0_0).emb x a).val = (x a).val := by
  show (cfg0.win w).index t0_0 a * (cfg0.win w).size a + 1 * (x a).val = (x a).val
  have h : (cfg0.win w).index t0_0 a = 0 := by fin_cases w <;> rfl
  rw [h]; omega

/-- Each input's staged block is the array at the entry valuation. -/
theorem stg0_eq (c : Dev nD) : stg0 W c = W c main_v2 := by
  funext x
  show W c main_v2 _ = W c main_v2 x
  exact congrArg (W c main_v2) (funext fun a => Fin.ext (blk_idx (w := 0) x a))
theorem stg1_eq (c : Dev nD) : stg1 W c = W c main_v5 := by
  funext x
  show W c main_v5 _ = W c main_v5 x
  exact congrArg (W c main_v5) (funext fun a => Fin.ext (blk_idx (w := 1) x a))
theorem stg2_eq (c : Dev nD) : stg2 W c = W c main_v8 := by
  funext x
  show W c main_v8 _ = W c main_v8 x
  exact congrArg (W c main_v8) (funext fun a => Fin.ext (blk_idx (w := 2) x a))
theorem stg3_eq (c : Dev nD) : stg3 W c = W c main_arg1 := by
  funext x
  show W c main_arg1 _ = W c main_arg1 x
  exact congrArg (W c main_arg1) (funext fun a => Fin.ext (blk_idx (w := 3) x a))
theorem stg4_eq (c : Dev nD) : stg4 W c = W c main_arg2 := by
  funext x
  show W c main_arg2 _ = W c main_arg2 x
  exact congrArg (W c main_arg2) (funext fun a => Fin.ext (blk_idx (w := 4) x a))
theorem stg5_eq (c : Dev nD) : stg5 W c = W c main_arg3 := by
  funext x
  show W c main_arg3 _ = W c main_arg3 x
  exact congrArg (W c main_arg3) (funext fun a => Fin.ext (blk_idx (w := 5) x a))

/-- An output's array after the region is what the body left in its staging buffer. -/
theorem arrAt6 (c : Dev nD) (G6 : FVec F S216x128 .f32) (G7 : IVec S2500x128 32) : (datG W c G6 G7).arrAt 6 cfg0.N = G6 := by
  refine (datG W c G6 G7).arrAt_eq_of_cover 6 _ (fun t _ => ?_) (fun i => ⟨t0_0, flush0_6 _, ?_⟩)
  · obtain rfl := fin_N0 t
    funext x
    show G6 x = G6 _
    exact congrArg G6 (funext fun a => Fin.ext (blk_idx (w := 6) x a).symm)
  · exact Finset.mem_map.mpr ⟨i, Finset.mem_univ _, funext fun a => Fin.ext (blk_idx (w := 6) i a)⟩
theorem arrAt7 (c : Dev nD) (G6 : FVec F S216x128 .f32) (G7 : IVec S2500x128 32) : (datG W c G6 G7).arrAt 7 cfg0.N = G7 := by
  refine (datG W c G6 G7).arrAt_eq_of_cover 7 _ (fun t _ => ?_) (fun i => ⟨t0_0, flush0_7 _, ?_⟩)
  · obtain rfl := fin_N0 t
    funext x
    show G7 x = G7 _
    exact congrArg G7 (funext fun a => Fin.ext (blk_idx (w := 7) x a).symm)
  · exact Finset.mem_map.mpr ⟨i, Finset.mem_univ _, funext fun a => Fin.ext (blk_idx (w := 7) i a)⟩

omit [FloatOps F] in
/-- The TensorCore owes nothing at a kernel's own index. -/
theorem owedTc_none (c : Dev nD) (g : GSem nD τ sig) : owedTc (F := F) c g none = 0 := by
  by_contra h
  exact Nat.not_succ_le_zero _ (SparseCore.Cfg.lev_of_Otc_pos (K := K (F := F)) (d := c) (n := 0) (g := g) (ι := none) (Nat.pos_of_ne_zero h))

/-! ## The region over the thread state -/

variable (Wp : (c : Dev nD) → (b : Ref sig .tc) → Buf (Elt F) ((c : Thread nD τ).loc b))

/-- What the TensorCore owes around the region, as its handshake state holds it: its start signals, its recorded pairs
    at level zero. -/
abbrev owesTc (c : Dev nD) : sProp 𝕄 :=
  iprop(∃ Ws, ⌜(K (F := F)).WBelow (T c) Ws (8 * 0)⌝ ∗ owes (T c) ((K (F := F)).Otc c 0) Ws)

set_option backward.isDefEq.respectTransparency.types false in
/-- The region as a segment: entered from every unscoped buffer at `W c` and the core owing its start signals, left at
    `Wp c` — the two results' arrays at what the body left, every other buffer as it was — owing the same. -/
def reg (hout6 : ∀ c, Wp c main_v9_0 = (run W c).1.1) (hout7 : ∀ c, Wp c main_v9_1 = (run W c).1.2)
    (hne : ∀ c (b : Ref sig .tc), b ≠ main_v9_0 → b ≠ main_v9_1 → Wp c b = W c b) :
    Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro (Pipeline.pin (pcfgs (F := F)) adm) (pdats W) none 0 c
    fun w s t => (K (F := F)).mayWait_none (thr := T c) (.dma _) (owedTc_none c)
  pre c := iprop(unscopedBufs c (W c) ∗ owesTc (F := F) c)
  post c := iprop(unscopedBufs c (Wp c) ∗ owesTc (F := F) c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) launch0.win launch0.arr_whole c
      ((pdats W 0 c).share_full fun _ => rfl) (W c) fun _ => rfl
    iintro ⟨⟨Hub, %Ws, %hWs, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr
      · ipureintro; exact fun p hp => Or.inl (hWs p (Finset.mem_coe.mp hp))
      iexact HO
    isplitr; · iempintro
    iexact Hrest
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (W c) (Wp c) ((pdats W 0 c).arrAt · cfg0.N)
      (fun w => by
        fin_cases w
        · exact ((pdats W 0 c).arrAt_in 0 rfl _).trans (hne c main_v2 (by decide) (by decide)).symm
        · exact ((pdats W 0 c).arrAt_in 1 rfl _).trans (hne c main_v5 (by decide) (by decide)).symm
        · exact ((pdats W 0 c).arrAt_in 2 rfl _).trans (hne c main_v8 (by decide) (by decide)).symm
        · exact ((pdats W 0 c).arrAt_in 3 rfl _).trans (hne c main_arg1 (by decide) (by decide)).symm
        · exact ((pdats W 0 c).arrAt_in 4 rfl _).trans (hne c main_arg2 (by decide) (by decide)).symm
        · exact ((pdats W 0 c).arrAt_in 5 rfl _).trans (hne c main_arg3 (by decide) (by decide)).symm
        · exact (arrAt6 W c _ _).trans (hout6 c).symm
        · exact (arrAt7 W c _ _).trans (hout7 c).symm)
      (fun b hb => hne c b (fun h => hb (h ▸ Finset.mem_image.mpr ⟨6, Finset.mem_univ _, rfl⟩))
        (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩
    iexists Ws; isplitr
    · ipureintro
      intro p hp
      rcases hWs (Finset.mem_coe.mpr hp) with h | ⟨w, s, rfl⟩
      · exact h
      · exact Nat.le_of_eq rfl
    iexact HO

/-! ## The step of @main that enters the region -/

set_option backward.isDefEq.respectTransparency.types false in
/-- The TensorCore's call of the region inside the whole program: from the region boundary, every unscoped buffer at
    `W d`, the core owing its start signals, the level facts and the staging cells' ghost state, it runs to the boundary,
    the buffers at `Wp d` and the core owing the same, for whatever follows. -/
theorem region_wp (d : Dev nD) (hout6 : ∀ c, Wp c main_v9_0 = (run W c).1.1) (hout7 : ∀ c, Wp c main_v9_1 = (run W c).1.2)
    (hne : ∀ c (b : Ref sig .tc), b ≠ main_v9_0 → b ≠ main_v9_1 → Wp c b = W c b) (Φ : PUnit → sProp 𝕄) :
    iprop(boundary (T d) ∗ unscopedBufs d (W d) ∗ owesTc (F := F) d ∗ levAts (K (F := F)).L (K (F := F)).lev ∗ regionGhost (F := F) d
        ∗ (iprop(boundary (T d) ∗ unscopedBufs d (Wp d) ∗ owesTc (F := F) d) -∗ Φ ⟨⟩))
      ⊢ wp frame (wpE ((K (F := F)).defs (D (F := F))) 𝒱 (T d) none) Set.univ
          (Prog.lift (.customCall (SparseCore.inner (Pipeline.entry 0)) ())) Φ := by
  iintro ⟨Hb, Hub, HO, #Hlev, HG, Hk⟩
  iapply ((K (F := F)).wp_liftProg (D (F := F)) 𝒱 (T d) Set.univ none (.op (.customCall (Pipeline.entry 0) ()) fun _ => .ret ⟨⟩) Φ)
  unfold regionGhost
  icases HG with ⟨Hcg, Htk⟩
  iapply (Pipeline.RegionSeg.wp (pcfgs (F := F)) adm (pdats W) none phinj EP defs₀ 𝒱₀ (K (F := F)).L (K (F := F)).lev
    (reg W Wp hout6 hout7 hne) d none (fun _ h => nomatch h) (fun _ => .ret ⟨⟩) Φ)
  rw [show (reg W Wp hout6 hout7 hne).post d = iprop(unscopedBufs d (Wp d) ∗ owesTc (F := F) d) from rfl,
    show (reg W Wp hout6 hout7 hne).pre d = iprop(unscopedBufs d (W d) ∗ owesTc (F := F) d) from rfl]
  isplitl [Hk]
  · iintro ⟨Hb, Hpost⟩
    rw [wp_ret]; imodintro
    iapply Hk
    isplitl [Hb]; · iexact Hb
    iexact Hpost
  isplitl [Hb]; · iexact Hb
  isplitl [Hub HO]
  · isplitl [Hub] <;> iassumption
  isplitr; · iexact Hlev
  isplitl [Hcg] <;> iassumption

end Cert.KIProof

end
-- ==== Proof.HostVals.lean ====
/-
  The host operations around the TensorCore region, read at an index. Column `k` of the attribute array, sliced out,
  flattened and folded into rows of 128, holds at (p, q) the attribute `k` of row 128 p + q; and the combined index
  words computed on that layout, flattened again, are the combined index words of the rows. Everything is index by
  index: no extent is ever enumerated.
-/
import Idealize.ShloMosaic.Lib.Pipeline.Value
import Idealize.ShloMosaic.Lib.ValueIdx
import proofs.«203798_g65764539236737_cont_9to1_m_400_20_alg».proof.Proof.KSpec

noncomputable section

namespace Cert.KIProof

open Idealize.ShloMosaic Idealize.ShloMosaic.ValueIdx

/-- The attribute array's shape, a column's, the flat shape and the folded one. -/
abbrev SA : Shape := ⟨2, ![320000, 3]⟩
abbrev SC : Shape := ⟨2, ![320000, 1]⟩
abbrev SF : Shape := ⟨1, ![320000]⟩
abbrev SB : Shape := ⟨2, ![2500, 128]⟩

/-- Column `k` of the attribute array as a 2500 × 128 array: the slice at column `k`, its unit axis dropped, the
    320000 words folded into rows of 128. -/
def col (k : ℕ) (a : IVec SA 32) (hs : SA.Slices ![0, k] SC) (h1 : SC.ShapeCasts SF) (h2 : SF.ShapeCasts SB) : IVec SB 32 :=
  shapeCast SB (shapeCast SF (extractStridedSlice SC ![0, k] a hs) h1) h2

/-- At (p, q) it holds attribute `k` of row 128 p + q. -/
theorem col_apply (k : ℕ) (hk : k < 3) (a : IVec SA 32) (hs : SA.Slices ![0, k] SC) (h1 : SC.ShapeCasts SF) (h2 : SF.ShapeCasts SB)
    (p : Fin 2500) (q : Fin 128) :
    col k a hs h1 h2 (ix2 p q) = a (ix2 (⟨128 * p.val + q.val, by omega⟩ : Fin 320000) (⟨k, hk⟩ : Fin 3)) := by
  unfold col
  refine (shapeCast_apply _ h2 (ix2 p q) (ix1 (⟨128 * p.val + q.val, by omega⟩ : Fin 320000)) ?_).trans ?_
  · rw [Shape.rowMajor_val_one, Shape.rowMajor_val_two]
    show 128 * p.val + q.val = p.val * 128 + q.val
    omega
  refine (shapeCast_apply _ h1 (ix1 (⟨128 * p.val + q.val, by omega⟩ : Fin 320000))
    (ix2 (⟨128 * p.val + q.val, by omega⟩ : Fin 320000) (0 : Fin 1)) ?_).trans ?_
  · rw [Shape.rowMajor_val_two, Shape.rowMajor_val_one]
    show (128 * p.val + q.val) * 1 + 0 = 128 * p.val + q.val
    omega
  exact extractStridedSlice_apply _ a hs _ _ fun b => match b with
    | ⟨0, _⟩ => by show 128 * p.val + q.val = 0 + (128 * p.val + q.val); omega
    | ⟨1, _⟩ => by show k = k + 0; omega

variable (a : IVec SA 32) (hs0 : SA.Slices ![0, 0] SC) (hs1 : SA.Slices ![0, 1] SC) (hs2 : SA.Slices ![0, 2] SC)
  (h1 : SC.ShapeCasts SF) (h2 : SF.ShapeCasts SB) (h3 : SB.ShapeCasts SF)

/-- The combined index words on the folded layout: `(x0 * 6 + x1) * 6 + x2` pointwise, in 32-bit arithmetic. -/
def comb (x0 x1 x2 : IVec SB 32) : IVec SB 32 :=
  fun y => IntOp.addi (IntOp.muli (IntOp.addi (IntOp.muli (x0 y) 6#32) (x1 y)) 6#32) (x2 y)

/-- Flattened, the combined index words of the three folded columns are, at row `i`, the combined index word of row `i`. -/
theorem idx_at (i : Fin 320000) :
    shapeCast SF (comb (col 0 a hs0 h1 h2) (col 1 a hs1 h1 h2) (col 2 a hs2 h1 h2)) h3 (ix1 i) = KSpec.idx a (ix1 i) := by
  have hi : i.val < 320000 := i.isLt
  have hp : i.val / 128 < 2500 := by omega
  have hq : i.val % 128 < 128 := Nat.mod_lt _ (by decide)
  refine (shapeCast_apply _ h3 (ix1 i) (ix2 (⟨i.val / 128, hp⟩ : Fin 2500) (⟨i.val % 128, hq⟩ : Fin 128)) ?_).trans ?_
  · rw [Shape.rowMajor_val_two, Shape.rowMajor_val_one]
    show i.val / 128 * 128 + i.val % 128 = i.val
    omega
  have e : (⟨128 * (i.val / 128) + i.val % 128, by omega⟩ : Fin 320000) = i := Fin.ext (by show 128 * (i.val / 128) + i.val % 128 = i.val; omega)
  unfold comb
  rw [col_apply 0 (by decide), col_apply 1 (by decide), col_apply 2 (by decide)]
  show IntOp.addi (IntOp.muli (IntOp.addi (IntOp.muli (a (ix2 (⟨128 * (i.val / 128) + i.val % 128, _⟩ : Fin 320000) (⟨0, _⟩ : Fin 3))) 6#32)
    (a (ix2 (⟨128 * (i.val / 128) + i.val % 128, _⟩ : Fin 320000) (⟨1, _⟩ : Fin 3)))) 6#32) (a (ix2 (⟨128 * (i.val / 128) + i.val % 128, _⟩ : Fin 320000) (⟨2, _⟩ : Fin 3))) = _
  rw [e]
  rfl

/-- As one equation between functions of the row. -/
theorem idx_eq :
    shapeCast SF (comb (col 0 a hs0 h1 h2) (col 1 a hs1 h1 h2) (col 2 a hs2 h1 h2)) h3 = KSpec.idx a := by
  funext r
  rw [eq_ix1 r]
  exact idx_at a hs0 hs1 hs2 h1 h2 h3 (r 0)

end Cert.KIProof

end
-- ==== Proof.TcVals.lean ====
/-
  What the TensorCore kernel's body leaves in its two outputs: the table of 216 rows, each slab of six rows the third
  table plus one row of the first plus one row of the second; and the combined index words, pointwise.
-/
import proofs.«203798_g65764539236737_cont_9to1_m_400_20_alg».proof.Proof.TcBody
import proofs.«203798_g65764539236737_cont_9to1_m_400_20_alg».proof.Proof.HostVals
import Idealize.ShloMosaic.Lib.Ring
import Idealize.ShloMosaic.Lib.Pipeline.Value
import Idealize.ShloMosaic.Lib.ValueLayout

noncomputable section

namespace Cert.KIProof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ValueIdx

omit [FloatOps F] in
theorem exists_ix2 {n0 n1 : ℕ} (x : (⟨2, ![n0, n1]⟩ : Shape).Idx) : ∃ (p : Fin n0) (c : Fin n1), x = ix2 p c := ⟨x 0, x 1, eq_ix2 x⟩

omit [FloatOps F] in
theorem ix2_ext {n0 n1 : ℕ} (a a' : Fin n0) (b b' : Fin n1) (ha : a.val = a'.val) (hb : b.val = b'.val) : ix2 a b = ix2 a' b' := by
  rw [Fin.ext ha, Fin.ext hb]

omit [FloatOps F] in
/-- A load of row `i` of the first table's staging buffer reads, at column `c`, the contents at (i, c). -/
theorem row_read3 (e : FVec F S6x128 .f32) (i : ℕ) (inb : ∀ a, (![i, 0] : Fin 2 → ℕ) a + (![1, 128] : Fin 2 → ℕ) a ≤ S6x128.size a) (c : Fin 128) :
    View.readAt (Elt F) (View.whole cc0_stg3_0) (Rect.unit (s := S6x128) ![i, 0] ![1, 128] inb).toLoadRect e (ix2 (0 : Fin 1) c)
      = e (ix2 (⟨i, Nat.lt_of_succ_le (inb 0)⟩ : Fin 6) c) := by
  show e _ = e _
  congr 1
  funext a
  match a with
  | ⟨0, _⟩ => exact Fin.ext (by show i + 1 * 0 = i; omega)
  | ⟨1, _⟩ => exact Fin.ext (by show 0 + 1 * c.val = c.val; omega)

omit [FloatOps F] in
/-- The same of the second table's. -/
theorem row_read4 (e : FVec F S6x128 .f32) (i : ℕ) (inb : ∀ a, (![i, 0] : Fin 2 → ℕ) a + (![1, 128] : Fin 2 → ℕ) a ≤ S6x128.size a) (c : Fin 128) :
    View.readAt (Elt F) (View.whole cc0_stg4_0) (Rect.unit (s := S6x128) ![i, 0] ![1, 128] inb).toLoadRect e (ix2 (0 : Fin 1) c)
      = e (ix2 (⟨i, Nat.lt_of_succ_le (inb 0)⟩ : Fin 6) c) := by
  show e _ = e _
  congr 1
  funext a
  match a with
  | ⟨0, _⟩ => exact Fin.ext (by show i + 1 * 0 = i; omega)
  | ⟨1, _⟩ => exact Fin.ext (by show 0 + 1 * c.val = c.val; omega)

omit [FloatOps F] in
/-- A load of the whole third table's staging buffer reads its contents. -/
theorem tile_read5 (e : FVec F S6x128 .f32) (inb : ∀ a, (![0, 0] : Fin 2 → ℕ) a + (![6, 128] : Fin 2 → ℕ) a ≤ S6x128.size a) (p : Fin 6) (c : Fin 128) :
    View.readAt (Elt F) (View.whole cc0_stg5_0) (Rect.unit (s := S6x128) ![0, 0] ![6, 128] inb).toLoadRect e (ix2 p c) = e (ix2 p c) := by
  show e _ = e _
  congr 1
  funext a
  match a with
  | ⟨0, _⟩ => exact Fin.ext (by show 0 + 1 * p.val = p.val; omega)
  | ⟨1, _⟩ => exact Fin.ext (by show 0 + 1 * c.val = c.val; omega)

/-- The slab of six rows stored at row offset `36 i0 + 6 i1` is the table's there. -/
theorem tab_piece (e0 e1 e2 : FVec F S6x128 .f32) (i0 i1 : Fin 6) (o : ℕ) (ho : o = 36 * i0.val + 6 * i1.val)
    (inb : ∀ a, (![o, 0] : Fin 2 → ℕ) a + (![6, 128] : Fin 2 → ℕ) a ≤ S216x128.size a) (p : Fin 6) (c : Fin 128) :
    FloatOps.addf (FloatOps.addf (e2 (ix2 p c)) (e0 (ix2 i0 c))) (e1 (ix2 i1 c))
      = KSpec.tab e0 e1 e2 ((Rect.unit (s := S216x128) ![o, 0] ![6, 128] inb).emb (ix2 p c)) := by
  subst ho
  have hp := p.isLt
  have h0 := i0.isLt
  have h1 := i1.isLt
  have k0 : (((Rect.unit (s := S216x128) ![36 * i0.val + 6 * i1.val, 0] ![6, 128] inb).emb (ix2 p c)) 0).val = 36 * i0.val + 6 * i1.val + 1 * p.val := rfl
  have k1 : (((Rect.unit (s := S216x128) ![36 * i0.val + 6 * i1.val, 0] ![6, 128] inb).emb (ix2 p c)) 1).val = 0 + 1 * c.val := rfl
  unfold KSpec.tab
  refine congrArg₂ FloatOps.addf (congrArg₂ FloatOps.addf (congrArg e2 ?_) (congrArg e0 ?_)) (congrArg e1 ?_)
  · exact ix2_ext _ _ _ _ (by show p.val = _ % 6; rw [k0]; omega) (by show c.val = _; rw [k1]; omega)
  · exact ix2_ext _ _ _ _ (by show i0.val = _ / 36; rw [k0]; omega) (by show c.val = _; rw [k1]; omega)
  · exact ix2_ext _ _ _ _ (by show i1.val = _ / 6 % 6; rw [k0]; omega) (by show c.val = _; rw [k1]; omega)

omit [FloatOps F] in
/-- What a list of stores through a whole buffer's own view leaves, at an element some store covers, when every store's
    payload is its rectangle of one function `G`: `G` there. -/
theorem whole_writes_apply {κ : Kind} {b : Ref sig κ} (Val : EltTy → Type) (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (hc : ∃ p ∈ L, y ∈ p.1.set) : (View.whole b).writes Val f L y = G y :=
  View.read_writes_apply_of_pieces (v := View.whole b) (f := f) G L hG y hc

/-- One slab's payload against the table: the payload unfolded to its three reads, then the table at the slab's rows. -/
macro "tab_slab" : tactic => `(tactic| (
  intro x
  obtain ⟨p, c, hx⟩ := exists_ix2 x
  subst hx
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, Idealize.ShloMosaic.addf, broadcastTo_1b_ab_apply, shapeCast_shapeCast, row_read3, row_read4, tile_read5]
  refine tab_piece _ _ _ _ _ _ ?_ _ p c
  rfl))

set_option maxHeartbeats 4000000 in
/-- The body leaves the table in the first output's buffer. -/
theorem tcRun_tab (d : Dev nD) (x0 x1 x2 : IVec S2500x128 32) (e0 e1 e2 : FVec F S6x128 .f32) :
    ((tcRunAt d x0 x1 x2 e0 e1 e2).1.1 : FVec F S216x128 .f32) = KSpec.tab e0 e1 e2 := by
  unfold tcRunAt tcRun
  dsimp only
  sl_unfold_run_names
  funext y
  refine whole_writes_apply (b := cc0_stg6_0) (Elt F) _ (KSpec.tab e0 e1 e2) _ ?_ y (View.cover_of_tiledL _ ![6, 128] (by sl_kernel_rfl) y)
  repeat' (first | exact List.forall_mem_nil _ | refine List.forall_mem_cons.mpr ⟨by tab_slab, ?_⟩)

omit [FloatOps F] in
/-- A load of a whole index staging buffer reads its contents. -/
theorem whole_read0 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg0_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))
omit [FloatOps F] in
theorem whole_read1 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg1_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))
omit [FloatOps F] in
theorem whole_read2 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg2_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))

omit [FloatOps F] in
/-- The whole-shape rectangle at zero offsets places an index at itself. -/
theorem emb_zero (inb : ∀ a, (![0, 0] : Fin 2 → ℕ) a + (![2500, 128] : Fin 2 → ℕ) a ≤ S2500x128.size a) (p : Fin 2500) (c : Fin 128) :
    (Rect.unit (s := S2500x128) ![0, 0] ![2500, 128] inb).emb (ix2 p c) = ix2 p c :=
  funext fun a => match a with
    | ⟨0, _⟩ => Fin.ext (by show 0 + 1 * p.val = p.val; omega)
    | ⟨1, _⟩ => Fin.ext (by show 0 + 1 * c.val = c.val; omega)

/-- The body leaves the combined index words in the second output's buffer. -/
theorem tcRun_idx (d : Dev nD) (x0 x1 x2 : IVec S2500x128 32) (e0 e1 e2 : FVec F S6x128 .f32) :
    ((tcRunAt d x0 x1 x2 e0 e1 e2).1.2 : IVec S2500x128 32) = comb x0 x1 x2 := by
  unfold tcRunAt tcRun
  dsimp only
  sl_unfold_run_names
  funext y
  refine whole_writes_apply (b := cc0_stg7_0) (Elt F) _ (comb x0 x1 x2) _ ?_ y ?_
  · refine List.forall_mem_cons.mpr ⟨?_, List.forall_mem_nil _⟩
    intro x
    obtain ⟨p, c, rfl⟩ := exists_ix2 x
    simp only [k0_pay3, Idealize.ShloMosaic.muli, Idealize.ShloMosaic.addi, Idealize.ShloMosaic.broadcast, shapeCast_self, whole_read0, whole_read1, whole_read2]
    refine Eq.trans ?_ (congrArg (comb x0 x1 x2) (emb_zero inb_S2500x128_S2500x128_0_0 p c).symm)
    rfl
  · exact ⟨_, List.mem_cons_self, View.mem_set_unit_zero (S := S2500x128) (off := ![0, 0]) (by funext a; fin_cases a <;> rfl) inb_S2500x128_S2500x128_0_0 y⟩

end Cert.KIProof

end
-- ==== Proof.HmainVals.lean ====
/-
  The TensorCore's buffers along @main, as valuations: after the nine host operations that lay the three attribute
  columns out in rows of 128, after the region, after the reshape that flattens the index words; and what each array the
  SparseCore call reads holds then, as a function of the arguments.
-/
import proofs.«203798_g65764539236737_cont_9to1_m_400_20_alg».proof.Proof.Region
import proofs.«203798_g65764539236737_cont_9to1_m_400_20_alg».proof.Proof.TcVals
import proofs.«203798_g65764539236737_cont_9to1_m_400_20_alg».proof.Proof.Launch

noncomputable section

namespace Cert.KIProof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after launchContents)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The host operations and the valuations they leave -/

abbrev opS0 : HloOp τ sig (Elt F) := StableHlo.unary main_arg0 main_v0 ((extractStridedSlice S320000x1 ![0, 0] · slices_S320000x3_S320000x1_0_0) : (⟨S320000x3, .i32⟩ : BufTy).Contents (Elt F) → (⟨S320000x1, .i32⟩ : BufTy).Contents (Elt F))
abbrev opF0 : HloOp τ sig (Elt F) := StableHlo.reshape main_v0 main_v1 rfl shapeCasts_S320000x1_S320000
abbrev opR0 : HloOp τ sig (Elt F) := StableHlo.reshape main_v1 main_v2 rfl shapeCasts_S320000_S2500x128
abbrev opS1 : HloOp τ sig (Elt F) := StableHlo.unary main_arg0 main_v3 ((extractStridedSlice S320000x1 ![0, 1] · slices_S320000x3_S320000x1_0_1) : (⟨S320000x3, .i32⟩ : BufTy).Contents (Elt F) → (⟨S320000x1, .i32⟩ : BufTy).Contents (Elt F))
abbrev opF1 : HloOp τ sig (Elt F) := StableHlo.reshape main_v3 main_v4 rfl shapeCasts_S320000x1_S320000
abbrev opR1 : HloOp τ sig (Elt F) := StableHlo.reshape main_v4 main_v5 rfl shapeCasts_S320000_S2500x128
abbrev opS2 : HloOp τ sig (Elt F) := StableHlo.unary main_arg0 main_v6 ((extractStridedSlice S320000x1 ![0, 2] · slices_S320000x3_S320000x1_0_2) : (⟨S320000x3, .i32⟩ : BufTy).Contents (Elt F) → (⟨S320000x1, .i32⟩ : BufTy).Contents (Elt F))
abbrev opF2 : HloOp τ sig (Elt F) := StableHlo.reshape main_v6 main_v7 rfl shapeCasts_S320000x1_S320000
abbrev opR2 : HloOp τ sig (Elt F) := StableHlo.reshape main_v7 main_v8 rfl shapeCasts_S320000_S2500x128
abbrev opIdx : HloOp τ sig (Elt F) := StableHlo.reshape main_v9_1 main_v10 rfl shapeCasts_S2500x128_S320000

/-- The nine operations before the region, in @main's order. -/
abbrev hostOps : List (HloOp τ sig (Elt F)) := [opS0, opF0, opR0, opS1, opF1, opR1, opS2, opF2, opR2]

/-- The TensorCore's buffers after them. -/
def V9 (c : Dev nD) : Valuation τ sig (Elt F) := after (hostOps (F := F)) (launchContents m c)

/-- The same as the region's entry valuation. -/
abbrev W9 (c : Dev nD) (b : Ref sig .tc) : Buf (Elt F) ((c : Thread nD τ).loc b) := V9 m c (Proc.devRef .tc b)

theorem V9_v2 (c : Dev nD) : (V9 m c (Proc.devRef .tc main_v2) : IVec S2500x128 32)
    = col 0 (m (aLoc c)) slices_S320000x3_S320000x1_0_0 shapeCasts_S320000x1_S320000 shapeCasts_S320000_S2500x128 := by
  dsimp only [V9, hostOps]; after_results; rfl
theorem V9_v5 (c : Dev nD) : (V9 m c (Proc.devRef .tc main_v5) : IVec S2500x128 32)
    = col 1 (m (aLoc c)) slices_S320000x3_S320000x1_0_1 shapeCasts_S320000x1_S320000 shapeCasts_S320000_S2500x128 := by
  dsimp only [V9, hostOps]; after_results; rfl
theorem V9_v8 (c : Dev nD) : (V9 m c (Proc.devRef .tc main_v8) : IVec S2500x128 32)
    = col 2 (m (aLoc c)) slices_S320000x3_S320000x1_0_2 shapeCasts_S320000x1_S320000 shapeCasts_S320000_S2500x128 := by
  dsimp only [V9, hostOps]; after_results; rfl
theorem V9_arg0 (c : Dev nD) : V9 m c (Proc.devRef .tc main_arg0) = m (aLoc c) := by
  dsimp only [V9, hostOps]; after_results
theorem V9_arg1 (c : Dev nD) : V9 m c (Proc.devRef .tc main_arg1) = m (e0Loc c) := by
  dsimp only [V9, hostOps]; after_results
theorem V9_arg2 (c : Dev nD) : V9 m c (Proc.devRef .tc main_arg2) = m (e1Loc c) := by
  dsimp only [V9, hostOps]; after_results
theorem V9_arg3 (c : Dev nD) : V9 m c (Proc.devRef .tc main_arg3) = m (e2Loc c) := by
  dsimp only [V9, hostOps]; after_results
theorem V9_v11 (c : Dev nD) : V9 m c (Proc.devRef .tc main_v11) = m (outLoc c) := by
  dsimp only [V9, hostOps]; after_results

/-! ## Through the region and the last reshape -/

/-- The buffers after the region: the two results' arrays at what the body left, every other buffer as it was. -/
def VR (c : Dev nD) : Valuation τ sig (Elt F) :=
  Function.update (Function.update (V9 m c) (Proc.devRef .tc main_v9_0) (run (W9 m) c).1.1) (Proc.devRef .tc main_v9_1) (run (W9 m) c).1.2

abbrev WR (c : Dev nD) (b : Ref sig .tc) : Buf (Elt F) ((c : Thread nD τ).loc b) := VR m c (Proc.devRef .tc b)

theorem WR_out6 (c : Dev nD) : WR m c main_v9_0 = (run (W9 m) c).1.1 := by
  show VR m c (Proc.devRef .tc main_v9_0) = _
  unfold VR; rw [Function.update_of_ne (by decide), Function.update_self]
theorem WR_out7 (c : Dev nD) : WR m c main_v9_1 = (run (W9 m) c).1.2 := by
  show VR m c (Proc.devRef .tc main_v9_1) = _
  unfold VR; rw [Function.update_self]
theorem WR_ne (c : Dev nD) (b : Ref sig .tc) (h6 : b ≠ main_v9_0) (h7 : b ≠ main_v9_1) : WR m c b = W9 m c b := by
  show VR m c (Proc.devRef .tc b) = V9 m c (Proc.devRef .tc b)
  unfold VR
  rw [Function.update_of_ne (fun h => h7 (Proc.devRef_injective _ h)), Function.update_of_ne (fun h => h6 (Proc.devRef_injective _ h))]

/-- The buffers after the last reshape. -/
def V11 (c : Dev nD) : Valuation τ sig (Elt F) := (opIdx (F := F)).result (VR m c)

/-- The table's array holds the table of the three argument tables. -/
theorem V11_tab (c : Dev nD) : V11 m c (Proc.devRef .tc main_v9_0) = tabOf m c := by
  have h : V11 m c (Proc.devRef .tc main_v9_0) = WR m c main_v9_0 := by
    unfold V11; rw [StableHlo.reshape_result_ne']; decide
  rw [h, WR_out6]
  refine (tcRun_tab c _ _ _ _ _ _).trans ?_
  rw [stg3_eq, stg4_eq, stg5_eq]
  show KSpec.tab (V9 m c (Proc.devRef .tc main_arg1)) (V9 m c (Proc.devRef .tc main_arg2)) (V9 m c (Proc.devRef .tc main_arg3)) = _
  rw [V9_arg1, V9_arg2, V9_arg3]

/-- The flat index array holds the combined index words of the rows. -/
theorem V11_idx (c : Dev nD) : V11 m c (Proc.devRef .tc main_v10) = idxOf m c := by
  have h : V11 m c (Proc.devRef .tc main_v10) = shapeCast S320000 (WR m c main_v9_1 : IVec S2500x128 32) shapeCasts_S2500x128_S320000 := by
    unfold V11; rw [StableHlo.reshape_result']; rfl
  rw [h, WR_out7]
  rw [show ((run (W9 m) c).1.2 : IVec S2500x128 32) = comb (stg0 (W9 m) c) (stg1 (W9 m) c) (stg2 (W9 m) c) from tcRun_idx c _ _ _ _ _ _,
    stg0_eq, stg1_eq, stg2_eq]
  show shapeCast SF (comb (V9 m c (Proc.devRef .tc main_v2) : IVec S2500x128 32) (V9 m c (Proc.devRef .tc main_v5) : IVec S2500x128 32) (V9 m c (Proc.devRef .tc main_v8) : IVec S2500x128 32)) _ = _
  rw [V9_v2, V9_v5, V9_v8]
  exact idx_eq _ _ _ _ _ _ _

theorem V11_of_ne (c : Dev nD) (b : Ref sig .tc) (h6 : b ≠ main_v9_0) (h7 : b ≠ main_v9_1) (h10 : b ≠ main_v10) :
    V11 m c (Proc.devRef .tc b) = V9 m c (Proc.devRef .tc b) := by
  have h : V11 m c (Proc.devRef .tc b) = WR m c b := by
    unfold V11; rw [StableHlo.reshape_result_ne']; exact h10
  rw [h, WR_ne m c b h6 h7]

/-! ## The arrays the SparseCore call is handed, and what is left at the end -/

/-- After the last reshape the TensorCore holds, among its buffers, the four arguments as launched, the table, the flat
    index words and the result array as launched. -/
theorem final_enum (d : Dev nD) :
    (held (T d) (ucRefs τ sig) (V11 m d) : sProp 𝕄)
      ⊢ iprop((aLoc d ↦{fullShare} m (aLoc d)) ∗ (e0Loc d ↦{fullShare} m (e0Loc d)) ∗ (e1Loc d ↦{fullShare} m (e1Loc d))
          ∗ (e2Loc d ↦{fullShare} m (e2Loc d)) ∗ (tabLoc d ↦{fullShare} tabOf m d) ∗ (idxLoc d ↦{fullShare} idxOf m d)
          ∗ outLoc d ↦{fullShare} m (outLoc d)) := by
  rw [← unscopedBufs_held d (V11 m d), Pipeline.unscopedBufs_split cfgs 0 launch0.win.arr_unscoped launch0.win.arr_inj d,
    bigSep_W0, unscopedRest0_eq]
  iintro ⟨⟨-, -, -, H1, H2, H3, Htab, -⟩, H0, -, -, -, -, -, -, Hidx, Hout⟩
  isplitl [H0]
  · iapply (Entails.of_eq (congrArg (fun f => (aLoc d ↦{fullShare} f : sProp 𝕄)) ((V11_of_ne m d main_arg0 (by decide) (by decide) (by decide)).trans (V9_arg0 m d)))); iexact H0
  isplitl [H1]
  · iapply (Entails.of_eq (congrArg (fun f => (e0Loc d ↦{fullShare} f : sProp 𝕄)) ((V11_of_ne m d main_arg1 (by decide) (by decide) (by decide)).trans (V9_arg1 m d)))); iexact H1
  isplitl [H2]
  · iapply (Entails.of_eq (congrArg (fun f => (e1Loc d ↦{fullShare} f : sProp 𝕄)) ((V11_of_ne m d main_arg2 (by decide) (by decide) (by decide)).trans (V9_arg2 m d)))); iexact H2
  isplitl [H3]
  · iapply (Entails.of_eq (congrArg (fun f => (e2Loc d ↦{fullShare} f : sProp 𝕄)) ((V11_of_ne m d main_arg3 (by decide) (by decide) (by decide)).trans (V9_arg3 m d)))); iexact H3
  isplitl [Htab]
  · iapply (Entails.of_eq (congrArg (fun f => (tabLoc d ↦{fullShare} f : sProp 𝕄)) (V11_tab m d))); iexact Htab
  isplitl [Hidx]
  · iapply (Entails.of_eq (congrArg (fun f => (idxLoc d ↦{fullShare} f : sProp 𝕄)) (V11_idx m d))); iexact Hidx
  iapply (Entails.of_eq (congrArg (fun f => (outLoc d ↦{fullShare} f : sProp 𝕄)) ((V11_of_ne m d main_v11 (by decide) (by decide) (by decide)).trans (V9_v11 m d)))); iexact Hout

/-- The table and the index words held whole and the result array whole at `f` are the two cores' operands. -/
theorem cores_eq (d : Dev nD) (f : Buf (Elt F) (outLoc d)) :
    (bigSep Finset.univ fun c : Fin ((K (F := F)).nCore 0) => corePts m d (cF c) f)
      = iprop(((tabLoc d ↦{fullShare} tabOf m d) ∗ (idxLoc d ↦{fullShare} idxOf m d)) ∗ outLoc d ↦{fullShare} f) := by
  rw [show (bigSep Finset.univ fun c : Fin ((K (F := F)).nCore 0) => corePts m d (cF c) f)
      = bigSep Finset.univ fun c : Fin 2 => corePts m d c f from rfl]
  unfold corePts
  rw [bigSep_sep', bigSep_sep', ← BI.equiv_iff.mp ⟨(pts_halves (ℓ := tabLoc d) (tabOf m d)).mp, (pts_halves (ℓ := tabLoc d) (tabOf m d)).mpr⟩,
    ← BI.equiv_iff.mp ⟨(pts_halves (ℓ := idxLoc d) (idxOf m d)).mp, (pts_halves (ℓ := idxLoc d) (idxOf m d)).mpr⟩, ← out_cores d f]
  have h1 : iprop((tabLoc d ↦{fullShare} tabOf m d) ∗ (idxLoc d ↦{fullShare} idxOf m d) ∗ outLoc d ↦{fullShare} f)
      ⊢ (iprop(((tabLoc d ↦{fullShare} tabOf m d) ∗ (idxLoc d ↦{fullShare} idxOf m d)) ∗ outLoc d ↦{fullShare} f) : sProp 𝕄) := by
    iintro ⟨Ht, Hi, Ho⟩
    isplitl [Ht Hi]
    · isplitl [Ht] <;> iassumption
    iexact Ho
  have h2 : iprop(((tabLoc d ↦{fullShare} tabOf m d) ∗ (idxLoc d ↦{fullShare} idxOf m d)) ∗ outLoc d ↦{fullShare} f)
      ⊢ (iprop((tabLoc d ↦{fullShare} tabOf m d) ∗ (idxLoc d ↦{fullShare} idxOf m d) ∗ outLoc d ↦{fullShare} f) : sProp 𝕄) := by
    iintro ⟨⟨Ht, Hi⟩, Ho⟩
    isplitl [Ht]; · iexact Ht
    isplitl [Hi] <;> iassumption
  exact BI.equiv_iff.mp ⟨h1, h2⟩

/-- What the launch deals the TensorCore of its unscoped buffers, as a set held at the launch contents. -/
theorem launch_held (d : Dev nD) :
    (unscopedBufs d (fun b => m ((SparseCore.T d).loc b)) : sProp 𝕄) = held (SparseCore.T d) (ucRefs τ sig) (launchContents m d) :=
  unscopedBufs_held d (launchContents m d)

/-- The TensorCore's state before the call opens with what it owes. -/
theorem tcSt0_split (d : Dev nD) : ∃ R : sProp 𝕄, (K (F := F)).tcSt EH d 0 = iprop(owesTc (F := F) d ∗ R) :=
  ⟨_, by unfold SparseCore.Cfg.tcSt; rfl⟩

end Cert.KIProof

end
-- ==== Proof.Hmain.lean ====
/-
  @main on the TensorCore: the nine host operations that lay the three attribute columns out in rows of 128, the region
  that builds the table and the combined index words, the reshape that flattens the index words, the SparseCore call, —
  from what the launch deals the TensorCore to the four arguments unchanged and the result array holding the result.
-/
import proofs.«203798_g65764539236737_cont_9to1_m_400_20_alg».proof.Proof.HmainVals

noncomputable section

namespace Cert.KIProof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after launchContents)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main -/

set_option maxHeartbeats 1600000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt0_split (F := F) d
  unfold SparseCore.Cfg.tcRes
  rw [hR, launch_held m d]
  simp only [main, wp_bind, wp_pure]
  iintro ⟨#Hctx, ⟨HO, HR⟩, ⟨Hb, Hh, -, -⟩, HG⟩
  -- the nine host operations
  iapply (wp_hlo_within 𝒱 (T d) none Set.univ (op := opS0 (F := F)) (S := ucRefs τ sig) (sub_ucRefs _ (by simp)) (V := launchContents m d)) $$ [Hb Hh]
  · isplitl [Hb] <;> iassumption
  iintro ⟨Hb, Hh⟩; rw [wp_ret]; imodintro
  iapply (wp_hlo_within 𝒱 (T d) none Set.univ (op := opF0 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR0 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opS1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opF1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opS2 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opF2 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR2 (F := F)) (S := ucRefs τ sig) (sub_ucRefs _ (by simp))) $$ [Hb Hh]
  · isplitl [Hb] <;> iassumption
  iintro ⟨Hb, Hh⟩; rw [wp_ret]; imodintro
  -- the region
  have hV9 : (held (SparseCore.T d) (ucRefs τ sig) ((opR2 (F := F)).result ((opF2 (F := F)).result ((opS2 (F := F)).result ((opR1 (F := F)).result ((opF1 (F := F)).result ((opS1 (F := F)).result ((opR0 (F := F)).result ((opF0 (F := F)).result ((opS0 (F := F)).result (launchContents m d)))))))))) : sProp 𝕄) ⊢ unscopedBufs d (W9 m d) :=
    Entails.of_eq (unscopedBufs_held (Ix := HIx 1) (Name := ℕ) (U := UU) (Lvl := ℕ) d (V9 m d)).symm
  ihave Hub := hV9 $$ Hh
  ihave Hlev := (SparseCore.Cfg.ctx_levAts κ) $$ Hctx
  iapply (region_wp (W9 m) (WR m) d (WR_out6 m) (WR_out7 m) (WR_ne m) _)
  isplitl [Hb]; · iexact Hb
  isplitl [Hub]; · iexact Hub
  isplitl [HO]; · iexact HO
  isplitl [Hlev]; · iexact Hlev
  isplitl [HG]; · iexact HG
  iintro ⟨Hb, Hub, HO⟩
  ihave Hh := (Entails.of_eq (unscopedBufs_held (Ix := HIx 1) (Name := ℕ) (U := UU) (Lvl := ℕ) d (VR m d))) $$ Hub
  -- the index words flattened
  iapply (wp_hlo_within 𝒱 (T d) none Set.univ (op := opIdx (F := F)) (S := ucRefs τ sig) (sub_ucRefs _ (by simp)) (V := VR m d)) $$ [Hb Hh]
  · isplitl [Hb] <;> iassumption
  iintro ⟨Hb, Hh⟩; rw [wp_ret]; imodintro
  have hV11 : (held (SparseCore.T d) (ucRefs τ sig) ((opIdx (F := F)).result (VR m d)) : sProp 𝕄) ⊢ _ := final_enum m d
  ihave Hfin := hV11 $$ Hh
  icases Hfin with ⟨Ha, H0, H1, H2, Htab, Hidx, Hout⟩
  -- the SparseCore call
  iapply ((K (F := F)).wp_run (D (F := F)) 𝒱 (EH := EH) (P := P m) κ d 0)
  isplitr; · iexact Hctx
  isplitl [HO HR]
  · iapply (Entails.of_eq hR.symm); isplitl [HO] <;> iassumption
  isplitl [Htab Hidx Hout]
  · iapply (Entails.of_eq (cores_eq m d (m (outLoc d))).symm)
    isplitl [Htab Hidx]; (· isplitl [Htab] <;> iassumption)
    iexact Hout
  iintro ⟨Hst, Hdn⟩
  have hdn : (bigSep Finset.univ fun c : Fin ((K (F := F)).nCore 0) => (P m).dn 0 d c)
      ⊢ (iprop(((tabLoc d ↦{fullShare} tabOf m d) ∗ (idxLoc d ↦{fullShare} idxOf m d)) ∗ outLoc d ↦{fullShare} resOf m d) : sProp 𝕄) :=
    Entails.of_eq (cores_eq m d (resOf m d))
  ihave Hdn' := hdn $$ Hdn
  icases Hdn' with ⟨-, Hout⟩
  imodintro
  isplitl [Hst]; · iexact Hst
  isplitl [Ha]; · iexact Ha
  isplitl [H0]; · iexact H0
  isplitl [H1]; · iexact H1
  isplitl [H2]; · iexact H2
  iexact Hout

end Cert.KIProof

end
-- ==== Proof.TcBodyK.lean ====
/-
  The TensorCore kernel's body, run once at symbolic staging buffers: from the eight buffers held whole it runs to its
  return, the inputs unchanged, the two outputs at contents the run finds (terms over the inputs' contents alone).
-/
import proofs.«203798_g65764539236737_cont_9to1_m_400_20_alg».proof.Proof.BaseK
import proofs.«203798_g65764539236737_cont_9to1_m_400_20_alg».proof.Proof.Gen.Kernel.Skeleton
import Idealize.ShloMosaic.Lib.Tactic

noncomputable section

namespace Cert.KProof

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Buffers held whole -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body's run -/

set_option maxHeartbeats 4000000 in
/-- What the body leaves in its two outputs' buffers (over the inputs' contents), with the proof that from the eight
    buffers held whole — inputs at `f0 … f5`, outputs at anything — the body runs to its return handing back the inputs
    as they were and the outputs at the witnesses. -/
noncomputable def tcRun (c : Dev nD)
    (M0 : Memref sig .tc .vmem S2500x128 .i32) (h0 : M0.IsWhole) (M1 : Memref sig .tc .vmem S2500x128 .i32) (h1 : M1.IsWhole)
    (M2 : Memref sig .tc .vmem S2500x128 .i32) (h2 : M2.IsWhole) (M3 : Memref sig .tc .vmem S6x128 .f32) (h3 : M3.IsWhole)
    (M4 : Memref sig .tc .vmem S6x128 .f32) (h4 : M4.IsWhole) (M5 : Memref sig .tc .vmem S6x128 .f32) (h5 : M5.IsWhole)
    (M6 : Memref sig .tc .vmem S216x128 .f32) (h6 : M6.IsWhole) (M7 : Memref sig .tc .vmem S2500x128 .i32) (h7 : M7.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 × Bf (F := F) c M7 //
      ∀ (f6 : Bf (F := F) c M6) (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ (iprop(pt c M0 f0 ∗ pt c M1 f1 ∗ pt c M2 f2 ∗ pt c M3 f3 ∗ pt c M4 f4 ∗ pt c M5 f5 ∗ pt c M6 W.1 ∗ pt c M7 W.2) -∗ Q ⟨⟩))
        ⊢ wp frame (wpE (defs₀ (F := F)) Variants.none c none) E
            (cc0__tc_prelude M0 h0 M1 h1 M2 h2 M3 h3 M4 h4 M5 h5 M6 h6 M7 h7) Q } := by
  refine ⟨⟨?_, ?_⟩, fun f6 f7 E Q => ?run⟩
  case run =>
    iintro ⟨H0, H1, H2, H3, H4, H5, H6, H7, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The run at the pipeline's staging buffers. -/
abbrev tcRunAt (d : Dev nD) (x0 x1 x2 : IVec S2500x128 32) (e0 e1 e2 : FVec F S6x128 .f32) :=
  tcRun (F := F) d (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0) x0 x1 x2 e0 e1 e2

end Cert.KProof

end
-- ==== Proof.RegionK.lean ====
/-
  The TensorCore region inside the program's launch: the pipeline's proof data at an entry valuation of the TensorCore's
  unscoped buffers, the body obligation from the body's run, the region as a segment from "every unscoped buffer at a
  valuation, the core owing its start signals" to the same at the valuation updated at the two results, and the step of
  @main that enters it.
-/
import proofs.«203798_g65764539236737_cont_9to1_m_400_20_alg».proof.Proof.TcBodyK
import proofs.«203798_g65764539236737_cont_9to1_m_400_20_alg».proof.Proof.RegionGhostK
import proofs.«203798_g65764539236737_cont_9to1_m_400_20_alg».proof.Proof.Gen.Kernel.Points
import Idealize.ShloMosaic.Lib.Pipeline.RegionsLoop
import Idealize.ShloMosaic.Lib.Pipeline.Value

noncomputable section

namespace Cert.KProof

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data, at an entry valuation -/

variable (W : (c : Dev nD) → (b : Ref sig .tc) → Buf (Elt F) ((c : Thread nD τ).loc b))

/-- The input windows' blocks as the fetches stage them: each array at the entry valuation, read through its block view. -/
abbrev stg0 (c : Dev nD) : IVec S2500x128 32 := ((cfg0.win 0).blk t0_0).view.read (Elt F) (W c main_v2)
abbrev stg1 (c : Dev nD) : IVec S2500x128 32 := ((cfg0.win 1).blk t0_0).view.read (Elt F) (W c main_v5)
abbrev stg2 (c : Dev nD) : IVec S2500x128 32 := ((cfg0.win 2).blk t0_0).view.read (Elt F) (W c main_v8)
abbrev stg3 (c : Dev nD) : FVec F S6x128 .f32 := ((cfg0.win 3).blk t0_0).view.read (Elt F) (W c main_arg1)
abbrev stg4 (c : Dev nD) : FVec F S6x128 .f32 := ((cfg0.win 4).blk t0_0).view.read (Elt F) (W c main_arg2)
abbrev stg5 (c : Dev nD) : FVec F S6x128 .f32 := ((cfg0.win 5).blk t0_0).view.read (Elt F) (W c main_arg3)

/-- The body's run at the staged blocks. -/
abbrev run (c : Dev nD) := tcRunAt (F := F) c (stg0 W c) (stg1 W c) (stg2 W c) (stg3 W c) (stg4 W c) (stg5 W c)

/-- What the TensorCore owes while the region runs: its start signals, at the call's index. -/
abbrev owedTc (c : Dev nD) : CellTallies nD τ sig (HIx 1) := (K (F := F)).Otc c 0

/-- The pairs the TensorCore's waits may have recorded so far: those at level zero. -/
abbrev recTc (c : Dev nD) : Set (SemLoc sig × HIx 1) := {p | (K (F := F)).lev (T c, p.1) p.2 ≤ 0}

/-- The proof data of the region entered from valuation `W`: the arrays at `W`; after the body the inputs' buffers as
    fetched and the results' at `G6`, `G7`; the invariant the scoped buffers no window stages; full shares; the
    core owing its start signals throughout, its recorded pairs at level zero. -/
def datG (c : Dev nD) (G6 : FVec F S216x128 .f32) (G7 : IVec S2500x128 32) : Dat τ (Elt F) (HIx 1) ℕ UU ℕ cfg0 c where
  A w := W c (Pipeline.arrRef spec0 w)
  after w _ := match w with
    | ⟨0, _⟩ => stg0 W c
    | ⟨1, _⟩ => stg1 W c
    | ⟨2, _⟩ => stg2 W c
    | ⟨3, _⟩ => stg3 W c
    | ⟨4, _⟩ => stg4 W c
    | ⟨5, _⟩ => stg5 W c
    | ⟨6, _⟩ => G6
    | ⟨7, _⟩ => G7
  Φ _ := Pipeline.scopedRest (Ix := HIx 1) (Name := ℕ) (U := UU) (Lvl := ℕ) (Val := Elt F) spec0 c
  q _ := fullShare
  owed _ := owedTc (F := F) c
  recorded _ := recTc (F := F) c

/-- The proof data with the results' buffers at the run's witnesses. -/
abbrev dat (c : Dev nD) : Dat τ (Elt F) (HIx 1) ℕ UU ℕ cfg0 c := datG W c (run W c).1.1 (run W c).1.2

/-- The one pipeline's proof data. -/
def pdats : (p : Fin 1) → (c : Dev nD) → Dat τ (Elt F) (HIx 1) ℕ UU ℕ (Pipeline.pin (pcfgs (F := F)) adm p) c
  | ⟨0, _⟩ => fun c => dat W c

abbrev 𝒱R : Variants := Variants.none

/-- A fetched window's buffer holds its array's block when the body runs; an output's what it held. -/
theorem before0 (c : Dev nD) (d) (G6 G7) : (datG W c G6 G7).before 0 t0_0 d = stg0 W c := by unfold Dat.before; rw [if_pos (fetch0_0 _)]; rfl
theorem before1 (c : Dev nD) (d) (G6 G7) : (datG W c G6 G7).before 1 t0_0 d = stg1 W c := by unfold Dat.before; rw [if_pos (fetch0_1 _)]; rfl
theorem before2 (c : Dev nD) (d) (G6 G7) : (datG W c G6 G7).before 2 t0_0 d = stg2 W c := by unfold Dat.before; rw [if_pos (fetch0_2 _)]; rfl
theorem before3 (c : Dev nD) (d) (G6 G7) : (datG W c G6 G7).before 3 t0_0 d = stg3 W c := by unfold Dat.before; rw [if_pos (fetch0_3 _)]; rfl
theorem before4 (c : Dev nD) (d) (G6 G7) : (datG W c G6 G7).before 4 t0_0 d = stg4 W c := by unfold Dat.before; rw [if_pos (fetch0_4 _)]; rfl
theorem before5 (c : Dev nD) (d) (G6 G7) : (datG W c G6 G7).before 5 t0_0 d = stg5 W c := by unfold Dat.before; rw [if_pos (fetch0_5 _)]; rfl

set_option maxRecDepth 8192 in
/-- The library's body obligation: the eight staging buffers and the invariant taken apart, the run applied, its post
    reassembled. -/
theorem body_obligation (c : Dev nD) : BodyObligation (dat W c) (defs₀ (F := F)) 𝒱R none Set.univ := fun t => by
  obtain rfl := fin_N0 t
  rw [bigSep_W0, bigSep_W0]
  simp only [owns_whole_eq]
  rw [show (dat W c).Φ t0_0.succ = (dat W c).Φ t0_0.castSucc from rfl,
    show (dat W c).owesAt none t0_0.succ = (dat W c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩, ⟨%d7, %f7, -, H7⟩⟩
  rw [before0] at hf0; rw [before1] at hf1; rw [before2] at hf2; rw [before3] at hf3; rw [before4] at hf4; rw [before5] at hf5
  subst hf0 hf1 hf2 hf3 hf4 hf5
  iapply ((run W c).2 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat, datG]
  isplitl [H1]; · iexists _; isplitr; swap; (· iexact H1); ipureintro; dsimp only [dat, datG]
  isplitl [H2]; · iexists _; isplitr; swap; (· iexact H2); ipureintro; dsimp only [dat, datG]
  isplitl [H3]; · iexists _; isplitr; swap; (· iexact H3); ipureintro; dsimp only [dat, datG]
  isplitl [H4]; · iexists _; isplitr; swap; (· iexact H4); ipureintro; dsimp only [dat, datG]
  isplitl [H5]; · iexists _; isplitr; swap; (· iexact H5); ipureintro; dsimp only [dat, datG]
  isplitl [H6]; · iexists _; isplitr; swap; (· iexact H6); ipureintro; dsimp only [dat, datG]
  iexists _; isplitr; swap; (· iexact H7); ipureintro; dsimp only [dat, datG]

/-! ## A whole-array window's block is the array -/

/-- The block view of a window over a whole array reads the array's contents, places an index at itself and covers
    every element. -/
theorem blk_idx {w : Fin 8} (x : ((cfg0.win w).xblock (cfg0.grid.coords t0_0)).Idx) (a : Fin (cfg0.win w).shape.rank) :
    (((cfg0.win w).rect t0_0).emb x a).val = (x a).val := by
  show (cfg0.win w).index t0_0 a * (cfg0.win w).size a + 1 * (x a).val = (x a).val
  have h : (cfg0.win w).index t0_0 a = 0 := by fin_cases w <;> rfl
  rw [h]; omega

/-- Each input's staged block is the array at the entry valuation. -/
theorem stg0_eq (c : Dev nD) : stg0 W c = W c main_v2 := by
  funext x
  show W c main_v2 _ = W c main_v2 x
  exact congrArg (W c main_v2) (funext fun a => Fin.ext (blk_idx (w := 0) x a))
theorem stg1_eq (c : Dev nD) : stg1 W c = W c main_v5 := by
  funext x
  show W c main_v5 _ = W c main_v5 x
  exact congrArg (W c main_v5) (funext fun a => Fin.ext (blk_idx (w := 1) x a))
theorem stg2_eq (c : Dev nD) : stg2 W c = W c main_v8 := by
  funext x
  show W c main_v8 _ = W c main_v8 x
  exact congrArg (W c main_v8) (funext fun a => Fin.ext (blk_idx (w := 2) x a))
theorem stg3_eq (c : Dev nD) : stg3 W c = W c main_arg1 := by
  funext x
  show W c main_arg1 _ = W c main_arg1 x
  exact congrArg (W c main_arg1) (funext fun a => Fin.ext (blk_idx (w := 3) x a))
theorem stg4_eq (c : Dev nD) : stg4 W c = W c main_arg2 := by
  funext x
  show W c main_arg2 _ = W c main_arg2 x
  exact congrArg (W c main_arg2) (funext fun a => Fin.ext (blk_idx (w := 4) x a))
theorem stg5_eq (c : Dev nD) : stg5 W c = W c main_arg3 := by
  funext x
  show W c main_arg3 _ = W c main_arg3 x
  exact congrArg (W c main_arg3) (funext fun a => Fin.ext (blk_idx (w := 5) x a))

/-- An output's array after the region is what the body left in its staging buffer. -/
theorem arrAt6 (c : Dev nD) (G6 : FVec F S216x128 .f32) (G7 : IVec S2500x128 32) : (datG W c G6 G7).arrAt 6 cfg0.N = G6 := by
  refine (datG W c G6 G7).arrAt_eq_of_cover 6 _ (fun t _ => ?_) (fun i => ⟨t0_0, flush0_6 _, ?_⟩)
  · obtain rfl := fin_N0 t
    funext x
    show G6 x = G6 _
    exact congrArg G6 (funext fun a => Fin.ext (blk_idx (w := 6) x a).symm)
  · exact Finset.mem_map.mpr ⟨i, Finset.mem_univ _, funext fun a => Fin.ext (blk_idx (w := 6) i a)⟩
theorem arrAt7 (c : Dev nD) (G6 : FVec F S216x128 .f32) (G7 : IVec S2500x128 32) : (datG W c G6 G7).arrAt 7 cfg0.N = G7 := by
  refine (datG W c G6 G7).arrAt_eq_of_cover 7 _ (fun t _ => ?_) (fun i => ⟨t0_0, flush0_7 _, ?_⟩)
  · obtain rfl := fin_N0 t
    funext x
    show G7 x = G7 _
    exact congrArg G7 (funext fun a => Fin.ext (blk_idx (w := 7) x a).symm)
  · exact Finset.mem_map.mpr ⟨i, Finset.mem_univ _, funext fun a => Fin.ext (blk_idx (w := 7) i a)⟩

omit [FloatOps F] in
/-- The TensorCore owes nothing at a kernel's own index. -/
theorem owedTc_none (c : Dev nD) (g : GSem nD τ sig) : owedTc (F := F) c g none = 0 := by
  by_contra h
  exact Nat.not_succ_le_zero _ (SparseCore.Cfg.lev_of_Otc_pos (K := K (F := F)) (d := c) (n := 0) (g := g) (ι := none) (Nat.pos_of_ne_zero h))

/-! ## The region over the thread state -/

variable (Wp : (c : Dev nD) → (b : Ref sig .tc) → Buf (Elt F) ((c : Thread nD τ).loc b))

/-- What the TensorCore owes around the region, as its handshake state holds it: its start signals, its recorded pairs
    at level zero. -/
abbrev owesTc (c : Dev nD) : sProp 𝕄 :=
  iprop(∃ Ws, ⌜(K (F := F)).WBelow (T c) Ws (8 * 0)⌝ ∗ owes (T c) ((K (F := F)).Otc c 0) Ws)

set_option backward.isDefEq.respectTransparency.types false in
/-- The region as a segment: entered from every unscoped buffer at `W c` and the core owing its start signals, left at
    `Wp c` — the two results' arrays at what the body left, every other buffer as it was — owing the same. -/
def reg (hout6 : ∀ c, Wp c main_v9_0 = (run W c).1.1) (hout7 : ∀ c, Wp c main_v9_1 = (run W c).1.2)
    (hne : ∀ c (b : Ref sig .tc), b ≠ main_v9_0 → b ≠ main_v9_1 → Wp c b = W c b) :
    Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_intro (Pipeline.pin (pcfgs (F := F)) adm) (pdats W) none 0 c
    fun w s t => (K (F := F)).mayWait_none (thr := T c) (.dma _) (owedTc_none c)
  pre c := iprop(unscopedBufs c (W c) ∗ owesTc (F := F) c)
  post c := iprop(unscopedBufs c (Wp c) ∗ owesTc (F := F) c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) launch0.win launch0.arr_whole c
      ((pdats W 0 c).share_full fun _ => rfl) (W c) fun _ => rfl
    iintro ⟨⟨Hub, %Ws, %hWs, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Ws; isplitr
      · ipureintro; exact fun p hp => Or.inl (hWs p (Finset.mem_coe.mp hp))
      iexact HO
    isplitr; · iempintro
    iexact Hrest
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (W c) (Wp c) ((pdats W 0 c).arrAt · cfg0.N)
      (fun w => by
        fin_cases w
        · exact ((pdats W 0 c).arrAt_in 0 rfl _).trans (hne c main_v2 (by decide) (by decide)).symm
        · exact ((pdats W 0 c).arrAt_in 1 rfl _).trans (hne c main_v5 (by decide) (by decide)).symm
        · exact ((pdats W 0 c).arrAt_in 2 rfl _).trans (hne c main_v8 (by decide) (by decide)).symm
        · exact ((pdats W 0 c).arrAt_in 3 rfl _).trans (hne c main_arg1 (by decide) (by decide)).symm
        · exact ((pdats W 0 c).arrAt_in 4 rfl _).trans (hne c main_arg2 (by decide) (by decide)).symm
        · exact ((pdats W 0 c).arrAt_in 5 rfl _).trans (hne c main_arg3 (by decide) (by decide)).symm
        · exact (arrAt6 W c _ _).trans (hout6 c).symm
        · exact (arrAt7 W c _ _).trans (hout7 c).symm)
      (fun b hb => hne c b (fun h => hb (h ▸ Finset.mem_image.mpr ⟨6, Finset.mem_univ _, rfl⟩))
        (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%Ws, %hWs, HO⟩
    iexists Ws; isplitr
    · ipureintro
      intro p hp
      rcases hWs (Finset.mem_coe.mpr hp) with h | ⟨w, s, rfl⟩
      · exact h
      · exact Nat.le_of_eq rfl
    iexact HO

/-! ## The step of @main that enters the region -/

set_option backward.isDefEq.respectTransparency.types false in
/-- The TensorCore's call of the region inside the whole program: from the region boundary, every unscoped buffer at
    `W d`, the core owing its start signals, the level facts and the staging cells' ghost state, it runs to the boundary,
    the buffers at `Wp d` and the core owing the same, for whatever follows. -/
theorem region_wp (d : Dev nD) (hout6 : ∀ c, Wp c main_v9_0 = (run W c).1.1) (hout7 : ∀ c, Wp c main_v9_1 = (run W c).1.2)
    (hne : ∀ c (b : Ref sig .tc), b ≠ main_v9_0 → b ≠ main_v9_1 → Wp c b = W c b) (Φ : PUnit → sProp 𝕄) :
    iprop(boundary (T d) ∗ unscopedBufs d (W d) ∗ owesTc (F := F) d ∗ levAts (K (F := F)).L (K (F := F)).lev ∗ regionGhost (F := F) d
        ∗ (iprop(boundary (T d) ∗ unscopedBufs d (Wp d) ∗ owesTc (F := F) d) -∗ Φ ⟨⟩))
      ⊢ wp frame (wpE ((K (F := F)).defs (D (F := F))) 𝒱 (T d) none) Set.univ
          (Prog.lift (.customCall (SparseCore.inner (Pipeline.entry 0)) ())) Φ := by
  iintro ⟨Hb, Hub, HO, #Hlev, HG, Hk⟩
  iapply ((K (F := F)).wp_liftProg (D (F := F)) 𝒱 (T d) Set.univ none (.op (.customCall (Pipeline.entry 0) ()) fun _ => .ret ⟨⟩) Φ)
  unfold regionGhost
  icases HG with ⟨Hcg, Htk⟩
  iapply (Pipeline.RegionSeg.wp (pcfgs (F := F)) adm (pdats W) none phinj EP defs₀ 𝒱₀ (K (F := F)).L (K (F := F)).lev
    (reg W Wp hout6 hout7 hne) d none (fun _ h => nomatch h) (fun _ => .ret ⟨⟩) Φ)
  rw [show (reg W Wp hout6 hout7 hne).post d = iprop(unscopedBufs d (Wp d) ∗ owesTc (F := F) d) from rfl,
    show (reg W Wp hout6 hout7 hne).pre d = iprop(unscopedBufs d (W d) ∗ owesTc (F := F) d) from rfl]
  isplitl [Hk]
  · iintro ⟨Hb, Hpost⟩
    rw [wp_ret]; imodintro
    iapply Hk
    isplitl [Hb]; · iexact Hb
    iexact Hpost
  isplitl [Hb]; · iexact Hb
  isplitl [Hub HO]
  · isplitl [Hub] <;> iassumption
  isplitr; · iexact Hlev
  isplitl [Hcg] <;> iassumption

end Cert.KProof

end
-- ==== Proof.HostValsK.lean ====
/-
  The host operations around the TensorCore region, read at an index. Column `k` of the attribute array, sliced out,
  flattened and folded into rows of 128, holds at (p, q) the attribute `k` of row 128 p + q; and the combined index
  words computed on that layout, flattened again, are the combined index words of the rows. Everything is index by
  index: no extent is ever enumerated.
-/
import Idealize.ShloMosaic.Lib.Pipeline.Value
import Idealize.ShloMosaic.Lib.ValueIdx
import proofs.«203798_g65764539236737_cont_9to1_m_400_20_alg».proof.Proof.KSpec

noncomputable section

namespace Cert.KProof

open Idealize.ShloMosaic Idealize.ShloMosaic.ValueIdx

/-- The attribute array's shape, a column's, the flat shape and the folded one. -/
abbrev SA : Shape := ⟨2, ![320000, 3]⟩
abbrev SC : Shape := ⟨2, ![320000, 1]⟩
abbrev SF : Shape := ⟨1, ![320000]⟩
abbrev SB : Shape := ⟨2, ![2500, 128]⟩

/-- Column `k` of the attribute array as a 2500 × 128 array: the slice at column `k`, its unit axis dropped, the
    320000 words folded into rows of 128. -/
def col (k : ℕ) (a : IVec SA 32) (hs : SA.Slices ![0, k] SC) (h1 : SC.ShapeCasts SF) (h2 : SF.ShapeCasts SB) : IVec SB 32 :=
  shapeCast SB (shapeCast SF (extractStridedSlice SC ![0, k] a hs) h1) h2

/-- At (p, q) it holds attribute `k` of row 128 p + q. -/
theorem col_apply (k : ℕ) (hk : k < 3) (a : IVec SA 32) (hs : SA.Slices ![0, k] SC) (h1 : SC.ShapeCasts SF) (h2 : SF.ShapeCasts SB)
    (p : Fin 2500) (q : Fin 128) :
    col k a hs h1 h2 (ix2 p q) = a (ix2 (⟨128 * p.val + q.val, by omega⟩ : Fin 320000) (⟨k, hk⟩ : Fin 3)) := by
  unfold col
  refine (shapeCast_apply _ h2 (ix2 p q) (ix1 (⟨128 * p.val + q.val, by omega⟩ : Fin 320000)) ?_).trans ?_
  · rw [Shape.rowMajor_val_one, Shape.rowMajor_val_two]
    show 128 * p.val + q.val = p.val * 128 + q.val
    omega
  refine (shapeCast_apply _ h1 (ix1 (⟨128 * p.val + q.val, by omega⟩ : Fin 320000))
    (ix2 (⟨128 * p.val + q.val, by omega⟩ : Fin 320000) (0 : Fin 1)) ?_).trans ?_
  · rw [Shape.rowMajor_val_two, Shape.rowMajor_val_one]
    show (128 * p.val + q.val) * 1 + 0 = 128 * p.val + q.val
    omega
  exact extractStridedSlice_apply _ a hs _ _ fun b => match b with
    | ⟨0, _⟩ => by show 128 * p.val + q.val = 0 + (128 * p.val + q.val); omega
    | ⟨1, _⟩ => by show k = k + 0; omega

variable (a : IVec SA 32) (hs0 : SA.Slices ![0, 0] SC) (hs1 : SA.Slices ![0, 1] SC) (hs2 : SA.Slices ![0, 2] SC)
  (h1 : SC.ShapeCasts SF) (h2 : SF.ShapeCasts SB) (h3 : SB.ShapeCasts SF)

/-- The combined index words on the folded layout: `(x0 * 6 + x1) * 6 + x2` pointwise, in 32-bit arithmetic. -/
def comb (x0 x1 x2 : IVec SB 32) : IVec SB 32 :=
  fun y => IntOp.addi (IntOp.muli (IntOp.addi (IntOp.muli (x0 y) 6#32) (x1 y)) 6#32) (x2 y)

/-- Flattened, the combined index words of the three folded columns are, at row `i`, the combined index word of row `i`. -/
theorem idx_at (i : Fin 320000) :
    shapeCast SF (comb (col 0 a hs0 h1 h2) (col 1 a hs1 h1 h2) (col 2 a hs2 h1 h2)) h3 (ix1 i) = KSpec.idx a (ix1 i) := by
  have hi : i.val < 320000 := i.isLt
  have hp : i.val / 128 < 2500 := by omega
  have hq : i.val % 128 < 128 := Nat.mod_lt _ (by decide)
  refine (shapeCast_apply _ h3 (ix1 i) (ix2 (⟨i.val / 128, hp⟩ : Fin 2500) (⟨i.val % 128, hq⟩ : Fin 128)) ?_).trans ?_
  · rw [Shape.rowMajor_val_two, Shape.rowMajor_val_one]
    show i.val / 128 * 128 + i.val % 128 = i.val
    omega
  have e : (⟨128 * (i.val / 128) + i.val % 128, by omega⟩ : Fin 320000) = i := Fin.ext (by show 128 * (i.val / 128) + i.val % 128 = i.val; omega)
  unfold comb
  rw [col_apply 0 (by decide), col_apply 1 (by decide), col_apply 2 (by decide)]
  show IntOp.addi (IntOp.muli (IntOp.addi (IntOp.muli (a (ix2 (⟨128 * (i.val / 128) + i.val % 128, _⟩ : Fin 320000) (⟨0, _⟩ : Fin 3))) 6#32)
    (a (ix2 (⟨128 * (i.val / 128) + i.val % 128, _⟩ : Fin 320000) (⟨1, _⟩ : Fin 3)))) 6#32) (a (ix2 (⟨128 * (i.val / 128) + i.val % 128, _⟩ : Fin 320000) (⟨2, _⟩ : Fin 3))) = _
  rw [e]
  rfl

/-- As one equation between functions of the row. -/
theorem idx_eq :
    shapeCast SF (comb (col 0 a hs0 h1 h2) (col 1 a hs1 h1 h2) (col 2 a hs2 h1 h2)) h3 = KSpec.idx a := by
  funext r
  rw [eq_ix1 r]
  exact idx_at a hs0 hs1 hs2 h1 h2 h3 (r 0)

end Cert.KProof

end
-- ==== Proof.TcValsK.lean ====
/-
  What the TensorCore kernel's body leaves in its two outputs: the table of 216 rows, each slab of six rows the third
  table plus one row of the first plus one row of the second; and the combined index words, pointwise.
-/
import proofs.«203798_g65764539236737_cont_9to1_m_400_20_alg».proof.Proof.TcBodyK
import proofs.«203798_g65764539236737_cont_9to1_m_400_20_alg».proof.Proof.HostValsK
import Idealize.ShloMosaic.Lib.Ring
import Idealize.ShloMosaic.Lib.Pipeline.Value
import Idealize.ShloMosaic.Lib.ValueLayout

noncomputable section

namespace Cert.KProof

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ValueIdx

omit [FloatOps F] in
theorem exists_ix2 {n0 n1 : ℕ} (x : (⟨2, ![n0, n1]⟩ : Shape).Idx) : ∃ (p : Fin n0) (c : Fin n1), x = ix2 p c := ⟨x 0, x 1, eq_ix2 x⟩

omit [FloatOps F] in
theorem ix2_ext {n0 n1 : ℕ} (a a' : Fin n0) (b b' : Fin n1) (ha : a.val = a'.val) (hb : b.val = b'.val) : ix2 a b = ix2 a' b' := by
  rw [Fin.ext ha, Fin.ext hb]

omit [FloatOps F] in
/-- A load of row `i` of the first table's staging buffer reads, at column `c`, the contents at (i, c). -/
theorem row_read3 (e : FVec F S6x128 .f32) (i : ℕ) (inb : ∀ a, (![i, 0] : Fin 2 → ℕ) a + (![1, 128] : Fin 2 → ℕ) a ≤ S6x128.size a) (c : Fin 128) :
    View.readAt (Elt F) (View.whole cc0_stg3_0) (Rect.unit (s := S6x128) ![i, 0] ![1, 128] inb).toLoadRect e (ix2 (0 : Fin 1) c)
      = e (ix2 (⟨i, Nat.lt_of_succ_le (inb 0)⟩ : Fin 6) c) := by
  show e _ = e _
  congr 1
  funext a
  match a with
  | ⟨0, _⟩ => exact Fin.ext (by show i + 1 * 0 = i; omega)
  | ⟨1, _⟩ => exact Fin.ext (by show 0 + 1 * c.val = c.val; omega)

omit [FloatOps F] in
/-- The same of the second table's. -/
theorem row_read4 (e : FVec F S6x128 .f32) (i : ℕ) (inb : ∀ a, (![i, 0] : Fin 2 → ℕ) a + (![1, 128] : Fin 2 → ℕ) a ≤ S6x128.size a) (c : Fin 128) :
    View.readAt (Elt F) (View.whole cc0_stg4_0) (Rect.unit (s := S6x128) ![i, 0] ![1, 128] inb).toLoadRect e (ix2 (0 : Fin 1) c)
      = e (ix2 (⟨i, Nat.lt_of_succ_le (inb 0)⟩ : Fin 6) c) := by
  show e _ = e _
  congr 1
  funext a
  match a with
  | ⟨0, _⟩ => exact Fin.ext (by show i + 1 * 0 = i; omega)
  | ⟨1, _⟩ => exact Fin.ext (by show 0 + 1 * c.val = c.val; omega)

omit [FloatOps F] in
/-- A load of the whole third table's staging buffer reads its contents. -/
theorem tile_read5 (e : FVec F S6x128 .f32) (inb : ∀ a, (![0, 0] : Fin 2 → ℕ) a + (![6, 128] : Fin 2 → ℕ) a ≤ S6x128.size a) (p : Fin 6) (c : Fin 128) :
    View.readAt (Elt F) (View.whole cc0_stg5_0) (Rect.unit (s := S6x128) ![0, 0] ![6, 128] inb).toLoadRect e (ix2 p c) = e (ix2 p c) := by
  show e _ = e _
  congr 1
  funext a
  match a with
  | ⟨0, _⟩ => exact Fin.ext (by show 0 + 1 * p.val = p.val; omega)
  | ⟨1, _⟩ => exact Fin.ext (by show 0 + 1 * c.val = c.val; omega)

/-- The slab of six rows stored at row offset `36 i0 + 6 i1` is the table's there. -/
theorem tab_piece (e0 e1 e2 : FVec F S6x128 .f32) (i0 i1 : Fin 6) (o : ℕ) (ho : o = 36 * i0.val + 6 * i1.val)
    (inb : ∀ a, (![o, 0] : Fin 2 → ℕ) a + (![6, 128] : Fin 2 → ℕ) a ≤ S216x128.size a) (p : Fin 6) (c : Fin 128) :
    FloatOps.addf (FloatOps.addf (e2 (ix2 p c)) (e0 (ix2 i0 c))) (e1 (ix2 i1 c))
      = KSpec.tab e0 e1 e2 ((Rect.unit (s := S216x128) ![o, 0] ![6, 128] inb).emb (ix2 p c)) := by
  subst ho
  have hp := p.isLt
  have h0 := i0.isLt
  have h1 := i1.isLt
  have k0 : (((Rect.unit (s := S216x128) ![36 * i0.val + 6 * i1.val, 0] ![6, 128] inb).emb (ix2 p c)) 0).val = 36 * i0.val + 6 * i1.val + 1 * p.val := rfl
  have k1 : (((Rect.unit (s := S216x128) ![36 * i0.val + 6 * i1.val, 0] ![6, 128] inb).emb (ix2 p c)) 1).val = 0 + 1 * c.val := rfl
  unfold KSpec.tab
  refine congrArg₂ FloatOps.addf (congrArg₂ FloatOps.addf (congrArg e2 ?_) (congrArg e0 ?_)) (congrArg e1 ?_)
  · exact ix2_ext _ _ _ _ (by show p.val = _ % 6; rw [k0]; omega) (by show c.val = _; rw [k1]; omega)
  · exact ix2_ext _ _ _ _ (by show i0.val = _ / 36; rw [k0]; omega) (by show c.val = _; rw [k1]; omega)
  · exact ix2_ext _ _ _ _ (by show i1.val = _ / 6 % 6; rw [k0]; omega) (by show c.val = _; rw [k1]; omega)

omit [FloatOps F] in
/-- What a list of stores through a whole buffer's own view leaves, at an element some store covers, when every store's
    payload is its rectangle of one function `G`: `G` there. -/
theorem whole_writes_apply {κ : Kind} {b : Ref sig κ} (Val : EltTy → Type) (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (hc : ∃ p ∈ L, y ∈ p.1.set) : (View.whole b).writes Val f L y = G y :=
  View.read_writes_apply_of_pieces (v := View.whole b) (f := f) G L hG y hc

/-- One slab's payload against the table: the payload unfolded to its three reads, then the table at the slab's rows. -/
macro "tab_slab" : tactic => `(tactic| (
  intro x
  obtain ⟨p, c, hx⟩ := exists_ix2 x
  subst hx
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, Idealize.ShloMosaic.addf, broadcastTo_1b_ab_apply, shapeCast_shapeCast, row_read3, row_read4, tile_read5]
  refine tab_piece _ _ _ _ _ _ ?_ _ p c
  rfl))

set_option maxHeartbeats 4000000 in
/-- The body leaves the table in the first output's buffer. -/
theorem tcRun_tab (d : Dev nD) (x0 x1 x2 : IVec S2500x128 32) (e0 e1 e2 : FVec F S6x128 .f32) :
    ((tcRunAt d x0 x1 x2 e0 e1 e2).1.1 : FVec F S216x128 .f32) = KSpec.tab e0 e1 e2 := by
  unfold tcRunAt tcRun
  dsimp only
  sl_unfold_run_names
  funext y
  refine whole_writes_apply (b := cc0_stg6_0) (Elt F) _ (KSpec.tab e0 e1 e2) _ ?_ y (View.cover_of_tiledL _ ![6, 128] (by sl_kernel_rfl) y)
  repeat' (first | exact List.forall_mem_nil _ | refine List.forall_mem_cons.mpr ⟨by tab_slab, ?_⟩)

omit [FloatOps F] in
/-- A load of a whole index staging buffer reads its contents. -/
theorem whole_read0 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg0_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))
omit [FloatOps F] in
theorem whole_read1 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg1_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))
omit [FloatOps F] in
theorem whole_read2 (f : IVec S2500x128 32) (inb : ∀ a, (![0, 0] : Fin 2 → ℕ) a + (![2500, 128] : Fin 2 → ℕ) a ≤ S2500x128.size a) (p : Fin 2500) (c : Fin 128) :
    View.readAt (Elt F) (View.whole cc0_stg2_0) (Rect.unit (s := S2500x128) ![0, 0] ![2500, 128] inb).toLoadRect f (ix2 p c) = f (ix2 p c) := by
  show f _ = f _
  exact congrArg f (funext fun a => match a with
    | ⟨0, _⟩ => Fin.ext (by show 0 + 1 * p.val = p.val; omega)
    | ⟨1, _⟩ => Fin.ext (by show 0 + 1 * c.val = c.val; omega))

omit [FloatOps F] in
/-- The whole-shape rectangle at zero offsets places an index at itself. -/
theorem emb_zero (inb : ∀ a, (![0, 0] : Fin 2 → ℕ) a + (![2500, 128] : Fin 2 → ℕ) a ≤ S2500x128.size a) (p : Fin 2500) (c : Fin 128) :
    (Rect.unit (s := S2500x128) ![0, 0] ![2500, 128] inb).emb (ix2 p c) = ix2 p c :=
  funext fun a => match a with
    | ⟨0, _⟩ => Fin.ext (by show 0 + 1 * p.val = p.val; omega)
    | ⟨1, _⟩ => Fin.ext (by show 0 + 1 * c.val = c.val; omega)

/-- The body leaves the combined index words in the second output's buffer. -/
theorem tcRun_idx (d : Dev nD) (x0 x1 x2 : IVec S2500x128 32) (e0 e1 e2 : FVec F S6x128 .f32) :
    ((tcRunAt d x0 x1 x2 e0 e1 e2).1.2 : IVec S2500x128 32) = comb x0 x1 x2 := by
  unfold tcRunAt tcRun
  dsimp only
  sl_unfold_run_names
  funext y
  refine whole_writes_apply (b := cc0_stg7_0) (Elt F) _ (comb x0 x1 x2) _ ?_ y ?_
  · refine List.forall_mem_cons.mpr ⟨?_, List.forall_mem_nil _⟩
    intro x
    obtain ⟨p, c, rfl⟩ := exists_ix2 x
    simp only [k0_pay3, Idealize.ShloMosaic.muli, Idealize.ShloMosaic.addi, Idealize.ShloMosaic.broadcast, shapeCast_self, whole_read0, whole_read1, whole_read2]
    refine Eq.trans ?_ (congrArg (comb x0 x1 x2) (emb_zero inb_S2500x128_S2500x128_0_0 p c).symm)
    rfl
  · exact ⟨_, List.mem_cons_self, View.mem_set_unit_zero (S := S2500x128) (off := ![0, 0]) (by funext a; fin_cases a <;> rfl) inb_S2500x128_S2500x128_0_0 y⟩

end Cert.KProof

end
-- ==== Proof.HmainValsK.lean ====
/-
  The TensorCore's buffers along @main, as valuations: after the nine host operations that lay the three attribute
  columns out in rows of 128, after the region, after the reshape that flattens the index words; and what each array the
  SparseCore call reads holds then, as a function of the arguments.
-/
import proofs.«203798_g65764539236737_cont_9to1_m_400_20_alg».proof.Proof.RegionK
import proofs.«203798_g65764539236737_cont_9to1_m_400_20_alg».proof.Proof.TcValsK
import proofs.«203798_g65764539236737_cont_9to1_m_400_20_alg».proof.Proof.LaunchK

noncomputable section

namespace Cert.KProof

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after launchContents)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The host operations and the valuations they leave -/

abbrev opS0 : HloOp τ sig (Elt F) := StableHlo.unary main_arg0 main_v0 ((extractStridedSlice S320000x1 ![0, 0] · slices_S320000x3_S320000x1_0_0) : (⟨S320000x3, .i32⟩ : BufTy).Contents (Elt F) → (⟨S320000x1, .i32⟩ : BufTy).Contents (Elt F))
abbrev opF0 : HloOp τ sig (Elt F) := StableHlo.reshape main_v0 main_v1 rfl shapeCasts_S320000x1_S320000
abbrev opR0 : HloOp τ sig (Elt F) := StableHlo.reshape main_v1 main_v2 rfl shapeCasts_S320000_S2500x128
abbrev opS1 : HloOp τ sig (Elt F) := StableHlo.unary main_arg0 main_v3 ((extractStridedSlice S320000x1 ![0, 1] · slices_S320000x3_S320000x1_0_1) : (⟨S320000x3, .i32⟩ : BufTy).Contents (Elt F) → (⟨S320000x1, .i32⟩ : BufTy).Contents (Elt F))
abbrev opF1 : HloOp τ sig (Elt F) := StableHlo.reshape main_v3 main_v4 rfl shapeCasts_S320000x1_S320000
abbrev opR1 : HloOp τ sig (Elt F) := StableHlo.reshape main_v4 main_v5 rfl shapeCasts_S320000_S2500x128
abbrev opS2 : HloOp τ sig (Elt F) := StableHlo.unary main_arg0 main_v6 ((extractStridedSlice S320000x1 ![0, 2] · slices_S320000x3_S320000x1_0_2) : (⟨S320000x3, .i32⟩ : BufTy).Contents (Elt F) → (⟨S320000x1, .i32⟩ : BufTy).Contents (Elt F))
abbrev opF2 : HloOp τ sig (Elt F) := StableHlo.reshape main_v6 main_v7 rfl shapeCasts_S320000x1_S320000
abbrev opR2 : HloOp τ sig (Elt F) := StableHlo.reshape main_v7 main_v8 rfl shapeCasts_S320000_S2500x128
abbrev opIdx : HloOp τ sig (Elt F) := StableHlo.reshape main_v9_1 main_v10 rfl shapeCasts_S2500x128_S320000

/-- The nine operations before the region, in @main's order. -/
abbrev hostOps : List (HloOp τ sig (Elt F)) := [opS0, opF0, opR0, opS1, opF1, opR1, opS2, opF2, opR2]

/-- The TensorCore's buffers after them. -/
def V9 (c : Dev nD) : Valuation τ sig (Elt F) := after (hostOps (F := F)) (launchContents m c)

/-- The same as the region's entry valuation. -/
abbrev W9 (c : Dev nD) (b : Ref sig .tc) : Buf (Elt F) ((c : Thread nD τ).loc b) := V9 m c (Proc.devRef .tc b)

theorem V9_v2 (c : Dev nD) : (V9 m c (Proc.devRef .tc main_v2) : IVec S2500x128 32)
    = col 0 (m (aLoc c)) slices_S320000x3_S320000x1_0_0 shapeCasts_S320000x1_S320000 shapeCasts_S320000_S2500x128 := by
  dsimp only [V9, hostOps]; after_results; rfl
theorem V9_v5 (c : Dev nD) : (V9 m c (Proc.devRef .tc main_v5) : IVec S2500x128 32)
    = col 1 (m (aLoc c)) slices_S320000x3_S320000x1_0_1 shapeCasts_S320000x1_S320000 shapeCasts_S320000_S2500x128 := by
  dsimp only [V9, hostOps]; after_results; rfl
theorem V9_v8 (c : Dev nD) : (V9 m c (Proc.devRef .tc main_v8) : IVec S2500x128 32)
    = col 2 (m (aLoc c)) slices_S320000x3_S320000x1_0_2 shapeCasts_S320000x1_S320000 shapeCasts_S320000_S2500x128 := by
  dsimp only [V9, hostOps]; after_results; rfl
theorem V9_arg0 (c : Dev nD) : V9 m c (Proc.devRef .tc main_arg0) = m (aLoc c) := by
  dsimp only [V9, hostOps]; after_results
theorem V9_arg1 (c : Dev nD) : V9 m c (Proc.devRef .tc main_arg1) = m (e0Loc c) := by
  dsimp only [V9, hostOps]; after_results
theorem V9_arg2 (c : Dev nD) : V9 m c (Proc.devRef .tc main_arg2) = m (e1Loc c) := by
  dsimp only [V9, hostOps]; after_results
theorem V9_arg3 (c : Dev nD) : V9 m c (Proc.devRef .tc main_arg3) = m (e2Loc c) := by
  dsimp only [V9, hostOps]; after_results
theorem V9_v11 (c : Dev nD) : V9 m c (Proc.devRef .tc main_v11) = m (outLoc c) := by
  dsimp only [V9, hostOps]; after_results

/-! ## Through the region and the last reshape -/

/-- The buffers after the region: the two results' arrays at what the body left, every other buffer as it was. -/
def VR (c : Dev nD) : Valuation τ sig (Elt F) :=
  Function.update (Function.update (V9 m c) (Proc.devRef .tc main_v9_0) (run (W9 m) c).1.1) (Proc.devRef .tc main_v9_1) (run (W9 m) c).1.2

abbrev WR (c : Dev nD) (b : Ref sig .tc) : Buf (Elt F) ((c : Thread nD τ).loc b) := VR m c (Proc.devRef .tc b)

theorem WR_out6 (c : Dev nD) : WR m c main_v9_0 = (run (W9 m) c).1.1 := by
  show VR m c (Proc.devRef .tc main_v9_0) = _
  unfold VR; rw [Function.update_of_ne (by decide), Function.update_self]
theorem WR_out7 (c : Dev nD) : WR m c main_v9_1 = (run (W9 m) c).1.2 := by
  show VR m c (Proc.devRef .tc main_v9_1) = _
  unfold VR; rw [Function.update_self]
theorem WR_ne (c : Dev nD) (b : Ref sig .tc) (h6 : b ≠ main_v9_0) (h7 : b ≠ main_v9_1) : WR m c b = W9 m c b := by
  show VR m c (Proc.devRef .tc b) = V9 m c (Proc.devRef .tc b)
  unfold VR
  rw [Function.update_of_ne (fun h => h7 (Proc.devRef_injective _ h)), Function.update_of_ne (fun h => h6 (Proc.devRef_injective _ h))]

/-- The buffers after the last reshape. -/
def V11 (c : Dev nD) : Valuation τ sig (Elt F) := (opIdx (F := F)).result (VR m c)

/-- The table's array holds the table of the three argument tables. -/
theorem V11_tab (c : Dev nD) : V11 m c (Proc.devRef .tc main_v9_0) = tabOf m c := by
  have h : V11 m c (Proc.devRef .tc main_v9_0) = WR m c main_v9_0 := by
    unfold V11; rw [StableHlo.reshape_result_ne']; decide
  rw [h, WR_out6]
  refine (tcRun_tab c _ _ _ _ _ _).trans ?_
  rw [stg3_eq, stg4_eq, stg5_eq]
  show KSpec.tab (V9 m c (Proc.devRef .tc main_arg1)) (V9 m c (Proc.devRef .tc main_arg2)) (V9 m c (Proc.devRef .tc main_arg3)) = _
  rw [V9_arg1, V9_arg2, V9_arg3]

/-- The flat index array holds the combined index words of the rows. -/
theorem V11_idx (c : Dev nD) : V11 m c (Proc.devRef .tc main_v10) = idxOf m c := by
  have h : V11 m c (Proc.devRef .tc main_v10) = shapeCast S320000 (WR m c main_v9_1 : IVec S2500x128 32) shapeCasts_S2500x128_S320000 := by
    unfold V11; rw [StableHlo.reshape_result']; rfl
  rw [h, WR_out7]
  rw [show ((run (W9 m) c).1.2 : IVec S2500x128 32) = comb (stg0 (W9 m) c) (stg1 (W9 m) c) (stg2 (W9 m) c) from tcRun_idx c _ _ _ _ _ _,
    stg0_eq, stg1_eq, stg2_eq]
  show shapeCast SF (comb (V9 m c (Proc.devRef .tc main_v2) : IVec S2500x128 32) (V9 m c (Proc.devRef .tc main_v5) : IVec S2500x128 32) (V9 m c (Proc.devRef .tc main_v8) : IVec S2500x128 32)) _ = _
  rw [V9_v2, V9_v5, V9_v8]
  exact idx_eq _ _ _ _ _ _ _

theorem V11_of_ne (c : Dev nD) (b : Ref sig .tc) (h6 : b ≠ main_v9_0) (h7 : b ≠ main_v9_1) (h10 : b ≠ main_v10) :
    V11 m c (Proc.devRef .tc b) = V9 m c (Proc.devRef .tc b) := by
  have h : V11 m c (Proc.devRef .tc b) = WR m c b := by
    unfold V11; rw [StableHlo.reshape_result_ne']; exact h10
  rw [h, WR_ne m c b h6 h7]

/-! ## The arrays the SparseCore call is handed, and what is left at the end -/

/-- After the last reshape the TensorCore holds, among its buffers, the four arguments as launched, the table, the flat
    index words and the result array as launched. -/
theorem final_enum (d : Dev nD) :
    (held (T d) (ucRefs τ sig) (V11 m d) : sProp 𝕄)
      ⊢ iprop((aLoc d ↦{fullShare} m (aLoc d)) ∗ (e0Loc d ↦{fullShare} m (e0Loc d)) ∗ (e1Loc d ↦{fullShare} m (e1Loc d))
          ∗ (e2Loc d ↦{fullShare} m (e2Loc d)) ∗ (tabLoc d ↦{fullShare} tabOf m d) ∗ (idxLoc d ↦{fullShare} idxOf m d)
          ∗ outLoc d ↦{fullShare} m (outLoc d)) := by
  rw [← unscopedBufs_held d (V11 m d), Pipeline.unscopedBufs_split cfgs 0 launch0.win.arr_unscoped launch0.win.arr_inj d,
    bigSep_W0, unscopedRest0_eq]
  iintro ⟨⟨-, -, -, H1, H2, H3, Htab, -⟩, H0, -, -, -, -, -, -, Hidx, Hout⟩
  isplitl [H0]
  · iapply (Entails.of_eq (congrArg (fun f => (aLoc d ↦{fullShare} f : sProp 𝕄)) ((V11_of_ne m d main_arg0 (by decide) (by decide) (by decide)).trans (V9_arg0 m d)))); iexact H0
  isplitl [H1]
  · iapply (Entails.of_eq (congrArg (fun f => (e0Loc d ↦{fullShare} f : sProp 𝕄)) ((V11_of_ne m d main_arg1 (by decide) (by decide) (by decide)).trans (V9_arg1 m d)))); iexact H1
  isplitl [H2]
  · iapply (Entails.of_eq (congrArg (fun f => (e1Loc d ↦{fullShare} f : sProp 𝕄)) ((V11_of_ne m d main_arg2 (by decide) (by decide) (by decide)).trans (V9_arg2 m d)))); iexact H2
  isplitl [H3]
  · iapply (Entails.of_eq (congrArg (fun f => (e2Loc d ↦{fullShare} f : sProp 𝕄)) ((V11_of_ne m d main_arg3 (by decide) (by decide) (by decide)).trans (V9_arg3 m d)))); iexact H3
  isplitl [Htab]
  · iapply (Entails.of_eq (congrArg (fun f => (tabLoc d ↦{fullShare} f : sProp 𝕄)) (V11_tab m d))); iexact Htab
  isplitl [Hidx]
  · iapply (Entails.of_eq (congrArg (fun f => (idxLoc d ↦{fullShare} f : sProp 𝕄)) (V11_idx m d))); iexact Hidx
  iapply (Entails.of_eq (congrArg (fun f => (outLoc d ↦{fullShare} f : sProp 𝕄)) ((V11_of_ne m d main_v11 (by decide) (by decide) (by decide)).trans (V9_v11 m d)))); iexact Hout

/-- The table and the index words held whole and the result array whole at `f` are the two cores' operands. -/
theorem cores_eq (d : Dev nD) (f : Buf (Elt F) (outLoc d)) :
    (bigSep Finset.univ fun c : Fin ((K (F := F)).nCore 0) => corePts m d (cF c) f)
      = iprop(((tabLoc d ↦{fullShare} tabOf m d) ∗ (idxLoc d ↦{fullShare} idxOf m d)) ∗ outLoc d ↦{fullShare} f) := by
  rw [show (bigSep Finset.univ fun c : Fin ((K (F := F)).nCore 0) => corePts m d (cF c) f)
      = bigSep Finset.univ fun c : Fin 2 => corePts m d c f from rfl]
  unfold corePts
  rw [bigSep_sep', bigSep_sep', ← BI.equiv_iff.mp ⟨(pts_halves (ℓ := tabLoc d) (tabOf m d)).mp, (pts_halves (ℓ := tabLoc d) (tabOf m d)).mpr⟩,
    ← BI.equiv_iff.mp ⟨(pts_halves (ℓ := idxLoc d) (idxOf m d)).mp, (pts_halves (ℓ := idxLoc d) (idxOf m d)).mpr⟩, ← out_cores d f]
  have h1 : iprop((tabLoc d ↦{fullShare} tabOf m d) ∗ (idxLoc d ↦{fullShare} idxOf m d) ∗ outLoc d ↦{fullShare} f)
      ⊢ (iprop(((tabLoc d ↦{fullShare} tabOf m d) ∗ (idxLoc d ↦{fullShare} idxOf m d)) ∗ outLoc d ↦{fullShare} f) : sProp 𝕄) := by
    iintro ⟨Ht, Hi, Ho⟩
    isplitl [Ht Hi]
    · isplitl [Ht] <;> iassumption
    iexact Ho
  have h2 : iprop(((tabLoc d ↦{fullShare} tabOf m d) ∗ (idxLoc d ↦{fullShare} idxOf m d)) ∗ outLoc d ↦{fullShare} f)
      ⊢ (iprop((tabLoc d ↦{fullShare} tabOf m d) ∗ (idxLoc d ↦{fullShare} idxOf m d) ∗ outLoc d ↦{fullShare} f) : sProp 𝕄) := by
    iintro ⟨⟨Ht, Hi⟩, Ho⟩
    isplitl [Ht]; · iexact Ht
    isplitl [Hi] <;> iassumption
  exact BI.equiv_iff.mp ⟨h1, h2⟩

/-- What the launch deals the TensorCore of its unscoped buffers, as a set held at the launch contents. -/
theorem launch_held (d : Dev nD) :
    (unscopedBufs d (fun b => m ((SparseCore.T d).loc b)) : sProp 𝕄) = held (SparseCore.T d) (ucRefs τ sig) (launchContents m d) :=
  unscopedBufs_held d (launchContents m d)

/-- The TensorCore's state before the call opens with what it owes. -/
theorem tcSt0_split (d : Dev nD) : ∃ R : sProp 𝕄, (K (F := F)).tcSt EH d 0 = iprop(owesTc (F := F) d ∗ R) :=
  ⟨_, by unfold SparseCore.Cfg.tcSt; rfl⟩

end Cert.KProof

end
-- ==== Proof.HmainK.lean ====
/-
  @main on the TensorCore: the nine host operations that lay the three attribute columns out in rows of 128, the region
  that builds the table and the combined index words, the reshape that flattens the index words, the SparseCore call, —
  from what the launch deals the TensorCore to the four arguments unchanged and the result array holding the result.
-/
import proofs.«203798_g65764539236737_cont_9to1_m_400_20_alg».proof.Proof.HmainValsK

noncomputable section

namespace Cert.KProof

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after launchContents)
open Idealize.ShloMosaic.Pipeline (ucRefs unscopedBufs_held sub_ucRefs)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## @main -/

set_option maxHeartbeats 1600000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt0_split (F := F) d
  unfold SparseCore.Cfg.tcRes
  rw [hR, launch_held m d]
  simp only [main, wp_bind, wp_pure]
  iintro ⟨#Hctx, ⟨HO, HR⟩, ⟨Hb, Hh, -, -⟩, HG⟩
  -- the nine host operations
  iapply (wp_hlo_within 𝒱 (T d) none Set.univ (op := opS0 (F := F)) (S := ucRefs τ sig) (sub_ucRefs _ (by simp)) (V := launchContents m d)) $$ [Hb Hh]
  · isplitl [Hb] <;> iassumption
  iintro ⟨Hb, Hh⟩; rw [wp_ret]; imodintro
  iapply (wp_hlo_within 𝒱 (T d) none Set.univ (op := opF0 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR0 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opS1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opF1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR1 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opS2 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opF2 (F := F)) (S := ucRefs τ sig) (sub_ucRefs _ (by simp))) $$ [Hb Hh]
  · isplitl [Hb] <;> iassumption
  iintro ⟨Hb, Hh⟩; rw [wp_ret]; imodintro
  iapply (wp_hlo_within 𝒱 (T d) none Set.univ (op := opR2 (F := F)) (S := ucRefs τ sig) (sub_ucRefs _ (by simp))) $$ [Hb Hh]
  · isplitl [Hb] <;> iassumption
  iintro ⟨Hb, Hh⟩; rw [wp_ret]; imodintro
  -- the region
  have hV9 : (held (SparseCore.T d) (ucRefs τ sig) ((opR2 (F := F)).result ((opF2 (F := F)).result ((opS2 (F := F)).result ((opR1 (F := F)).result ((opF1 (F := F)).result ((opS1 (F := F)).result ((opR0 (F := F)).result ((opF0 (F := F)).result ((opS0 (F := F)).result (launchContents m d)))))))))) : sProp 𝕄) ⊢ unscopedBufs d (W9 m d) :=
    Entails.of_eq (unscopedBufs_held (Ix := HIx 1) (Name := ℕ) (U := UU) (Lvl := ℕ) d (V9 m d)).symm
  ihave Hub := hV9 $$ Hh
  ihave Hlev := (SparseCore.Cfg.ctx_levAts κ) $$ Hctx
  iapply (region_wp (W9 m) (WR m) d (WR_out6 m) (WR_out7 m) (WR_ne m) _)
  isplitl [Hb]; · iexact Hb
  isplitl [Hub]; · iexact Hub
  isplitl [HO]; · iexact HO
  isplitl [Hlev]; · iexact Hlev
  isplitl [HG]; · iexact HG
  iintro ⟨Hb, Hub, HO⟩
  ihave Hh := (Entails.of_eq (unscopedBufs_held (Ix := HIx 1) (Name := ℕ) (U := UU) (Lvl := ℕ) d (VR m d))) $$ Hub
  -- the index words flattened
  iapply (wp_hlo_within 𝒱 (T d) none Set.univ (op := opIdx (F := F)) (S := ucRefs τ sig) (sub_ucRefs _ (by simp)) (V := VR m d)) $$ [Hb Hh]
  · isplitl [Hb] <;> iassumption
  iintro ⟨Hb, Hh⟩; rw [wp_ret]; imodintro
  have hV11 : (held (SparseCore.T d) (ucRefs τ sig) ((opIdx (F := F)).result (VR m d)) : sProp 𝕄) ⊢ _ := final_enum m d
  ihave Hfin := hV11 $$ Hh
  icases Hfin with ⟨Ha, H0, H1, H2, Htab, Hidx, Hout⟩
  -- the SparseCore call
  iapply ((K (F := F)).wp_run (D (F := F)) 𝒱 (EH := EH) (P := P m) κ d 0)
  isplitr; · iexact Hctx
  isplitl [HO HR]
  · iapply (Entails.of_eq hR.symm); isplitl [HO] <;> iassumption
  isplitl [Htab Hidx Hout]
  · iapply (Entails.of_eq (cores_eq m d (m (outLoc d))).symm)
    isplitl [Htab Hidx]; (· isplitl [Htab] <;> iassumption)
    iexact Hout
  iintro ⟨Hst, Hdn⟩
  have hdn : (bigSep Finset.univ fun c : Fin ((K (F := F)).nCore 0) => (P m).dn 0 d c)
      ⊢ (iprop(((tabLoc d ↦{fullShare} tabOf m d) ∗ (idxLoc d ↦{fullShare} idxOf m d)) ∗ outLoc d ↦{fullShare} resOf m d) : sProp 𝕄) :=
    Entails.of_eq (cores_eq m d (resOf m d))
  ihave Hdn' := hdn $$ Hdn
  icases Hdn' with ⟨-, Hout⟩
  imodintro
  isplitl [Hst]; · iexact Hst
  isplitl [Ha]; · iexact Ha
  isplitl [H0]; · iexact H0
  isplitl [H1]; · iexact H1
  isplitl [H2]; · iexact H2
  iexact Hout

end Cert.KProof

end
-- ==== Proof.RefRun.lean ====
/-
  The reference program's run, read back.

  The reference computes, from the index array a : [320000, 3] and three tables e0, e1, e2 : [6, 128], the array
  zeros + take(e0, a[:, 0]) + take(e1, a[:, 1]) + take(e2, a[:, 2]). Each take is a function the compiler outlined and
  then inlines at its call: it wraps a negative index by adding 6 (a select that is itself an outlined function), tests
  0 ≤ index ≤ 5, gathers the table's rows at the indices, and keeps a gathered row where the test holds and a fill
  value where it does not. Listed with each call's operations in place of the call, the program is a straight line of
  80 operations, each writing one buffer of its own. Hence every weakly fair execution terminates, the result buffer
  ends at the composition `refTerm` of those operations applied to the arguments, and the arguments end unchanged.
-/
import proofs.«203798_g65764539236737_cont_9to1_m_400_20_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The operations' composition -/

/-- Column k of the index array as a vector: the slice [0:320000, k:k+1] reshaped to [320000]. -/
def col (k : Nat) (h : S320000x3.Slices ![0, k] S320000x1) (a : IVec S320000x3 32) : IVec S320000 32 :=
  shapeCast S320000 (extractStridedSlice S320000x1 ![0, k] a h) shapeCasts_S320000x1_S320000

/-- The start indices of one take: an index below zero has 6 added, the others are kept; as a column [320000, 1]. -/
def takeIdx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 6#32))) idx)

/-- The test of one take, 0 ≤ start index ≤ 5, reduced by `and` along the column axis and repeated along the lanes. -/
def takeMask (v : IVec S320000x1 32) : IVec S320000x128 1 :=
  broadcastInDim S320000x128 ![0] bcast_S320000_S320000x128_0
    (Host.reduce IntOp.andi
      (andi (cmpi .sge v (broadcastInDim S320000x1 ![] bcast_S_S320000x1 (constantI S_ 32 0#32)))
        (cmpi .sle v (broadcastInDim S320000x1 ![0, 1] bcast_S1x1_S320000x1_0_1
          (broadcastInDim S1x1 ![1] bcast_S1_S1x1_1 (constantI S1 32 5#32)))))
      (constantI S_ 1 1#1) reducesTo_S320000x1_S320000_d1 h_S_)

/-- One take: the table's rows gathered at the start indices, kept where the test holds, the fill value elsewhere. -/
def take (e : FVec F S6x128 .f32) (idx : IVec S320000 32) : FVec F S320000x128 .f32 :=
  select (takeMask (takeIdx idx))
    (Host.gather gather_S6x128_S320000x1_S320000x128_1_0_n_n_0_1_1128 e (takeIdx idx))
    (broadcastInDim S320000x128 ![] bcast_S_S320000x128 (constant S_ .f32 0x7FC00000#32))

/-- The whole program: zeros, then the three takes added on one after the other. -/
def refTerm (a : IVec S320000x3 32) (e0 e1 e2 : FVec F S6x128 .f32) : FVec F S320000x128 .f32 :=
  addf (addf (addf (broadcastInDim S320000x128 ![] bcast_S_S320000x128 (constant S_ .f32 0x00000000#32))
      (take e0 (col 0 slices_S320000x3_S320000x1_0_0 a)))
    (take e1 (col 1 slices_S320000x3_S320000x1_0_1 a)))
    (take e2 (col 2 slices_S320000x3_S320000x1_0_2 a))

/-! ## The program as a straight line -/

/-- The program's 80 operations in order, each call's operations in place of the call, over that call's buffers. -/
abbrev ops : List (HloOp τ sig (Elt F)) :=
  [ nullary main_cst (constant S_ .f32 0x00000000#32),
    unary main_cst main_v0 (broadcastInDim S320000x128 ![] bcast_S_S320000x128 : (⟨S_, .f32⟩ : BufTy).Contents (Elt F) → (⟨S320000x128, .f32⟩ : BufTy).Contents (Elt F)),
    unary main_arg0 main_v1 ((extractStridedSlice S320000x1 ![0, 0] · slices_S320000x3_S320000x1_0_0) : (⟨S320000x3, .i32⟩ : BufTy).Contents (Elt F) → (⟨S320000x1, .i32⟩ : BufTy).Contents (Elt F)),
    reshape main_v1 main_v2 rfl shapeCasts_S320000x1_S320000,
    TRef.nullary main_call0.c (constantI S_ 32 0#32),
    TRef.unary main_call0.c main_call0.v0 (broadcastInDim S320000 ![] bcast_S_S320000),
    TRef.binary (.of main_v2) main_call0.v0 main_call0.v1 (cmpi .slt),
    TRef.nullary main_call0.c_0 (constantI S_ 32 6#32),
    TRef.unary main_call0.c_0 main_call0.v2 (broadcastInDim S320000 ![] bcast_S_S320000),
    TRef.binary (.of main_v2) main_call0.v2 main_call0.v3 addi,
    TRef.ternary main_call0.v1 main_call0.v3 (.of main_v2) main_call0.call0.v0 select,
    TRef.unary main_call0.call0.v0 main_call0.v5 (broadcastInDim S320000x1 ![0] bcast_S320000_S320000x1_0),
    TRef.nullary main_call0.c_1 (constantI S1 32 5#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg1) main_call0.v5 main_call0.v13 (fun x i => Host.gather gather_S6x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    binary main_v0 main_v3 main_v4 (addf : (⟨S320000x128, .f32⟩ : BufTy).Contents (Elt F) → (⟨S320000x128, .f32⟩ : BufTy).Contents (Elt F) → (⟨S320000x128, .f32⟩ : BufTy).Contents (Elt F)),
    unary main_arg0 main_v5 ((extractStridedSlice S320000x1 ![0, 1] · slices_S320000x3_S320000x1_0_1) : (⟨S320000x3, .i32⟩ : BufTy).Contents (Elt F) → (⟨S320000x1, .i32⟩ : BufTy).Contents (Elt F)),
    reshape main_v5 main_v6 rfl shapeCasts_S320000x1_S320000,
    TRef.nullary main_call1.c (constantI S_ 32 0#32),
    TRef.unary main_call1.c main_call1.v0 (broadcastInDim S320000 ![] bcast_S_S320000),
    TRef.binary (.of main_v6) main_call1.v0 main_call1.v1 (cmpi .slt),
    TRef.nullary main_call1.c_0 (constantI S_ 32 6#32),
    TRef.unary main_call1.c_0 main_call1.v2 (broadcastInDim S320000 ![] bcast_S_S320000),
    TRef.binary (.of main_v6) main_call1.v2 main_call1.v3 addi,
    TRef.ternary main_call1.v1 main_call1.v3 (.of main_v6) main_call1.call0.v0 select,
    TRef.unary main_call1.call0.v0 main_call1.v5 (broadcastInDim S320000x1 ![0] bcast_S320000_S320000x1_0),
    TRef.nullary main_call1.c_1 (constantI S1 32 5#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg2) main_call1.v5 main_call1.v13 (fun x i => Host.gather gather_S6x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    binary main_v4 main_v7 main_v8 (addf : (⟨S320000x128, .f32⟩ : BufTy).Contents (Elt F) → (⟨S320000x128, .f32⟩ : BufTy).Contents (Elt F) → (⟨S320000x128, .f32⟩ : BufTy).Contents (Elt F)),
    unary main_arg0 main_v9 ((extractStridedSlice S320000x1 ![0, 2] · slices_S320000x3_S320000x1_0_2) : (⟨S320000x3, .i32⟩ : BufTy).Contents (Elt F) → (⟨S320000x1, .i32⟩ : BufTy).Contents (Elt F)),
    reshape main_v9 main_v10 rfl shapeCasts_S320000x1_S320000,
    TRef.nullary main_call2.c (constantI S_ 32 0#32),
    TRef.unary main_call2.c main_call2.v0 (broadcastInDim S320000 ![] bcast_S_S320000),
    TRef.binary (.of main_v10) main_call2.v0 main_call2.v1 (cmpi .slt),
    TRef.nullary main_call2.c_0 (constantI S_ 32 6#32),
    TRef.unary main_call2.c_0 main_call2.v2 (broadcastInDim S320000 ![] bcast_S_S320000),
    TRef.binary (.of main_v10) main_call2.v2 main_call2.v3 addi,
    TRef.ternary main_call2.v1 main_call2.v3 (.of main_v10) main_call2.call0.v0 select,
    TRef.unary main_call2.call0.v0 main_call2.v5 (broadcastInDim S320000x1 ![0] bcast_S320000_S320000x1_0),
    TRef.nullary main_call2.c_1 (constantI S1 32 5#32),
    TRef.nullary main_call2.c_2 (constantI S_ 32 0#32),
    TRef.unary main_call2.c_2 main_call2.v6 (broadcastInDim S320000x1 ![] bcast_S_S320000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S320000x1 ![0, 1] bcast_S1x1_S320000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S320000x1_S320000_d1 h_S_),
    TRef.binary (.of main_arg3) main_call2.v5 main_call2.v13 (fun x i => Host.gather gather_S6x128_S320000x1_S320000x128_1_0_n_n_0_1_1128 x i),
    TRef.unary main_call2.v12 main_call2.v14 (broadcastInDim S320000x128 ![0] bcast_S320000_S320000x128_0),
    TRef.nullary main_call2.cst (constant S_ .f32 0x7FC00000#32),
    TRef.unary main_call2.cst main_call2.v15 (broadcastInDim S320000x128 ![] bcast_S_S320000x128),
    TRef.ternary main_call2.v14 main_call2.v13 main_call2.v15 main_call2.v16 select,
    binary main_v8 main_v11 main_v12 (addf : (⟨S320000x128, .f32⟩ : BufTy).Contents (Elt F) → (⟨S320000x128, .f32⟩ : BufTy).Contents (Elt F) → (⟨S320000x128, .f32⟩ : BufTy).Contents (Elt F)) ]

/-- The program is that straight line: sequencing a call's body before the rest of the program grafts the rest onto the
    body's end, which is the list read in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-! ## What the line leaves in the buffers -/

set_option maxHeartbeats 2000000 in
attribute [local irreducible] Host.reduce Host.gather in
/-- After the line the result buffer holds the operations' composition of the arguments' contents: each operation's
    result read at its own buffer is its function of its operands' buffers, and the transports a call's typed
    references add are along equations between a type and itself. -/
theorem out_eq (V : Valuation τ sig (Elt F)) :
    after ops V (main_v12 : DevRef τ sig)
      = refTerm (V (main_arg0 : DevRef τ sig)) (V (main_arg1 : DevRef τ sig)) (V (main_arg2 : DevRef τ sig))
          (V (main_arg3 : DevRef τ sig)) := by
  after_results_simp
  rfl

set_option maxHeartbeats 2000000 in
/-- No operation writes an argument's buffer. -/
theorem arg0_eq (V : Valuation τ sig (Elt F)) : after ops V (main_arg0 : DevRef τ sig) = V (main_arg0 : DevRef τ sig) := by
  after_results_simp

set_option maxHeartbeats 2000000 in
theorem arg1_eq (V : Valuation τ sig (Elt F)) : after ops V (main_arg1 : DevRef τ sig) = V (main_arg1 : DevRef τ sig) := by
  after_results_simp

set_option maxHeartbeats 2000000 in
theorem arg2_eq (V : Valuation τ sig (Elt F)) : after ops V (main_arg2 : DevRef τ sig) = V (main_arg2 : DevRef τ sig) := by
  after_results_simp

set_option maxHeartbeats 2000000 in
theorem arg3_eq (V : Valuation τ sig (Elt F)) : after ops V (main_arg3 : DevRef τ sig) = V (main_arg3 : DevRef τ sig) := by
  after_results_simp

/-! ## The run -/

/-- On every device, for any reading of the floats, from any memory with zero counters: every weakly fair execution of
    the program terminates with the result buffer at the operations' composition of the arguments and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v12).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.RefSide

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.LibColumnLayout.lean ====
/-
  Column layout operations on the host read at one entry, and a reduction by `and` of an array of ones.

  A host program that reads a matrix column by column cuts one column out as a one-column matrix, reshapes that to a
  vector, and later turns vectors back into matrices by repeating them along a new last axis. Each such operation,
  read at ONE index of its result, is its operand read at one index; the lemmas below name that index, for arbitrary
  extents, with the indices written by their coordinates. On an axis of extent one a broadcast reads coordinate 0, which
  is also the only coordinate there is, so the statements hold at extent one too. Last, a reduction by `and` from the
  initial value 1 of an array whose entries are all 1 is 1 at every result index, whatever axes are reduced: a left fold
  by `and` from 1 over ones stays 1. Nothing here enumerates an index type.
-/
import Idealize.ShloMosaic.Lib.ValueIdx
import Idealize.ShloMosaic.Lib.Pipeline.Value
import Idealize.ShloMosaic.PureOps.Reduce

namespace Cert.ColumnLayout

open Idealize.ShloMosaic Idealize.ShloMosaic.ValueIdx

variable {α : Type}

/-- Column k of a [N, K] matrix cut out as a one-column matrix [N, 1]: its entry (n, 0) is entry (n, k). -/
theorem slice_col_apply {N K : Nat} (k : Nat) (h : (⟨2, ![N, K]⟩ : Shape).Slices ![0, k] ⟨2, ![N, 1]⟩)
    (x : (⟨2, ![N, K]⟩ : Shape).Idx → α) (n : Fin N) (z : Fin 1) (hk : k < K) :
    extractStridedSlice ⟨2, ![N, 1]⟩ ![0, k] x h (ix2 n z) = x (ix2 n ⟨k, hk⟩) := by
  refine extractStridedSlice_apply ![0, k] x h (ix2 n z) (ix2 n ⟨k, hk⟩) ?_
  intro a
  match a with
  | ⟨0, _⟩ =>
    show n.val = 0 + n.val
    omega
  | ⟨1, _⟩ =>
    show k = k + z.val
    have := z.isLt
    omega

/-- A one-column matrix [N, 1] reshaped to a vector [N]: entry n is entry (n, 0); the row-major positions agree. -/
theorem reshape_col_apply {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h (ix1 n) (ix2 n (0 : Fin 1)) ?_
  rw [Shape.rowMajor_val_one, Shape.rowMajor_val_two]
  show n.val * 1 + 0 = n.val
  omega

/-- A vector of N entries repeated along C lanes, [N] to [N, C]: entry (n, q) is entry n. -/
theorem bcast_lanes_apply {N C : Nat} (h : (⟨1, ![N]⟩ : Shape).BroadcastsInDim ⟨2, ![N, C]⟩ (![0] : Fin 1 → Fin 2))
    (x : (⟨1, ![N]⟩ : Shape).Idx → α) (n : Fin N) (q : Fin C) :
    broadcastInDim ⟨2, ![N, C]⟩ ![0] h x (ix2 n q) = x (ix1 n) := by
  refine broadcastInDim_apply ![0] h x (ix2 n q) (ix1 n) ?_
  intro a
  match a with
  | ⟨0, _⟩ =>
    show n.val = if N = 1 then 0 else n.val
    have := n.isLt
    split <;> omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from rfl]
    exact foldl_andi_one f l fun n hn => h n (List.mem_cons_of_mem _ hn)

/-- A reduction by `and`, from an initial value that is 1, of an array whose entries are all 1 is 1 at every index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun i _ => hx i

end Cert.ColumnLayout
-- ==== Proof.RefValue.lean ====
/-
  The reference's composition read at an index.

  Under the range condition, every word of the index array below 6, each take is a plain row lookup. A word w below 6
  is nonnegative read signed, so the wrap keeps it; it passes the test 0 ≤ w ≤ 5, so the test is 1 in every lane and the
  select keeps the gathered row; and the gather's clamp into [0, 5] leaves w alone, so the gathered row is row w of the
  table. Entry (r, l) of the take of table e at column k of the index array is therefore lane l of row a[r, k] of e, and
  entry (r, l) of the whole composition is zero with the three such lanes added on one after the other, which is the
  specification's function with the rows added in that order.
-/
import proofs.«203798_g65764539236737_cont_9to1_m_400_20_alg».proof.Proof.RefRun
import proofs.«203798_g65764539236737_cont_9to1_m_400_20_alg».proof.Proof.Spec
import proofs.«203798_g65764539236737_cont_9to1_m_400_20_alg».proof.Proof.LibGatherScatter
import proofs.«203798_g65764539236737_cont_9to1_m_400_20_alg».proof.Proof.LibColumnLayout
import Idealize.ShloMosaic.Lib.Affine
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-- A word below 6 reads the same signed and unsigned. -/
theorem toInt_of_lt_six {w : BitVec 32} (h : w.toNat < 6) : w.toInt = (w.toNat : Int) :=
  BitVec.toInt_eq_toNat_of_lt (by omega)

/-- Entry r of column k of the index array is entry (r, k). -/
theorem col_apply (k : Nat) (h : S320000x3.Slices ![0, k] S320000x1) (hk : k < 3) (a : IVec S320000x3 32) (r : Fin 320000) :
    col k h a (ix1 r) = a (ix2 r ⟨k, hk⟩) := by
  unfold col
  rw [ColumnLayout.reshape_col_apply, ColumnLayout.slice_col_apply k h a r 0 hk]

/-- The start index of a word below 6 is the word: it is not negative, so nothing is added to it. -/
theorem takeIdx_apply (idx : IVec S320000 32) (r : Fin 320000) (z : Fin 1) (h : (idx (ix1 r)).toNat < 6) :
    takeIdx idx (ix2 r z) = idx (ix1 r) := by
  unfold takeIdx
  rw [ColumnLayout.bcast_lanes_apply, select_apply]
  have hc : ¬ cmpi .slt idx (broadcastInDim S320000 ![] bcast_S_S320000 (constantI S_ 32 0#32)) (ix1 r) = 1#1 := by
    intro e
    have e' : (idx (ix1 r)).toInt < (0#32 : BitVec 32).toInt := IntOp.cmpi_slt.1 e
    rw [toInt_of_lt_six h, show (0#32 : BitVec 32).toInt = 0 from by decide] at e'
    omega
  rw [eq_zero_of_ne_one hc, select_zero]

/-- When every start index is below 6 the test 0 ≤ start index ≤ 5 is 1 at every row and lane. -/
theorem takeMask_apply (v : IVec S320000x1 32) (hv : ∀ i, (v i).toNat < 6) (j : S320000x128.Idx) : takeMask v j = 1#1 := by
  obtain ⟨r, l, rfl⟩ : ∃ (r : Fin 320000) (l : Fin 128), j = ix2 r l := ⟨j 0, j 1, eq_ix2 j⟩
  unfold takeMask
  rw [ColumnLayout.bcast_lanes_apply]
  refine ColumnLayout.reduce_andi_of_all _ _ _ _ (fun _ => rfl) (fun i => ?_) _
  refine IntOp.andi_eq_one.2 ⟨IntOp.cmpi_sge.2 ?_, IntOp.cmpi_sle.2 ?_⟩
  · show (0#32 : BitVec 32).toInt ≤ (v i).toInt
    rw [toInt_of_lt_six (hv i), show (0#32 : BitVec 32).toInt = 0 from by decide]
    omega
  · show (v i).toInt ≤ (5#32 : BitVec 32).toInt
    rw [toInt_of_lt_six (hv i), show (5#32 : BitVec 32).toInt = 5 from by decide]
    have := hv i
    omega

/-- Entry (r, l) of a take at indices all below 6 is lane l of the table's row named by index r. -/
theorem take_apply (e : FVec Ideal S6x128 .f32) (idx : IVec S320000 32) (hidx : ∀ r, (idx (ix1 r)).toNat < 6)
    (r : Fin 320000) (l : Fin 128) : take e idx (ix2 r l) = Cert.Spec.row e (idx (ix1 r)) l := by
  have hv : ∀ i, (takeIdx idx i).toNat < 6 := by
    intro i
    obtain ⟨r', z, rfl⟩ : ∃ (r' : Fin 320000) (z : Fin 1), i = ix2 r' z := ⟨i 0, i 1, eq_ix2 i⟩
    rw [takeIdx_apply idx r' z (hidx r')]
    exact hidx r'
  unfold take
  rw [select_apply, takeMask_apply _ hv, select_one]
  show Host.gather (RowIdx.rowGatherDims 6 320000 128 gather_S6x128_S320000x1_S320000x128_1_0_n_n_0_1_1128_wf) e
    (takeIdx idx) (ix2 r l) = _
  rw [RowIdx.rowGather_apply (by decide : 0 < 6), takeIdx_apply idx r 0 (hidx r),
    RowIdx.clampRow_of_toInt _ _ ⟨(idx (ix1 r)).toNat, hidx r⟩ (toInt_of_lt_six (hidx r))]
  show _ = (if h : (idx (ix1 r)).toNat < 6 then e (ix2 (⟨(idx (ix1 r)).toNat, h⟩ : Fin 6) l) else 0)
  rw [dif_pos (hidx r)]

/-- Under the range condition the reference's composition is the specification's function, the rows added in the
    reference's order. -/
theorem refTerm_eq (a : IVec S320000x3 32) (e0 e1 e2 : FVec Ideal S6x128 .f32) (hr : ∀ j, (a j).toNat < 6) :
    refTerm a e0 e1 e2 = Cert.Spec.outSeq a e0 e1 e2 := by
  funext j
  obtain ⟨r, l, rfl⟩ : ∃ (r : Fin 320000) (l : Fin 128), j = ix2 r l := ⟨j 0, j 1, eq_ix2 j⟩
  have h0 : ∀ r', (col 0 slices_S320000x3_S320000x1_0_0 a (ix1 r')).toNat < 6 := fun r' => by
    rw [col_apply 0 _ (by decide)]; exact hr _
  have h1 : ∀ r', (col 1 slices_S320000x3_S320000x1_0_1 a (ix1 r')).toNat < 6 := fun r' => by
    rw [col_apply 1 _ (by decide)]; exact hr _
  have h2 : ∀ r', (col 2 slices_S320000x3_S320000x1_0_2 a (ix1 r')).toNat < 6 := fun r' => by
    rw [col_apply 2 _ (by decide)]; exact hr _
  unfold refTerm
  rw [addf_apply, addf_apply, addf_apply, take_apply e0 _ h0, take_apply e1 _ h1, take_apply e2 _ h2,
    col_apply 0 _ (by decide), col_apply 1 _ (by decide), col_apply 2 _ (by decide)]
  show Ideal.ofBits .f32 0x00000000#32 + _ + _ + _ = _
  rw [Ideal.ofBits_zero_f32]
  rfl

end Cert.RefSide

end
-- ==== Proof.RefSide.lean ====
/-
  The reference's run, with its result as the specification's function.

  Under the precondition every word of the index array is below 6, so the reference's composition of its operations
  is the specification's function with the three rows added in the reference's order, and that is the specification's
  function in the other order: addition of extended reals is commutative and associative and zero is neutral. Hence
  every weakly fair execution of the reference terminates with the result buffer at the specification's function of the
  arguments, and the arguments unchanged.
-/
import proofs.«203798_g65764539236737_cont_9to1_m_400_20_alg».proof.Defs
import proofs.«203798_g65764539236737_cont_9to1_m_400_20_alg».proof.Proof.Gen.ReferenceIdeal
import proofs.«203798_g65764539236737_cont_9to1_m_400_20_alg».proof.Proof.Gen.Pre_input_domain
import proofs.«203798_g65764539236737_cont_9to1_m_400_20_alg».proof.Proof.PreRange
import proofs.«203798_g65764539236737_cont_9to1_m_400_20_alg».proof.Proof.RefValue

noncomputable section

namespace Cert.RefSide

open Idealize.ShloMosaic Idealize.SL.Sem

/-- Under the precondition every weakly fair execution of the reference terminates with the result buffer at the
    specification's function of the argument arrays, and the argument arrays unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v12)
        = Cert.Spec.out (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((refTerm_eq _ _ _ _ (range_of_pre _ _ _ _ (hpre c))).trans (Cert.Spec.outSeq_eq _ _ _ _)), (h c).2⟩)
    (run_term (F := Ideal) m g)

end Cert.RefSide

end
-- ==== Proof.lean ====
/-
  The claim: the gather kernel and its reference compute one function.

  The kernel first builds, on the TensorCore, a table of 216 rows — row (i0 * 6 + i1) * 6 + i2 is row i2 of the third
  embedding table plus row i0 of the first plus row i1 of the second — and for every row r of the index array the
  combined word (a[r,0] * 6 + a[r,1]) * 6 + a[r,2]; then thirty-two vector subcores each copy the table's rows named by
  their share of the combined words into their rows of the result. Under the precondition every word of the index array
  is in 0..5, so every combined word is below 216 and names a row of the table, and row r of the result is
  e2[a[r,2]] + e0[a[r,0]] + e1[a[r,1]]. The reference adds the three looked-up rows to zero one after the other; on the
  extended reals addition is commutative and associative and zero is neutral, so the two results are equal with no appeal
  to finiteness.

  The kernel's run is the launch theorem for SparseCore programs applied to one subcore's task at a symbolic place, the
  split of a core's operands among its subcores, @main on the TensorCore (host operations, the TensorCore region, the
  call), and the launch element; it is proved once for any float instance and read at the word-level instance for the
  printed kernel's frame and at the ideal instance for the idealized kernel's frame and the value. The reference's run is
  its host operations composed, read at an index.
-/
import proofs.«203798_g65764539236737_cont_9to1_m_400_20_alg».proof.Defs
import proofs.«203798_g65764539236737_cont_9to1_m_400_20_alg».proof.Proof.Gen.Kernel
import proofs.«203798_g65764539236737_cont_9to1_m_400_20_alg».proof.Proof.Gen.Kernel.Skeleton
import proofs.«203798_g65764539236737_cont_9to1_m_400_20_alg».proof.Proof.Gen.Kernel.Launch
import proofs.«203798_g65764539236737_cont_9to1_m_400_20_alg».proof.Proof.Gen.Kernel.Points
import proofs.«203798_g65764539236737_cont_9to1_m_400_20_alg».proof.Proof.Gen.KernelIdeal
import proofs.«203798_g65764539236737_cont_9to1_m_400_20_alg».proof.Proof.Gen.KernelIdeal.Skeleton
import proofs.«203798_g65764539236737_cont_9to1_m_400_20_alg».proof.Proof.Gen.KernelIdeal.Launch
import proofs.«203798_g65764539236737_cont_9to1_m_400_20_alg».proof.Proof.Gen.KernelIdeal.Points
import proofs.«203798_g65764539236737_cont_9to1_m_400_20_alg».proof.Proof.Gen.ReferenceIdeal
import proofs.«203798_g65764539236737_cont_9to1_m_400_20_alg».proof.Proof.Gen.Pre_input_domain
import proofs.«203798_g65764539236737_cont_9to1_m_400_20_alg».proof.Proof.Launch
import proofs.«203798_g65764539236737_cont_9to1_m_400_20_alg».proof.Proof.LaunchK
import proofs.«203798_g65764539236737_cont_9to1_m_400_20_alg».proof.Proof.TileObl
import proofs.«203798_g65764539236737_cont_9to1_m_400_20_alg».proof.Proof.TileOblK
import proofs.«203798_g65764539236737_cont_9to1_m_400_20_alg».proof.Proof.Hmain
import proofs.«203798_g65764539236737_cont_9to1_m_400_20_alg».proof.Proof.HmainK
import proofs.«203798_g65764539236737_cont_9to1_m_400_20_alg».proof.Proof.RefSide
import Idealize.ShloMosaic.Adequacy
import Idealize.ShloMosaic.Init

noncomputable section

namespace Cert.Proof

open Idealize.ShloMosaic Idealize.SL.Sem

/-- The printed kernel runs to the end, faults nowhere and leaves its arguments unchanged: its run at the word-level
    instance with the result dropped. -/
theorem frame_p : Cert.frame_Kernel := fun m ρ hpre =>
  (θ_run Cert.Kernel.defs _ _).mono (fun _ h c => (h c).2)
    (Cert.KProof.run_of (F := Bits) m ρ (Cert.KProof.tileObl m (Cert.KProof.ok_of_pre m hpre)) (Cert.KProof.hmain m ρ))

/-- The same for the idealized kernel, at the ideal instance. -/
theorem frame_pi : Cert.frame_KernelIdeal := fun m ρ hpre =>
  (θ_run Cert.KernelIdeal.defs _ _).mono (fun _ h c => (h c).2)
    (Cert.KIProof.run_of (F := Ideal) m ρ (Cert.KIProof.tileObl m (Cert.KIProof.ok_of_pre m hpre)) (Cert.KIProof.hmain m ρ))

/-- The reference's frame is its run with the result dropped. -/
theorem frame_ri : Cert.frame_ReferenceIdeal := fun m ρ _ =>
  (θ_run Cert.ReferenceIdeal.defs _ _).mono (fun _ h c => (h c).2) (Cert.RefSide.run_term (F := Ideal) m ρ)

/-- Both idealized programs end with the sum of the three looked-up rows: the kernel's table row named by the combined
    word is that sum when every word is below 6, and the reference's three additions to zero are the same sum. -/
theorem algebraic : Cert.algebraic_KernelIdeal_ReferenceIdeal := by
  intro m ρ m' ρ' hpre hagree
  have hr : ∀ (d : Dev Cert.KernelIdeal.nD) j, (m (Cert.KIProof.aLoc d) j).toNat < 6 := fun d =>
    Cert.RefSide.range_of_pre (F := Ideal) _ _ _ _ (hpre d)
  have hpre' : Cert.Pre_ReferenceIdeal m' := fun c => by
    rw [(hagree c).1, (hagree c).2.1, (hagree c).2.2.1, (hagree c).2.2.2]; exact hpre c
  refine ⟨fun c => Cert.Spec.out (m (Cert.KIProof.aLoc c)) (m (Cert.KIProof.e0Loc c)) (m (Cert.KIProof.e1Loc c)) (m (Cert.KIProof.e2Loc c)), ?_, ?_⟩
  · refine (θ_run Cert.KernelIdeal.defs _ _).mono (fun _ h c => ⟨(h c).1.trans ?_, (h c).2⟩)
      (Cert.KIProof.run_of (F := Ideal) m ρ (Cert.KIProof.tileObl m (Cert.KIProof.ok_of_pre m hpre)) (Cert.KIProof.hmain m ρ))
    exact Cert.Bridge.res_eq_out _ _ _ _ (hr c)
  · refine (θ_run Cert.ReferenceIdeal.defs _ _).mono (fun _ h c => ⟨(h c).1.trans ?_, (h c).2⟩) (Cert.RefSide.run m' ρ' hpre')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_p, frame_pi, frame_ri, trivial, algebraic⟩

end Cert.Proof

end
